-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v118)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v118) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v136) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S2x262144 : Shape := ⟨2, ![2, 262144]⟩
abbrev S8192x8192 : Shape := ⟨2, ![8192, 8192]⟩
abbrev S256x128 : Shape := ⟨2, ![256, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg15 : FVec F S128 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  main_v73

def fn_part3 {F : FTy → Type} [FloatOps F] (main_arg12 : FVec F S128x1 .f32) (main_arg13 : FVec F S1 .f32) (main_arg14 : FVec F S256x128 .f32) (main_arg15 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x1 .f32 := Host.absf main_arg12
  let main_cst_20 : FVec F S_ .f32 := constant S_ .f32 0x7F800000#32
  let main_v55 : FVec F S128x1 .f32 := broadcastInDim S128x1 ![] bcast_S_S128x1 main_cst_20
  let main_v56 : IVec S128x1 1 := cmpf .olt main_v54 main_v55
  let main_c_21 : IVec S_ 1 := constantI S_ 1 1#1
  let main_v57 : IVec S_ 1 := (fun x v => Host.reduce IntOp.andi x v reducesTo_S128x1_S_d0_1 h_S_) main_v56 main_c_21
  let main_v58 : IVec S_ 1 := andi main_v53 main_v57
  let main_v59 : FVec F S1 .f32 := Host.absf main_arg13
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  let main_v64 : FVec F S256x128 .f32 := Host.absf main_arg14
  let main_cst_24 : FVec F S_ .f32 := constant S_ .f32 0x7F800000#32
  let main_v65 : FVec F S256x128 .f32 := broadcastInDim S256x128 ![] bcast_S_S256x128 main_cst_24
  let main_v66 : IVec S256x128 1 := cmpf .olt main_v64 main_v65
  let main_c_25 : IVec S_ 1 := constantI S_ 1 1#1
  let main_v67 : IVec S_ 1 := (fun x v => Host.reduce IntOp.andi x v reducesTo_S256x128_S_d0_1 h_S_) main_v66 main_c_25
  fn_part4 (F := F) main_arg15 main_v63 main_v67

def fn_part2 {F : FTy → Type} [FloatOps F] (main_arg8 : FVec F S128x128 .f32) (main_arg9 : FVec F S128 .f32) (main_arg10 : FVec F S128x128 .f32) (main_arg11 : FVec F S128 .f32) (main_arg12 : FVec F S128x1 .f32) (main_arg13 : FVec F S1 .f32) (main_arg14 : FVec F S256x128 .f32) (main_arg15 : FVec F S128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_v48 main_v49 main_v50

def fn_part1 {F : FTy → Type} [FloatOps F] (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x1 .f32) (main_arg13 : FVec F S1 .f32) (main_arg14 : FVec F S256x128 .f32) (main_arg15 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_v33

def fn {F : FTy → Type} [FloatOps F] (main_arg0 : FVec F S8192x128 .f32) (main_arg1 : FVec F S8192x128 .f32) (main_arg2 : IVec S2x262144 32) (main_arg3 : FVec F S8192x8192 .f32) (main_arg4 : FVec F S256x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x1 .f32) (main_arg13 : FVec F S1 .f32) (main_arg14 : FVec F S256x128 .f32) (main_arg15 : FVec F S128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  let main_v9 : FVec F S8192x8192 .f32 := Host.absf main_arg3
  let main_cst_2 : FVec F S_ .f32 := constant S_ .f32 0x7F800000#32
  let main_v10 : FVec F S8192x8192 .f32 := broadcastInDim S8192x8192 ![] bcast_S_S8192x8192 main_cst_2
  let main_v11 : IVec S8192x8192 1 := cmpf .olt main_v9 main_v10
  let main_c_3 : IVec S_ 1 := constantI S_ 1 1#1
  let main_v12 : IVec S_ 1 := (fun x v => Host.reduce IntOp.andi x v reducesTo_S8192x8192_S_d0_1 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_arg6 main_arg7 main_arg8 main_arg9 main_arg10 main_arg11 main_arg12 main_arg13 main_arg14 main_arg15 main_v13 main_v16
-- ==== Kernel.lean ====
abbrev S8192x128 : Shape := ⟨2, ![8192, 128]⟩
abbrev S2x262144 : Shape := ⟨2, ![2, 262144]⟩
abbrev S8192x8192 : Shape := ⟨2, ![8192, 8192]⟩
abbrev S256x128 : Shape := ⟨2, ![256, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S8192x256 : Shape := ⟨2, ![8192, 256]⟩
abbrev S1x128 : Shape := ⟨2, ![1, 128]⟩
abbrev S1024x1024 : Shape := ⟨2, ![1024, 1024]⟩
abbrev S1024x256 : Shape := ⟨2, ![1024, 256]⟩
abbrev S1024x128 : Shape := ⟨2, ![1024, 128]⟩
abbrev S1x262144 : Shape := ⟨2, ![1, 262144]⟩
abbrev S262144 : Shape := ⟨1, ![262144]⟩
abbrev S8192 : Shape := ⟨1, ![8192]⟩
abbrev S270336 : Shape := ⟨1, ![270336]⟩
abbrev S_ : Shape := ⟨0, ![]⟩
abbrev S270336x1 : Shape := ⟨2, ![270336, 1]⟩
abbrev S270336x128 : Shape := ⟨2, ![270336, 128]⟩
abbrev S8192x1 : Shape := ⟨2, ![8192, 1]⟩
abbrev S1x1 : Shape := ⟨2, ![1, 1]⟩

abbrev nBuf : Space → Nat
  | .hbm => 163
  | .vmem => 18
  | .smem => 0
  | _ => 0

abbrev hbmTy0_0 (i : Nat) : BufTy := match i % 128 with
  | 0 => ⟨S8192x128, .f32⟩
  | 1 => ⟨S8192x128, .f32⟩
  | 2 => ⟨S2x262144, .i32⟩
  | 3 => ⟨S8192x8192, .f32⟩
  | 4 => ⟨S256x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x128, .f32⟩
  | 11 => ⟨S128, .f32⟩
  | 12 => ⟨S128x1, .f32⟩
  | 13 => ⟨S1, .f32⟩
  | 14 => ⟨S256x128, .f32⟩
  | 15 => ⟨S128, .f32⟩
  | 16 => ⟨S8192x256, .f32⟩
  | 17 => ⟨S1x128, .f32⟩
  | 18 => ⟨S1x128, .f32⟩
  | 19 => ⟨S8192x128, .f32⟩
  | 20 => ⟨S8192x128, .f32⟩
  | 21 => ⟨S1x262144, .i32⟩
  | 22 => ⟨S262144, .i32⟩
  | 23 => ⟨S1x262144, .i32⟩
  | 24 => ⟨S262144, .i32⟩
  | 25 => ⟨S8192x128, .f32⟩
  | 26 => ⟨S8192, .i32⟩
  | 27 => ⟨S270336, .i32⟩
  | 28 => ⟨S270336, .i32⟩
  | 29 => ⟨S_, .f32⟩
  | 30 => ⟨S270336, .f32⟩
  | 31 => ⟨S_, .f32⟩
  | 32 => ⟨S8192, .f32⟩
  | 33 => ⟨S270336x1, .i32⟩
  | 34 => ⟨S8192, .f32⟩
  | 35 => ⟨S_, .f32⟩
  | 36 => ⟨S8192, .f32⟩
  | 37 => ⟨S8192, .i1⟩
  | 38 => ⟨S8192, .f32⟩
  | 39 => ⟨S_, .f32⟩
  | 40 => ⟨S_, .f32⟩
  | 41 => ⟨S8192, .f32⟩
  | 42 => ⟨S8192, .f32⟩
  | 43 => ⟨S_, .i32⟩
  | 44 => ⟨S270336, .i32⟩
  | 45 => ⟨S270336, .i1⟩
  | 46 => ⟨S_, .i32⟩
  | 47 => ⟨S270336, .i32⟩
  | 48 => ⟨S270336, .i32⟩
  | 49 => ⟨S270336, .i32⟩
  | 50 => ⟨S270336x1, .i32⟩
  | 51 => ⟨S270336, .f32⟩
  | 52 => ⟨S_, .i32⟩
  | 53 => ⟨S270336, .i32⟩
  | 54 => ⟨S270336, .i1⟩
  | 55 => ⟨S_, .i32⟩
  | 56 => ⟨S270336, .i32⟩
  | 57 => ⟨S270336, .i32⟩
  | 58 => ⟨S270336, .i32⟩
  | 59 => ⟨S270336x1, .i32⟩
  | 60 => ⟨S270336, .f32⟩
  | 61 => ⟨S270336, .f32⟩
  | 62 => ⟨S_, .i32⟩
  | 63 => ⟨S270336, .i32⟩
  | 64 => ⟨S270336, .i1⟩
  | 65 => ⟨S_, .i32⟩
  | 66 => ⟨S270336, .i32⟩
  | 67 => ⟨S270336, .i32⟩
  | 68 => ⟨S270336, .i32⟩
  | 69 => ⟨S270336x1, .i32⟩
  | 70 => ⟨S270336x128, .f32⟩
  | 71 => ⟨S270336x1, .f32⟩
  | 72 => ⟨S270336x128, .f32⟩
  | 73 => ⟨S270336x128, .f32⟩
  | 74 => ⟨S_, .f32⟩
  | 75 => ⟨S8192x128, .f32⟩
  | 76 => ⟨S270336x1, .i32⟩
  | 77 => ⟨S8192x128, .f32⟩
  | 78 => ⟨S1x128, .f32⟩
  | 79 => ⟨S8192x128, .f32⟩
  | 80 => ⟨S8192x128, .f32⟩
  | 81 => ⟨S8192x128, .f32⟩
  | 82 => ⟨S8192x128, .f32⟩
  | 83 => ⟨S8192, .i32⟩
  | 84 => ⟨S270336, .i32⟩
  | 85 => ⟨S270336, .i32⟩
  | 86 => ⟨S_, .f32⟩
  | 87 => ⟨S270336, .f32⟩
  | 88 => ⟨S_, .f32⟩
  | 89 => ⟨S8192, .f32⟩
  | 90 => ⟨S270336x1, .i32⟩
  | 91 => ⟨S8192, .f32⟩
  | 92 => ⟨S_, .f32⟩
  | 93 => ⟨S8192, .f32⟩
  | 94 => ⟨S8192, .i1⟩
  | 95 => ⟨S8192, .f32⟩
  | 96 => ⟨S_, .f32⟩
  | 97 => ⟨S_, .f32⟩
  | 98 => ⟨S8192, .f32⟩
  | 99 => ⟨S8192, .f32⟩
  | 100 => ⟨S_, .i32⟩
  | 101 => ⟨S270336, .i32⟩
  | 102 => ⟨S270336, .i1⟩
  | 103 => ⟨S_, .i32⟩
  | 104 => ⟨S270336, .i32⟩
  | 105 => ⟨S270336, .i32⟩
  | 106 => ⟨S270336, .i32⟩
  | 107 => ⟨S270336x1, .i32⟩
  | 108 => ⟨S270336, .f32⟩
  | 109 => ⟨S_, .i32⟩
  | 110 => ⟨S270336, .i32⟩
  | 111 => ⟨S270336, .i1⟩
  | 112 => ⟨S_, .i32⟩
  | 113 => ⟨S270336, .i32⟩
  | 114 => ⟨S270336, .i32⟩
  | 115 => ⟨S270336, .i32⟩
  | 116 => ⟨S270336x1, .i32⟩
  | 117 => ⟨S270336, .f32⟩
  | 118 => ⟨S270336, .f32⟩
  | 119 => ⟨S_, .i32⟩
  | 120 => ⟨S270336, .i32⟩
  | 121 => ⟨S270336, .i1⟩
  | 122 => ⟨S_, .i32⟩
  | 123 => ⟨S270336, .i32⟩
  | 124 => ⟨S270336, .i32⟩
  | 125 => ⟨S270336, .i32⟩
  | 126 => ⟨S270336x1, .i32⟩
  | 127 => ⟨S270336x128, .f32⟩
  | _ => ⟨S8192x128, .f32⟩

abbrev hbmTy0_1 (i : Nat) : BufTy := match i % 128 with
  | 0 => ⟨S270336x1, .f32⟩
  | 1 => ⟨S270336x128, .f32⟩
  | 2 => ⟨S270336x128, .f32⟩
  | 3 => ⟨S_, .f32⟩
  | 4 => ⟨S8192x128, .f32⟩
  | 5 => ⟨S270336x1, .i32⟩
  | 6 => ⟨S8192x128, .f32⟩
  | 7 => ⟨S1x128, .f32⟩
  | 8 => ⟨S8192x128, .f32⟩
  | 9 => ⟨S8192x128, .f32⟩
  | 10 => ⟨S8192x128, .f32⟩
  | 11 => ⟨S8192x128, .f32⟩
  | 12 => ⟨S8192x128, .f32⟩
  | 13 => ⟨S8192x128, .f32⟩
  | 14 => ⟨S8192x1, .f32⟩
  | 15 => ⟨S1x1, .f32⟩
  | 16 => ⟨S8192x1, .f32⟩
  | 17 => ⟨S8192x1, .f32⟩
  | 18 => ⟨S8192x1, .f32⟩
  | 19 => ⟨S8192x1, .f32⟩
  | 20 => ⟨S_, .f32⟩
  | 21 => ⟨S8192x1, .f32⟩
  | 22 => ⟨S8192x1, .f32⟩
  | 23 => ⟨S_, .f32⟩
  | 24 => ⟨S8192x1, .f32⟩
  | 25 => ⟨S8192x1, .f32⟩
  | 26 => ⟨S8192x128, .f32⟩
  | 27 => ⟨S8192x128, .f32⟩
  | 28 => ⟨S8192x128, .f32⟩
  | 29 => ⟨S8192x256, .f32⟩
  | 30 => ⟨S8192x128, .f32⟩
  | 31 => ⟨S1x128, .f32⟩
  | 32 => ⟨S8192x128, .f32⟩
  | 33 => ⟨S8192x128, .f32⟩
  | 34 => ⟨S8192x128, .f32⟩
  | _ => ⟨S8192x128, .f32⟩

abbrev hbmTy (i : Nat) : BufTy := match i / 128 with
  | 0 => hbmTy0_0 i
  | 1 => hbmTy0_1 i
  | _ => ⟨S8192x128, .f32⟩

abbrev bufTy : (tb : Table) → Fin (tcTables nBuf tb) → BufTy
  | .hbm, ⟨i, _⟩ => hbmTy i
  | .local _ .vmem, ⟨0, _⟩ => ⟨S1024x1024, .f32⟩
  | .local _ .vmem, ⟨1, _⟩ => ⟨S1024x1024, .f32⟩
  | .local _ .vmem, ⟨2, _⟩ => ⟨S1024x256, .f32⟩
  | .local _ .vmem, ⟨3, _⟩ => ⟨S1024x256, .f32⟩
  | .local _ .vmem, ⟨4, _⟩ => ⟨S256x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S1024x128, .f32⟩
  | .local _ .vmem, ⟨9, _⟩ => ⟨S1024x128, .f32⟩
  | .local _ .vmem, ⟨10, _⟩ => ⟨S1024x256, .f32⟩
  | .local _ .vmem, ⟨11, _⟩ => ⟨S1024x1024, .f32⟩
  | .local _ .vmem, ⟨12, _⟩ => ⟨S1024x1024, .f32⟩
  | .local _ .vmem, ⟨13, _⟩ => ⟨S1024x128, .f32⟩
  | .local _ .vmem, ⟨14, _⟩ => ⟨S1024x128, .f32⟩
  | .local _ .vmem, ⟨15, _⟩ => ⟨S1024x128, .f32⟩
  | .local _ .vmem, ⟨16, _⟩ => ⟨S1024x128, .f32⟩
  | .local _ .vmem, ⟨17, _⟩ => ⟨S1024x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst : Ref sig .tc := ⟨.hbm, 29, rfl⟩
abbrev main_v13 : Ref sig .tc := ⟨.hbm, 30, rfl⟩
abbrev main_cst_0 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_1 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_2 : Ref sig .tc := ⟨.hbm, 39, rfl⟩
abbrev main_call0_v0 : Ref sig .tc := ⟨.hbm, 40, rfl⟩
abbrev main_call0_v1 : Ref sig .tc := ⟨.hbm, 41, rfl⟩
abbrev main_v20 : Ref sig .tc := ⟨.hbm, 42, rfl⟩
abbrev main_c : Ref sig .tc := ⟨.hbm, 43, rfl⟩
abbrev main_v21 : Ref sig .tc := ⟨.hbm, 44, rfl⟩
abbrev main_v22 : Ref sig .tc := ⟨.hbm, 45, rfl⟩
abbrev main_c_3 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_c_4 : Ref sig .tc := ⟨.hbm, 52, rfl⟩
abbrev main_v28 : Ref sig .tc := ⟨.hbm, 53, rfl⟩
abbrev main_v29 : Ref sig .tc := ⟨.hbm, 54, rfl⟩
abbrev main_c_5 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_c_6 : Ref sig .tc := ⟨.hbm, 62, rfl⟩
abbrev main_v36 : Ref sig .tc := ⟨.hbm, 63, rfl⟩
abbrev main_v37 : Ref sig .tc := ⟨.hbm, 64, rfl⟩
abbrev main_c_7 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_cst_8 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_9 : Ref sig .tc := ⟨.hbm, 86, rfl⟩
abbrev main_v57 : Ref sig .tc := ⟨.hbm, 87, rfl⟩
abbrev main_cst_10 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_11 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_cst_12 : Ref sig .tc := ⟨.hbm, 96, rfl⟩
abbrev main_call1_v0 : Ref sig .tc := ⟨.hbm, 97, rfl⟩
abbrev main_call1_v1 : Ref sig .tc := ⟨.hbm, 98, rfl⟩
abbrev main_v64 : Ref sig .tc := ⟨.hbm, 99, rfl⟩
abbrev main_c_13 : Ref sig .tc := ⟨.hbm, 100, rfl⟩
abbrev main_v65 : Ref sig .tc := ⟨.hbm, 101, rfl⟩
abbrev main_v66 : Ref sig .tc := ⟨.hbm, 102, rfl⟩
abbrev main_c_14 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_c_15 : Ref sig .tc := ⟨.hbm, 109, rfl⟩
abbrev main_v72 : Ref sig .tc := ⟨.hbm, 110, rfl⟩
abbrev main_v73 : Ref sig .tc := ⟨.hbm, 111, rfl⟩
abbrev main_c_16 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_c_17 : Ref sig .tc := ⟨.hbm, 119, rfl⟩
abbrev main_v80 : Ref sig .tc := ⟨.hbm, 120, rfl⟩
abbrev main_v81 : Ref sig .tc := ⟨.hbm, 121, rfl⟩
abbrev main_c_18 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_cst_19 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_cst_20 : Ref sig .tc := ⟨.hbm, 148, rfl⟩
abbrev main_v106 : Ref sig .tc := ⟨.hbm, 149, rfl⟩
abbrev main_v107 : Ref sig .tc := ⟨.hbm, 150, rfl⟩
abbrev main_cst_21 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  concatenates_S8192x128_S8192x128_S8192x256_d1 : Shape.Concatenates [S8192x128, S8192x128] S8192x256 1
  shapeCasts_S128_S1x128 : S128.ShapeCasts S1x128
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  slices_S1024x256_o0_0_S1024x128 : S1024x256.Slices ![0, 0] S1024x128
  slices_S1024x256_o0_128_S1024x128 : S1024x256.Slices ![0, 128] S1024x128
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  inb_S128x128_S128x128_0_0 : ∀ a, (![0, 0] : Fin 2 → Nat) a + S128x128.size a ≤ S128x128.size a
  h_S128x128 : 0 < S128x128.numel
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  slices_S2x262144_S1x262144_0_0 : S2x262144.Slices ![0, 0] S1x262144
  shapeCasts_S1x262144_S262144 : S1x262144.ShapeCasts S262144
  slices_S2x262144_S1x262144_1_0 : S2x262144.Slices ![1, 0] S1x262144
  concatenates_S262144_S8192_S270336_d0 : Shape.Concatenates [S262144, S8192] S270336 0
  bcast_S_S270336 : S_.BroadcastsInDim S270336 (![] : Fin 0 → Fin S270336.rank)
  bcast_S_S8192 : S_.BroadcastsInDim S8192 (![] : Fin 0 → Fin S8192.rank)
  bcast_S270336_S270336x1_0 : S270336.BroadcastsInDim S270336x1 (![0] : Fin 1 → Fin S270336x1.rank)
  bcast_S270336x1_S270336x128_0_1 : S270336x1.BroadcastsInDim S270336x128 (![0, 1] : Fin 2 → Fin S270336x128.rank)
  bcast_S_S8192x128 : S_.BroadcastsInDim S8192x128 (![] : Fin 0 → Fin S8192x128.rank)
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  dot_S1024x1024_S1024x256_S1024x256_0_0_1_1_n_n_wf : DotDims.WF S1024x1024 S1024x256 S1024x256 [0] [0] [1] [1] [] []
  dot_S1024x256_S256x128_S1024x128_1_0_0_1_n_n_wf : DotDims.WF S1024x256 S256x128 S1024x128 [1] [0] [0] [1] [] []
  dot_S1024x128_S128x128_S1024x128_1_0_0_1_n_n_wf : DotDims.WF S1024x128 S128x128 S1024x128 [1] [0] [0] [1] [] []
  dot_S1024x1024_S1024x128_S1024x128_1_0_0_1_n_n_wf : DotDims.WF S1024x1024 S1024x128 S1024x128 [1] [0] [0] [1] [] []
  dot_S8192x128_S128x128_S8192x128_1_0_0_1_n_n_wf : DotDims.WF S8192x128 S128x128 S8192x128 [1] [0] [0] [1] [] []
  scatter_S8192_S270336x1_S270336_n_0_0_1_wf : ScatterDims.WF S8192 S270336x1 S270336 [] [0] [0] 1
  gather_S8192_S270336x1_S270336_n_0_n_n_0_1_1_wf : GatherDims.WF S8192 S270336x1 S270336 [] [0] [] [0] [] 1 ![1]
  gather_S8192x128_S270336x1_S270336x128_1_0_n_n_0_1_1128_wf : GatherDims.WF S8192x128 S270336x1 S270336x128 [1] [0] [] [0] [] 1 ![1, 128]
  scatter_S8192x128_S270336x1_S270336x128_1_0_0_1_wf : ScatterDims.WF S8192x128 S270336x1 S270336x128 [1] [0] [0] 1
  dot_S8192x128_S128x1_S8192x1_1_0_0_1_n_n_wf : DotDims.WF S8192x128 S128x1 S8192x1 [1] [0] [0] [1] [] []
  dot_S8192x256_S256x128_S8192x128_1_0_0_1_n_n_wf : DotDims.WF S8192x256 S256x128 S8192x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x8192.size a
  hwx0_0 : ∀ i : grid0.Coords, EltTy.bits .f32 = 32 ∨ (Rect.block (s := S8192x8192) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .f32 = 32 ∨ (Rect.block (s := S8192x256) S1024x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .f32 = 32 ∨ (Rect.block (s := S256x128) S256x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x128.size a ≤ S8192x128.size a
  hwx0_6 : ∀ i : grid0.Coords, EltTy.bits .f32 = 32 ∨ (Rect.block (s := S8192x128) S1024x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x8192.size a
  hwx1_0 : ∀ i : grid1.Coords, EltTy.bits .f32 = 32 ∨ (Rect.block (s := S8192x8192) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S8192x128.size a
  hwx1_1 : ∀ i : grid1.Coords, EltTy.bits .f32 = 32 ∨ (Rect.block (s := S8192x128) S1024x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x128.size a ≤ S8192x128.size a
  hwx1_2 : ∀ i : grid1.Coords, EltTy.bits .f32 = 32 ∨ (Rect.block (s := S8192x128) S1024x128.size (cc1_transform_2 i) (hinb1_2 i)).WholeWords (EltTy.packing .f32)

variable [Facts₀]

def dot_S1024x1024_S1024x256_S1024x256_0_0_1_1_n_n : DotDims S1024x1024 S1024x256 S1024x256 where
  lhsContracting := [0]
  rhsContracting := [0]
  lhsNonContracting := [1]
  rhsNonContracting := [1]
  lhsBatch := []
  rhsBatch := []
  wf := dot_S1024x1024_S1024x256_S1024x256_0_0_1_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def scatter_S8192_S270336x1_S270336_n_0_0_1 : ScatterDims S8192 S270336x1 S270336 where
  updateWindowDims := []
  insertedWindowDims := [0]
  scatterDimsToOperandDims := [0]
  indexVectorDim := 1
  wf := scatter_S8192_S270336x1_S270336_n_0_0_1_wf
def gather_S8192_S270336x1_S270336_n_0_n_n_0_1_1 : GatherDims S8192 S270336x1 S270336 where
  offsetDims := []
  collapsedSliceDims := [0]
  operandBatchingDims := []
  startIndicesBatchingDims := []
  startIndexMap := [0]
  indexVectorDim := 1
  sliceSizes := ![1]
  wf := gather_S8192_S270336x1_S270336_n_0_n_n_0_1_1_wf
def gather_S8192x128_S270336x1_S270336x128_1_0_n_n_0_1_1128 : GatherDims S8192x128 S270336x1 S270336x128 where
  offsetDims := [1]
  collapsedSliceDims := [0]
  operandBatchingDims := []
  startIndicesBatchingDims := []
  startIndexMap := [0]
  indexVectorDim := 1
  sliceSizes := ![1, 128]
  wf := gather_S8192x128_S270336x1_S270336x128_1_0_n_n_0_1_1128_wf
def scatter_S8192x128_S270336x1_S270336x128_1_0_0_1 : ScatterDims S8192x128 S270336x1 S270336x128 where
  updateWindowDims := [1]
  insertedWindowDims := [0]
  scatterDimsToOperandDims := [0]
  indexVectorDim := 1
  wf := scatter_S8192x128_S270336x1_S270336x128_1_0_0_1_wf
def dot_S8192x128_S128x1_S8192x1_1_0_0_1_n_n : DotDims S8192x128 S128x1 S8192x1 where
  lhsContracting := [1]
  rhsContracting := [0]
  lhsNonContracting := [0]
  rhsNonContracting := [1]
  lhsBatch := []
  rhsBatch := []
  wf := dot_S8192x128_S128x1_S8192x1_1_0_0_1_n_n_wf
def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf

abbrev win0_0 : Pipeline.Window sig grid0 :=
  Pipeline.Window.ofSpec (Memref.whole main_arg3) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1024x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

abbrev win1_0 : Pipeline.Window sig grid1 :=
  Pipeline.Window.ofSpec (Memref.whole main_arg3) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1024x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S8192x128 : Shape := ⟨2, ![8192, 128]⟩
abbrev S2x262144 : Shape := ⟨2, ![2, 262144]⟩
abbrev S8192x8192 : Shape := ⟨2, ![8192, 8192]⟩
abbrev S256x128 : Shape := ⟨2, ![256, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S8192x256 : Shape := ⟨2, ![8192, 256]⟩
abbrev S1x128 : Shape := ⟨2, ![1, 128]⟩
abbrev S_ : Shape := ⟨0, ![]⟩
abbrev S1x262144 : Shape := ⟨2, ![1, 262144]⟩
abbrev S262144 : Shape := ⟨1, ![262144]⟩
abbrev S8192 : Shape := ⟨1, ![8192]⟩
abbrev S270336 : Shape := ⟨1, ![270336]⟩
abbrev S270336x1 : Shape := ⟨2, ![270336, 1]⟩
abbrev S270336x128 : Shape := ⟨2, ![270336, 128]⟩
abbrev S8192x1 : Shape := ⟨2, ![8192, 1]⟩
abbrev S1x1 : Shape := ⟨2, ![1, 1]⟩

abbrev nBuf : Space → Nat
  | .hbm => 185
  | .vmem => 0
  | .smem => 0
  | _ => 0

abbrev hbmTy0_0 (i : Nat) : BufTy := match i % 128 with
  | 0 => ⟨S8192x128, .f32⟩
  | 1 => ⟨S8192x128, .f32⟩
  | 2 => ⟨S2x262144, .i32⟩
  | 3 => ⟨S8192x8192, .f32⟩
  | 4 => ⟨S256x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x128, .f32⟩
  | 11 => ⟨S128, .f32⟩
  | 12 => ⟨S128x1, .f32⟩
  | 13 => ⟨S1, .f32⟩
  | 14 => ⟨S256x128, .f32⟩
  | 15 => ⟨S128, .f32⟩
  | 16 => ⟨S8192x8192, .f32⟩
  | 17 => ⟨S8192x128, .f32⟩
  | 18 => ⟨S8192x8192, .f32⟩
  | 19 => ⟨S8192x128, .f32⟩
  | 20 => ⟨S8192x256, .f32⟩
  | 21 => ⟨S8192x128, .f32⟩
  | 22 => ⟨S1x128, .f32⟩
  | 23 => ⟨S8192x128, .f32⟩
  | 24 => ⟨S8192x128, .f32⟩
  | 25 => ⟨S_, .f32⟩
  | 26 => ⟨S8192x128, .f32⟩
  | 27 => ⟨S8192x128, .f32⟩
  | 28 => ⟨S8192x128, .f32⟩
  | 29 => ⟨S1x128, .f32⟩
  | 30 => ⟨S8192x128, .f32⟩
  | 31 => ⟨S8192x128, .f32⟩
  | 32 => ⟨S8192x128, .f32⟩
  | 33 => ⟨S8192x128, .f32⟩
  | 34 => ⟨S_, .f32⟩
  | 35 => ⟨S8192x128, .f32⟩
  | 36 => ⟨S8192x128, .f32⟩
  | 37 => ⟨S_, .f32⟩
  | 38 => ⟨S8192x128, .f32⟩
  | 39 => ⟨S8192x128, .f32⟩
  | 40 => ⟨S8192x128, .f32⟩
  | 41 => ⟨S8192x128, .f32⟩
  | 42 => ⟨S8192x128, .f32⟩
  | 43 => ⟨S1x262144, .i32⟩
  | 44 => ⟨S262144, .i32⟩
  | 45 => ⟨S1x262144, .i32⟩
  | 46 => ⟨S262144, .i32⟩
  | 47 => ⟨S8192x128, .f32⟩
  | 48 => ⟨S8192, .i32⟩
  | 49 => ⟨S270336, .i32⟩
  | 50 => ⟨S270336, .i32⟩
  | 51 => ⟨S_, .f32⟩
  | 52 => ⟨S270336, .f32⟩
  | 53 => ⟨S_, .f32⟩
  | 54 => ⟨S8192, .f32⟩
  | 55 => ⟨S270336x1, .i32⟩
  | 56 => ⟨S8192, .f32⟩
  | 57 => ⟨S_, .f32⟩
  | 58 => ⟨S8192, .f32⟩
  | 59 => ⟨S8192, .i1⟩
  | 60 => ⟨S8192, .f32⟩
  | 61 => ⟨S_, .f32⟩
  | 62 => ⟨S_, .f32⟩
  | 63 => ⟨S8192, .f32⟩
  | 64 => ⟨S8192, .f32⟩
  | 65 => ⟨S_, .i32⟩
  | 66 => ⟨S270336, .i32⟩
  | 67 => ⟨S270336, .i1⟩
  | 68 => ⟨S_, .i32⟩
  | 69 => ⟨S270336, .i32⟩
  | 70 => ⟨S270336, .i32⟩
  | 71 => ⟨S270336, .i32⟩
  | 72 => ⟨S270336x1, .i32⟩
  | 73 => ⟨S270336, .f32⟩
  | 74 => ⟨S_, .i32⟩
  | 75 => ⟨S270336, .i32⟩
  | 76 => ⟨S270336, .i1⟩
  | 77 => ⟨S_, .i32⟩
  | 78 => ⟨S270336, .i32⟩
  | 79 => ⟨S270336, .i32⟩
  | 80 => ⟨S270336, .i32⟩
  | 81 => ⟨S270336x1, .i32⟩
  | 82 => ⟨S270336, .f32⟩
  | 83 => ⟨S270336, .f32⟩
  | 84 => ⟨S_, .i32⟩
  | 85 => ⟨S270336, .i32⟩
  | 86 => ⟨S270336, .i1⟩
  | 87 => ⟨S_, .i32⟩
  | 88 => ⟨S270336, .i32⟩
  | 89 => ⟨S270336, .i32⟩
  | 90 => ⟨S270336, .i32⟩
  | 91 => ⟨S270336x1, .i32⟩
  | 92 => ⟨S270336x128, .f32⟩
  | 93 => ⟨S270336x1, .f32⟩
  | 94 => ⟨S270336x128, .f32⟩
  | 95 => ⟨S270336x128, .f32⟩
  | 96 => ⟨S_, .f32⟩
  | 97 => ⟨S8192x128, .f32⟩
  | 98 => ⟨S270336x1, .i32⟩
  | 99 => ⟨S8192x128, .f32⟩
  | 100 => ⟨S1x128, .f32⟩
  | 101 => ⟨S8192x128, .f32⟩
  | 102 => ⟨S8192x128, .f32⟩
  | 103 => ⟨S8192x128, .f32⟩
  | 104 => ⟨S8192x128, .f32⟩
  | 105 => ⟨S8192, .i32⟩
  | 106 => ⟨S270336, .i32⟩
  | 107 => ⟨S270336, .i32⟩
  | 108 => ⟨S_, .f32⟩
  | 109 => ⟨S270336, .f32⟩
  | 110 => ⟨S_, .f32⟩
  | 111 => ⟨S8192, .f32⟩
  | 112 => ⟨S270336x1, .i32⟩
  | 113 => ⟨S8192, .f32⟩
  | 114 => ⟨S_, .f32⟩
  | 115 => ⟨S8192, .f32⟩
  | 116 => ⟨S8192, .i1⟩
  | 117 => ⟨S8192, .f32⟩
  | 118 => ⟨S_, .f32⟩
  | 119 => ⟨S_, .f32⟩
  | 120 => ⟨S8192, .f32⟩
  | 121 => ⟨S8192, .f32⟩
  | 122 => ⟨S_, .i32⟩
  | 123 => ⟨S270336, .i32⟩
  | 124 => ⟨S270336, .i1⟩
  | 125 => ⟨S_, .i32⟩
  | 126 => ⟨S270336, .i32⟩
  | 127 => ⟨S270336, .i32⟩
  | _ => ⟨S8192x128, .f32⟩

abbrev hbmTy0_1 (i : Nat) : BufTy := match i % 128 with
  | 0 => ⟨S270336, .i32⟩
  | 1 => ⟨S270336x1, .i32⟩
  | 2 => ⟨S270336, .f32⟩
  | 3 => ⟨S_, .i32⟩
  | 4 => ⟨S270336, .i32⟩
  | 5 => ⟨S270336, .i1⟩
  | 6 => ⟨S_, .i32⟩
  | 7 => ⟨S270336, .i32⟩
  | 8 => ⟨S270336, .i32⟩
  | 9 => ⟨S270336, .i32⟩
  | 10 => ⟨S270336x1, .i32⟩
  | 11 => ⟨S270336, .f32⟩
  | 12 => ⟨S270336, .f32⟩
  | 13 => ⟨S_, .i32⟩
  | 14 => ⟨S270336, .i32⟩
  | 15 => ⟨S270336, .i1⟩
  | 16 => ⟨S_, .i32⟩
  | 17 => ⟨S270336, .i32⟩
  | 18 => ⟨S270336, .i32⟩
  | 19 => ⟨S270336, .i32⟩
  | 20 => ⟨S270336x1, .i32⟩
  | 21 => ⟨S270336x128, .f32⟩
  | 22 => ⟨S270336x1, .f32⟩
  | 23 => ⟨S270336x128, .f32⟩
  | 24 => ⟨S270336x128, .f32⟩
  | 25 => ⟨S_, .f32⟩
  | 26 => ⟨S8192x128, .f32⟩
  | 27 => ⟨S270336x1, .i32⟩
  | 28 => ⟨S8192x128, .f32⟩
  | 29 => ⟨S1x128, .f32⟩
  | 30 => ⟨S8192x128, .f32⟩
  | 31 => ⟨S8192x128, .f32⟩
  | 32 => ⟨S8192x128, .f32⟩
  | 33 => ⟨S8192x128, .f32⟩
  | 34 => ⟨S8192x128, .f32⟩
  | 35 => ⟨S8192x128, .f32⟩
  | 36 => ⟨S8192x1, .f32⟩
  | 37 => ⟨S1x1, .f32⟩
  | 38 => ⟨S8192x1, .f32⟩
  | 39 => ⟨S8192x1, .f32⟩
  | 40 => ⟨S8192x1, .f32⟩
  | 41 => ⟨S8192x1, .f32⟩
  | 42 => ⟨S_, .f32⟩
  | 43 => ⟨S8192x1, .f32⟩
  | 44 => ⟨S8192x1, .f32⟩
  | 45 => ⟨S_, .f32⟩
  | 46 => ⟨S8192x1, .f32⟩
  | 47 => ⟨S8192x1, .f32⟩
  | 48 => ⟨S8192x128, .f32⟩
  | 49 => ⟨S8192x128, .f32⟩
  | 50 => ⟨S8192x128, .f32⟩
  | 51 => ⟨S8192x256, .f32⟩
  | 52 => ⟨S8192x128, .f32⟩
  | 53 => ⟨S1x128, .f32⟩
  | 54 => ⟨S8192x128, .f32⟩
  | 55 => ⟨S8192x128, .f32⟩
  | 56 => ⟨S8192x128, .f32⟩
  | _ => ⟨S8192x128, .f32⟩

abbrev hbmTy (i : Nat) : BufTy := match i / 128 with
  | 0 => hbmTy0_0 i
  | 1 => hbmTy0_1 i
  | _ => ⟨S8192x128, .f32⟩

abbrev bufTy : (tb : Table) → Fin (tcTables nBuf tb) → BufTy
  | .hbm, ⟨i, _⟩ => hbmTy i
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_call0_cst : Ref sig .tc := ⟨.hbm, 25, rfl⟩
abbrev main_call0_v0 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst : Ref sig .tc := ⟨.hbm, 34, rfl⟩
abbrev main_v16 : Ref sig .tc := ⟨.hbm, 35, rfl⟩
abbrev main_v17 : Ref sig .tc := ⟨.hbm, 36, rfl⟩
abbrev main_cst_0 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_1 : Ref sig .tc := ⟨.hbm, 51, rfl⟩
abbrev main_v31 : Ref sig .tc := ⟨.hbm, 52, rfl⟩
abbrev main_cst_2 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_3 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_4 : Ref sig .tc := ⟨.hbm, 61, rfl⟩
abbrev main_call1_v0 : Ref sig .tc := ⟨.hbm, 62, rfl⟩
abbrev main_call1_v1 : Ref sig .tc := ⟨.hbm, 63, rfl⟩
abbrev main_v38 : Ref sig .tc := ⟨.hbm, 64, rfl⟩
abbrev main_c : Ref sig .tc := ⟨.hbm, 65, rfl⟩
abbrev main_v39 : Ref sig .tc := ⟨.hbm, 66, rfl⟩
abbrev main_v40 : Ref sig .tc := ⟨.hbm, 67, rfl⟩
abbrev main_c_5 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_c_6 : Ref sig .tc := ⟨.hbm, 74, rfl⟩
abbrev main_v46 : Ref sig .tc := ⟨.hbm, 75, rfl⟩
abbrev main_v47 : Ref sig .tc := ⟨.hbm, 76, rfl⟩
abbrev main_c_7 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_c_8 : Ref sig .tc := ⟨.hbm, 84, rfl⟩
abbrev main_v54 : Ref sig .tc := ⟨.hbm, 85, rfl⟩
abbrev main_v55 : Ref sig .tc := ⟨.hbm, 86, rfl⟩
abbrev main_c_9 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_cst_10 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_cst_11 : Ref sig .tc := ⟨.hbm, 108, rfl⟩
abbrev main_v75 : Ref sig .tc := ⟨.hbm, 109, rfl⟩
abbrev main_cst_12 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_cst_13 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_cst_14 : Ref sig .tc := ⟨.hbm, 118, rfl⟩
abbrev main_call2_v0 : Ref sig .tc := ⟨.hbm, 119, rfl⟩
abbrev main_call2_v1 : Ref sig .tc := ⟨.hbm, 120, rfl⟩
abbrev main_v82 : Ref sig .tc := ⟨.hbm, 121, rfl⟩
abbrev main_c_15 : Ref sig .tc := ⟨.hbm, 122, rfl⟩
abbrev main_v83 : Ref sig .tc := ⟨.hbm, 123, rfl⟩
abbrev main_v84 : Ref sig .tc := ⟨.hbm, 124, rfl⟩
abbrev main_c_16 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_c_17 : Ref sig .tc := ⟨.hbm, 131, rfl⟩
abbrev main_v90 : Ref sig .tc := ⟨.hbm, 132, rfl⟩
abbrev main_v91 : Ref sig .tc := ⟨.hbm, 133, rfl⟩
abbrev main_c_18 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_c_19 : Ref sig .tc := ⟨.hbm, 141, rfl⟩
abbrev main_v98 : Ref sig .tc := ⟨.hbm, 142, rfl⟩
abbrev main_v99 : Ref sig .tc := ⟨.hbm, 143, rfl⟩
abbrev main_c_20 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_cst_21 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_cst_22 : Ref sig .tc := ⟨.hbm, 170, rfl⟩
abbrev main_v124 : Ref sig .tc := ⟨.hbm, 171, rfl⟩
abbrev main_v125 : Ref sig .tc := ⟨.hbm, 172, rfl⟩
abbrev main_cst_23 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩

abbrev nD : Nat := 1
abbrev τ : Topo := Topo.v7x

variable {F : FTy → Type} [FloatOps F]

class Facts₀ : Prop where
  transposes_S8192x8192_S8192x8192_1_0 : S8192x8192.Transposes [1, 0] S8192x8192
  concatenates_S8192x128_S8192x128_S8192x256_d1 : Shape.Concatenates [S8192x128, S8192x128] S8192x256 1
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bcast_S_S8192x128 : S_.BroadcastsInDim S8192x128 (![] : Fin 0 → Fin S8192x128.rank)
  slices_S2x262144_S1x262144_0_0 : S2x262144.Slices ![0, 0] S1x262144
  shapeCasts_S1x262144_S262144 : S1x262144.ShapeCasts S262144
  slices_S2x262144_S1x262144_1_0 : S2x262144.Slices ![1, 0] S1x262144
  concatenates_S262144_S8192_S270336_d0 : Shape.Concatenates [S262144, S8192] S270336 0
  bcast_S_S270336 : S_.BroadcastsInDim S270336 (![] : Fin 0 → Fin S270336.rank)
  bcast_S_S8192 : S_.BroadcastsInDim S8192 (![] : Fin 0 → Fin S8192.rank)
  bcast_S270336_S270336x1_0 : S270336.BroadcastsInDim S270336x1 (![0] : Fin 1 → Fin S270336x1.rank)
  bcast_S270336x1_S270336x128_0_1 : S270336x1.BroadcastsInDim S270336x128 (![0, 1] : Fin 2 → Fin S270336x128.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  dot_S8192x8192_S8192x128_S8192x128_1_0_0_1_n_n_wf : DotDims.WF S8192x8192 S8192x128 S8192x128 [1] [0] [0] [1] [] []
  dot_S8192x256_S256x128_S8192x128_1_0_0_1_n_n_wf : DotDims.WF S8192x256 S256x128 S8192x128 [1] [0] [0] [1] [] []
  dot_S8192x128_S128x128_S8192x128_1_0_0_1_n_n_wf : DotDims.WF S8192x128 S128x128 S8192x128 [1] [0] [0] [1] [] []
  scatter_S8192_S270336x1_S270336_n_0_0_1_wf : ScatterDims.WF S8192 S270336x1 S270336 [] [0] [0] 1
  gather_S8192_S270336x1_S270336_n_0_n_n_0_1_1_wf : GatherDims.WF S8192 S270336x1 S270336 [] [0] [] [0] [] 1 ![1]
  gather_S8192x128_S270336x1_S270336x128_1_0_n_n_0_1_1128_wf : GatherDims.WF S8192x128 S270336x1 S270336x128 [1] [0] [] [0] [] 1 ![1, 128]
  scatter_S8192x128_S270336x1_S270336x128_1_0_0_1_wf : ScatterDims.WF S8192x128 S270336x1 S270336x128 [1] [0] [0] 1
  dot_S8192x128_S128x1_S8192x1_1_0_0_1_n_n_wf : DotDims.WF S8192x128 S128x1 S8192x1 [1] [0] [0] [1] [] []

variable [Facts₀]

def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf
def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def scatter_S8192_S270336x1_S270336_n_0_0_1 : ScatterDims S8192 S270336x1 S270336 where
  updateWindowDims := []
  insertedWindowDims := [0]
  scatterDimsToOperandDims := [0]
  indexVectorDim := 1
  wf := scatter_S8192_S270336x1_S270336_n_0_0_1_wf
def gather_S8192_S270336x1_S270336_n_0_n_n_0_1_1 : GatherDims S8192 S270336x1 S270336 where
  offsetDims := []
  collapsedSliceDims := [0]
  operandBatchingDims := []
  startIndicesBatchingDims := []
  startIndexMap := [0]
  indexVectorDim := 1
  sliceSizes := ![1]
  wf := gather_S8192_S270336x1_S270336_n_0_n_n_0_1_1_wf
def gather_S8192x128_S270336x1_S270336x128_1_0_n_n_0_1_1128 : GatherDims S8192x128 S270336x1 S270336x128 where
  offsetDims := [1]
  collapsedSliceDims := [0]
  operandBatchingDims := []
  startIndicesBatchingDims := []
  startIndexMap := [0]
  indexVectorDim := 1
  sliceSizes := ![1, 128]
  wf := gather_S8192x128_S270336x1_S270336x128_1_0_n_n_0_1_1128_wf
def scatter_S8192x128_S270336x1_S270336x128_1_0_0_1 : ScatterDims S8192x128 S270336x1 S270336x128 where
  updateWindowDims := [1]
  insertedWindowDims := [0]
  scatterDimsToOperandDims := [0]
  indexVectorDim := 1
  wf := scatter_S8192x128_S270336x1_S270336x128_1_0_0_1_wf
def dot_S8192x128_S128x1_S8192x1_1_0_0_1_n_n : DotDims S8192x128 S128x1 S8192x1 where
  lhsContracting := [1]
  rhsContracting := [0]
  lhsNonContracting := [0]
  rhsNonContracting := [1]
  lhsBatch := []
  rhsBatch := []
  wf := dot_S8192x128_S128x1_S8192x1_1_0_0_1_n_n_wf

class Facts : Prop extends Facts₀ where

variable [Facts]
-- ==== Proof.HandKernel.R0Shared.lean ====
/- The first pipelined region (the blocked product u_basisᵀ · x_cat accumulated over the reduction axis k, with the
   gating epilogue at the last k): what its three control cases share. The region is entered with the TensorCore
   buffers at some contents `V`, a parameter throughout. Here: the blocks of the windows read off `V`; the two
   branch conditions of the body in closed form over the 8×8 grid (point t has k = t % 8); where the output
   window is idle; the staging memrefs and the accumulator; and the region invariant with the accumulator split off. -/
import proofs.«117335_j42545946034709_1_alg».proof.Proof.Gen.Kernel.Launch
import proofs.«117335_j42545946034709_1_alg».proof.Proof.Gen.Kernel.Skeleton
import proofs.«117335_j42545946034709_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Blocks -/

/-- The block of window `w` at grid point `t`, read off the window's array at the entry contents. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0: whatever proof data has the entry contents as its array and leaves the block where it is, the
    window's current buffer holds the block of the current point, whether the point fetched it or the block index
    stood still since the last fetch. -/
theorem before0_0_of {c : Dev nD} (dat : Dat τ (Elt F) Unit ℕ (UR sig nD τ) ℕ cfg0 c)
    (hA : dat.A 0 = V c (Pipeline.arrRef spec0 0)) (hafter : ∀ t, dat.after 0 t = iblk0 V c 0 t)
    (t : Fin cfg0.N) (d) : dat.before 0 t d = iblk0 V c 0 t := by
  refine (dat.before_in_eq_fetched 0 rfl (fun _ => rfl) (fun _ _ _ => rfl) ?_ t d).trans ?_
  · intro t; rw [hafter]; unfold Dat.blockOf iblk0; rw [hA]; try rfl
  · unfold Dat.fetched Dat.blockOf iblk0; rw [hA]; try rfl

/-- Input window 1: whatever proof data has the entry contents as its array and leaves the block where it is, the
    window's current buffer holds the block of the current point, whether the point fetched it or the block index
    stood still since the last fetch. -/
theorem before0_1_of {c : Dev nD} (dat : Dat τ (Elt F) Unit ℕ (UR sig nD τ) ℕ cfg0 c)
    (hA : dat.A 1 = V c (Pipeline.arrRef spec0 1)) (hafter : ∀ t, dat.after 1 t = iblk0 V c 1 t)
    (t : Fin cfg0.N) (d) : dat.before 1 t d = iblk0 V c 1 t := by
  refine (dat.before_in_eq_fetched 1 rfl (fun _ => rfl) (fun _ _ _ => rfl) ?_ t d).trans ?_
  · intro t; rw [hafter]; unfold Dat.blockOf iblk0; rw [hA]; try rfl
  · unfold Dat.fetched Dat.blockOf iblk0; rw [hA]; try rfl

/-- Input window 2: whatever proof data has the entry contents as its array and leaves the block where it is, the
    window's current buffer holds the block of the current point, whether the point fetched it or the block index
    stood still since the last fetch. -/
theorem before0_2_of {c : Dev nD} (dat : Dat τ (Elt F) Unit ℕ (UR sig nD τ) ℕ cfg0 c)
    (hA : dat.A 2 = V c (Pipeline.arrRef spec0 2)) (hafter : ∀ t, dat.after 2 t = iblk0 V c 2 t)
    (t : Fin cfg0.N) (d) : dat.before 2 t d = iblk0 V c 2 t := by
  refine (dat.before_in_eq_fetched 2 rfl (fun _ => rfl) (fun _ _ _ => rfl) ?_ t d).trans ?_
  · intro t; rw [hafter]; unfold Dat.blockOf iblk0; rw [hA]; try rfl
  · unfold Dat.fetched Dat.blockOf iblk0; rw [hA]; try rfl

/-- Input window 3: whatever proof data has the entry contents as its array and leaves the block where it is, the
    window's current buffer holds the block of the current point, whether the point fetched it or the block index
    stood still since the last fetch. -/
theorem before0_3_of {c : Dev nD} (dat : Dat τ (Elt F) Unit ℕ (UR sig nD τ) ℕ cfg0 c)
    (hA : dat.A 3 = V c (Pipeline.arrRef spec0 3)) (hafter : ∀ t, dat.after 3 t = iblk0 V c 3 t)
    (t : Fin cfg0.N) (d) : dat.before 3 t d = iblk0 V c 3 t := by
  refine (dat.before_in_eq_fetched 3 rfl (fun _ => rfl) (fun _ _ _ => rfl) ?_ t d).trans ?_
  · intro t; rw [hafter]; unfold Dat.blockOf iblk0; rw [hA]; try rfl
  · unfold Dat.fetched Dat.blockOf iblk0; rw [hA]; try rfl

/-- Input window 4: whatever proof data has the entry contents as its array and leaves the block where it is, the
    window's current buffer holds the block of the current point, whether the point fetched it or the block index
    stood still since the last fetch. -/
theorem before0_4_of {c : Dev nD} (dat : Dat τ (Elt F) Unit ℕ (UR sig nD τ) ℕ cfg0 c)
    (hA : dat.A 4 = V c (Pipeline.arrRef spec0 4)) (hafter : ∀ t, dat.after 4 t = iblk0 V c 4 t)
    (t : Fin cfg0.N) (d) : dat.before 4 t d = iblk0 V c 4 t := by
  refine (dat.before_in_eq_fetched 4 rfl (fun _ => rfl) (fun _ _ _ => rfl) ?_ t d).trans ?_
  · intro t; rw [hafter]; unfold Dat.blockOf iblk0; rw [hA]; try rfl
  · unfold Dat.fetched Dat.blockOf iblk0; rw [hA]; try rfl

/-- Input window 5: whatever proof data has the entry contents as its array and leaves the block where it is, the
    window's current buffer holds the block of the current point, whether the point fetched it or the block index
    stood still since the last fetch. -/
theorem before0_5_of {c : Dev nD} (dat : Dat τ (Elt F) Unit ℕ (UR sig nD τ) ℕ cfg0 c)
    (hA : dat.A 5 = V c (Pipeline.arrRef spec0 5)) (hafter : ∀ t, dat.after 5 t = iblk0 V c 5 t)
    (t : Fin cfg0.N) (d) : dat.before 5 t d = iblk0 V c 5 t := by
  refine (dat.before_in_eq_fetched 5 rfl (fun _ => rfl) (fun _ _ _ => rfl) ?_ t d).trans ?_
  · intro t; rw [hafter]; unfold Dat.blockOf iblk0; rw [hA]; try rfl
  · unfold Dat.fetched Dat.blockOf iblk0; rw [hA]; try rfl

/-! ## The two conditionals of the body, over the grid -/

/-- The first conditional (reset the accumulator) tests k = 0. -/
abbrev isFirstK0 (i : grid0.Coords) : Prop :=
  (Scalar.cmpi .ne (Scalar.extui (Scalar.cmpi .eq (BitVec.ofNat 32 (i 1).val) 0#32)) 0#32) = 1#1
theorem isFirstK0_iff : ∀ t : Fin cfg0.N, isFirstK0 (grid0.coords t) ↔ t.val % 8 = 0 :=
  (by decide +kernel : ∀ t : Fin grid0.N, isFirstK0 (grid0.coords t) ↔ t.val % 8 = 0)

/-- The second conditional (the epilogue and the store of the output block) tests k = 7. -/
abbrev isLastK0 (i : grid0.Coords) : Prop := k0_cond2 i = 1#1
theorem isLastK0_iff : ∀ t : Fin cfg0.N, isLastK0 (grid0.coords t) ↔ t.val % 8 = 7 :=
  (by decide +kernel : ∀ t : Fin grid0.N, isLastK0 (grid0.coords t) ↔ t.val % 8 = 7)

/-! ## Idle and live points of the windows -/

theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
theorem live0_3 : ∀ t : Fin cfg0.N, cfg0.idle 3 (grid0.coords t) = false := by decide +kernel
theorem live0_4 : ∀ t : Fin cfg0.N, cfg0.idle 4 (grid0.coords t) = false := by decide +kernel
theorem live0_5 : ∀ t : Fin cfg0.N, cfg0.idle 5 (grid0.coords t) = false := by decide +kernel
/-- Away from k = 7 the output window is idle and its block is not written back. -/
theorem idle0_6 : ∀ t : Fin cfg0.N, ¬isLastK0 (grid0.coords t) → cfg0.idle 6 (grid0.coords t) = true := by decide +kernel
theorem keep0_6 : ∀ t : Fin cfg0.N, ¬isLastK0 (grid0.coords t) → (cfg0.win 6).flush t = false := by decide +kernel
/-- At k = 7 it is live. -/
theorem live0_6 : ∀ t : Fin cfg0.N, isLastK0 (grid0.coords t) → cfg0.idle 6 (grid0.coords t) = false := by decide +kernel

/-! ## Memrefs -/

abbrev stg0_0 (t : Fin cfg0.N) : Memref sig .tc .vmem S1024x1024 .f32 := win0_0.stage (cfg0.slots t 0)
abbrev stgWhole0_0 (t : Fin cfg0.N) : (stg0_0 t).IsWhole := hstage0_0 ((cfg0.slots t 0).cast nbuf0_0)
abbrev stg0_1 (t : Fin cfg0.N) : Memref sig .tc .vmem S1024x256 .f32 := win0_1.stage (cfg0.slots t 1)
abbrev stgWhole0_1 (t : Fin cfg0.N) : (stg0_1 t).IsWhole := hstage0_1 ((cfg0.slots t 1).cast nbuf0_1)
abbrev stg0_2 (t : Fin cfg0.N) : Memref sig .tc .vmem S256x128 .f32 := win0_2.stage (cfg0.slots t 2)
abbrev stgWhole0_2 (t : Fin cfg0.N) : (stg0_2 t).IsWhole := hstage0_2 ((cfg0.slots t 2).cast nbuf0_2)
abbrev stg0_3 (t : Fin cfg0.N) : Memref sig .tc .vmem S1x128 .f32 := win0_3.stage (cfg0.slots t 3)
abbrev stgWhole0_3 (t : Fin cfg0.N) : (stg0_3 t).IsWhole := hstage0_3 ((cfg0.slots t 3).cast nbuf0_3)
abbrev stg0_4 (t : Fin cfg0.N) : Memref sig .tc .vmem S128x128 .f32 := win0_4.stage (cfg0.slots t 4)
abbrev stgWhole0_4 (t : Fin cfg0.N) : (stg0_4 t).IsWhole := hstage0_4 ((cfg0.slots t 4).cast nbuf0_4)
abbrev stg0_5 (t : Fin cfg0.N) : Memref sig .tc .vmem S1x128 .f32 := win0_5.stage (cfg0.slots t 5)
abbrev stgWhole0_5 (t : Fin cfg0.N) : (stg0_5 t).IsWhole := hstage0_5 ((cfg0.slots t 5).cast nbuf0_5)
abbrev stg0_6 (t : Fin cfg0.N) : Memref sig .tc .vmem S1024x128 .f32 := win0_6.stage (cfg0.slots t 6)
abbrev stgWhole0_6 (t : Fin cfg0.N) : (stg0_6 t).IsWhole := hstage0_6 ((cfg0.slots t 6).cast nbuf0_6)
/-- The accumulator: a whole scoped buffer of the kernel's own, passed beside the windows and carried from point to point. -/
abbrev acc0 : Memref sig .tc .vmem S1024x256 .f32 := Memref.whole cc0_scratch0
abbrev accView0 : View sig .tc .vmem S1024x256 .f32 := acc0.view
/-- A view of the output block's shape, through which contents of the output's staging buffer are stated. -/
abbrev outView0 : View sig .tc .vmem S1024x128 .f32 := (Memref.whole cc0_stg6_0 : Memref sig .tc .vmem S1024x128 .f32).view

/-! ## The region invariant, the accumulator split off -/

/-- The scoped buffers the region never touches (the second region's staging buffers and accumulator), each at some contents. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

theorem PhiA0_eq (c : Dev nD) :
    (Pipeline.ΦA spec0 c : sProp 𝕄)
      = iprop(iprop((∃ d, owns (c : Thread nD τ) acc0 fullShare d) ∗ others0 (F := F) c) ∗ (∃ r, prngReg c r)) := by
  unfold Pipeline.ΦA others0; rw [scopedRest0_eq]; simp only [acc0, owns_whole]; try rfl

end Cert.Kernel.Hand

end
-- ==== Proof.HandKernel.R0RunA.lean ====
/- The body of the first region at a point with k = 0 (and k ≠ 7), run symbolically on whole staging memrefs: the
   accumulator is reset and then receives this point's partial product. The list of writes the accumulator ends with is
   found by the run and packaged with the triple. -/
import proofs.«117335_j42545946034709_1_alg».proof.Proof.HandKernel.R0Shared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- Case k = 0: with the blocks of u_basis and x_cat at `x0`, `x1` and the accumulator at anything, the body reaches
    any continuation that accepts the two inputs unchanged and the accumulator with the writes `LS` applied. The other
    operands are not touched and stay with the caller. -/
noncomputable def kernelRun0_A (c : Dev nD) (i : grid0.Coords) (arg2 : Memref sig .tc .vmem S1024x1024 .f32) (harg2 : arg2.IsWhole) (arg3 : Memref sig .tc .vmem S1024x256 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x256 .f32) (harg9 : arg9.IsWhole) (hc0 : isFirstK0 i) (hc1 : ¬isLastK0 i)
    (x0 : Vec F S1024x1024 .f32) (x1 : Vec F S1024x256 .f32) :
    { LS : List (View.Piece (Elt F) S1024x256 .f32) //
      ∀ (E : Set ℕ) (K : PUnit → sProp 𝕄),
        iprop(owns (c : Thread nD τ) arg2 fullShare x0 ∗ owns (c : Thread nD τ) arg3 fullShare x1 ∗ (∃ d, owns (c : Thread nD τ) arg9 fullShare d)
            ∗ (iprop(owns (c : Thread nD τ) arg2 fullShare x0 ∗ owns (c : Thread nD τ) arg3 fullShare x1 ∗ (∃ f, arg9.view.loc (c : Thread nD τ) ↦[arg9.view.set]{fullShare} arg9.view.writes (Elt F) f LS)) -∗ K ⟨⟩))
          ⊢ wp frame (wpE (defs₀ (F := F)) Variants.none c none) E (cc0__combined_kernel i arg2 harg2 arg3 harg3 arg4 harg4 arg5 harg5 arg6 harg6 arg7 harg7 arg8 harg8 arg9 harg9) K } := by
  refine ⟨?_, fun E K => ?run⟩
  case run =>
    simp only [cc0__combined_kernel_eq_skeleton]; unfold cc0__combined_kernel_skel
    unfold owns
    iintro ⟨⟨%f0, %hf0, H0⟩, ⟨%f1, %hf1, H1⟩, ⟨%ds, %fs, -, HS⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS

end Cert.Kernel.Hand

end
-- ==== Proof.HandKernel.R0RunB.lean ====
/- The body of the first region at a point with 0 < k < 7: the accumulator, holding what the point before left, receives
   this point's partial product; nothing else is stored. -/
import proofs.«117335_j42545946034709_1_alg».proof.Proof.HandKernel.R0RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- Case 0 < k < 7: as at k = 0 but the accumulator enters at known contents `xs`, which the new contents depend on. -/
noncomputable def kernelRun0_B (c : Dev nD) (i : grid0.Coords) (arg2 : Memref sig .tc .vmem S1024x1024 .f32) (harg2 : arg2.IsWhole) (arg3 : Memref sig .tc .vmem S1024x256 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x256 .f32) (harg9 : arg9.IsWhole) (hc0 : ¬isFirstK0 i) (hc1 : ¬isLastK0 i)
    (x0 : Vec F S1024x1024 .f32) (x1 : Vec F S1024x256 .f32) (xs : Vec F S1024x256 .f32) :
    { LS : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg9 fullShare xs
            ∗ (iprop(owns (c : Thread nD τ) arg2 fullShare x0 ∗ owns (c : Thread nD τ) arg3 fullShare x1 ∗ (∃ f, arg9.view.loc (c : Thread nD τ) ↦[arg9.view.set]{fullShare} arg9.view.writes (Elt F) f LS)) -∗ K ⟨⟩))
          ⊢ wp frame (wpE (defs₀ (F := F)) Variants.none c none) E (cc0__combined_kernel i arg2 harg2 arg3 harg3 arg4 harg4 arg5 harg5 arg6 harg6 arg7 harg7 arg8 harg8 arg9 harg9) K } := by
  refine ⟨?_, fun E K => ?run⟩
  case run =>
    simp only [cc0__combined_kernel_eq_skeleton]; unfold cc0__combined_kernel_skel
    unfold owns
    iintro ⟨⟨%f0, %hf0, H0⟩, ⟨%f1, %hf1, H1⟩, ⟨%fs, %hfs, HS⟩, Hk⟩
    obtain rfl := harg2.eq_unread hf0; obtain rfl := harg3.eq_unread hf1; obtain rfl := harg9.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS

end Cert.Kernel.Hand

end
-- ==== Proof.HandKernel.R0RunC.lean ====
/- The body of the first region at a point with k = 7: the accumulator receives the last partial product, and the
   epilogue (the two gating layers applied to the finished accumulator) is stored into the output block. -/
import proofs.«117335_j42545946034709_1_alg».proof.Proof.HandKernel.R0RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- Case k = 7: all six inputs at known contents, the output's buffer at anything (the body loads it before storing
    over it), the accumulator at `xs`. The run finds the writes the output (`LO`) and the accumulator (`LS`) end with. -/
noncomputable def kernelRun0_C (c : Dev nD) (i : grid0.Coords) (arg2 : Memref sig .tc .vmem S1024x1024 .f32) (harg2 : arg2.IsWhole) (arg3 : Memref sig .tc .vmem S1024x256 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x256 .f32) (harg9 : arg9.IsWhole) (hc0 : ¬isFirstK0 i) (hc1 : isLastK0 i)
    (x0 : Vec F S1024x1024 .f32) (x1 : Vec F S1024x256 .f32) (x2 : Vec F S256x128 .f32) (x3 : Vec F S1x128 .f32)
    (x4 : Vec F S128x128 .f32) (x5 : Vec F S1x128 .f32) (xs : Vec F S1024x256 .f32) :
    Σ' (LO : List (View.Piece (Elt F) S1024x128 .f32)), { LS : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f LO) ∗ (∃ f, arg9.view.loc (c : Thread nD τ) ↦[arg9.view.set]{fullShare} arg9.view.writes (Elt F) f LS)) -∗ K ⟨⟩))
          ⊢ wp frame (wpE (defs₀ (F := F)) Variants.none c none) E (cc0__combined_kernel i arg2 harg2 arg3 harg3 arg4 harg4 arg5 harg5 arg6 harg6 arg7 harg7 arg8 harg8 arg9 harg9) K } := by
  refine ⟨?_, ?_, fun E K => ?run⟩
  case run =>
    simp only [cc0__combined_kernel_eq_skeleton]; unfold cc0__combined_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg9.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS

end Cert.Kernel.Hand

end
-- ==== Proof.HandKernel.R0Frame.lean ====
/- The first region's frame half: what the accumulator and the output block hold after each grid point, the proof data
   of the pipeline, the body obligation, and the invariant at entry and exit; then the contents in closed form over
   the payloads of the body. -/
import proofs.«117335_j42545946034709_1_alg».proof.Proof.HandKernel.R0RunC
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

theorem notLast_of_first0 {n : ℕ} (h0 : n % 8 = 0) : ¬ n % 8 = 7 := by omega

/-- At k = 0 the accumulator's writes cover it. -/
theorem accCover0_A (c : Dev nD) (i : grid0.Coords) (arg2 : Memref sig .tc .vmem S1024x1024 .f32) (harg2 : arg2.IsWhole) (arg3 : Memref sig .tc .vmem S1024x256 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x256 .f32) (harg9 : arg9.IsWhole) (hc0 : isFirstK0 i) (hc1 : ¬isLastK0 i) (x0 : Vec F S1024x1024 .f32) (x1 : Vec F S1024x256 .f32) (y : S1024x256.Idx) :
    ∃ pc ∈ (kernelRun0_A c i arg2 harg2 arg3 harg3 arg4 harg4 arg5 harg5 arg6 harg6 arg7 harg7 arg8 harg8 arg9 harg9 hc0 hc1 x0 x1).1, y ∈ pc.1.set :=
  View.cover_of_tiledL (kernelRun0_A c i arg2 harg2 arg3 harg3 arg4 harg4 arg5 harg5 arg6 harg6 arg7 harg7 arg8 harg8 arg9 harg9 hc0 hc1 x0 x1).1 S1024x256.size (by sl_kernel_rfl) y
/-- The accumulator after a point with k = 0: the canonical contents of its writes. -/
def sout0_A_0 (c : Dev nD) (i : grid0.Coords) (arg2 : Memref sig .tc .vmem S1024x1024 .f32) (harg2 : arg2.IsWhole) (arg3 : Memref sig .tc .vmem S1024x256 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x256 .f32) (harg9 : arg9.IsWhole) (hc0 : isFirstK0 i) (hc1 : ¬isLastK0 i) (x0 : Vec F S1024x1024 .f32) (x1 : Vec F S1024x256 .f32) : Vec F S1024x256 .f32 :=
  View.canon (kernelRun0_A c i arg2 harg2 arg3 harg3 arg4 harg4 arg5 harg5 arg6 harg6 arg7 harg7 arg8 harg8 arg9 harg9 hc0 hc1 x0 x1).1

/-- At 0 < k < 7 the accumulator's writes cover it. -/
theorem accCover0_B (c : Dev nD) (i : grid0.Coords) (arg2 : Memref sig .tc .vmem S1024x1024 .f32) (harg2 : arg2.IsWhole) (arg3 : Memref sig .tc .vmem S1024x256 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x256 .f32) (harg9 : arg9.IsWhole) (hc0 : ¬isFirstK0 i) (hc1 : ¬isLastK0 i) (x0 : Vec F S1024x1024 .f32) (x1 : Vec F S1024x256 .f32) (xs : Vec F S1024x256 .f32) (y : S1024x256.Idx) :
    ∃ pc ∈ (kernelRun0_B c i arg2 harg2 arg3 harg3 arg4 harg4 arg5 harg5 arg6 harg6 arg7 harg7 arg8 harg8 arg9 harg9 hc0 hc1 x0 x1 xs).1, y ∈ pc.1.set :=
  View.cover_of_tiledL (kernelRun0_B c i arg2 harg2 arg3 harg3 arg4 harg4 arg5 harg5 arg6 harg6 arg7 harg7 arg8 harg8 arg9 harg9 hc0 hc1 x0 x1 xs).1 S1024x256.size (by sl_kernel_rfl) y
/-- The accumulator after a point with 0 < k < 7. -/
def sout0_B_0 (c : Dev nD) (i : grid0.Coords) (arg2 : Memref sig .tc .vmem S1024x1024 .f32) (harg2 : arg2.IsWhole) (arg3 : Memref sig .tc .vmem S1024x256 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x256 .f32) (harg9 : arg9.IsWhole) (hc0 : ¬isFirstK0 i) (hc1 : ¬isLastK0 i) (x0 : Vec F S1024x1024 .f32) (x1 : Vec F S1024x256 .f32) (xs : Vec F S1024x256 .f32) : Vec F S1024x256 .f32 :=
  View.canon (kernelRun0_B c i arg2 harg2 arg3 harg3 arg4 harg4 arg5 harg5 arg6 harg6 arg7 harg7 arg8 harg8 arg9 harg9 hc0 hc1 x0 x1 xs).1

/-- At k = 7 the output block's writes cover it, -/
theorem outCover0_C (c : Dev nD) (i : grid0.Coords) (arg2 : Memref sig .tc .vmem S1024x1024 .f32) (harg2 : arg2.IsWhole) (arg3 : Memref sig .tc .vmem S1024x256 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x256 .f32) (harg9 : arg9.IsWhole) (hc0 : ¬isFirstK0 i) (hc1 : isLastK0 i) (x0 : Vec F S1024x1024 .f32) (x1 : Vec F S1024x256 .f32) (x2 : Vec F S256x128 .f32) (x3 : Vec F S1x128 .f32) (x4 : Vec F S128x128 .f32) (x5 : Vec F S1x128 .f32) (xs : Vec F S1024x256 .f32) (y : S1024x128.Idx) :
    ∃ pc ∈ (kernelRun0_C c i arg2 harg2 arg3 harg3 arg4 harg4 arg5 harg5 arg6 harg6 arg7 harg7 arg8 harg8 arg9 harg9 hc0 hc1 x0 x1 x2 x3 x4 x5 xs).1, y ∈ pc.1.set :=
  View.cover_of_tiledL (kernelRun0_C c i arg2 harg2 arg3 harg3 arg4 harg4 arg5 harg5 arg6 harg6 arg7 harg7 arg8 harg8 arg9 harg9 hc0 hc1 x0 x1 x2 x3 x4 x5 xs).1 S1024x128.size (by sl_kernel_rfl) y
/-- and the output block holds their canonical contents. -/
def out0_C_6 (c : Dev nD) (i : grid0.Coords) (arg2 : Memref sig .tc .vmem S1024x1024 .f32) (harg2 : arg2.IsWhole) (arg3 : Memref sig .tc .vmem S1024x256 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x256 .f32) (harg9 : arg9.IsWhole) (hc0 : ¬isFirstK0 i) (hc1 : isLastK0 i) (x0 : Vec F S1024x1024 .f32) (x1 : Vec F S1024x256 .f32) (x2 : Vec F S256x128 .f32) (x3 : Vec F S1x128 .f32) (x4 : Vec F S128x128 .f32) (x5 : Vec F S1x128 .f32) (xs : Vec F S1024x256 .f32) : Vec F S1024x128 .f32 :=
  View.canon (kernelRun0_C c i arg2 harg2 arg3 harg3 arg4 harg4 arg5 harg5 arg6 harg6 arg7 harg7 arg8 harg8 arg9 harg9 hc0 hc1 x0 x1 x2 x3 x4 x5 xs).1
/-- Likewise the accumulator at k = 7. -/
theorem accCover0_C (c : Dev nD) (i : grid0.Coords) (arg2 : Memref sig .tc .vmem S1024x1024 .f32) (harg2 : arg2.IsWhole) (arg3 : Memref sig .tc .vmem S1024x256 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x256 .f32) (harg9 : arg9.IsWhole) (hc0 : ¬isFirstK0 i) (hc1 : isLastK0 i) (x0 : Vec F S1024x1024 .f32) (x1 : Vec F S1024x256 .f32) (x2 : Vec F S256x128 .f32) (x3 : Vec F S1x128 .f32) (x4 : Vec F S128x128 .f32) (x5 : Vec F S1x128 .f32) (xs : Vec F S1024x256 .f32) (y : S1024x256.Idx) :
    ∃ pc ∈ (kernelRun0_C c i arg2 harg2 arg3 harg3 arg4 harg4 arg5 harg5 arg6 harg6 arg7 harg7 arg8 harg8 arg9 harg9 hc0 hc1 x0 x1 x2 x3 x4 x5 xs).2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 x4 x5 xs).2.1 S1024x256.size (by sl_kernel_rfl) y
def sout0_C_0 (c : Dev nD) (i : grid0.Coords) (arg2 : Memref sig .tc .vmem S1024x1024 .f32) (harg2 : arg2.IsWhole) (arg3 : Memref sig .tc .vmem S1024x256 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x256 .f32) (harg9 : arg9.IsWhole) (hc0 : ¬isFirstK0 i) (hc1 : isLastK0 i) (x0 : Vec F S1024x1024 .f32) (x1 : Vec F S1024x256 .f32) (x2 : Vec F S256x128 .f32) (x3 : Vec F S1x128 .f32) (x4 : Vec F S128x128 .f32) (x5 : Vec F S1x128 .f32) (xs : Vec F S1024x256 .f32) : Vec F S1024x256 .f32 :=
  View.canon (kernelRun0_C c i arg2 harg2 arg3 harg3 arg4 harg4 arg5 harg5 arg6 harg6 arg7 harg7 arg8 harg8 arg9 harg9 hc0 hc1 x0 x1 x2 x3 x4 x5 xs).2.1

/-! ## Point by point -/

/-- A value for the output block's buffer at the points that store nothing into it; never consulted, the window being
    idle and not written back there. -/
def idleOut0 : Vec F S1024x128 .f32 := View.canon []

/-- One point: from what the accumulator held before it (`xs`), what the output's buffer and the accumulator hold after
    it — by the point's k: the reset-and-accumulate case, the accumulate-and-finish case, or plain accumulation. -/
def stepAt0 (c : Dev nD) (t : Fin cfg0.N) (xs : Vec F S1024x256 .f32) : Vec F S1024x128 .f32 × Vec F S1024x256 .f32 :=
  if h0 : t.val % 8 = 0 then (idleOut0, sout0_A_0 c (grid0.coords t) (stg0_0 t) (stgWhole0_0 t) (stg0_1 t) (stgWhole0_1 t) (stg0_2 t) (stgWhole0_2 t) (stg0_3 t) (stgWhole0_3 t) (stg0_4 t) (stgWhole0_4 t) (stg0_5 t) (stgWhole0_5 t) (stg0_6 t) (stgWhole0_6 t) acc0 (Memref.isWhole_whole _) ((isFirstK0_iff t).mpr h0) (fun h => notLast_of_first0 h0 ((isLastK0_iff t).mp h)) (iblk0 V c 0 t) (iblk0 V c 1 t))
  else if h1 : t.val % 8 = 7 then (out0_C_6 c (grid0.coords t) (stg0_0 t) (stgWhole0_0 t) (stg0_1 t) (stgWhole0_1 t) (stg0_2 t) (stgWhole0_2 t) (stg0_3 t) (stgWhole0_3 t) (stg0_4 t) (stgWhole0_4 t) (stg0_5 t) (stgWhole0_5 t) (stg0_6 t) (stgWhole0_6 t) acc0 (Memref.isWhole_whole _) (fun h => h0 ((isFirstK0_iff t).mp h)) ((isLastK0_iff t).mpr h1) (iblk0 V c 0 t) (iblk0 V c 1 t) (iblk0 V c 2 t) (iblk0 V c 3 t) (iblk0 V c 4 t) (iblk0 V c 5 t) xs, sout0_C_0 c (grid0.coords t) (stg0_0 t) (stgWhole0_0 t) (stg0_1 t) (stgWhole0_1 t) (stg0_2 t) (stgWhole0_2 t) (stg0_3 t) (stgWhole0_3 t) (stg0_4 t) (stgWhole0_4 t) (stg0_5 t) (stgWhole0_5 t) (stg0_6 t) (stgWhole0_6 t) acc0 (Memref.isWhole_whole _) (fun h => h0 ((isFirstK0_iff t).mp h)) ((isLastK0_iff t).mpr h1) (iblk0 V c 0 t) (iblk0 V c 1 t) (iblk0 V c 2 t) (iblk0 V c 3 t) (iblk0 V c 4 t) (iblk0 V c 5 t) xs)
  else (idleOut0, sout0_B_0 c (grid0.coords t) (stg0_0 t) (stgWhole0_0 t) (stg0_1 t) (stgWhole0_1 t) (stg0_2 t) (stgWhole0_2 t) (stg0_3 t) (stgWhole0_3 t) (stg0_4 t) (stgWhole0_4 t) (stg0_5 t) (stgWhole0_5 t) (stg0_6 t) (stgWhole0_6 t) acc0 (Memref.isWhole_whole _) (fun h => h0 ((isFirstK0_iff t).mp h)) (fun h => h1 ((isLastK0_iff t).mp h)) (iblk0 V c 0 t) (iblk0 V c 1 t) xs)

/-- After the body at point `n`: (the output block's staging buffer, the accumulator), the points chained in grid order. -/
def outsAt0 (c : Dev nD) : (n : ℕ) → n < cfg0.N → Vec F S1024x128 .f32 × Vec F S1024x256 .f32
  | 0, hn => stepAt0 V c ⟨0, hn⟩ (View.canon [])
  | n + 1, hn => stepAt0 V c ⟨n + 1, hn⟩ (outsAt0 c n (Nat.lt_of_succ_lt hn)).2

theorem outsAt0_pos (c : Dev nD) (t : Fin cfg0.N) (hz : t.val ≠ 0) :
    outsAt0 V c t.val t.isLt = stepAt0 V c t (outsAt0 V c (t.val - 1) (Nat.lt_of_le_of_lt (Nat.sub_le _ _) t.isLt)).2 := by
  obtain ⟨n, hn⟩ := t
  cases n with
  | zero => exact absurd rfl hz
  | succ n => rfl

theorem stepAt0_A (c : Dev nD) (t : Fin cfg0.N) (xs : Vec F S1024x256 .f32) (h0 : t.val % 8 = 0) :
    stepAt0 V c t xs = (idleOut0, sout0_A_0 c (grid0.coords t) (stg0_0 t) (stgWhole0_0 t) (stg0_1 t) (stgWhole0_1 t) (stg0_2 t) (stgWhole0_2 t) (stg0_3 t) (stgWhole0_3 t) (stg0_4 t) (stgWhole0_4 t) (stg0_5 t) (stgWhole0_5 t) (stg0_6 t) (stgWhole0_6 t) acc0 (Memref.isWhole_whole _) ((isFirstK0_iff t).mpr h0) (fun h => notLast_of_first0 h0 ((isLastK0_iff t).mp h)) (iblk0 V c 0 t) (iblk0 V c 1 t)) := dif_pos h0
theorem stepAt0_C (c : Dev nD) (t : Fin cfg0.N) (xs : Vec F S1024x256 .f32) (h0 : ¬t.val % 8 = 0) (h1 : t.val % 8 = 7) :
    stepAt0 V c t xs = (out0_C_6 c (grid0.coords t) (stg0_0 t) (stgWhole0_0 t) (stg0_1 t) (stgWhole0_1 t) (stg0_2 t) (stgWhole0_2 t) (stg0_3 t) (stgWhole0_3 t) (stg0_4 t) (stgWhole0_4 t) (stg0_5 t) (stgWhole0_5 t) (stg0_6 t) (stgWhole0_6 t) acc0 (Memref.isWhole_whole _) (fun h => h0 ((isFirstK0_iff t).mp h)) ((isLastK0_iff t).mpr h1) (iblk0 V c 0 t) (iblk0 V c 1 t) (iblk0 V c 2 t) (iblk0 V c 3 t) (iblk0 V c 4 t) (iblk0 V c 5 t) xs, sout0_C_0 c (grid0.coords t) (stg0_0 t) (stgWhole0_0 t) (stg0_1 t) (stgWhole0_1 t) (stg0_2 t) (stgWhole0_2 t) (stg0_3 t) (stgWhole0_3 t) (stg0_4 t) (stgWhole0_4 t) (stg0_5 t) (stgWhole0_5 t) (stg0_6 t) (stgWhole0_6 t) acc0 (Memref.isWhole_whole _) (fun h => h0 ((isFirstK0_iff t).mp h)) ((isLastK0_iff t).mpr h1) (iblk0 V c 0 t) (iblk0 V c 1 t) (iblk0 V c 2 t) (iblk0 V c 3 t) (iblk0 V c 4 t) (iblk0 V c 5 t) xs) := (dif_neg h0).trans (dif_pos h1)
theorem stepAt0_B (c : Dev nD) (t : Fin cfg0.N) (xs : Vec F S1024x256 .f32) (h0 : ¬t.val % 8 = 0) (h1 : ¬t.val % 8 = 7) :
    stepAt0 V c t xs = (idleOut0, sout0_B_0 c (grid0.coords t) (stg0_0 t) (stgWhole0_0 t) (stg0_1 t) (stgWhole0_1 t) (stg0_2 t) (stgWhole0_2 t) (stg0_3 t) (stgWhole0_3 t) (stg0_4 t) (stgWhole0_4 t) (stg0_5 t) (stgWhole0_5 t) (stg0_6 t) (stgWhole0_6 t) acc0 (Memref.isWhole_whole _) (fun h => h0 ((isFirstK0_iff t).mp h)) (fun h => h1 ((isLastK0_iff t).mp h)) (iblk0 V c 0 t) (iblk0 V c 1 t) xs) := (dif_neg h0).trans (dif_neg h1)

/-- At a point with k = 0, whatever came before. -/
theorem outsAt0_A (c : Dev nD) (t : Fin cfg0.N) (h0 : t.val % 8 = 0) :
    outsAt0 V c t.val t.isLt = (idleOut0, sout0_A_0 c (grid0.coords t) (stg0_0 t) (stgWhole0_0 t) (stg0_1 t) (stgWhole0_1 t) (stg0_2 t) (stgWhole0_2 t) (stg0_3 t) (stgWhole0_3 t) (stg0_4 t) (stgWhole0_4 t) (stg0_5 t) (stgWhole0_5 t) (stg0_6 t) (stgWhole0_6 t) acc0 (Memref.isWhole_whole _) ((isFirstK0_iff t).mpr h0) (fun h => notLast_of_first0 h0 ((isLastK0_iff t).mp h)) (iblk0 V c 0 t) (iblk0 V c 1 t)) := by
  by_cases hz : t.val = 0
  · obtain ⟨n, hn⟩ := t
    obtain rfl : n = 0 := hz
    exact stepAt0_A V c ⟨0, hn⟩ _ h0
  · rw [outsAt0_pos V c t hz]; exact stepAt0_A V c t _ h0
theorem outsAt0_C (c : Dev nD) (t : Fin cfg0.N) (h0 : ¬t.val % 8 = 0) (h1 : t.val % 8 = 7) :
    outsAt0 V c t.val t.isLt = (out0_C_6 c (grid0.coords t) (stg0_0 t) (stgWhole0_0 t) (stg0_1 t) (stgWhole0_1 t) (stg0_2 t) (stgWhole0_2 t) (stg0_3 t) (stgWhole0_3 t) (stg0_4 t) (stgWhole0_4 t) (stg0_5 t) (stgWhole0_5 t) (stg0_6 t) (stgWhole0_6 t) acc0 (Memref.isWhole_whole _) (fun h => h0 ((isFirstK0_iff t).mp h)) ((isLastK0_iff t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2, sout0_C_0 c (grid0.coords t) (stg0_0 t) (stgWhole0_0 t) (stg0_1 t) (stgWhole0_1 t) (stg0_2 t) (stgWhole0_2 t) (stg0_3 t) (stgWhole0_3 t) (stg0_4 t) (stgWhole0_4 t) (stg0_5 t) (stgWhole0_5 t) (stg0_6 t) (stgWhole0_6 t) acc0 (Memref.isWhole_whole _) (fun h => h0 ((isFirstK0_iff t).mp h)) ((isLastK0_iff t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2) := by
  rw [outsAt0_pos V c t (fun hz => h0 (by rw [hz]))]; exact stepAt0_C V c t _ h0 h1
theorem outsAt0_B (c : Dev nD) (t : Fin cfg0.N) (h0 : ¬t.val % 8 = 0) (h1 : ¬t.val % 8 = 7) :
    outsAt0 V c t.val t.isLt = (idleOut0, sout0_B_0 c (grid0.coords t) (stg0_0 t) (stgWhole0_0 t) (stg0_1 t) (stgWhole0_1 t) (stg0_2 t) (stgWhole0_2 t) (stg0_3 t) (stgWhole0_3 t) (stg0_4 t) (stgWhole0_4 t) (stg0_5 t) (stgWhole0_5 t) (stg0_6 t) (stgWhole0_6 t) acc0 (Memref.isWhole_whole _) (fun h => h0 ((isFirstK0_iff t).mp h)) (fun h => h1 ((isLastK0_iff t).mp h)) (iblk0 V c 0 t) (iblk0 V c 1 t) (outsAt0 V c (t.val - 1) (Nat.lt_of_le_of_lt (Nat.sub_le _ _) t.isLt)).2) := by
  rw [outsAt0_pos V c t (fun hz => h0 (by rw [hz]))]; exact stepAt0_B V c t _ h0 h1

/-! ## The invariant -/

/-- Before point `n`: at entry the region's own invariant; afterwards the same with the accumulator at what point `n - 1` left. -/
def PhiS0 (c : Dev nD) : (n : ℕ) → n ≤ cfg0.N → sProp 𝕄
  | 0, _ => Pipeline.ΦA spec0 c
  | n + 1, hn => iprop(iprop(owns (c : Thread nD τ) acc0 fullShare ((outsAt0 V c n hn).2) ∗ others0 (F := F) c) ∗ (∃ r, prngReg c r))

theorem PhiS0_succ (c : Dev nD) (n : ℕ) (hn : n < cfg0.N) :
    PhiS0 V c (n + 1) hn = iprop(iprop(owns (c : Thread nD τ) acc0 fullShare ((outsAt0 V c n hn).2) ∗ others0 (F := F) c) ∗ (∃ r, prngReg c r)) := rfl

theorem PhiS0_pos (c : Dev nD) (n : ℕ) (h : n ≤ cfg0.N) (hz : n ≠ 0) :
    PhiS0 V c n h = iprop(iprop(owns (c : Thread nD τ) acc0 fullShare ((outsAt0 V c (n - 1) (by omega)).2) ∗ others0 (F := F) c) ∗ (∃ r, prngReg c r)) := by
  cases n with
  | zero => exact absurd rfl hz
  | succ n => rfl

/-- Whatever the point, the invariant yields the accumulator at SOME contents beside the rest. -/
theorem PhiS0_forget (c : Dev nD) (n : ℕ) (h : n ≤ cfg0.N) :
    PhiS0 V c n h ⊢ iprop(iprop((∃ d, owns (c : Thread nD τ) acc0 fullShare d) ∗ others0 (F := F) c) ∗ (∃ r, prngReg c r)) := by
  cases n with
  | zero =>
    rw [show PhiS0 V c 0 h = Pipeline.ΦA spec0 c from rfl, PhiA0_eq]
    try exact Idealize.SL.BI.Entails.refl _
  | succ n =>
    rw [PhiS0_succ]
    iintro ⟨⟨HS, Hr⟩, Hg⟩
    isplitl [HS Hr]
    · isplitl [HS]
      · iexists _; iexact HS
      iexact Hr
    iexact Hg

/-! ## The proof data -/

/-- The pipeline's proof data on core `c`: arrays at the entry contents; after the body each input's buffer still at
    its block and the output's at `outsAt0`'s first component; the invariant `PhiS0`; full shares, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = (outsAt0 V c t.val t.isLt).1 := by dsimp only [dat0]

theorem Phi0_castSucc (c : Dev nD) (t : Fin cfg0.N) :
    (dat0 V c).Φ t.castSucc = PhiS0 V c t.val (Nat.le_of_lt t.isLt) := by
  dsimp only [dat0]; simp only [Fin.coe_castSucc]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

theorem leaves0_0 (c : Dev nD) (t : Fin cfg0.N) :
    (dat0 V c).leavesExact 0 t = owns (c : Thread nD τ) (stg0_0 t) fullShare (iblk0 V c 0 t) := by
  unfold Dat.leavesExact; rw [live0_0 t, after0_0]
theorem leaves0_1 (c : Dev nD) (t : Fin cfg0.N) :
    (dat0 V c).leavesExact 1 t = owns (c : Thread nD τ) (stg0_1 t) fullShare (iblk0 V c 1 t) := by
  unfold Dat.leavesExact; rw [live0_1 t, after0_1]
theorem leaves0_2 (c : Dev nD) (t : Fin cfg0.N) :
    (dat0 V c).leavesExact 2 t = owns (c : Thread nD τ) (stg0_2 t) fullShare (iblk0 V c 2 t) := by
  unfold Dat.leavesExact; rw [live0_2 t, after0_2]
theorem leaves0_3 (c : Dev nD) (t : Fin cfg0.N) :
    (dat0 V c).leavesExact 3 t = owns (c : Thread nD τ) (stg0_3 t) fullShare (iblk0 V c 3 t) := by
  unfold Dat.leavesExact; rw [live0_3 t, after0_3]
theorem leaves0_4 (c : Dev nD) (t : Fin cfg0.N) :
    (dat0 V c).leavesExact 4 t = owns (c : Thread nD τ) (stg0_4 t) fullShare (iblk0 V c 4 t) := by
  unfold Dat.leavesExact; rw [live0_4 t, after0_4]
theorem leaves0_5 (c : Dev nD) (t : Fin cfg0.N) :
    (dat0 V c).leavesExact 5 t = owns (c : Thread nD τ) (stg0_5 t) fullShare (iblk0 V c 5 t) := by
  unfold Dat.leavesExact; rw [live0_5 t, after0_5]
theorem leaves0_6_last (c : Dev nD) (t : Fin cfg0.N) (h1 : t.val % 8 = 7) :
    (dat0 V c).leavesExact 6 t = owns (c : Thread nD τ) (stg0_6 t) fullShare (outsAt0 V c t.val t.isLt).1 := by
  unfold Dat.leavesExact; rw [live0_6 t ((isLastK0_iff t).mpr h1), after0_6]
theorem leaves0_6_idle (c : Dev nD) (t : Fin cfg0.N) (h1 : ¬t.val % 8 = 7) :
    (dat0 V c).leavesExact 6 t = iprop(∃ d, owns (c : Thread nD τ) (stg0_6 t) fullShare ((dat0 V c).before 6 t d)) :=
  Dat.leavesExact_idle (dat0 V c) 6 t (idle0_6 t (fun h => h1 ((isLastK0_iff t).mp h))) (keep0_6 t (fun h => h1 ((isLastK0_iff t).mp h)))

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (stg0_0 t) fullShare ((dat0 V c).before 0 t d))
    ∗ (∃ d, owns (c : Thread nD τ) (stg0_1 t) fullShare ((dat0 V c).before 1 t d))
    ∗ (∃ d, owns (c : Thread nD τ) (stg0_2 t) fullShare ((dat0 V c).before 2 t d))
    ∗ (∃ d, owns (c : Thread nD τ) (stg0_3 t) fullShare ((dat0 V c).before 3 t d))
    ∗ (∃ d, owns (c : Thread nD τ) (stg0_4 t) fullShare ((dat0 V c).before 4 t d))
    ∗ (∃ d, owns (c : Thread nD τ) (stg0_5 t) fullShare ((dat0 V c).before 5 t d))
    ∗ (∃ d, owns (c : Thread nD τ) (stg0_6 t) fullShare ((dat0 V c).before 6 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

set_option maxHeartbeats 4800000 in
/-- The body at any point. The inputs' buffers hold their blocks; the point's k selects the case and its run; the
    invariant supplies the accumulator (at what the point before left when k ≠ 0, at anything when k = 0) and receives it
    back at this point's contents; the windows the case does not touch pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2, leaves0_3, leaves0_4, leaves0_5, Phi0_castSucc]
  by_cases h0 : t.val % 8 = 0
  · have h1 : ¬t.val % 8 = 7 := notLast_of_first0 h0
    rw [leaves0_6_idle V c t h1, outsAt0_A V c t h0]
    unfold sout0_A_0; dsimp only
    iintro ⟨HΦ, Ho, ⟨%d0, H0⟩, ⟨%d1, H1⟩, ⟨%d2, H2⟩, ⟨%d3, H3⟩, ⟨%d4, H4⟩, ⟨%d5, H5⟩, H6⟩
    ihave HΦ' := (PhiS0_forget V c _ _) $$ HΦ
    icases HΦ' with ⟨⟨HS, Hr⟩, Hg⟩
    iapply ((kernelRun0_A c (grid0.coords t) _ _ _ _ _ _ _ _ _ _ _ _ _ _ _ _ ((isFirstK0_iff t).mpr h0) (fun h => notLast_of_first0 h0 ((isLastK0_iff t).mp h)) (iblk0 V c 0 t) (iblk0 V c 1 t)).2 Set.univ _)
    isplitl [H0]; · iexact H0
    isplitl [H1]; · iexact H1
    isplitl [HS]; · iexact HS
    iintro ⟨H0, H1, ⟨%es, HS⟩⟩
    isplitl [HS Hr Hg]
    · isplitl [HS Hr]
      · isplitl [HS]
        · unfold owns; iexists _; isplitr
          swap; · iexact HS
          ipureintro; exact View.read_writes_eq_canon _ _ _ (accCover0_A c _ _ _ _ _ _ _ _ _ _ _ _ _ _ _ _ _ _ _ _ _)
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have hz : t.val ≠ 0 := fun hz => h0 (by rw [hz])
    rw [PhiS0_pos V c _ _ hz]
    by_cases h1 : t.val % 8 = 7
    · rw [leaves0_6_last V c t h1, outsAt0_C V c t h0 h1]
      unfold out0_C_6 sout0_C_0; dsimp only
      iintro ⟨⟨⟨HS, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_C c (grid0.coords t) _ _ _ _ _ _ _ _ _ _ _ _ _ _ _ _ (fun h => h0 ((isFirstK0_iff t).mp h)) ((isLastK0_iff t).mpr h1) (iblk0 V c 0 t) (iblk0 V c 1 t) (iblk0 V c 2 t) (iblk0 V c 3 t) (iblk0 V c 4 t) (iblk0 V c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, ⟨%e6, H6⟩, ⟨%es, HS⟩⟩
      isplitl [HS Hr Hg]
      · isplitl [HS Hr]
        · isplitl [HS]
          · unfold owns; iexists _; isplitr
            swap; · iexact HS
            ipureintro; exact View.read_writes_eq_canon _ _ _ (accCover0_C c _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_eq_canon _ _ _ (outCover0_C c _ _ _ _ _ _ _ _ _ _ _ _ _ _ _ _ _ _ _ _ _ _ _ _ _ _)
    · rw [leaves0_6_idle V c t h1, outsAt0_B V c t h0 h1]
      unfold sout0_B_0; dsimp only
      iintro ⟨⟨⟨HS, Hr⟩, Hg⟩, Ho, ⟨%d0, H0⟩, ⟨%d1, H1⟩, ⟨%d2, H2⟩, ⟨%d3, H3⟩, ⟨%d4, H4⟩, ⟨%d5, H5⟩, H6⟩
      iapply ((kernelRun0_B c (grid0.coords t) _ _ _ _ _ _ _ _ _ _ _ _ _ _ _ _ (fun h => h0 ((isFirstK0_iff t).mp h)) (fun h => h1 ((isLastK0_iff t).mp h)) (iblk0 V c 0 t) (iblk0 V c 1 t) _).2 Set.univ _)
      isplitl [H0]; · iexact H0
      isplitl [H1]; · iexact H1
      isplitl [HS]; · iexact HS
      iintro ⟨H0, H1, ⟨%es, HS⟩⟩
      isplitl [HS Hr Hg]
      · isplitl [HS Hr]
        · isplitl [HS]
          · unfold owns; iexists _; isplitr
            swap; · iexact HS
            ipureintro; exact View.read_writes_eq_canon _ _ _ (accCover0_B c _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

theorem body_obligation0 (c : Dev nD) : BodyObligation (dat0 (F := F) V c) (defs₀ (F := F)) Variants.none () Set.univ := fun t => by
  rw [bigSep_W0, bigSep_W0]
  exact sound_body0 V c t

/-! ## Entry and exit -/

theorem hin0 (c : Dev nD) : Pipeline.ΦA spec0 c ⊢ (dat0 V c).Φ 0 := by
  rw [show (dat0 V c).Φ 0 = PhiS0 V c 0 (Nat.zero_le _) from rfl, show PhiS0 V c 0 (Nat.zero_le _) = Pipeline.ΦA spec0 c from rfl]
  try exact Idealize.SL.BI.Entails.refl _

theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl, PhiA0_eq]
  exact PhiS0_forget V c _ _

/-! ## The contents over the body's payloads -/

theorem zeroOff : (![0, 0] : Fin 2 → Nat) = fun _ => 0 := funext fun a => by fin_cases a <;> rfl

/-- After a point with k = 0 the accumulator holds the partial product added to the zero block: the reset's store is
    read back whole by the accumulating load. -/
theorem sout0_A_0_eq (c : Dev nD) (i : grid0.Coords) (arg2 : Memref sig .tc .vmem S1024x1024 .f32) (harg2 : arg2.IsWhole) (arg3 : Memref sig .tc .vmem S1024x256 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x256 .f32) (harg9 : arg9.IsWhole) (hc0 : isFirstK0 i) (hc1 : ¬isLastK0 i) (x0 : Vec F S1024x1024 .f32) (x1 : Vec F S1024x256 .f32) :
    sout0_A_0 c i arg2 harg2 arg3 harg3 arg4 harg4 arg5 harg5 arg6 harg6 arg7 harg7 arg8 harg8 arg9 harg9 hc0 hc1 x0 x1 = k0_pay2 x0 x1 k0_pay1 := by
  unfold sout0_A_0 kernelRun0_A
  dsimp only
  sl_unfold_words
  rw [View.canon_cons_unit_zero (S := S1024x256) zeroOff, View.readCov_unit_zero (S := S1024x256) _ zeroOff]
  simp only [View.readAt_eq_ld, harg2.read_unread, harg3.read_unread, View.ld_unit_zero (S := S1024x1024) zeroOff, View.ld_unit_zero (S := S1024x256) zeroOff]

/-- After a point with 0 < k < 7: the partial product added to what the accumulator held. -/
theorem sout0_B_0_eq (c : Dev nD) (i : grid0.Coords) (arg2 : Memref sig .tc .vmem S1024x1024 .f32) (harg2 : arg2.IsWhole) (arg3 : Memref sig .tc .vmem S1024x256 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x256 .f32) (harg9 : arg9.IsWhole) (hc0 : ¬isFirstK0 i) (hc1 : ¬isLastK0 i) (x0 : Vec F S1024x1024 .f32) (x1 : Vec F S1024x256 .f32) (xs : Vec F S1024x256 .f32) :
    sout0_B_0 c i arg2 harg2 arg3 harg3 arg4 harg4 arg5 harg5 arg6 harg6 arg7 harg7 arg8 harg8 arg9 harg9 hc0 hc1 x0 x1 xs = k0_pay2 x0 x1 xs := by
  unfold sout0_B_0 kernelRun0_B
  dsimp only
  rw [View.canon_unit_zero (S := S1024x256) zeroOff]
  simp only [View.readAt_eq_ld, harg2.read_unread, harg3.read_unread, harg9.read_unread, View.ld_unit_zero (S := S1024x1024) zeroOff, View.ld_unit_zero (S := S1024x256) zeroOff]

/-- After a point with k = 7 the accumulator likewise, -/
theorem sout0_C_0_eq (c : Dev nD) (i : grid0.Coords) (arg2 : Memref sig .tc .vmem S1024x1024 .f32) (harg2 : arg2.IsWhole) (arg3 : Memref sig .tc .vmem S1024x256 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x256 .f32) (harg9 : arg9.IsWhole) (hc0 : ¬isFirstK0 i) (hc1 : isLastK0 i) (x0 : Vec F S1024x1024 .f32) (x1 : Vec F S1024x256 .f32) (x2 : Vec F S256x128 .f32) (x3 : Vec F S1x128 .f32) (x4 : Vec F S128x128 .f32) (x5 : Vec F S1x128 .f32) (xs : Vec F S1024x256 .f32) :
    sout0_C_0 c i arg2 harg2 arg3 harg3 arg4 harg4 arg5 harg5 arg6 harg6 arg7 harg7 arg8 harg8 arg9 harg9 hc0 hc1 x0 x1 x2 x3 x4 x5 xs = k0_pay2 x0 x1 xs := by
  unfold sout0_C_0 kernelRun0_C
  dsimp only
  sl_unfold_words
  rw [View.canon_unit_zero (S := S1024x256) zeroOff]
  simp only [View.readAt_eq_ld, harg2.read_unread, harg3.read_unread, harg9.read_unread, View.ld_unit_zero (S := S1024x1024) zeroOff, View.ld_unit_zero (S := S1024x256) zeroOff]

/-- and the output block holds the epilogue of the finished accumulator. -/
theorem out0_C_6_eq (c : Dev nD) (i : grid0.Coords) (arg2 : Memref sig .tc .vmem S1024x1024 .f32) (harg2 : arg2.IsWhole) (arg3 : Memref sig .tc .vmem S1024x256 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x256 .f32) (harg9 : arg9.IsWhole) (hc0 : ¬isFirstK0 i) (hc1 : isLastK0 i) (x0 : Vec F S1024x1024 .f32) (x1 : Vec F S1024x256 .f32) (x2 : Vec F S256x128 .f32) (x3 : Vec F S1x128 .f32) (x4 : Vec F S128x128 .f32) (x5 : Vec F S1x128 .f32) (xs : Vec F S1024x256 .f32) :
    out0_C_6 c i arg2 harg2 arg3 harg3 arg4 harg4 arg5 harg5 arg6 harg6 arg7 harg7 arg8 harg8 arg9 harg9 hc0 hc1 x0 x1 x2 x3 x4 x5 xs = k0_pay3 (k0_pay2 x0 x1 xs) x2 x3 x4 x5 := by
  unfold out0_C_6 kernelRun0_C
  dsimp only
  sl_unfold_words
  rw [View.canon_unit_zero (S := S1024x128) zeroOff, View.readCov_unit_zero (S := S1024x256) _ zeroOff]
  simp only [View.readAt_eq_ld, harg2.read_unread, harg3.read_unread, harg4.read_unread, harg5.read_unread, harg6.read_unread, harg7.read_unread, harg9.read_unread,
    View.ld_unit_zero (S := S1024x1024) zeroOff, View.ld_unit_zero (S := S1024x256) zeroOff, View.ld_unit_zero (S := S256x128) zeroOff,
    View.ld_unit_zero (S := S1x128) zeroOff, View.ld_unit_zero (S := S128x128) zeroOff]

/-! ## Closed forms over the grid -/

theorem scratch0_first (c : Dev nD) (t : Fin cfg0.N) (h : t.val % 8 = 0) :
    (outsAt0 V c t.val t.isLt).2 = k0_pay2 (iblk0 V c 0 t) (iblk0 V c 1 t) k0_pay1 := by
  rw [outsAt0_A V c t h]
  dsimp only
  exact sout0_A_0_eq (F := F) c (grid0.coords t) (stg0_0 t) (stgWhole0_0 t) (stg0_1 t) (stgWhole0_1 t) (stg0_2 t) (stgWhole0_2 t) (stg0_3 t) (stgWhole0_3 t) (stg0_4 t) (stgWhole0_4 t) (stg0_5 t) (stgWhole0_5 t) (stg0_6 t) (stgWhole0_6 t) acc0 (Memref.isWhole_whole _) ((isFirstK0_iff t).mpr h) (fun h' => notLast_of_first0 h ((isLastK0_iff t).mp h')) (iblk0 V c 0 t) (iblk0 V c 1 t)

theorem scratch0_step (c : Dev nD) (t : Fin cfg0.N) (h : t.val % 8 ≠ 0) :
    (outsAt0 V c t.val t.isLt).2 = k0_pay2 (iblk0 V c 0 t) (iblk0 V c 1 t) (outsAt0 V c (t.val - 1) (Nat.lt_of_le_of_lt (Nat.sub_le _ _) t.isLt)).2 := by
  by_cases h1 : t.val % 8 = 7
  · rw [outsAt0_C V c t h h1]
    dsimp only
    exact sout0_C_0_eq (F := F) c (grid0.coords t) (stg0_0 t) (stgWhole0_0 t) (stg0_1 t) (stgWhole0_1 t) (stg0_2 t) (stgWhole0_2 t) (stg0_3 t) (stgWhole0_3 t) (stg0_4 t) (stgWhole0_4 t) (stg0_5 t) (stgWhole0_5 t) (stg0_6 t) (stgWhole0_6 t) acc0 (Memref.isWhole_whole _) (fun h' => h ((isFirstK0_iff t).mp h')) ((isLastK0_iff t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2
  · rw [outsAt0_B V c t h h1]
    dsimp only
    exact sout0_B_0_eq (F := F) c (grid0.coords t) (stg0_0 t) (stgWhole0_0 t) (stg0_1 t) (stgWhole0_1 t) (stg0_2 t) (stgWhole0_2 t) (stg0_3 t) (stgWhole0_3 t) (stg0_4 t) (stgWhole0_4 t) (stg0_5 t) (stgWhole0_5 t) (stg0_6 t) (stgWhole0_6 t) acc0 (Memref.isWhole_whole _) (fun h' => h ((isFirstK0_iff t).mp h')) (fun h' => h1 ((isLastK0_iff t).mp h')) (iblk0 V c 0 t) (iblk0 V c 1 t) (outsAt0 V c (t.val - 1) (Nat.lt_of_le_of_lt (Nat.sub_le _ _) t.isLt)).2

theorem out0_last (c : Dev nD) (t : Fin cfg0.N) (h : t.val % 8 = 7) :
    (outsAt0 V c t.val t.isLt).1 = k0_pay3 (outsAt0 V c t.val t.isLt).2 (iblk0 V c 2 t) (iblk0 V c 3 t) (iblk0 V c 4 t) (iblk0 V c 5 t) := by
  have h0 : ¬t.val % 8 = 0 := by omega
  rw [outsAt0_C V c t h0 h]
  dsimp only
  refine (out0_C_6_eq (F := F) c (grid0.coords t) (stg0_0 t) (stgWhole0_0 t) (stg0_1 t) (stgWhole0_1 t) (stg0_2 t) (stgWhole0_2 t) (stg0_3 t) (stgWhole0_3 t) (stg0_4 t) (stgWhole0_4 t) (stg0_5 t) (stgWhole0_5 t) (stg0_6 t) (stgWhole0_6 t) acc0 (Memref.isWhole_whole _) (fun h' => h0 ((isFirstK0_iff t).mp h')) ((isLastK0_iff t).mpr h) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2).trans ?_
  exact congrArg (fun a => k0_pay3 a (iblk0 V c 2 t) (iblk0 V c 3 t) (iblk0 V c 4 t) (iblk0 V c 5 t)) (sout0_C_0_eq (F := F) c (grid0.coords t) (stg0_0 t) (stgWhole0_0 t) (stg0_1 t) (stgWhole0_1 t) (stg0_2 t) (stgWhole0_2 t) (stg0_3 t) (stgWhole0_3 t) (stg0_4 t) (stgWhole0_4 t) (stg0_5 t) (stgWhole0_5 t) (stg0_6 t) (stgWhole0_6 t) acc0 (Memref.isWhole_whole _) (fun h' => h0 ((isFirstK0_iff t).mp h')) ((isLastK0_iff t).mpr h) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2).symm

end Cert.Kernel.Hand

end
-- ==== Proof.HandKernel.R1Shared.lean ====
import proofs.«117335_j42545946034709_1_alg».proof.Proof.Gen.Kernel.Launch
import proofs.«117335_j42545946034709_1_alg».proof.Proof.Gen.Kernel.Skeleton
import proofs.«117335_j42545946034709_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- covering a 1024-extent rectangle is checked by a structural recursion over its coordinates
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second matmul region (the inverse transform), blocked over its contraction axis

The region's grid is 8 × 8; point `t` is the pair `(m, k) = (t / 8, t % 8)`. At each point the body adds the
product of the current basis block and the current block of the first region's result into an accumulator that
lives outside the pipelined windows; the accumulator is zeroed when `k = 0` and copied to the output block when
`k = 7`. Everything here is stated at arbitrary buffer contents `V` on entry to the region. -/

section Entry
variable (V : (c : Dev nD) → (b : Ref sig .tc) → Buf (Elt F) ((c : Thread nD τ).loc b))

/-- The block of window `w` that point `t` addresses, read from the window's array as it stands on entry. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The basis window is an input that is never idle and never cut: whatever proof data has `V` for this array and
    leaves the block in place after the body, its current staging buffer holds the addressed block before the body. -/
theorem held1_0 {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the window on the first region's result. -/
theorem held1_1 {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end Entry

/-! ## The two tests on the contraction index -/

/-- "This is the first step of the contraction" (`k = 0`), as the body computes it from the grid coordinates. -/
abbrev isFirst1 (i : grid1.Coords) : Prop := (Scalar.cmpi .ne (Scalar.extui (Scalar.cmpi .eq (BitVec.ofNat 32 (i 1).val) 0#32)) 0#32) = 1#1
/-- It holds exactly at the points with `t % 8 = 0`. -/
theorem isFirst1_iff : ∀ t : Fin cfg1.N, isFirst1 (grid1.coords t) ↔ t.val % 8 = 0 :=
  (by decide +kernel : ∀ t : Fin grid1.N, isFirst1 (grid1.coords t) ↔ t.val % 8 = 0)

/-- "This is the last step of the contraction" (`k = 7`). -/
abbrev isLast1 (i : grid1.Coords) : Prop := k1_cond2 i = 1#1
/-- It holds exactly at the points with `t % 8 = 7`. -/
theorem isLast1_iff : ∀ t : Fin cfg1.N, isLast1 (grid1.coords t) ↔ t.val % 8 = 7 :=
  (by decide +kernel : ∀ t : Fin grid1.N, isLast1 (grid1.coords t) ↔ t.val % 8 = 7)

/-! ## Which windows the body touches where -/

/-- Both inputs are read at every point. -/
theorem busy1_0 : ∀ t : Fin cfg1.N, cfg1.idle 0 (grid1.coords t) = false := by decide +kernel
theorem busy1_1 : ∀ t : Fin cfg1.N, cfg1.idle 1 (grid1.coords t) = false := by decide +kernel
/-- Away from the last step the output block is neither stored into nor written back. -/
theorem quiet1_2 : ∀ t : Fin cfg1.N, ¬isLast1 (grid1.coords t) → cfg1.idle 2 (grid1.coords t) = true := by decide +kernel
theorem unflushed1_2 : ∀ t : Fin cfg1.N, ¬isLast1 (grid1.coords t) → (cfg1.win 2).flush t = false := by decide +kernel
/-- At the last step it is stored into. -/
theorem busy1_2 : ∀ t : Fin cfg1.N, isLast1 (grid1.coords t) → cfg1.idle 2 (grid1.coords t) = false := by decide +kernel

/-! ## The memrefs the body is called with -/

/-- A fixed view of the output block's shape through which the output buffer's contents are named (any view of the
    shape reads the same thing back from a covering list of stores). -/
abbrev VO1_2 : View sig .tc .vmem S1024x128 .f32 := (Memref.whole cc1_stg2_0 : Memref sig .tc .vmem S1024x128 .f32).view
/-- The current staging memref of each window at point `t`, and that it is a whole buffer. -/
abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x128 .f32 := win1_2.stage (cfg1.slots t 2)
abbrev hs1_2 (t : Fin cfg1.N) : (ms1_2 t).IsWhole := hstage1_2 ((cfg1.slots t 2).cast nbuf1_2)
/-- The accumulator: a whole scoped buffer that no window stages. -/
abbrev scM1_0 : Memref sig .tc .vmem S1024x128 .f32 := Memref.whole cc1_scratch0
/-- and the view through which its contents are named. -/
abbrev VS1_0 : View sig .tc .vmem S1024x128 .f32 := scM1_0.view

/-! ## The region invariant, opened -/

/-- The core's scoped buffers that this region never touches (the first region's staging buffers and accumulator), each
    at some contents. -/
def bystanders1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_scratch0), ((c : Thread nD τ).loc cc0_scratch0) ↦{fullShare} f))

/-- The invariant the launch hands the region is: the untouched scoped buffers, the accumulator owned at some contents,
    and the generator register at some state. -/
theorem PhiA1_eq (c : Dev nD) :
    (Pipeline.ΦA spec1 c : sProp 𝕄)
      = iprop(iprop(bystanders1 (F := F) c ∗ (∃ d, owns (c : Thread nD τ) scM1_0 fullShare d)) ∗ (∃ r, prngReg c r)) := by
  unfold Pipeline.ΦA bystanders1; rw [scopedRest1_eq]; simp only [scM1_0, owns_whole]
  refine BI.equiv_iff.mp ⟨?_, ?_⟩
  · show (_ : sProp 𝕄) ⊢ _
    iintro ⟨⟨R0, R1, R2, R3, R4, R5, R6, R7, R8, R9, R10, HS⟩, Hg⟩
    isplitr [Hg]
    swap; · iexact Hg
    isplitr [HS]
    swap; · iexact HS
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    iexact R10
  · show (_ : sProp 𝕄) ⊢ _
    iintro ⟨⟨⟨R0, R1, R2, R3, R4, R5, R6, R7, R8, R9, R10⟩, HS⟩, Hg⟩
    isplitr [Hg]
    swap; · iexact Hg
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    iexact HS

end Cert.Kernel.Hand

end
-- ==== Proof.HandKernel.R1RunA.lean ====
import proofs.«117335_j42545946034709_1_alg».proof.Proof.HandKernel.R1Shared

-- covering a 1024-extent rectangle is checked by a structural recursion over its coordinates
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the symbolic run produces a large term; closing the definition walks all of it
set_option maxHeartbeats 1000000 in
/-- THE BODY AT A FIRST STEP (`k = 0`). Given whole memrefs — the two input blocks at contents `x0`, `x1`, the output
    buffer at contents `xi2` that must come back untouched, the accumulator at anything — the body runs to a
    continuation that gets the inputs and the output buffer back unchanged and the accumulator with a list of stores
    `LS0` applied (newest first). The stores the output buffer receives (none) and `LS0` are found by running the body
    symbolically; they are the data of this definition, the triple is its proof component. -/
noncomputable def kernelRun1_A (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : isFirst1 i) (hc1 : ¬isLast1 i)
    (x0 : Vec F S1024x1024 .f32) (x1 : Vec F S1024x128 .f32) :
    Σ' (L2 : List (View.Piece (Elt F) S1024x128 .f32)), { LS0 : List (View.Piece (Elt F) S1024x128 .f32) //
      ∀ (xi2 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__igft_kernel i arg2 harg2 arg3 harg3 arg4 harg4 arg5 harg5) K } := by
  refine ⟨[], ?_, fun xi2 E K => ?run⟩
  case run =>
    simp only [cc1__igft_kernel_eq_skeleton]; unfold cc1__igft_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.HandKernel.R1RunB.lean ====
import proofs.«117335_j42545946034709_1_alg».proof.Proof.HandKernel.R1RunA

-- covering a 1024-extent rectangle is checked by a structural recursion over its coordinates
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the symbolic run produces a large term; closing the definition walks all of it
set_option maxHeartbeats 1000000 in
/-- THE BODY AT A MIDDLE STEP (`0 < k < 7`). As at a first step, except that the accumulator comes in at the contents
    `xs0` the step before left, and the product is added to those. -/
noncomputable def kernelRun1_B (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬isFirst1 i) (hc1 : ¬isLast1 i)
    (x0 : Vec F S1024x1024 .f32) (x1 : Vec F S1024x128 .f32) (xs0 : Vec F S1024x128 .f32) :
    Σ' (L2 : List (View.Piece (Elt F) S1024x128 .f32)), { LS0 : List (View.Piece (Elt F) S1024x128 .f32) //
      ∀ (xi2 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__igft_kernel i arg2 harg2 arg3 harg3 arg4 harg4 arg5 harg5) K } := by
  refine ⟨[], ?_, fun xi2 E K => ?run⟩
  case run =>
    simp only [cc1__igft_kernel_eq_skeleton]; unfold cc1__igft_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.HandKernel.R1RunC.lean ====
import proofs.«117335_j42545946034709_1_alg».proof.Proof.HandKernel.R1RunB

-- covering a 1024-extent rectangle is checked by a structural recursion over its coordinates
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the symbolic run produces a large term; closing the definition walks all of it
set_option maxHeartbeats 1000000 in
/-- THE BODY AT A LAST STEP (`k = 7`). The accumulator comes in at `xs0`; the output buffer comes in at anything (the body
    loads it and ignores what it read) and goes out with the list of stores `L2` applied, the accumulator with `LS0`. -/
noncomputable def kernelRun1_C (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬isFirst1 i) (hc1 : isLast1 i)
    (x0 : Vec F S1024x1024 .f32) (x1 : Vec F S1024x128 .f32) (xs0 : Vec F S1024x128 .f32) :
    Σ' (L2 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__igft_kernel i arg2 harg2 arg3 harg3 arg4 harg4 arg5 harg5) K } := by
  refine ⟨?_, ?_, fun E K => ?run⟩
  case run =>
    simp only [cc1__igft_kernel_eq_skeleton]; unfold cc1__igft_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.HandKernel.R1Frame.lean ====
import proofs.«117335_j42545946034709_1_alg».proof.Proof.HandKernel.R1RunC
import Idealize.ShloMosaic.Lib.Pipeline.Value

-- covering a 1024-extent rectangle is checked by a structural recursion over its coordinates
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The accumulation of the second matmul region, point by point

From the three symbolic runs of the body (first / middle / last step of the contraction) this module names what the
accumulator and the output buffer hold after every grid point, packages that as the pipeline's proof data at arbitrary
entry contents `V`, and discharges the body obligation, the entry and the exit of the region invariant. -/

/-! ## What one step leaves, per kind of step -/

/-- A first step stores nothing into the output buffer: this reads an empty list of stores back over junk, a value that
    is never consulted (the window is idle and not written back there). -/
def out1_A_2 (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : isFirst1 i) (hc1 : ¬isLast1 i)
    (x0 : Vec F S1024x1024 .f32) (x1 : Vec F S1024x128 .f32) : Vec F S1024x128 .f32 :=
  VO1_2.read (Elt F) (VO1_2.writes (Elt F) VO1_2.junk (kernelRun1_A c i arg2 harg2 arg3 harg3 arg4 harg4 arg5 harg5 hc0 hc1 x0 x1).1)

/-- The stores a first step makes into the accumulator cover all of it. -/
theorem accCover1_A (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : isFirst1 i) (hc1 : ¬isLast1 i)
    (x0 : Vec F S1024x1024 .f32) (x1 : Vec F S1024x128 .f32) (y : S1024x128.Idx) :
    ∃ pc ∈ (kernelRun1_A c i arg2 harg2 arg3 harg3 arg4 harg4 arg5 harg5 hc0 hc1 x0 x1).2.1, y ∈ pc.1.set :=
  View.cover_of_tiledL (kernelRun1_A c i arg2 harg2 arg3 harg3 arg4 harg4 arg5 harg5 hc0 hc1 x0 x1).2.1 S1024x128.size (by sl_kernel_rfl) y

/-- The accumulator after a first step: its stores read back (over anything, since they cover). -/
def sout1_A_0 (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : isFirst1 i) (hc1 : ¬isLast1 i)
    (x0 : Vec F S1024x1024 .f32) (x1 : Vec F S1024x128 .f32) : Vec F S1024x128 .f32 :=
  VS1_0.read (Elt F) (VS1_0.writes (Elt F) VS1_0.junk (kernelRun1_A c i arg2 harg2 arg3 harg3 arg4 harg4 arg5 harg5 hc0 hc1 x0 x1).2.1)

/-- A middle step stores nothing into the output buffer either. -/
def out1_B_2 (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬isFirst1 i) (hc1 : ¬isLast1 i)
    (x0 : Vec F S1024x1024 .f32) (x1 : Vec F S1024x128 .f32) (xs0 : Vec F S1024x128 .f32) : Vec F S1024x128 .f32 :=
  VO1_2.read (Elt F) (VO1_2.writes (Elt F) VO1_2.junk (kernelRun1_B c i arg2 harg2 arg3 harg3 arg4 harg4 arg5 harg5 hc0 hc1 x0 x1 xs0).1)

/-- The store a middle step makes into the accumulator covers all of it. -/
theorem accCover1_B (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬isFirst1 i) (hc1 : ¬isLast1 i)
    (x0 : Vec F S1024x1024 .f32) (x1 : Vec F S1024x128 .f32) (xs0 : Vec F S1024x128 .f32) (y : S1024x128.Idx) :
    ∃ pc ∈ (kernelRun1_B c i arg2 harg2 arg3 harg3 arg4 harg4 arg5 harg5 hc0 hc1 x0 x1 xs0).2.1, y ∈ pc.1.set :=
  View.cover_of_tiledL (kernelRun1_B c i arg2 harg2 arg3 harg3 arg4 harg4 arg5 harg5 hc0 hc1 x0 x1 xs0).2.1 S1024x128.size (by sl_kernel_rfl) y

/-- The accumulator after a middle step. -/
def sout1_B_0 (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬isFirst1 i) (hc1 : ¬isLast1 i)
    (x0 : Vec F S1024x1024 .f32) (x1 : Vec F S1024x128 .f32) (xs0 : Vec F S1024x128 .f32) : Vec F S1024x128 .f32 :=
  VS1_0.read (Elt F) (VS1_0.writes (Elt F) VS1_0.junk (kernelRun1_B c i arg2 harg2 arg3 harg3 arg4 harg4 arg5 harg5 hc0 hc1 x0 x1 xs0).2.1)

/-- The store a last step makes into the output buffer covers all of it. -/
theorem outCover1_C (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬isFirst1 i) (hc1 : isLast1 i)
    (x0 : Vec F S1024x1024 .f32) (x1 : Vec F S1024x128 .f32) (xs0 : Vec F S1024x128 .f32) (y : S1024x128.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S1024x128.size (by sl_kernel_rfl) y

/-- The output buffer after a last step. -/
def out1_C_2 (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬isFirst1 i) (hc1 : isLast1 i)
    (x0 : Vec F S1024x1024 .f32) (x1 : Vec F S1024x128 .f32) (xs0 : Vec F S1024x128 .f32) : Vec F S1024x128 .f32 :=
  VO1_2.read (Elt F) (VO1_2.writes (Elt F) VO1_2.junk (kernelRun1_C c i arg2 harg2 arg3 harg3 arg4 harg4 arg5 harg5 hc0 hc1 x0 x1 xs0).1)

/-- The store a last step makes into the accumulator covers all of it. -/
theorem accCover1_C (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬isFirst1 i) (hc1 : isLast1 i)
    (x0 : Vec F S1024x1024 .f32) (x1 : Vec F S1024x128 .f32) (xs0 : Vec F S1024x128 .f32) (y : S1024x128.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S1024x128.size (by sl_kernel_rfl) y

/-- The accumulator after a last step. -/
def sout1_C_0 (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬isFirst1 i) (hc1 : isLast1 i)
    (x0 : Vec F S1024x1024 .f32) (x1 : Vec F S1024x128 .f32) (xs0 : Vec F S1024x128 .f32) : Vec F S1024x128 .f32 :=
  VS1_0.read (Elt F) (VS1_0.writes (Elt F) VS1_0.junk (kernelRun1_C c i arg2 harg2 arg3 harg3 arg4 harg4 arg5 harg5 hc0 hc1 x0 x1 xs0).2.1)

/-! ## The found stores, read as the body's arithmetic

Each run found one or two whole-buffer stores at offset `(0, 0)`; reading them back gives the payload of the newest one,
with every load of an input (or of the accumulator) replaced by the contents that buffer was handed over at. -/

/-- The offset `(0, 0)` is the zero offset. -/
theorem origin2 : (![0, 0] : Fin 2 → ℕ) = fun _ => 0 := by funext a; fin_cases a <;> rfl

/-- After a first step the accumulator is the product added to zeros. -/
theorem sout1_A_0_eq (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : isFirst1 i) (hc1 : ¬isLast1 i)
    (x0 : Vec F S1024x1024 .f32) (x1 : Vec F S1024x128 .f32) :
    sout1_A_0 c i arg2 harg2 arg3 harg3 arg4 harg4 arg5 harg5 hc0 hc1 x0 x1 = k1_pay2 x0 x1 k1_pay1 := by
  unfold sout1_A_0
  rw [View.read_writes_eq_canon _ _ _ (accCover1_A c i arg2 harg2 arg3 harg3 arg4 harg4 arg5 harg5 hc0 hc1 x0 x1)]
  unfold kernelRun1_A; dsimp only; sl_unfold_words
  rw [View.canon_cons_unit_zero origin2, View.readCov_unit_zero (S := S1024x128) _ origin2]
  simp only [View.readAt_eq_ld, harg2.read_unread, harg3.read_unread, View.ld_unit_zero (S := S1024x1024) origin2, View.ld_unit_zero (S := S1024x128) origin2]

/-- After a middle step the accumulator is the product added to what it held. -/
theorem sout1_B_0_eq (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬isFirst1 i) (hc1 : ¬isLast1 i)
    (x0 : Vec F S1024x1024 .f32) (x1 : Vec F S1024x128 .f32) (xs0 : Vec F S1024x128 .f32) :
    sout1_B_0 c i arg2 harg2 arg3 harg3 arg4 harg4 arg5 harg5 hc0 hc1 x0 x1 xs0 = k1_pay2 x0 x1 xs0 := by
  unfold sout1_B_0
  rw [View.read_writes_eq_canon _ _ _ (accCover1_B c i arg2 harg2 arg3 harg3 arg4 harg4 arg5 harg5 hc0 hc1 x0 x1 xs0)]
  unfold kernelRun1_B; dsimp only; sl_unfold_words
  rw [View.canon_unit_zero origin2]
  simp only [View.readAt_eq_ld, harg2.read_unread, harg3.read_unread, harg5.read_unread, View.ld_unit_zero (S := S1024x1024) origin2, View.ld_unit_zero (S := S1024x128) origin2]

/-- After a last step likewise. -/
theorem sout1_C_0_eq (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬isFirst1 i) (hc1 : isLast1 i)
    (x0 : Vec F S1024x1024 .f32) (x1 : Vec F S1024x128 .f32) (xs0 : Vec F S1024x128 .f32) :
    sout1_C_0 c i arg2 harg2 arg3 harg3 arg4 harg4 arg5 harg5 hc0 hc1 x0 x1 xs0 = k1_pay2 x0 x1 xs0 := by
  unfold sout1_C_0
  rw [View.read_writes_eq_canon _ _ _ (accCover1_C c i arg2 harg2 arg3 harg3 arg4 harg4 arg5 harg5 hc0 hc1 x0 x1 xs0)]
  unfold kernelRun1_C; dsimp only; sl_unfold_words
  rw [View.canon_unit_zero origin2]
  simp only [View.readAt_eq_ld, harg2.read_unread, harg3.read_unread, harg5.read_unread, View.ld_unit_zero (S := S1024x1024) origin2, View.ld_unit_zero (S := S1024x128) origin2]

/-- and the output buffer receives a copy of the accumulator as the step leaves it. -/
theorem out1_C_2_eq (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬isFirst1 i) (hc1 : isLast1 i)
    (x0 : Vec F S1024x1024 .f32) (x1 : Vec F S1024x128 .f32) (xs0 : Vec F S1024x128 .f32) :
    out1_C_2 c i arg2 harg2 arg3 harg3 arg4 harg4 arg5 harg5 hc0 hc1 x0 x1 xs0 = k1_pay2 x0 x1 xs0 := by
  unfold out1_C_2
  rw [View.read_writes_eq_canon _ _ _ (outCover1_C c i arg2 harg2 arg3 harg3 arg4 harg4 arg5 harg5 hc0 hc1 x0 x1 xs0)]
  unfold kernelRun1_C; dsimp only; sl_unfold_words
  rw [View.canon_unit_zero origin2, View.readCov_unit_zero (S := S1024x128) _ origin2]
  simp only [View.readAt_eq_ld, harg2.read_unread, harg3.read_unread, harg5.read_unread, View.ld_unit_zero (S := S1024x1024) origin2, View.ld_unit_zero (S := S1024x128) origin2]

/-! ## The kind of step from the point's number -/

theorem notLast_of_first (t : Fin cfg1.N) (h0 : t.val % 8 = 0) : ¬isLast1 (grid1.coords t) :=
  fun h => by have := (isLast1_iff t).mp h; omega
theorem notFirst_of (t : Fin cfg1.N) (h0 : ¬t.val % 8 = 0) : ¬isFirst1 (grid1.coords t) :=
  fun h => h0 ((isFirst1_iff t).mp h)
theorem notLast_of (t : Fin cfg1.N) (h1 : ¬t.val % 8 = 7) : ¬isLast1 (grid1.coords t) :=
  fun h => h1 ((isLast1_iff t).mp h)

section Entry
variable (V : (c : Dev nD) → (b : Ref sig .tc) → Buf (Elt F) ((c : Thread nD τ).loc b))

/-! ## The accumulation -/

/-- ONE STEP at point `t`: the pair (output buffer, accumulator) after the body, from the point's two input blocks and
    what the accumulator held before (`prev`, which a first step overwrites without reading). -/
def stepAt1 (c : Dev nD) (t : Fin cfg1.N) (prev : Vec F S1024x128 .f32) : Vec F S1024x128 .f32 × Vec F S1024x128 .f32 :=
  if h0 : t.val % 8 = 0 then
    (out1_A_2 c (grid1.coords t) (ms1_0 t) (hs1_0 t) (ms1_1 t) (hs1_1 t) (ms1_2 t) (hs1_2 t) scM1_0 (Memref.isWhole_whole _) ((isFirst1_iff t).mpr h0) (notLast_of_first t h0) (iblk1 V c 0 t) (iblk1 V c 1 t),
     sout1_A_0 c (grid1.coords t) (ms1_0 t) (hs1_0 t) (ms1_1 t) (hs1_1 t) (ms1_2 t) (hs1_2 t) scM1_0 (Memref.isWhole_whole _) ((isFirst1_iff t).mpr h0) (notLast_of_first t h0) (iblk1 V c 0 t) (iblk1 V c 1 t))
  else if h1 : t.val % 8 = 7 then
    (out1_C_2 c (grid1.coords t) (ms1_0 t) (hs1_0 t) (ms1_1 t) (hs1_1 t) (ms1_2 t) (hs1_2 t) scM1_0 (Memref.isWhole_whole _) (notFirst_of t h0) ((isLast1_iff t).mpr h1) (iblk1 V c 0 t) (iblk1 V c 1 t) prev,
     sout1_C_0 c (grid1.coords t) (ms1_0 t) (hs1_0 t) (ms1_1 t) (hs1_1 t) (ms1_2 t) (hs1_2 t) scM1_0 (Memref.isWhole_whole _) (notFirst_of t h0) ((isLast1_iff t).mpr h1) (iblk1 V c 0 t) (iblk1 V c 1 t) prev)
  else
    (out1_B_2 c (grid1.coords t) (ms1_0 t) (hs1_0 t) (ms1_1 t) (hs1_1 t) (ms1_2 t) (hs1_2 t) scM1_0 (Memref.isWhole_whole _) (notFirst_of t h0) (notLast_of t h1) (iblk1 V c 0 t) (iblk1 V c 1 t) prev,
     sout1_B_0 c (grid1.coords t) (ms1_0 t) (hs1_0 t) (ms1_1 t) (hs1_1 t) (ms1_2 t) (hs1_2 t) scM1_0 (Memref.isWhole_whole _) (notFirst_of t h0) (notLast_of t h1) (iblk1 V c 0 t) (iblk1 V c 1 t) prev)

theorem stepAt1_first (c : Dev nD) (t : Fin cfg1.N) (h0 : t.val % 8 = 0) (prev : Vec F S1024x128 .f32) :
    stepAt1 V c t prev =
      (out1_A_2 c (grid1.coords t) (ms1_0 t) (hs1_0 t) (ms1_1 t) (hs1_1 t) (ms1_2 t) (hs1_2 t) scM1_0 (Memref.isWhole_whole _) ((isFirst1_iff t).mpr h0) (notLast_of_first t h0) (iblk1 V c 0 t) (iblk1 V c 1 t),
       sout1_A_0 c (grid1.coords t) (ms1_0 t) (hs1_0 t) (ms1_1 t) (hs1_1 t) (ms1_2 t) (hs1_2 t) scM1_0 (Memref.isWhole_whole _) ((isFirst1_iff t).mpr h0) (notLast_of_first t h0) (iblk1 V c 0 t) (iblk1 V c 1 t)) := by
  unfold stepAt1; exact dif_pos h0

theorem stepAt1_last (c : Dev nD) (t : Fin cfg1.N) (h0 : ¬t.val % 8 = 0) (h1 : t.val % 8 = 7) (prev : Vec F S1024x128 .f32) :
    stepAt1 V c t prev =
      (out1_C_2 c (grid1.coords t) (ms1_0 t) (hs1_0 t) (ms1_1 t) (hs1_1 t) (ms1_2 t) (hs1_2 t) scM1_0 (Memref.isWhole_whole _) (notFirst_of t h0) ((isLast1_iff t).mpr h1) (iblk1 V c 0 t) (iblk1 V c 1 t) prev,
       sout1_C_0 c (grid1.coords t) (ms1_0 t) (hs1_0 t) (ms1_1 t) (hs1_1 t) (ms1_2 t) (hs1_2 t) scM1_0 (Memref.isWhole_whole _) (notFirst_of t h0) ((isLast1_iff t).mpr h1) (iblk1 V c 0 t) (iblk1 V c 1 t) prev) := by
  unfold stepAt1; exact (dif_neg h0).trans (dif_pos h1)

theorem stepAt1_mid (c : Dev nD) (t : Fin cfg1.N) (h0 : ¬t.val % 8 = 0) (h1 : ¬t.val % 8 = 7) (prev : Vec F S1024x128 .f32) :
    stepAt1 V c t prev =
      (out1_B_2 c (grid1.coords t) (ms1_0 t) (hs1_0 t) (ms1_1 t) (hs1_1 t) (ms1_2 t) (hs1_2 t) scM1_0 (Memref.isWhole_whole _) (notFirst_of t h0) (notLast_of t h1) (iblk1 V c 0 t) (iblk1 V c 1 t) prev,
       sout1_B_0 c (grid1.coords t) (ms1_0 t) (hs1_0 t) (ms1_1 t) (hs1_1 t) (ms1_2 t) (hs1_2 t) scM1_0 (Memref.isWhole_whole _) (notFirst_of t h0) (notLast_of t h1) (iblk1 V c 0 t) (iblk1 V c 1 t) prev) := by
  unfold stepAt1; exact (dif_neg h0).trans (dif_neg h1)

/-- THE ACCUMULATION: (output buffer, accumulator) after the body at position `n` of the grid, by recursion on `n` — one
    step from what the position before left in the accumulator (from zeros at position 0, where the value is not read). -/
def outsAt1 (c : Dev nD) : (n : ℕ) → n < cfg1.N → Vec F S1024x128 .f32 × Vec F S1024x128 .f32
  | 0, hn => stepAt1 V c ⟨0, hn⟩ (k1_pay1 (F := F))
  | n + 1, hn => stepAt1 V c ⟨n + 1, hn⟩ (outsAt1 c n (Nat.lt_of_succ_lt hn)).2

theorem outsAt1_zero (c : Dev nD) (t : Fin cfg1.N) (hz : t.val = 0) :
    outsAt1 V c t.val t.isLt = stepAt1 V c t (k1_pay1 (F := F)) := by
  obtain ⟨n, hn⟩ := t
  cases n with
  | zero => rfl
  | succ n => exact absurd hz (Nat.succ_ne_zero n)

theorem outsAt1_pos (c : Dev nD) (t : Fin cfg1.N) (hz : t.val ≠ 0) :
    outsAt1 V c t.val t.isLt
      = stepAt1 V c t (outsAt1 V c (t.val - 1) (Nat.lt_of_le_of_lt (Nat.sub_le _ _) t.isLt)).2 := by
  obtain ⟨n, hn⟩ := t
  cases n with
  | zero => exact absurd rfl hz
  | succ n => rfl

/-! ## The region invariant along the grid -/

/-- Before position `n`: at `n = 0` what the launch hands over; afterwards the same with the accumulator pinned to what
    position `n - 1` left in it. -/
def PhiS1 (c : Dev nD) : (n : ℕ) → n ≤ cfg1.N → sProp 𝕄
  | 0, _ => Pipeline.ΦA spec1 c
  | n + 1, hn => iprop(iprop(bystanders1 (F := F) c ∗ owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(bystanders1 (F := F) c ∗ owns (c : Thread nD τ) scM1_0 fullShare ((outsAt1 V c n hn).2)) ∗ (∃ r, prngReg c r)) := rfl

theorem PhiS1_pos (c : Dev nD) (n : ℕ) (h : n ≤ cfg1.N) (hz : n ≠ 0) :
    PhiS1 V c n h = iprop(iprop(bystanders1 (F := F) c ∗ owns (c : Thread nD τ) scM1_0 fullShare ((outsAt1 V c (n - 1) (by omega)).2)) ∗ (∃ r, prngReg c r)) := by
  cases n with
  | zero => exact absurd rfl hz
  | succ n => rfl

/-! ## The proof data -/

/-- The pipeline's proof data on core `c`: the arrays as found on entry; after the body each input buffer still at its
    block and the output buffer at the accumulation's first component; the invariant `PhiS1`; full shares, nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

/-- Before the body each input's current buffer holds the addressed block. -/
theorem before1_0 (c : Dev nD) (t : Fin cfg1.N) (d) : (dat1 V c).before 0 t d = iblk1 V c 0 t :=
  held1_0 V (dat1 V c) (A_eq1 V c 0) (after1_0 V c) t d
theorem before1_1 (c : Dev nD) (t : Fin cfg1.N) (d) : (dat1 V c).before 1 t d = iblk1 V c 1 t :=
  held1_1 V (dat1 V c) (A_eq1 V c 1) (after1_1 V c) t d

/-! ## The body obligation -/

/-- What the body is called with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it must return. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The inputs' buffers hold their blocks; `t % 8` says which of the three runs applies; the
    invariant lends the run the accumulator (at what the point before left, or at anything when that is not read) and gets
    it back at this point's value because the run's stores cover it; the untouched scoped buffers, the generator register
    and the core's debt pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [busy1_0 t], after1_0]
  rw [show (dat1 V c).leavesExact 1 t = owns (c : Thread nD τ) (ms1_1 t) fullShare ((dat1 V c).after 1 t) from by
    unfold Dat.leavesExact; rw [busy1_1 t], after1_1]
  have hN : t.val < 64 := lt_of_lt_of_eq t.isLt (show cfg1.N = 64 from N_1)
  by_cases h0 : t.val % 8 = 0
  · rw [Dat.leavesExact_idle (dat1 V c) 2 t (quiet1_2 t (notLast_of_first t h0)) (unflushed1_2 t (notLast_of_first t h0))]
    by_cases hz : t.val = 0
    · rw [outsAt1_zero V c t hz, stepAt1_first V c t h0]
      unfold sout1_A_0; (try dsimp only)
      rw [PhiS1_castSucc V c t, PhiS1_zero V c _ _ hz, PhiA1_eq]
      iintro ⟨⟨⟨HR, HS0⟩, Hg⟩, Ho, ⟨%d0, H0⟩, ⟨%d1, H1⟩, ⟨%d2, H2⟩⟩
      iapply ((kernelRun1_A c (grid1.coords t) _ _ _ _ _ _ _ _ ((isFirst1_iff t).mpr h0) (notLast_of_first t h0) (iblk1 V c 0 t) (iblk1 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HR HS0 Hg]
      · isplitl [HR HS0]
        · isplitl [HR]; · iexact HR
          unfold owns; iexists _; isplitr
          swap; · iexact HS0
          ipureintro; exact View.read_writes_of_cover _ _ _ _ _ (accCover1_A c _ _ _ _ _ _ _ _ _ _ _ _ _)
        iexact Hg
      isplitl [Ho]; · iexact Ho
      isplitl [H0]; · iexact H0
      isplitl [H1]; · iexact H1
      iexists _; iexact H2
    · rw [outsAt1_pos V c t hz, stepAt1_first V c t h0]
      unfold sout1_A_0; (try dsimp only)
      rw [PhiS1_castSucc V c t, PhiS1_pos V c _ _ hz]
      iintro ⟨⟨⟨HR, HS0⟩, Hg⟩, Ho, ⟨%d0, H0⟩, ⟨%d1, H1⟩, ⟨%d2, H2⟩⟩
      iapply ((kernelRun1_A c (grid1.coords t) _ _ _ _ _ _ _ _ ((isFirst1_iff t).mpr h0) (notLast_of_first t h0) (iblk1 V c 0 t) (iblk1 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HR HS0 Hg]
      · isplitl [HR HS0]
        · isplitl [HR]; · iexact HR
          unfold owns; iexists _; isplitr
          swap; · iexact HS0
          ipureintro; exact View.read_writes_of_cover _ _ _ _ _ (accCover1_A c _ _ _ _ _ _ _ _ _ _ _ _ _)
        iexact Hg
      isplitl [Ho]; · iexact Ho
      isplitl [H0]; · iexact H0
      isplitl [H1]; · iexact H1
      iexists _; iexact H2
  · have hz : t.val ≠ 0 := fun hz => h0 (by rw [hz])
    rw [outsAt1_pos V c t hz]
    by_cases h1 : t.val % 8 = 7
    · rw [show (dat1 V c).leavesExact 2 t = owns (c : Thread nD τ) (ms1_2 t) fullShare ((dat1 V c).after 2 t) from by
        unfold Dat.leavesExact; rw [busy1_2 t ((isLast1_iff t).mpr h1)], after1_2, outsAt1_pos V c t hz]
      rw [stepAt1_last V c t h0 h1]
      unfold out1_C_2 sout1_C_0; (try dsimp only)
      rw [PhiS1_castSucc V c t, PhiS1_pos V c _ _ hz]
      iintro ⟨⟨⟨HR, HS0⟩, Hg⟩, Ho, ⟨%d0, H0⟩, ⟨%d1, H1⟩, ⟨%d2, H2⟩⟩
      iapply ((kernelRun1_C c (grid1.coords t) _ _ _ _ _ _ _ _ (notFirst_of t h0) ((isLast1_iff t).mpr h1) (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HR HS0 Hg]
      · isplitl [HR HS0]
        · isplitl [HR]; · iexact HR
          unfold owns; iexists _; isplitr
          swap; · iexact HS0
          ipureintro; exact View.read_writes_of_cover _ _ _ _ _ (accCover1_C c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (outCover1_C c _ _ _ _ _ _ _ _ _ _ _ _ _ _)
    · rw [Dat.leavesExact_idle (dat1 V c) 2 t (quiet1_2 t (notLast_of t h1)) (unflushed1_2 t (notLast_of t h1))]
      rw [stepAt1_mid V c t h0 h1]
      unfold sout1_B_0; (try dsimp only)
      rw [PhiS1_castSucc V c t, PhiS1_pos V c _ _ hz]
      iintro ⟨⟨⟨HR, HS0⟩, Hg⟩, Ho, ⟨%d0, H0⟩, ⟨%d1, H1⟩, ⟨%d2, H2⟩⟩
      iapply ((kernelRun1_B c (grid1.coords t) _ _ _ _ _ _ _ _ (notFirst_of t h0) (notLast_of t h1) (iblk1 V c 0 t) (iblk1 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HR HS0 Hg]
      · isplitl [HR HS0]
        · isplitl [HR]; · iexact HR
          unfold owns; iexists _; isplitr
          swap; · iexact HS0
          ipureintro; exact View.read_writes_of_cover _ _ _ _ _ (accCover1_B c _ _ _ _ _ _ _ _ _ _ _ _ _ _)
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands over is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives back what the launch handed over: the accumulator's value is forgotten. -/
theorem release1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HR, HS0⟩, Hg⟩
  isplitl [HR HS0]
  · isplitl [HR]; · iexact HR
    iexists _; iexact HS0
  iexact Hg

/-- In particular after the last point. -/
theorem hout1 (c : Dev nD) : (dat1 V c).Φ (Fin.last cfg1.N) ⊢ Pipeline.ΦA spec1 c :=
  release1 V c _ (by rw [Fin.val_last]; have : cfg1.N = 64 := N_1; omega)

/-! ## The accumulation in closed form -/

set_option maxHeartbeats 4000000 in
/-- At a first step of the contraction the accumulator restarts: zeros plus this step's product. -/
theorem scratch1_first (c : Dev nD) (t : Fin cfg1.N) (h : t.val % 8 = 0) : (outsAt1 V c t.val t.isLt).2 = k1_pay2 (iblk1 V c 0 t) (iblk1 V c 1 t) k1_pay1 := by
  have h0 : t.val % 8 = 0 := h
  have piece := sout1_A_0_eq c (grid1.coords t) (ms1_0 t) (hs1_0 t) (ms1_1 t) (hs1_1 t) (ms1_2 t) (hs1_2 t) scM1_0 (Memref.isWhole_whole _) ((isFirst1_iff t).mpr h0) (notLast_of_first t h0) (iblk1 V c 0 t) (iblk1 V c 1 t)
  by_cases hz : t.val = 0
  · exact (congrArg Prod.snd (outsAt1_zero V c t hz)).trans ((congrArg Prod.snd (stepAt1_first V c t h0 _)).trans piece)
  · exact (congrArg Prod.snd (outsAt1_pos V c t hz)).trans ((congrArg Prod.snd (stepAt1_first V c t h0 _)).trans piece)

set_option maxHeartbeats 4000000 in
/-- At every other step it grows by this step's product. -/
theorem scratch1_step (c : Dev nD) (t : Fin cfg1.N) (h : t.val % 8 ≠ 0) : (outsAt1 V c t.val t.isLt).2 = k1_pay2 (iblk1 V c 0 t) (iblk1 V c 1 t) (outsAt1 V c (t.val - 1) (Nat.lt_of_le_of_lt (Nat.sub_le _ _) t.isLt)).2 := by
  have h0 : ¬t.val % 8 = 0 := h
  have hz : t.val ≠ 0 := fun hz => h0 (by rw [hz])
  by_cases h1 : t.val % 8 = 7
  · exact (congrArg Prod.snd (outsAt1_pos V c t hz)).trans ((congrArg Prod.snd (stepAt1_last V c t h0 h1 _)).trans
      (sout1_C_0_eq c (grid1.coords t) (ms1_0 t) (hs1_0 t) (ms1_1 t) (hs1_1 t) (ms1_2 t) (hs1_2 t) scM1_0 (Memref.isWhole_whole _) (notFirst_of t h0) ((isLast1_iff t).mpr h1) (iblk1 V c 0 t) (iblk1 V c 1 t) (outsAt1 V c (t.val - 1) (Nat.lt_of_le_of_lt (Nat.sub_le _ _) t.isLt)).2))
  · exact (congrArg Prod.snd (outsAt1_pos V c t hz)).trans ((congrArg Prod.snd (stepAt1_mid V c t h0 h1 _)).trans
      (sout1_B_0_eq c (grid1.coords t) (ms1_0 t) (hs1_0 t) (ms1_1 t) (hs1_1 t) (ms1_2 t) (hs1_2 t) scM1_0 (Memref.isWhole_whole _) (notFirst_of t h0) (notLast_of t h1) (iblk1 V c 0 t) (iblk1 V c 1 t) (outsAt1 V c (t.val - 1) (Nat.lt_of_le_of_lt (Nat.sub_le _ _) t.isLt)).2))

set_option maxHeartbeats 4000000 in
/-- At a last step the output block is the finished accumulator. -/
theorem out1_last (c : Dev nD) (t : Fin cfg1.N) (h : t.val % 8 = 7) : (outsAt1 V c t.val t.isLt).1 = (outsAt1 V c t.val t.isLt).2 := by
  have h1 : t.val % 8 = 7 := h
  have h0 : ¬t.val % 8 = 0 := by omega
  have hz : t.val ≠ 0 := fun hz => h0 (by rw [hz])
  have e := (outsAt1_pos V c t hz).trans (stepAt1_last V c t h0 h1 _)
  exact (congrArg Prod.fst e).trans ((out1_C_2_eq c (grid1.coords t) (ms1_0 t) (hs1_0 t) (ms1_1 t) (hs1_1 t) (ms1_2 t) (hs1_2 t) scM1_0 (Memref.isWhole_whole _) (notFirst_of t h0) ((isLast1_iff t).mpr h1) (iblk1 V c 0 t) (iblk1 V c 1 t) (outsAt1 V c (t.val - 1) (Nat.lt_of_le_of_lt (Nat.sub_le _ _) t.isLt)).2).trans
    ((sout1_C_0_eq c (grid1.coords t) (ms1_0 t) (hs1_0 t) (ms1_1 t) (hs1_1 t) (ms1_2 t) (hs1_2 t) scM1_0 (Memref.isWhole_whole _) (notFirst_of t h0) ((isLast1_iff t).mpr h1) (iblk1 V c 0 t) (iblk1 V c 1 t) (outsAt1 V c (t.val - 1) (Nat.lt_of_le_of_lt (Nat.sub_le _ _) t.isLt)).2).symm.trans (congrArg Prod.snd e).symm))

end Entry

end Cert.Kernel.Hand

end
-- ==== Proof.HandKernel.Glue.lean ====
/-
  The kernel program's whole run, region by region, at any float instance.
  Its @main is: three host operations (the two feature matrices joined side by side, the two bias vectors seen as
  rows), the forward-transform region, the inverse-transform region, then five stretches of host operations.
  Between two items every unscoped buffer of a core is held at a named valuation: the launch contents, then each
  host stretch applied, then each region's result array replaced by what the region's write-backs leave
  (the array after the last grid point). Each region enters with the arrays it stages split out of that
  valuation and leaves with them put back; its carried accumulator lives in the region's own invariant and is
  forgotten at the exit. The run's conclusion names every unscoped buffer at the end; the frame (arguments
  unchanged) and the result's value are both read off it.
-/
import proofs.«117335_j42545946034709_1_alg».proof.Proof.Gen.Kernel.Regions
import proofs.«117335_j42545946034709_1_alg».proof.Proof.HandKernel.R0Frame
import proofs.«117335_j42545946034709_1_alg».proof.Proof.HandKernel.R1Frame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the regions' boundaries -/

/-- What the forward-transform region finds: the launch contents after the three host operations before it. -/
abbrev entry0 : (c : Dev nD) → (b : Ref sig .tc) → Buf (Elt F) ((c : Thread nD τ).loc b) := fun c b => V1 m c b

/-- What the forward-transform region leaves: its arrays after its last grid point, everything else as it was. -/
def left0 (c : Dev nD) : Valuation τ sig (Elt F) :=
  Pipeline.withArrays spec0 c (V1 m c) fun w => (dat0 (entry0 m) c).arrAt w cfg0.N

/-- The regions' results so far: only the forward transform's is known. -/
def outsA : Outs (F := F) := fun _ r c => left0 m c r

/-- What the inverse-transform region finds (no host operation stands between the two regions). -/
abbrev entry1 : (c : Dev nD) → (b : Ref sig .tc) → Buf (Elt F) ((c : Thread nD τ).loc b) := fun c b => V2 m (outsA m) c b

/-- What the inverse-transform region leaves. -/
def left1 (c : Dev nD) : Valuation τ sig (Elt F) :=
  Pipeline.withArrays spec1 c (V2 m (outsA m) c) fun w => (dat1 (entry1 m) c).arrAt w cfg1.N

/-- Both regions' results: item 2 leaves the fused spectrum in its result array, item 3 the inverse transform. -/
def outs : Outs (F := F) := fun J r c => match J with
  | 2 => left0 m c r
  | _ => left1 m c r

theorem outs_two (r : Ref sig .tc) (c : Dev nD) : outs m 2 r c = left0 m c r := rfl
theorem outs_three (r : Ref sig .tc) (c : Dev nD) : outs m 3 r c = left1 m c r := rfl

/-- With both results named, the valuation after the first region is the one the second region was stated at. -/
theorem V2_outs (c : Dev nD) : V2 m (outs m) c = V2 m (outsA m) c := rfl

/-- The forward transform's result array after the region. -/
theorem res0_eq (c : Dev nD) : outs m 2 main_v3 c = (dat0 (entry0 m) c).arrAt 6 cfg0.N := by
  show Pipeline.withArrays spec0 c (V1 m c) (fun w => (dat0 (entry0 m) c).arrAt w cfg0.N) (Proc.devRef .tc (Pipeline.arrRef spec0 6)) = _
  exact Pipeline.withArrays_arr spec0 launch0.win.arr_inj c _ _ 6

/-- The inverse transform's result array after the region. -/
theorem res1_eq (c : Dev nD) : outs m 3 main_v4 c = (dat1 (entry1 m) c).arrAt 2 cfg1.N := by
  show Pipeline.withArrays spec1 c (V2 m (outsA m) c) (fun w => (dat1 (entry1 m) c).arrAt w cfg1.N) (Proc.devRef .tc (Pipeline.arrRef spec1 2)) = _
  exact Pipeline.withArrays_arr spec1 launch1.win.arr_inj c _ _ 2

/-! ## What each region's exit valuation holds at the region's arrays, and off them -/

/-- Forward transform: after the region each staged array holds what the write-backs leave — an input array its
    entry contents, the result array the region's result. -/
theorem exit0_arr (c : Dev nD) (w : Fin cfg0.W) :
    (dat0 (entry0 m) c).arrAt w cfg0.N = V2 m (outs m) c (Pipeline.arrRef spec0 w) := by
  have hin : ∀ w' : Fin cfg0.W, w' ≠ 6 → (dat0 (entry0 m) c).arrAt w' cfg0.N = V1 m c (Pipeline.arrRef spec0 w') := fun w' _ => by
    fin_cases w' <;> first | (exact absurd rfl ‹_›) | exact ((dat0 (entry0 m) c).arrAt_in _ rfl _).trans (A_eq0 (entry0 m) c _)
  by_cases h6 : w = 6
  · subst h6
    exact (res0_eq m c).symm.trans (by
      show outs m 2 main_v3 c = Function.update (V1 m c) main_v3 (outs m 2 main_v3 c) main_v3
      rw [Function.update_self])
  · rw [hin w h6]
    fin_cases w <;> first | (exact absurd rfl h6) | exact (V2_of m (outs m) c _ (by decide)).symm

/-- Off the forward transform's arrays nothing changed. -/
theorem exit0_rest (c : Dev nD) : ∀ b, b ∉ Finset.univ.image (Pipeline.arrRef spec0) → V2 m (outs m) c b = V1 m c b := fun b hb =>
  V2_of m (outs m) c b (by
    intro hmem
    rw [List.mem_singleton] at hmem
    exact hb (Finset.mem_image.mpr ⟨6, Finset.mem_univ _, hmem.symm⟩))

/-- Inverse transform: the same at its three arrays. -/
theorem exit1_arr (c : Dev nD) (w : Fin cfg1.W) :
    (dat1 (entry1 m) c).arrAt w cfg1.N = V3 m (outs m) c (Pipeline.arrRef spec1 w) := by
  have hin : ∀ w' : Fin cfg1.W, w' ≠ 2 → (dat1 (entry1 m) c).arrAt w' cfg1.N = V2 m (outs m) c (Pipeline.arrRef spec1 w') := fun w' _ => by
    fin_cases w' <;> first | (exact absurd rfl ‹_›) | exact ((dat1 (entry1 m) c).arrAt_in _ rfl _).trans (A_eq1 (entry1 m) c _)
  by_cases h2 : w = 2
  · subst h2
    exact (res1_eq m c).symm.trans (by
      show outs m 3 main_v4 c = Function.update (V2 m (outs m) c) main_v4 (outs m 3 main_v4 c) main_v4
      rw [Function.update_self])
  · rw [hin w h2]
    fin_cases w <;> first | (exact absurd rfl h2) | exact (V3_of m (outs m) c _ (by decide)).symm

theorem exit1_rest (c : Dev nD) : ∀ b, b ∉ Finset.univ.image (Pipeline.arrRef spec1) → V3 m (outs m) c b = V2 m (outs m) c b := fun b hb =>
  V3_of m (outs m) c b (by
    intro hmem
    rw [List.mem_singleton] at hmem
    exact hb (Finset.mem_image.mpr ⟨2, Finset.mem_univ _, hmem.symm⟩))

/-! ## The proof data family and what rides beside the buffers -/

/-- No pallas_call has a prefetched table. -/
abbrev adm' : (p : Fin 2) → (pcfgs (F := F) p).Adm := fun p => (cfgs p).toPCfg_adm

/-- Each region's proof data at its own entry contents. -/
def pdats : (p : Fin 2) → (c : Dev nD) → Dat τ (Elt F) Unit ℕ (UR sig nD τ) ℕ (Pipeline.pin (pcfgs (F := F)) adm' p) c
  | ⟨0, _⟩ => fun c => dat0 (entry0 m) c
  | ⟨1, _⟩ => fun c => dat1 (entry1 m) c

abbrev 𝒱n : Variants := Variants.none
/-- No core owes another anything: no level is assigned. -/
abbrev Ln : GSem nD τ sig → Finset Unit := fun _ => ∅
abbrev lvn : GSem nD τ sig → Unit → ℕ := fun _ _ => 0

/-- Beside the buffers, through every item: the core's generator register at some state and the core owing nothing. -/
abbrev Rest (c : Dev nD) : sProp 𝕄 := iprop((∃ r, prngReg c r) ∗ ∃ W, owes (c : Thread nD τ) (0 : CellTallies nD τ sig Unit) W)

abbrev Erest : Fin 3 → Dev nD → sProp 𝕄 := fun _ c => Rest (F := F) c

/-! ## The regions as segments -/

set_option backward.isDefEq.respectTransparency.types false in
/-- The forward-transform region between the valuations before and after it. -/
def reg0 : RegionSeg (pcfgs (F := F)) adm' (pdats m) () defs₀ 𝒱n Ln lvn 0 where
  win := launch0.win.to₀
  block_pos := launch0.block_pos
  stage_whole := launch0.stage_whole
  K := PEmpty
  osem k := k.elim
  ho := Pipeline.OwnSemFacts.none _
  hbody c := (body_obligation0 (entry0 m) c).loose
  hwaits := Pipeline.hwaits_of_owed_zero _ _ _ _ Ln lvn 0 fun _ _ => rfl
  pre c := iprop(StableHlo.held (c : Thread nD τ) (Pipeline.ucRefs τ sig) (V1 m c) ∗ Rest c)
  post c := iprop(StableHlo.held (c : Thread nD τ) (Pipeline.ucRefs τ sig) (V2 m (outs m) c) ∗ Rest c)
  X c := iprop(∃ r, prngReg c r)
  Y c := iprop(∃ r, prngReg c r)
  Z c := Pipeline.unscopedRest (Ix := Unit) (Name := ℕ) (U := UR sig nD τ) (Lvl := ℕ) spec0 c (entry0 m c)
  hentry c := by
    rw [Pipeline.ownSems0_none]
    have hsplit := Pipeline.arrays_of_unscopedBufs (p := 0) (pcfgs (F := F)) adm' (pdats m) launch0.win launch0.arr_whole c
      ((pdats m 0 c).share_full fun _ => rfl) (entry0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ Pipeline.ΦA spec0 c).trans (hin0 (entry0 m) c)
    unfold Pipeline.ΦA
    iintro ⟨Hp, -, Hr⟩
    isplitl [Hr]; · iexact Hr
    iexact Hp
  hout c := by
    rw [Pipeline.ownSems0_none]
    refine (hout0 (entry0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m) ((pdats m 0 c).share_full fun _ => rfl)
      (entry0 m c) (fun b => V2 m (outs m) c b) ((pdats m 0 c).arrAt · cfg0.N) (exit0_arr m c) (exit0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The inverse-transform region between the valuations before and after it. -/
def reg1 : RegionSeg (pcfgs (F := F)) adm' (pdats m) () defs₀ 𝒱n Ln lvn 1 where
  win := launch1.win.to₀
  block_pos := launch1.block_pos
  stage_whole := launch1.stage_whole
  K := PEmpty
  osem k := k.elim
  ho := Pipeline.OwnSemFacts.none _
  hbody c := (body_obligation1 (entry1 m) c).loose
  hwaits := Pipeline.hwaits_of_owed_zero _ _ _ _ Ln lvn 1 fun _ _ => rfl
  pre c := iprop(StableHlo.held (c : Thread nD τ) (Pipeline.ucRefs τ sig) (V2 m (outs m) c) ∗ Rest c)
  post c := iprop(StableHlo.held (c : Thread nD τ) (Pipeline.ucRefs τ sig) (V3 m (outs m) c) ∗ Rest c)
  X c := iprop(∃ r, prngReg c r)
  Y c := iprop(∃ r, prngReg c r)
  Z c := Pipeline.unscopedRest (Ix := Unit) (Name := ℕ) (U := UR sig nD τ) (Lvl := ℕ) spec1 c (entry1 m c)
  hentry c := by
    rw [Pipeline.ownSems0_none, V2_outs m c]
    have hsplit := Pipeline.arrays_of_unscopedBufs (p := 1) (pcfgs (F := F)) adm' (pdats m) launch1.win launch1.arr_whole c
      ((pdats m 1 c).share_full fun _ => rfl) (entry1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ Pipeline.ΦA spec1 c).trans (hin1 (entry1 m) c)
    unfold Pipeline.ΦA
    iintro ⟨Hp, -, Hr⟩
    isplitl [Hr]; · iexact Hr
    iexact Hp
  hout c := by
    rw [Pipeline.ownSems0_none]
    refine (hout1 (entry1 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m) ((pdats m 1 c).share_full fun _ => rfl)
      (entry1 m c) (fun b => V3 m (outs m) c b) ((pdats m 1 c).arrAt · cfg1.N) (exit1_arr m c) (exit1_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- From any memory with zero counters every weakly fair execution of @main terminates, nothing faulting, and in the
    final memory every unscoped buffer of every core holds the last valuation: the launch contents carried through the
    host stretches and the two regions' results. -/
theorem run_all : θ_run defs (onTc (τ := τ) (main (F := F))) ⟨m, fun _ => 0, ρ⟩ (fun r => ∀ c : Dev nD,
      ∀ b ∈ Pipeline.ucRefs τ sig, r.2.mem ((c : Thread nD τ).1, b) = V8 m (outs m) c b) := by
  refine Pipeline.θ_run_regions_kit_dev (pcfgs (F := F)) adm' (pdats m) () cellOf_inj emb₁ defs₀ 𝒱n Ln lvn m ρ main
    (segs m (outs m) 𝒱n Ln lvn (Erest (F := F)) () (pdats m) (reg0 m) (reg1 m))
    (fun c Q => by
      rewrite [main_chain c, Seg.run_eq_chain,
        show (segs m (outs m) 𝒱n Ln lvn (Erest (F := F)) () (pdats m) (reg0 m) (reg1 m) c).map Seg.prog = [
          StableHlo.seq hostOps0,
          Prog.lift (.customCall (Pipeline.entry 0) ()),
          Prog.lift (.customCall (Pipeline.entry 1) ()),
          StableHlo.seq hostOps2,
          StableHlo.seq hostOps2_1,
          StableHlo.seq hostOps2_2,
          StableHlo.seq hostOps2_3,
          StableHlo.seq hostOps2_4 ] from rfl]
      exact .rfl)
    (fun c => by simp only [segs, Seg.pipes_host, Seg.pipes_region, Seg.pipes_nil]; decide) (O₀ := 0) (hL := fun _ _ => rfl)
    (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rest c))
    (Tₙ := fun c => StableHlo.held (c : Thread nD τ) (Pipeline.ucRefs τ sig) (V8 m (outs m) c))
    (hch := fun c => ⟨.rfl, .rfl, .rfl, .rfl, .rfl, .rfl, .rfl, .rfl, sep_mono .rfl (by iintro ⟨-, H⟩; iexact H)⟩)
    (hinit := ?_) (QY := fun c s => ∀ b ∈ Pipeline.ucRefs τ sig, s.mem ((c : Thread nD τ).1, b) = V8 m (outs m) c b)
    (hfin := fun c s' => ?_) (hQ := fun _ h => h)
  · refine Pipeline.initEach Ln lvn fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · unfold StableHlo.held
    iintro ⟨Hh, HSI⟩
    imodintro
    iapply (pointsTo_read_all (Pipeline.ucRefs τ sig) (fun b => (((c : Thread nD τ)).1, b)) (V8 m (outs m) c) s')
    isplitl [Hh] <;> iassumption

end Cert.Kernel.Hand

end
-- ==== Proof.HandKernelIdeal.R0Shared.lean ====
/- The first pipelined region (the blocked product u_basisᵀ · x_cat accumulated over the reduction axis k, with the
   gating epilogue at the last k): what its three control cases share. The region is entered with the TensorCore
   buffers at some contents `V`, a parameter throughout. Here: the blocks of the windows read off `V`; the two
   branch conditions of the body in closed form over the 8×8 grid (point t has k = t % 8); where the output
   window is idle; the staging memrefs and the accumulator; and the region invariant with the accumulator split off. -/
import proofs.«117335_j42545946034709_1_alg».proof.Proof.Gen.KernelIdeal.Launch
import proofs.«117335_j42545946034709_1_alg».proof.Proof.Gen.KernelIdeal.Skeleton
import proofs.«117335_j42545946034709_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Blocks -/

/-- The block of window `w` at grid point `t`, read off the window's array at the entry contents. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0: whatever proof data has the entry contents as its array and leaves the block where it is, the
    window's current buffer holds the block of the current point, whether the point fetched it or the block index
    stood still since the last fetch. -/
theorem before0_0_of {c : Dev nD} (dat : Dat τ (Elt F) Unit ℕ (UR sig nD τ) ℕ cfg0 c)
    (hA : dat.A 0 = V c (Pipeline.arrRef spec0 0)) (hafter : ∀ t, dat.after 0 t = iblk0 V c 0 t)
    (t : Fin cfg0.N) (d) : dat.before 0 t d = iblk0 V c 0 t := by
  refine (dat.before_in_eq_fetched 0 rfl (fun _ => rfl) (fun _ _ _ => rfl) ?_ t d).trans ?_
  · intro t; rw [hafter]; unfold Dat.blockOf iblk0; rw [hA]; try rfl
  · unfold Dat.fetched Dat.blockOf iblk0; rw [hA]; try rfl

/-- Input window 1: whatever proof data has the entry contents as its array and leaves the block where it is, the
    window's current buffer holds the block of the current point, whether the point fetched it or the block index
    stood still since the last fetch. -/
theorem before0_1_of {c : Dev nD} (dat : Dat τ (Elt F) Unit ℕ (UR sig nD τ) ℕ cfg0 c)
    (hA : dat.A 1 = V c (Pipeline.arrRef spec0 1)) (hafter : ∀ t, dat.after 1 t = iblk0 V c 1 t)
    (t : Fin cfg0.N) (d) : dat.before 1 t d = iblk0 V c 1 t := by
  refine (dat.before_in_eq_fetched 1 rfl (fun _ => rfl) (fun _ _ _ => rfl) ?_ t d).trans ?_
  · intro t; rw [hafter]; unfold Dat.blockOf iblk0; rw [hA]; try rfl
  · unfold Dat.fetched Dat.blockOf iblk0; rw [hA]; try rfl

/-- Input window 2: whatever proof data has the entry contents as its array and leaves the block where it is, the
    window's current buffer holds the block of the current point, whether the point fetched it or the block index
    stood still since the last fetch. -/
theorem before0_2_of {c : Dev nD} (dat : Dat τ (Elt F) Unit ℕ (UR sig nD τ) ℕ cfg0 c)
    (hA : dat.A 2 = V c (Pipeline.arrRef spec0 2)) (hafter : ∀ t, dat.after 2 t = iblk0 V c 2 t)
    (t : Fin cfg0.N) (d) : dat.before 2 t d = iblk0 V c 2 t := by
  refine (dat.before_in_eq_fetched 2 rfl (fun _ => rfl) (fun _ _ _ => rfl) ?_ t d).trans ?_
  · intro t; rw [hafter]; unfold Dat.blockOf iblk0; rw [hA]; try rfl
  · unfold Dat.fetched Dat.blockOf iblk0; rw [hA]; try rfl

/-- Input window 3: whatever proof data has the entry contents as its array and leaves the block where it is, the
    window's current buffer holds the block of the current point, whether the point fetched it or the block index
    stood still since the last fetch. -/
theorem before0_3_of {c : Dev nD} (dat : Dat τ (Elt F) Unit ℕ (UR sig nD τ) ℕ cfg0 c)
    (hA : dat.A 3 = V c (Pipeline.arrRef spec0 3)) (hafter : ∀ t, dat.after 3 t = iblk0 V c 3 t)
    (t : Fin cfg0.N) (d) : dat.before 3 t d = iblk0 V c 3 t := by
  refine (dat.before_in_eq_fetched 3 rfl (fun _ => rfl) (fun _ _ _ => rfl) ?_ t d).trans ?_
  · intro t; rw [hafter]; unfold Dat.blockOf iblk0; rw [hA]; try rfl
  · unfold Dat.fetched Dat.blockOf iblk0; rw [hA]; try rfl

/-- Input window 4: whatever proof data has the entry contents as its array and leaves the block where it is, the
    window's current buffer holds the block of the current point, whether the point fetched it or the block index
    stood still since the last fetch. -/
theorem before0_4_of {c : Dev nD} (dat : Dat τ (Elt F) Unit ℕ (UR sig nD τ) ℕ cfg0 c)
    (hA : dat.A 4 = V c (Pipeline.arrRef spec0 4)) (hafter : ∀ t, dat.after 4 t = iblk0 V c 4 t)
    (t : Fin cfg0.N) (d) : dat.before 4 t d = iblk0 V c 4 t := by
  refine (dat.before_in_eq_fetched 4 rfl (fun _ => rfl) (fun _ _ _ => rfl) ?_ t d).trans ?_
  · intro t; rw [hafter]; unfold Dat.blockOf iblk0; rw [hA]; try rfl
  · unfold Dat.fetched Dat.blockOf iblk0; rw [hA]; try rfl

/-- Input window 5: whatever proof data has the entry contents as its array and leaves the block where it is, the
    window's current buffer holds the block of the current point, whether the point fetched it or the block index
    stood still since the last fetch. -/
theorem before0_5_of {c : Dev nD} (dat : Dat τ (Elt F) Unit ℕ (UR sig nD τ) ℕ cfg0 c)
    (hA : dat.A 5 = V c (Pipeline.arrRef spec0 5)) (hafter : ∀ t, dat.after 5 t = iblk0 V c 5 t)
    (t : Fin cfg0.N) (d) : dat.before 5 t d = iblk0 V c 5 t := by
  refine (dat.before_in_eq_fetched 5 rfl (fun _ => rfl) (fun _ _ _ => rfl) ?_ t d).trans ?_
  · intro t; rw [hafter]; unfold Dat.blockOf iblk0; rw [hA]; try rfl
  · unfold Dat.fetched Dat.blockOf iblk0; rw [hA]; try rfl

/-! ## The two conditionals of the body, over the grid -/

/-- The first conditional (reset the accumulator) tests k = 0. -/
abbrev isFirstK0 (i : grid0.Coords) : Prop :=
  (Scalar.cmpi .ne (Scalar.extui (Scalar.cmpi .eq (BitVec.ofNat 32 (i 1).val) 0#32)) 0#32) = 1#1
theorem isFirstK0_iff : ∀ t : Fin cfg0.N, isFirstK0 (grid0.coords t) ↔ t.val % 8 = 0 :=
  (by decide +kernel : ∀ t : Fin grid0.N, isFirstK0 (grid0.coords t) ↔ t.val % 8 = 0)

/-- The second conditional (the epilogue and the store of the output block) tests k = 7. -/
abbrev isLastK0 (i : grid0.Coords) : Prop := k0_cond2 i = 1#1
theorem isLastK0_iff : ∀ t : Fin cfg0.N, isLastK0 (grid0.coords t) ↔ t.val % 8 = 7 :=
  (by decide +kernel : ∀ t : Fin grid0.N, isLastK0 (grid0.coords t) ↔ t.val % 8 = 7)

/-! ## Idle and live points of the windows -/

theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
theorem live0_3 : ∀ t : Fin cfg0.N, cfg0.idle 3 (grid0.coords t) = false := by decide +kernel
theorem live0_4 : ∀ t : Fin cfg0.N, cfg0.idle 4 (grid0.coords t) = false := by decide +kernel
theorem live0_5 : ∀ t : Fin cfg0.N, cfg0.idle 5 (grid0.coords t) = false := by decide +kernel
/-- Away from k = 7 the output window is idle and its block is not written back. -/
theorem idle0_6 : ∀ t : Fin cfg0.N, ¬isLastK0 (grid0.coords t) → cfg0.idle 6 (grid0.coords t) = true := by decide +kernel
theorem keep0_6 : ∀ t : Fin cfg0.N, ¬isLastK0 (grid0.coords t) → (cfg0.win 6).flush t = false := by decide +kernel
/-- At k = 7 it is live. -/
theorem live0_6 : ∀ t : Fin cfg0.N, isLastK0 (grid0.coords t) → cfg0.idle 6 (grid0.coords t) = false := by decide +kernel

/-! ## Memrefs -/

abbrev stg0_0 (t : Fin cfg0.N) : Memref sig .tc .vmem S1024x1024 .f32 := win0_0.stage (cfg0.slots t 0)
abbrev stgWhole0_0 (t : Fin cfg0.N) : (stg0_0 t).IsWhole := hstage0_0 ((cfg0.slots t 0).cast nbuf0_0)
abbrev stg0_1 (t : Fin cfg0.N) : Memref sig .tc .vmem S1024x256 .f32 := win0_1.stage (cfg0.slots t 1)
abbrev stgWhole0_1 (t : Fin cfg0.N) : (stg0_1 t).IsWhole := hstage0_1 ((cfg0.slots t 1).cast nbuf0_1)
abbrev stg0_2 (t : Fin cfg0.N) : Memref sig .tc .vmem S256x128 .f32 := win0_2.stage (cfg0.slots t 2)
abbrev stgWhole0_2 (t : Fin cfg0.N) : (stg0_2 t).IsWhole := hstage0_2 ((cfg0.slots t 2).cast nbuf0_2)
abbrev stg0_3 (t : Fin cfg0.N) : Memref sig .tc .vmem S1x128 .f32 := win0_3.stage (cfg0.slots t 3)
abbrev stgWhole0_3 (t : Fin cfg0.N) : (stg0_3 t).IsWhole := hstage0_3 ((cfg0.slots t 3).cast nbuf0_3)
abbrev stg0_4 (t : Fin cfg0.N) : Memref sig .tc .vmem S128x128 .f32 := win0_4.stage (cfg0.slots t 4)
abbrev stgWhole0_4 (t : Fin cfg0.N) : (stg0_4 t).IsWhole := hstage0_4 ((cfg0.slots t 4).cast nbuf0_4)
abbrev stg0_5 (t : Fin cfg0.N) : Memref sig .tc .vmem S1x128 .f32 := win0_5.stage (cfg0.slots t 5)
abbrev stgWhole0_5 (t : Fin cfg0.N) : (stg0_5 t).IsWhole := hstage0_5 ((cfg0.slots t 5).cast nbuf0_5)
abbrev stg0_6 (t : Fin cfg0.N) : Memref sig .tc .vmem S1024x128 .f32 := win0_6.stage (cfg0.slots t 6)
abbrev stgWhole0_6 (t : Fin cfg0.N) : (stg0_6 t).IsWhole := hstage0_6 ((cfg0.slots t 6).cast nbuf0_6)
/-- The accumulator: a whole scoped buffer of the kernel's own, passed beside the windows and carried from point to point. -/
abbrev acc0 : Memref sig .tc .vmem S1024x256 .f32 := Memref.whole cc0_scratch0
abbrev accView0 : View sig .tc .vmem S1024x256 .f32 := acc0.view
/-- A view of the output block's shape, through which contents of the output's staging buffer are stated. -/
abbrev outView0 : View sig .tc .vmem S1024x128 .f32 := (Memref.whole cc0_stg6_0 : Memref sig .tc .vmem S1024x128 .f32).view

/-! ## The region invariant, the accumulator split off -/

/-- The scoped buffers the region never touches (the second region's staging buffers and accumulator), each at some contents. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

theorem PhiA0_eq (c : Dev nD) :
    (Pipeline.ΦA spec0 c : sProp 𝕄)
      = iprop(iprop((∃ d, owns (c : Thread nD τ) acc0 fullShare d) ∗ others0 (F := F) c) ∗ (∃ r, prngReg c r)) := by
  unfold Pipeline.ΦA others0; rw [scopedRest0_eq]; simp only [acc0, owns_whole]; try rfl

end Cert.KernelIdeal.Hand

end
-- ==== Proof.HandKernelIdeal.R0RunA.lean ====
/- The body of the first region at a point with k = 0 (and k ≠ 7), run symbolically on whole staging memrefs: the
   accumulator is reset and then receives this point's partial product. The list of writes the accumulator ends with is
   found by the run and packaged with the triple. -/
import proofs.«117335_j42545946034709_1_alg».proof.Proof.HandKernelIdeal.R0Shared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- Case k = 0: with the blocks of u_basis and x_cat at `x0`, `x1` and the accumulator at anything, the body reaches
    any continuation that accepts the two inputs unchanged and the accumulator with the writes `LS` applied. The other
    operands are not touched and stay with the caller. -/
noncomputable def kernelRun0_A (c : Dev nD) (i : grid0.Coords) (arg2 : Memref sig .tc .vmem S1024x1024 .f32) (harg2 : arg2.IsWhole) (arg3 : Memref sig .tc .vmem S1024x256 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x256 .f32) (harg9 : arg9.IsWhole) (hc0 : isFirstK0 i) (hc1 : ¬isLastK0 i)
    (x0 : Vec F S1024x1024 .f32) (x1 : Vec F S1024x256 .f32) :
    { LS : List (View.Piece (Elt F) S1024x256 .f32) //
      ∀ (E : Set ℕ) (K : PUnit → sProp 𝕄),
        iprop(owns (c : Thread nD τ) arg2 fullShare x0 ∗ owns (c : Thread nD τ) arg3 fullShare x1 ∗ (∃ d, owns (c : Thread nD τ) arg9 fullShare d)
            ∗ (iprop(owns (c : Thread nD τ) arg2 fullShare x0 ∗ owns (c : Thread nD τ) arg3 fullShare x1 ∗ (∃ f, arg9.view.loc (c : Thread nD τ) ↦[arg9.view.set]{fullShare} arg9.view.writes (Elt F) f LS)) -∗ K ⟨⟩))
          ⊢ wp frame (wpE (defs₀ (F := F)) Variants.none c none) E (cc0__combined_kernel i arg2 harg2 arg3 harg3 arg4 harg4 arg5 harg5 arg6 harg6 arg7 harg7 arg8 harg8 arg9 harg9) K } := by
  refine ⟨?_, fun E K => ?run⟩
  case run =>
    simp only [cc0__combined_kernel_eq_skeleton]; unfold cc0__combined_kernel_skel
    unfold owns
    iintro ⟨⟨%f0, %hf0, H0⟩, ⟨%f1, %hf1, H1⟩, ⟨%ds, %fs, -, HS⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS

end Cert.KernelIdeal.Hand

end
-- ==== Proof.HandKernelIdeal.R0RunB.lean ====
/- The body of the first region at a point with 0 < k < 7: the accumulator, holding what the point before left, receives
   this point's partial product; nothing else is stored. -/
import proofs.«117335_j42545946034709_1_alg».proof.Proof.HandKernelIdeal.R0RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- Case 0 < k < 7: as at k = 0 but the accumulator enters at known contents `xs`, which the new contents depend on. -/
noncomputable def kernelRun0_B (c : Dev nD) (i : grid0.Coords) (arg2 : Memref sig .tc .vmem S1024x1024 .f32) (harg2 : arg2.IsWhole) (arg3 : Memref sig .tc .vmem S1024x256 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x256 .f32) (harg9 : arg9.IsWhole) (hc0 : ¬isFirstK0 i) (hc1 : ¬isLastK0 i)
    (x0 : Vec F S1024x1024 .f32) (x1 : Vec F S1024x256 .f32) (xs : Vec F S1024x256 .f32) :
    { LS : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg9 fullShare xs
            ∗ (iprop(owns (c : Thread nD τ) arg2 fullShare x0 ∗ owns (c : Thread nD τ) arg3 fullShare x1 ∗ (∃ f, arg9.view.loc (c : Thread nD τ) ↦[arg9.view.set]{fullShare} arg9.view.writes (Elt F) f LS)) -∗ K ⟨⟩))
          ⊢ wp frame (wpE (defs₀ (F := F)) Variants.none c none) E (cc0__combined_kernel i arg2 harg2 arg3 harg3 arg4 harg4 arg5 harg5 arg6 harg6 arg7 harg7 arg8 harg8 arg9 harg9) K } := by
  refine ⟨?_, fun E K => ?run⟩
  case run =>
    simp only [cc0__combined_kernel_eq_skeleton]; unfold cc0__combined_kernel_skel
    unfold owns
    iintro ⟨⟨%f0, %hf0, H0⟩, ⟨%f1, %hf1, H1⟩, ⟨%fs, %hfs, HS⟩, Hk⟩
    obtain rfl := harg2.eq_unread hf0; obtain rfl := harg3.eq_unread hf1; obtain rfl := harg9.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS

end Cert.KernelIdeal.Hand

end
-- ==== Proof.HandKernelIdeal.R0RunC.lean ====
/- The body of the first region at a point with k = 7: the accumulator receives the last partial product, and the
   epilogue (the two gating layers applied to the finished accumulator) is stored into the output block. -/
import proofs.«117335_j42545946034709_1_alg».proof.Proof.HandKernelIdeal.R0RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- Case k = 7: all six inputs at known contents, the output's buffer at anything (the body loads it before storing
    over it), the accumulator at `xs`. The run finds the writes the output (`LO`) and the accumulator (`LS`) end with. -/
noncomputable def kernelRun0_C (c : Dev nD) (i : grid0.Coords) (arg2 : Memref sig .tc .vmem S1024x1024 .f32) (harg2 : arg2.IsWhole) (arg3 : Memref sig .tc .vmem S1024x256 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x256 .f32) (harg9 : arg9.IsWhole) (hc0 : ¬isFirstK0 i) (hc1 : isLastK0 i)
    (x0 : Vec F S1024x1024 .f32) (x1 : Vec F S1024x256 .f32) (x2 : Vec F S256x128 .f32) (x3 : Vec F S1x128 .f32)
    (x4 : Vec F S128x128 .f32) (x5 : Vec F S1x128 .f32) (xs : Vec F S1024x256 .f32) :
    Σ' (LO : List (View.Piece (Elt F) S1024x128 .f32)), { LS : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f LO) ∗ (∃ f, arg9.view.loc (c : Thread nD τ) ↦[arg9.view.set]{fullShare} arg9.view.writes (Elt F) f LS)) -∗ K ⟨⟩))
          ⊢ wp frame (wpE (defs₀ (F := F)) Variants.none c none) E (cc0__combined_kernel i arg2 harg2 arg3 harg3 arg4 harg4 arg5 harg5 arg6 harg6 arg7 harg7 arg8 harg8 arg9 harg9) K } := by
  refine ⟨?_, ?_, fun E K => ?run⟩
  case run =>
    simp only [cc0__combined_kernel_eq_skeleton]; unfold cc0__combined_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg9.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS

end Cert.KernelIdeal.Hand

end
-- ==== Proof.HandKernelIdeal.R0Frame.lean ====
/- The first region's frame half: what the accumulator and the output block hold after each grid point, the proof data
   of the pipeline, the body obligation, and the invariant at entry and exit; then the contents in closed form over
   the payloads of the body. -/
import proofs.«117335_j42545946034709_1_alg».proof.Proof.HandKernelIdeal.R0RunC
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

theorem notLast_of_first0 {n : ℕ} (h0 : n % 8 = 0) : ¬ n % 8 = 7 := by omega

/-- At k = 0 the accumulator's writes cover it. -/
theorem accCover0_A (c : Dev nD) (i : grid0.Coords) (arg2 : Memref sig .tc .vmem S1024x1024 .f32) (harg2 : arg2.IsWhole) (arg3 : Memref sig .tc .vmem S1024x256 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x256 .f32) (harg9 : arg9.IsWhole) (hc0 : isFirstK0 i) (hc1 : ¬isLastK0 i) (x0 : Vec F S1024x1024 .f32) (x1 : Vec F S1024x256 .f32) (y : S1024x256.Idx) :
    ∃ pc ∈ (kernelRun0_A c i arg2 harg2 arg3 harg3 arg4 harg4 arg5 harg5 arg6 harg6 arg7 harg7 arg8 harg8 arg9 harg9 hc0 hc1 x0 x1).1, y ∈ pc.1.set :=
  View.cover_of_tiledL (kernelRun0_A c i arg2 harg2 arg3 harg3 arg4 harg4 arg5 harg5 arg6 harg6 arg7 harg7 arg8 harg8 arg9 harg9 hc0 hc1 x0 x1).1 S1024x256.size (by sl_kernel_rfl) y
/-- The accumulator after a point with k = 0: the canonical contents of its writes. -/
def sout0_A_0 (c : Dev nD) (i : grid0.Coords) (arg2 : Memref sig .tc .vmem S1024x1024 .f32) (harg2 : arg2.IsWhole) (arg3 : Memref sig .tc .vmem S1024x256 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x256 .f32) (harg9 : arg9.IsWhole) (hc0 : isFirstK0 i) (hc1 : ¬isLastK0 i) (x0 : Vec F S1024x1024 .f32) (x1 : Vec F S1024x256 .f32) : Vec F S1024x256 .f32 :=
  View.canon (kernelRun0_A c i arg2 harg2 arg3 harg3 arg4 harg4 arg5 harg5 arg6 harg6 arg7 harg7 arg8 harg8 arg9 harg9 hc0 hc1 x0 x1).1

/-- At 0 < k < 7 the accumulator's writes cover it. -/
theorem accCover0_B (c : Dev nD) (i : grid0.Coords) (arg2 : Memref sig .tc .vmem S1024x1024 .f32) (harg2 : arg2.IsWhole) (arg3 : Memref sig .tc .vmem S1024x256 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x256 .f32) (harg9 : arg9.IsWhole) (hc0 : ¬isFirstK0 i) (hc1 : ¬isLastK0 i) (x0 : Vec F S1024x1024 .f32) (x1 : Vec F S1024x256 .f32) (xs : Vec F S1024x256 .f32) (y : S1024x256.Idx) :
    ∃ pc ∈ (kernelRun0_B c i arg2 harg2 arg3 harg3 arg4 harg4 arg5 harg5 arg6 harg6 arg7 harg7 arg8 harg8 arg9 harg9 hc0 hc1 x0 x1 xs).1, y ∈ pc.1.set :=
  View.cover_of_tiledL (kernelRun0_B c i arg2 harg2 arg3 harg3 arg4 harg4 arg5 harg5 arg6 harg6 arg7 harg7 arg8 harg8 arg9 harg9 hc0 hc1 x0 x1 xs).1 S1024x256.size (by sl_kernel_rfl) y
/-- The accumulator after a point with 0 < k < 7. -/
def sout0_B_0 (c : Dev nD) (i : grid0.Coords) (arg2 : Memref sig .tc .vmem S1024x1024 .f32) (harg2 : arg2.IsWhole) (arg3 : Memref sig .tc .vmem S1024x256 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x256 .f32) (harg9 : arg9.IsWhole) (hc0 : ¬isFirstK0 i) (hc1 : ¬isLastK0 i) (x0 : Vec F S1024x1024 .f32) (x1 : Vec F S1024x256 .f32) (xs : Vec F S1024x256 .f32) : Vec F S1024x256 .f32 :=
  View.canon (kernelRun0_B c i arg2 harg2 arg3 harg3 arg4 harg4 arg5 harg5 arg6 harg6 arg7 harg7 arg8 harg8 arg9 harg9 hc0 hc1 x0 x1 xs).1

/-- At k = 7 the output block's writes cover it, -/
theorem outCover0_C (c : Dev nD) (i : grid0.Coords) (arg2 : Memref sig .tc .vmem S1024x1024 .f32) (harg2 : arg2.IsWhole) (arg3 : Memref sig .tc .vmem S1024x256 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x256 .f32) (harg9 : arg9.IsWhole) (hc0 : ¬isFirstK0 i) (hc1 : isLastK0 i) (x0 : Vec F S1024x1024 .f32) (x1 : Vec F S1024x256 .f32) (x2 : Vec F S256x128 .f32) (x3 : Vec F S1x128 .f32) (x4 : Vec F S128x128 .f32) (x5 : Vec F S1x128 .f32) (xs : Vec F S1024x256 .f32) (y : S1024x128.Idx) :
    ∃ pc ∈ (kernelRun0_C c i arg2 harg2 arg3 harg3 arg4 harg4 arg5 harg5 arg6 harg6 arg7 harg7 arg8 harg8 arg9 harg9 hc0 hc1 x0 x1 x2 x3 x4 x5 xs).1, y ∈ pc.1.set :=
  View.cover_of_tiledL (kernelRun0_C c i arg2 harg2 arg3 harg3 arg4 harg4 arg5 harg5 arg6 harg6 arg7 harg7 arg8 harg8 arg9 harg9 hc0 hc1 x0 x1 x2 x3 x4 x5 xs).1 S1024x128.size (by sl_kernel_rfl) y
/-- and the output block holds their canonical contents. -/
def out0_C_6 (c : Dev nD) (i : grid0.Coords) (arg2 : Memref sig .tc .vmem S1024x1024 .f32) (harg2 : arg2.IsWhole) (arg3 : Memref sig .tc .vmem S1024x256 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x256 .f32) (harg9 : arg9.IsWhole) (hc0 : ¬isFirstK0 i) (hc1 : isLastK0 i) (x0 : Vec F S1024x1024 .f32) (x1 : Vec F S1024x256 .f32) (x2 : Vec F S256x128 .f32) (x3 : Vec F S1x128 .f32) (x4 : Vec F S128x128 .f32) (x5 : Vec F S1x128 .f32) (xs : Vec F S1024x256 .f32) : Vec F S1024x128 .f32 :=
  View.canon (kernelRun0_C c i arg2 harg2 arg3 harg3 arg4 harg4 arg5 harg5 arg6 harg6 arg7 harg7 arg8 harg8 arg9 harg9 hc0 hc1 x0 x1 x2 x3 x4 x5 xs).1
/-- Likewise the accumulator at k = 7. -/
theorem accCover0_C (c : Dev nD) (i : grid0.Coords) (arg2 : Memref sig .tc .vmem S1024x1024 .f32) (harg2 : arg2.IsWhole) (arg3 : Memref sig .tc .vmem S1024x256 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x256 .f32) (harg9 : arg9.IsWhole) (hc0 : ¬isFirstK0 i) (hc1 : isLastK0 i) (x0 : Vec F S1024x1024 .f32) (x1 : Vec F S1024x256 .f32) (x2 : Vec F S256x128 .f32) (x3 : Vec F S1x128 .f32) (x4 : Vec F S128x128 .f32) (x5 : Vec F S1x128 .f32) (xs : Vec F S1024x256 .f32) (y : S1024x256.Idx) :
    ∃ pc ∈ (kernelRun0_C c i arg2 harg2 arg3 harg3 arg4 harg4 arg5 harg5 arg6 harg6 arg7 harg7 arg8 harg8 arg9 harg9 hc0 hc1 x0 x1 x2 x3 x4 x5 xs).2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 x4 x5 xs).2.1 S1024x256.size (by sl_kernel_rfl) y
def sout0_C_0 (c : Dev nD) (i : grid0.Coords) (arg2 : Memref sig .tc .vmem S1024x1024 .f32) (harg2 : arg2.IsWhole) (arg3 : Memref sig .tc .vmem S1024x256 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x256 .f32) (harg9 : arg9.IsWhole) (hc0 : ¬isFirstK0 i) (hc1 : isLastK0 i) (x0 : Vec F S1024x1024 .f32) (x1 : Vec F S1024x256 .f32) (x2 : Vec F S256x128 .f32) (x3 : Vec F S1x128 .f32) (x4 : Vec F S128x128 .f32) (x5 : Vec F S1x128 .f32) (xs : Vec F S1024x256 .f32) : Vec F S1024x256 .f32 :=
  View.canon (kernelRun0_C c i arg2 harg2 arg3 harg3 arg4 harg4 arg5 harg5 arg6 harg6 arg7 harg7 arg8 harg8 arg9 harg9 hc0 hc1 x0 x1 x2 x3 x4 x5 xs).2.1

/-! ## Point by point -/

/-- A value for the output block's buffer at the points that store nothing into it; never consulted, the window being
    idle and not written back there. -/
def idleOut0 : Vec F S1024x128 .f32 := View.canon []

/-- One point: from what the accumulator held before it (`xs`), what the output's buffer and the accumulator hold after
    it — by the point's k: the reset-and-accumulate case, the accumulate-and-finish case, or plain accumulation. -/
def stepAt0 (c : Dev nD) (t : Fin cfg0.N) (xs : Vec F S1024x256 .f32) : Vec F S1024x128 .f32 × Vec F S1024x256 .f32 :=
  if h0 : t.val % 8 = 0 then (idleOut0, sout0_A_0 c (grid0.coords t) (stg0_0 t) (stgWhole0_0 t) (stg0_1 t) (stgWhole0_1 t) (stg0_2 t) (stgWhole0_2 t) (stg0_3 t) (stgWhole0_3 t) (stg0_4 t) (stgWhole0_4 t) (stg0_5 t) (stgWhole0_5 t) (stg0_6 t) (stgWhole0_6 t) acc0 (Memref.isWhole_whole _) ((isFirstK0_iff t).mpr h0) (fun h => notLast_of_first0 h0 ((isLastK0_iff t).mp h)) (iblk0 V c 0 t) (iblk0 V c 1 t))
  else if h1 : t.val % 8 = 7 then (out0_C_6 c (grid0.coords t) (stg0_0 t) (stgWhole0_0 t) (stg0_1 t) (stgWhole0_1 t) (stg0_2 t) (stgWhole0_2 t) (stg0_3 t) (stgWhole0_3 t) (stg0_4 t) (stgWhole0_4 t) (stg0_5 t) (stgWhole0_5 t) (stg0_6 t) (stgWhole0_6 t) acc0 (Memref.isWhole_whole _) (fun h => h0 ((isFirstK0_iff t).mp h)) ((isLastK0_iff t).mpr h1) (iblk0 V c 0 t) (iblk0 V c 1 t) (iblk0 V c 2 t) (iblk0 V c 3 t) (iblk0 V c 4 t) (iblk0 V c 5 t) xs, sout0_C_0 c (grid0.coords t) (stg0_0 t) (stgWhole0_0 t) (stg0_1 t) (stgWhole0_1 t) (stg0_2 t) (stgWhole0_2 t) (stg0_3 t) (stgWhole0_3 t) (stg0_4 t) (stgWhole0_4 t) (stg0_5 t) (stgWhole0_5 t) (stg0_6 t) (stgWhole0_6 t) acc0 (Memref.isWhole_whole _) (fun h => h0 ((isFirstK0_iff t).mp h)) ((isLastK0_iff t).mpr h1) (iblk0 V c 0 t) (iblk0 V c 1 t) (iblk0 V c 2 t) (iblk0 V c 3 t) (iblk0 V c 4 t) (iblk0 V c 5 t) xs)
  else (idleOut0, sout0_B_0 c (grid0.coords t) (stg0_0 t) (stgWhole0_0 t) (stg0_1 t) (stgWhole0_1 t) (stg0_2 t) (stgWhole0_2 t) (stg0_3 t) (stgWhole0_3 t) (stg0_4 t) (stgWhole0_4 t) (stg0_5 t) (stgWhole0_5 t) (stg0_6 t) (stgWhole0_6 t) acc0 (Memref.isWhole_whole _) (fun h => h0 ((isFirstK0_iff t).mp h)) (fun h => h1 ((isLastK0_iff t).mp h)) (iblk0 V c 0 t) (iblk0 V c 1 t) xs)

/-- After the body at point `n`: (the output block's staging buffer, the accumulator), the points chained in grid order. -/
def outsAt0 (c : Dev nD) : (n : ℕ) → n < cfg0.N → Vec F S1024x128 .f32 × Vec F S1024x256 .f32
  | 0, hn => stepAt0 V c ⟨0, hn⟩ (View.canon [])
  | n + 1, hn => stepAt0 V c ⟨n + 1, hn⟩ (outsAt0 c n (Nat.lt_of_succ_lt hn)).2

theorem outsAt0_pos (c : Dev nD) (t : Fin cfg0.N) (hz : t.val ≠ 0) :
    outsAt0 V c t.val t.isLt = stepAt0 V c t (outsAt0 V c (t.val - 1) (Nat.lt_of_le_of_lt (Nat.sub_le _ _) t.isLt)).2 := by
  obtain ⟨n, hn⟩ := t
  cases n with
  | zero => exact absurd rfl hz
  | succ n => rfl

theorem stepAt0_A (c : Dev nD) (t : Fin cfg0.N) (xs : Vec F S1024x256 .f32) (h0 : t.val % 8 = 0) :
    stepAt0 V c t xs = (idleOut0, sout0_A_0 c (grid0.coords t) (stg0_0 t) (stgWhole0_0 t) (stg0_1 t) (stgWhole0_1 t) (stg0_2 t) (stgWhole0_2 t) (stg0_3 t) (stgWhole0_3 t) (stg0_4 t) (stgWhole0_4 t) (stg0_5 t) (stgWhole0_5 t) (stg0_6 t) (stgWhole0_6 t) acc0 (Memref.isWhole_whole _) ((isFirstK0_iff t).mpr h0) (fun h => notLast_of_first0 h0 ((isLastK0_iff t).mp h)) (iblk0 V c 0 t) (iblk0 V c 1 t)) := dif_pos h0
theorem stepAt0_C (c : Dev nD) (t : Fin cfg0.N) (xs : Vec F S1024x256 .f32) (h0 : ¬t.val % 8 = 0) (h1 : t.val % 8 = 7) :
    stepAt0 V c t xs = (out0_C_6 c (grid0.coords t) (stg0_0 t) (stgWhole0_0 t) (stg0_1 t) (stgWhole0_1 t) (stg0_2 t) (stgWhole0_2 t) (stg0_3 t) (stgWhole0_3 t) (stg0_4 t) (stgWhole0_4 t) (stg0_5 t) (stgWhole0_5 t) (stg0_6 t) (stgWhole0_6 t) acc0 (Memref.isWhole_whole _) (fun h => h0 ((isFirstK0_iff t).mp h)) ((isLastK0_iff t).mpr h1) (iblk0 V c 0 t) (iblk0 V c 1 t) (iblk0 V c 2 t) (iblk0 V c 3 t) (iblk0 V c 4 t) (iblk0 V c 5 t) xs, sout0_C_0 c (grid0.coords t) (stg0_0 t) (stgWhole0_0 t) (stg0_1 t) (stgWhole0_1 t) (stg0_2 t) (stgWhole0_2 t) (stg0_3 t) (stgWhole0_3 t) (stg0_4 t) (stgWhole0_4 t) (stg0_5 t) (stgWhole0_5 t) (stg0_6 t) (stgWhole0_6 t) acc0 (Memref.isWhole_whole _) (fun h => h0 ((isFirstK0_iff t).mp h)) ((isLastK0_iff t).mpr h1) (iblk0 V c 0 t) (iblk0 V c 1 t) (iblk0 V c 2 t) (iblk0 V c 3 t) (iblk0 V c 4 t) (iblk0 V c 5 t) xs) := (dif_neg h0).trans (dif_pos h1)
theorem stepAt0_B (c : Dev nD) (t : Fin cfg0.N) (xs : Vec F S1024x256 .f32) (h0 : ¬t.val % 8 = 0) (h1 : ¬t.val % 8 = 7) :
    stepAt0 V c t xs = (idleOut0, sout0_B_0 c (grid0.coords t) (stg0_0 t) (stgWhole0_0 t) (stg0_1 t) (stgWhole0_1 t) (stg0_2 t) (stgWhole0_2 t) (stg0_3 t) (stgWhole0_3 t) (stg0_4 t) (stgWhole0_4 t) (stg0_5 t) (stgWhole0_5 t) (stg0_6 t) (stgWhole0_6 t) acc0 (Memref.isWhole_whole _) (fun h => h0 ((isFirstK0_iff t).mp h)) (fun h => h1 ((isLastK0_iff t).mp h)) (iblk0 V c 0 t) (iblk0 V c 1 t) xs) := (dif_neg h0).trans (dif_neg h1)

/-- At a point with k = 0, whatever came before. -/
theorem outsAt0_A (c : Dev nD) (t : Fin cfg0.N) (h0 : t.val % 8 = 0) :
    outsAt0 V c t.val t.isLt = (idleOut0, sout0_A_0 c (grid0.coords t) (stg0_0 t) (stgWhole0_0 t) (stg0_1 t) (stgWhole0_1 t) (stg0_2 t) (stgWhole0_2 t) (stg0_3 t) (stgWhole0_3 t) (stg0_4 t) (stgWhole0_4 t) (stg0_5 t) (stgWhole0_5 t) (stg0_6 t) (stgWhole0_6 t) acc0 (Memref.isWhole_whole _) ((isFirstK0_iff t).mpr h0) (fun h => notLast_of_first0 h0 ((isLastK0_iff t).mp h)) (iblk0 V c 0 t) (iblk0 V c 1 t)) := by
  by_cases hz : t.val = 0
  · obtain ⟨n, hn⟩ := t
    obtain rfl : n = 0 := hz
    exact stepAt0_A V c ⟨0, hn⟩ _ h0
  · rw [outsAt0_pos V c t hz]; exact stepAt0_A V c t _ h0
theorem outsAt0_C (c : Dev nD) (t : Fin cfg0.N) (h0 : ¬t.val % 8 = 0) (h1 : t.val % 8 = 7) :
    outsAt0 V c t.val t.isLt = (out0_C_6 c (grid0.coords t) (stg0_0 t) (stgWhole0_0 t) (stg0_1 t) (stgWhole0_1 t) (stg0_2 t) (stgWhole0_2 t) (stg0_3 t) (stgWhole0_3 t) (stg0_4 t) (stgWhole0_4 t) (stg0_5 t) (stgWhole0_5 t) (stg0_6 t) (stgWhole0_6 t) acc0 (Memref.isWhole_whole _) (fun h => h0 ((isFirstK0_iff t).mp h)) ((isLastK0_iff t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2, sout0_C_0 c (grid0.coords t) (stg0_0 t) (stgWhole0_0 t) (stg0_1 t) (stgWhole0_1 t) (stg0_2 t) (stgWhole0_2 t) (stg0_3 t) (stgWhole0_3 t) (stg0_4 t) (stgWhole0_4 t) (stg0_5 t) (stgWhole0_5 t) (stg0_6 t) (stgWhole0_6 t) acc0 (Memref.isWhole_whole _) (fun h => h0 ((isFirstK0_iff t).mp h)) ((isLastK0_iff t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2) := by
  rw [outsAt0_pos V c t (fun hz => h0 (by rw [hz]))]; exact stepAt0_C V c t _ h0 h1
theorem outsAt0_B (c : Dev nD) (t : Fin cfg0.N) (h0 : ¬t.val % 8 = 0) (h1 : ¬t.val % 8 = 7) :
    outsAt0 V c t.val t.isLt = (idleOut0, sout0_B_0 c (grid0.coords t) (stg0_0 t) (stgWhole0_0 t) (stg0_1 t) (stgWhole0_1 t) (stg0_2 t) (stgWhole0_2 t) (stg0_3 t) (stgWhole0_3 t) (stg0_4 t) (stgWhole0_4 t) (stg0_5 t) (stgWhole0_5 t) (stg0_6 t) (stgWhole0_6 t) acc0 (Memref.isWhole_whole _) (fun h => h0 ((isFirstK0_iff t).mp h)) (fun h => h1 ((isLastK0_iff t).mp h)) (iblk0 V c 0 t) (iblk0 V c 1 t) (outsAt0 V c (t.val - 1) (Nat.lt_of_le_of_lt (Nat.sub_le _ _) t.isLt)).2) := by
  rw [outsAt0_pos V c t (fun hz => h0 (by rw [hz]))]; exact stepAt0_B V c t _ h0 h1

/-! ## The invariant -/

/-- Before point `n`: at entry the region's own invariant; afterwards the same with the accumulator at what point `n - 1` left. -/
def PhiS0 (c : Dev nD) : (n : ℕ) → n ≤ cfg0.N → sProp 𝕄
  | 0, _ => Pipeline.ΦA spec0 c
  | n + 1, hn => iprop(iprop(owns (c : Thread nD τ) acc0 fullShare ((outsAt0 V c n hn).2) ∗ others0 (F := F) c) ∗ (∃ r, prngReg c r))

theorem PhiS0_succ (c : Dev nD) (n : ℕ) (hn : n < cfg0.N) :
    PhiS0 V c (n + 1) hn = iprop(iprop(owns (c : Thread nD τ) acc0 fullShare ((outsAt0 V c n hn).2) ∗ others0 (F := F) c) ∗ (∃ r, prngReg c r)) := rfl

theorem PhiS0_pos (c : Dev nD) (n : ℕ) (h : n ≤ cfg0.N) (hz : n ≠ 0) :
    PhiS0 V c n h = iprop(iprop(owns (c : Thread nD τ) acc0 fullShare ((outsAt0 V c (n - 1) (by omega)).2) ∗ others0 (F := F) c) ∗ (∃ r, prngReg c r)) := by
  cases n with
  | zero => exact absurd rfl hz
  | succ n => rfl

/-- Whatever the point, the invariant yields the accumulator at SOME contents beside the rest. -/
theorem PhiS0_forget (c : Dev nD) (n : ℕ) (h : n ≤ cfg0.N) :
    PhiS0 V c n h ⊢ iprop(iprop((∃ d, owns (c : Thread nD τ) acc0 fullShare d) ∗ others0 (F := F) c) ∗ (∃ r, prngReg c r)) := by
  cases n with
  | zero =>
    rw [show PhiS0 V c 0 h = Pipeline.ΦA spec0 c from rfl, PhiA0_eq]
    try exact Idealize.SL.BI.Entails.refl _
  | succ n =>
    rw [PhiS0_succ]
    iintro ⟨⟨HS, Hr⟩, Hg⟩
    isplitl [HS Hr]
    · isplitl [HS]
      · iexists _; iexact HS
      iexact Hr
    iexact Hg

/-! ## The proof data -/

/-- The pipeline's proof data on core `c`: arrays at the entry contents; after the body each input's buffer still at
    its block and the output's at `outsAt0`'s first component; the invariant `PhiS0`; full shares, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = (outsAt0 V c t.val t.isLt).1 := by dsimp only [dat0]

theorem Phi0_castSucc (c : Dev nD) (t : Fin cfg0.N) :
    (dat0 V c).Φ t.castSucc = PhiS0 V c t.val (Nat.le_of_lt t.isLt) := by
  dsimp only [dat0]; simp only [Fin.coe_castSucc]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

theorem leaves0_0 (c : Dev nD) (t : Fin cfg0.N) :
    (dat0 V c).leavesExact 0 t = owns (c : Thread nD τ) (stg0_0 t) fullShare (iblk0 V c 0 t) := by
  unfold Dat.leavesExact; rw [live0_0 t, after0_0]
theorem leaves0_1 (c : Dev nD) (t : Fin cfg0.N) :
    (dat0 V c).leavesExact 1 t = owns (c : Thread nD τ) (stg0_1 t) fullShare (iblk0 V c 1 t) := by
  unfold Dat.leavesExact; rw [live0_1 t, after0_1]
theorem leaves0_2 (c : Dev nD) (t : Fin cfg0.N) :
    (dat0 V c).leavesExact 2 t = owns (c : Thread nD τ) (stg0_2 t) fullShare (iblk0 V c 2 t) := by
  unfold Dat.leavesExact; rw [live0_2 t, after0_2]
theorem leaves0_3 (c : Dev nD) (t : Fin cfg0.N) :
    (dat0 V c).leavesExact 3 t = owns (c : Thread nD τ) (stg0_3 t) fullShare (iblk0 V c 3 t) := by
  unfold Dat.leavesExact; rw [live0_3 t, after0_3]
theorem leaves0_4 (c : Dev nD) (t : Fin cfg0.N) :
    (dat0 V c).leavesExact 4 t = owns (c : Thread nD τ) (stg0_4 t) fullShare (iblk0 V c 4 t) := by
  unfold Dat.leavesExact; rw [live0_4 t, after0_4]
theorem leaves0_5 (c : Dev nD) (t : Fin cfg0.N) :
    (dat0 V c).leavesExact 5 t = owns (c : Thread nD τ) (stg0_5 t) fullShare (iblk0 V c 5 t) := by
  unfold Dat.leavesExact; rw [live0_5 t, after0_5]
theorem leaves0_6_last (c : Dev nD) (t : Fin cfg0.N) (h1 : t.val % 8 = 7) :
    (dat0 V c).leavesExact 6 t = owns (c : Thread nD τ) (stg0_6 t) fullShare (outsAt0 V c t.val t.isLt).1 := by
  unfold Dat.leavesExact; rw [live0_6 t ((isLastK0_iff t).mpr h1), after0_6]
theorem leaves0_6_idle (c : Dev nD) (t : Fin cfg0.N) (h1 : ¬t.val % 8 = 7) :
    (dat0 V c).leavesExact 6 t = iprop(∃ d, owns (c : Thread nD τ) (stg0_6 t) fullShare ((dat0 V c).before 6 t d)) :=
  Dat.leavesExact_idle (dat0 V c) 6 t (idle0_6 t (fun h => h1 ((isLastK0_iff t).mp h))) (keep0_6 t (fun h => h1 ((isLastK0_iff t).mp h)))

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (stg0_0 t) fullShare ((dat0 V c).before 0 t d))
    ∗ (∃ d, owns (c : Thread nD τ) (stg0_1 t) fullShare ((dat0 V c).before 1 t d))
    ∗ (∃ d, owns (c : Thread nD τ) (stg0_2 t) fullShare ((dat0 V c).before 2 t d))
    ∗ (∃ d, owns (c : Thread nD τ) (stg0_3 t) fullShare ((dat0 V c).before 3 t d))
    ∗ (∃ d, owns (c : Thread nD τ) (stg0_4 t) fullShare ((dat0 V c).before 4 t d))
    ∗ (∃ d, owns (c : Thread nD τ) (stg0_5 t) fullShare ((dat0 V c).before 5 t d))
    ∗ (∃ d, owns (c : Thread nD τ) (stg0_6 t) fullShare ((dat0 V c).before 6 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

set_option maxHeartbeats 4800000 in
/-- The body at any point. The inputs' buffers hold their blocks; the point's k selects the case and its run; the
    invariant supplies the accumulator (at what the point before left when k ≠ 0, at anything when k = 0) and receives it
    back at this point's contents; the windows the case does not touch pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2, leaves0_3, leaves0_4, leaves0_5, Phi0_castSucc]
  by_cases h0 : t.val % 8 = 0
  · have h1 : ¬t.val % 8 = 7 := notLast_of_first0 h0
    rw [leaves0_6_idle V c t h1, outsAt0_A V c t h0]
    unfold sout0_A_0; dsimp only
    iintro ⟨HΦ, Ho, ⟨%d0, H0⟩, ⟨%d1, H1⟩, ⟨%d2, H2⟩, ⟨%d3, H3⟩, ⟨%d4, H4⟩, ⟨%d5, H5⟩, H6⟩
    ihave HΦ' := (PhiS0_forget V c _ _) $$ HΦ
    icases HΦ' with ⟨⟨HS, Hr⟩, Hg⟩
    iapply ((kernelRun0_A c (grid0.coords t) _ _ _ _ _ _ _ _ _ _ _ _ _ _ _ _ ((isFirstK0_iff t).mpr h0) (fun h => notLast_of_first0 h0 ((isLastK0_iff t).mp h)) (iblk0 V c 0 t) (iblk0 V c 1 t)).2 Set.univ _)
    isplitl [H0]; · iexact H0
    isplitl [H1]; · iexact H1
    isplitl [HS]; · iexact HS
    iintro ⟨H0, H1, ⟨%es, HS⟩⟩
    isplitl [HS Hr Hg]
    · isplitl [HS Hr]
      · isplitl [HS]
        · unfold owns; iexists _; isplitr
          swap; · iexact HS
          ipureintro; exact View.read_writes_eq_canon _ _ _ (accCover0_A c _ _ _ _ _ _ _ _ _ _ _ _ _ _ _ _ _ _ _ _ _)
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have hz : t.val ≠ 0 := fun hz => h0 (by rw [hz])
    rw [PhiS0_pos V c _ _ hz]
    by_cases h1 : t.val % 8 = 7
    · rw [leaves0_6_last V c t h1, outsAt0_C V c t h0 h1]
      unfold out0_C_6 sout0_C_0; dsimp only
      iintro ⟨⟨⟨HS, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_C c (grid0.coords t) _ _ _ _ _ _ _ _ _ _ _ _ _ _ _ _ (fun h => h0 ((isFirstK0_iff t).mp h)) ((isLastK0_iff t).mpr h1) (iblk0 V c 0 t) (iblk0 V c 1 t) (iblk0 V c 2 t) (iblk0 V c 3 t) (iblk0 V c 4 t) (iblk0 V c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, ⟨%e6, H6⟩, ⟨%es, HS⟩⟩
      isplitl [HS Hr Hg]
      · isplitl [HS Hr]
        · isplitl [HS]
          · unfold owns; iexists _; isplitr
            swap; · iexact HS
            ipureintro; exact View.read_writes_eq_canon _ _ _ (accCover0_C c _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_eq_canon _ _ _ (outCover0_C c _ _ _ _ _ _ _ _ _ _ _ _ _ _ _ _ _ _ _ _ _ _ _ _ _ _)
    · rw [leaves0_6_idle V c t h1, outsAt0_B V c t h0 h1]
      unfold sout0_B_0; dsimp only
      iintro ⟨⟨⟨HS, Hr⟩, Hg⟩, Ho, ⟨%d0, H0⟩, ⟨%d1, H1⟩, ⟨%d2, H2⟩, ⟨%d3, H3⟩, ⟨%d4, H4⟩, ⟨%d5, H5⟩, H6⟩
      iapply ((kernelRun0_B c (grid0.coords t) _ _ _ _ _ _ _ _ _ _ _ _ _ _ _ _ (fun h => h0 ((isFirstK0_iff t).mp h)) (fun h => h1 ((isLastK0_iff t).mp h)) (iblk0 V c 0 t) (iblk0 V c 1 t) _).2 Set.univ _)
      isplitl [H0]; · iexact H0
      isplitl [H1]; · iexact H1
      isplitl [HS]; · iexact HS
      iintro ⟨H0, H1, ⟨%es, HS⟩⟩
      isplitl [HS Hr Hg]
      · isplitl [HS Hr]
        · isplitl [HS]
          · unfold owns; iexists _; isplitr
            swap; · iexact HS
            ipureintro; exact View.read_writes_eq_canon _ _ _ (accCover0_B c _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

theorem body_obligation0 (c : Dev nD) : BodyObligation (dat0 (F := F) V c) (defs₀ (F := F)) Variants.none () Set.univ := fun t => by
  rw [bigSep_W0, bigSep_W0]
  exact sound_body0 V c t

/-! ## Entry and exit -/

theorem hin0 (c : Dev nD) : Pipeline.ΦA spec0 c ⊢ (dat0 V c).Φ 0 := by
  rw [show (dat0 V c).Φ 0 = PhiS0 V c 0 (Nat.zero_le _) from rfl, show PhiS0 V c 0 (Nat.zero_le _) = Pipeline.ΦA spec0 c from rfl]
  try exact Idealize.SL.BI.Entails.refl _

theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl, PhiA0_eq]
  exact PhiS0_forget V c _ _

/-! ## The contents over the body's payloads -/

theorem zeroOff : (![0, 0] : Fin 2 → Nat) = fun _ => 0 := funext fun a => by fin_cases a <;> rfl

/-- After a point with k = 0 the accumulator holds the partial product added to the zero block: the reset's store is
    read back whole by the accumulating load. -/
theorem sout0_A_0_eq (c : Dev nD) (i : grid0.Coords) (arg2 : Memref sig .tc .vmem S1024x1024 .f32) (harg2 : arg2.IsWhole) (arg3 : Memref sig .tc .vmem S1024x256 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x256 .f32) (harg9 : arg9.IsWhole) (hc0 : isFirstK0 i) (hc1 : ¬isLastK0 i) (x0 : Vec F S1024x1024 .f32) (x1 : Vec F S1024x256 .f32) :
    sout0_A_0 c i arg2 harg2 arg3 harg3 arg4 harg4 arg5 harg5 arg6 harg6 arg7 harg7 arg8 harg8 arg9 harg9 hc0 hc1 x0 x1 = k0_pay2 x0 x1 k0_pay1 := by
  unfold sout0_A_0 kernelRun0_A
  dsimp only
  sl_unfold_words
  rw [View.canon_cons_unit_zero (S := S1024x256) zeroOff, View.readCov_unit_zero (S := S1024x256) _ zeroOff]
  simp only [View.readAt_eq_ld, harg2.read_unread, harg3.read_unread, View.ld_unit_zero (S := S1024x1024) zeroOff, View.ld_unit_zero (S := S1024x256) zeroOff]

/-- After a point with 0 < k < 7: the partial product added to what the accumulator held. -/
theorem sout0_B_0_eq (c : Dev nD) (i : grid0.Coords) (arg2 : Memref sig .tc .vmem S1024x1024 .f32) (harg2 : arg2.IsWhole) (arg3 : Memref sig .tc .vmem S1024x256 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x256 .f32) (harg9 : arg9.IsWhole) (hc0 : ¬isFirstK0 i) (hc1 : ¬isLastK0 i) (x0 : Vec F S1024x1024 .f32) (x1 : Vec F S1024x256 .f32) (xs : Vec F S1024x256 .f32) :
    sout0_B_0 c i arg2 harg2 arg3 harg3 arg4 harg4 arg5 harg5 arg6 harg6 arg7 harg7 arg8 harg8 arg9 harg9 hc0 hc1 x0 x1 xs = k0_pay2 x0 x1 xs := by
  unfold sout0_B_0 kernelRun0_B
  dsimp only
  rw [View.canon_unit_zero (S := S1024x256) zeroOff]
  simp only [View.readAt_eq_ld, harg2.read_unread, harg3.read_unread, harg9.read_unread, View.ld_unit_zero (S := S1024x1024) zeroOff, View.ld_unit_zero (S := S1024x256) zeroOff]

/-- After a point with k = 7 the accumulator likewise, -/
theorem sout0_C_0_eq (c : Dev nD) (i : grid0.Coords) (arg2 : Memref sig .tc .vmem S1024x1024 .f32) (harg2 : arg2.IsWhole) (arg3 : Memref sig .tc .vmem S1024x256 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x256 .f32) (harg9 : arg9.IsWhole) (hc0 : ¬isFirstK0 i) (hc1 : isLastK0 i) (x0 : Vec F S1024x1024 .f32) (x1 : Vec F S1024x256 .f32) (x2 : Vec F S256x128 .f32) (x3 : Vec F S1x128 .f32) (x4 : Vec F S128x128 .f32) (x5 : Vec F S1x128 .f32) (xs : Vec F S1024x256 .f32) :
    sout0_C_0 c i arg2 harg2 arg3 harg3 arg4 harg4 arg5 harg5 arg6 harg6 arg7 harg7 arg8 harg8 arg9 harg9 hc0 hc1 x0 x1 x2 x3 x4 x5 xs = k0_pay2 x0 x1 xs := by
  unfold sout0_C_0 kernelRun0_C
  dsimp only
  sl_unfold_words
  rw [View.canon_unit_zero (S := S1024x256) zeroOff]
  simp only [View.readAt_eq_ld, harg2.read_unread, harg3.read_unread, harg9.read_unread, View.ld_unit_zero (S := S1024x1024) zeroOff, View.ld_unit_zero (S := S1024x256) zeroOff]

/-- and the output block holds the epilogue of the finished accumulator. -/
theorem out0_C_6_eq (c : Dev nD) (i : grid0.Coords) (arg2 : Memref sig .tc .vmem S1024x1024 .f32) (harg2 : arg2.IsWhole) (arg3 : Memref sig .tc .vmem S1024x256 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x256 .f32) (harg9 : arg9.IsWhole) (hc0 : ¬isFirstK0 i) (hc1 : isLastK0 i) (x0 : Vec F S1024x1024 .f32) (x1 : Vec F S1024x256 .f32) (x2 : Vec F S256x128 .f32) (x3 : Vec F S1x128 .f32) (x4 : Vec F S128x128 .f32) (x5 : Vec F S1x128 .f32) (xs : Vec F S1024x256 .f32) :
    out0_C_6 c i arg2 harg2 arg3 harg3 arg4 harg4 arg5 harg5 arg6 harg6 arg7 harg7 arg8 harg8 arg9 harg9 hc0 hc1 x0 x1 x2 x3 x4 x5 xs = k0_pay3 (k0_pay2 x0 x1 xs) x2 x3 x4 x5 := by
  unfold out0_C_6 kernelRun0_C
  dsimp only
  sl_unfold_words
  rw [View.canon_unit_zero (S := S1024x128) zeroOff, View.readCov_unit_zero (S := S1024x256) _ zeroOff]
  simp only [View.readAt_eq_ld, harg2.read_unread, harg3.read_unread, harg4.read_unread, harg5.read_unread, harg6.read_unread, harg7.read_unread, harg9.read_unread,
    View.ld_unit_zero (S := S1024x1024) zeroOff, View.ld_unit_zero (S := S1024x256) zeroOff, View.ld_unit_zero (S := S256x128) zeroOff,
    View.ld_unit_zero (S := S1x128) zeroOff, View.ld_unit_zero (S := S128x128) zeroOff]

/-! ## Closed forms over the grid -/

theorem scratch0_first (c : Dev nD) (t : Fin cfg0.N) (h : t.val % 8 = 0) :
    (outsAt0 V c t.val t.isLt).2 = k0_pay2 (iblk0 V c 0 t) (iblk0 V c 1 t) k0_pay1 := by
  rw [outsAt0_A V c t h]
  dsimp only
  exact sout0_A_0_eq (F := F) c (grid0.coords t) (stg0_0 t) (stgWhole0_0 t) (stg0_1 t) (stgWhole0_1 t) (stg0_2 t) (stgWhole0_2 t) (stg0_3 t) (stgWhole0_3 t) (stg0_4 t) (stgWhole0_4 t) (stg0_5 t) (stgWhole0_5 t) (stg0_6 t) (stgWhole0_6 t) acc0 (Memref.isWhole_whole _) ((isFirstK0_iff t).mpr h) (fun h' => notLast_of_first0 h ((isLastK0_iff t).mp h')) (iblk0 V c 0 t) (iblk0 V c 1 t)

theorem scratch0_step (c : Dev nD) (t : Fin cfg0.N) (h : t.val % 8 ≠ 0) :
    (outsAt0 V c t.val t.isLt).2 = k0_pay2 (iblk0 V c 0 t) (iblk0 V c 1 t) (outsAt0 V c (t.val - 1) (Nat.lt_of_le_of_lt (Nat.sub_le _ _) t.isLt)).2 := by
  by_cases h1 : t.val % 8 = 7
  · rw [outsAt0_C V c t h h1]
    dsimp only
    exact sout0_C_0_eq (F := F) c (grid0.coords t) (stg0_0 t) (stgWhole0_0 t) (stg0_1 t) (stgWhole0_1 t) (stg0_2 t) (stgWhole0_2 t) (stg0_3 t) (stgWhole0_3 t) (stg0_4 t) (stgWhole0_4 t) (stg0_5 t) (stgWhole0_5 t) (stg0_6 t) (stgWhole0_6 t) acc0 (Memref.isWhole_whole _) (fun h' => h ((isFirstK0_iff t).mp h')) ((isLastK0_iff t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2
  · rw [outsAt0_B V c t h h1]
    dsimp only
    exact sout0_B_0_eq (F := F) c (grid0.coords t) (stg0_0 t) (stgWhole0_0 t) (stg0_1 t) (stgWhole0_1 t) (stg0_2 t) (stgWhole0_2 t) (stg0_3 t) (stgWhole0_3 t) (stg0_4 t) (stgWhole0_4 t) (stg0_5 t) (stgWhole0_5 t) (stg0_6 t) (stgWhole0_6 t) acc0 (Memref.isWhole_whole _) (fun h' => h ((isFirstK0_iff t).mp h')) (fun h' => h1 ((isLastK0_iff t).mp h')) (iblk0 V c 0 t) (iblk0 V c 1 t) (outsAt0 V c (t.val - 1) (Nat.lt_of_le_of_lt (Nat.sub_le _ _) t.isLt)).2

theorem out0_last (c : Dev nD) (t : Fin cfg0.N) (h : t.val % 8 = 7) :
    (outsAt0 V c t.val t.isLt).1 = k0_pay3 (outsAt0 V c t.val t.isLt).2 (iblk0 V c 2 t) (iblk0 V c 3 t) (iblk0 V c 4 t) (iblk0 V c 5 t) := by
  have h0 : ¬t.val % 8 = 0 := by omega
  rw [outsAt0_C V c t h0 h]
  dsimp only
  refine (out0_C_6_eq (F := F) c (grid0.coords t) (stg0_0 t) (stgWhole0_0 t) (stg0_1 t) (stgWhole0_1 t) (stg0_2 t) (stgWhole0_2 t) (stg0_3 t) (stgWhole0_3 t) (stg0_4 t) (stgWhole0_4 t) (stg0_5 t) (stgWhole0_5 t) (stg0_6 t) (stgWhole0_6 t) acc0 (Memref.isWhole_whole _) (fun h' => h0 ((isFirstK0_iff t).mp h')) ((isLastK0_iff t).mpr h) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2).trans ?_
  exact congrArg (fun a => k0_pay3 a (iblk0 V c 2 t) (iblk0 V c 3 t) (iblk0 V c 4 t) (iblk0 V c 5 t)) (sout0_C_0_eq (F := F) c (grid0.coords t) (stg0_0 t) (stgWhole0_0 t) (stg0_1 t) (stgWhole0_1 t) (stg0_2 t) (stgWhole0_2 t) (stg0_3 t) (stgWhole0_3 t) (stg0_4 t) (stgWhole0_4 t) (stg0_5 t) (stgWhole0_5 t) (stg0_6 t) (stgWhole0_6 t) acc0 (Memref.isWhole_whole _) (fun h' => h0 ((isFirstK0_iff t).mp h')) ((isLastK0_iff t).mpr h) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2).symm

end Cert.KernelIdeal.Hand

end
-- ==== Proof.HandKernelIdeal.R1Shared.lean ====
import proofs.«117335_j42545946034709_1_alg».proof.Proof.Gen.KernelIdeal.Launch
import proofs.«117335_j42545946034709_1_alg».proof.Proof.Gen.KernelIdeal.Skeleton
import proofs.«117335_j42545946034709_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- covering a 1024-extent rectangle is checked by a structural recursion over its coordinates
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second matmul region (the inverse transform), blocked over its contraction axis

The region's grid is 8 × 8; point `t` is the pair `(m, k) = (t / 8, t % 8)`. At each point the body adds the
product of the current basis block and the current block of the first region's result into an accumulator that
lives outside the pipelined windows; the accumulator is zeroed when `k = 0` and copied to the output block when
`k = 7`. Everything here is stated at arbitrary buffer contents `V` on entry to the region. -/

section Entry
variable (V : (c : Dev nD) → (b : Ref sig .tc) → Buf (Elt F) ((c : Thread nD τ).loc b))

/-- The block of window `w` that point `t` addresses, read from the window's array as it stands on entry. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The basis window is an input that is never idle and never cut: whatever proof data has `V` for this array and
    leaves the block in place after the body, its current staging buffer holds the addressed block before the body. -/
theorem held1_0 {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the window on the first region's result. -/
theorem held1_1 {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end Entry

/-! ## The two tests on the contraction index -/

/-- "This is the first step of the contraction" (`k = 0`), as the body computes it from the grid coordinates. -/
abbrev isFirst1 (i : grid1.Coords) : Prop := (Scalar.cmpi .ne (Scalar.extui (Scalar.cmpi .eq (BitVec.ofNat 32 (i 1).val) 0#32)) 0#32) = 1#1
/-- It holds exactly at the points with `t % 8 = 0`. -/
theorem isFirst1_iff : ∀ t : Fin cfg1.N, isFirst1 (grid1.coords t) ↔ t.val % 8 = 0 :=
  (by decide +kernel : ∀ t : Fin grid1.N, isFirst1 (grid1.coords t) ↔ t.val % 8 = 0)

/-- "This is the last step of the contraction" (`k = 7`). -/
abbrev isLast1 (i : grid1.Coords) : Prop := k1_cond2 i = 1#1
/-- It holds exactly at the points with `t % 8 = 7`. -/
theorem isLast1_iff : ∀ t : Fin cfg1.N, isLast1 (grid1.coords t) ↔ t.val % 8 = 7 :=
  (by decide +kernel : ∀ t : Fin grid1.N, isLast1 (grid1.coords t) ↔ t.val % 8 = 7)

/-! ## Which windows the body touches where -/

/-- Both inputs are read at every point. -/
theorem busy1_0 : ∀ t : Fin cfg1.N, cfg1.idle 0 (grid1.coords t) = false := by decide +kernel
theorem busy1_1 : ∀ t : Fin cfg1.N, cfg1.idle 1 (grid1.coords t) = false := by decide +kernel
/-- Away from the last step the output block is neither stored into nor written back. -/
theorem quiet1_2 : ∀ t : Fin cfg1.N, ¬isLast1 (grid1.coords t) → cfg1.idle 2 (grid1.coords t) = true := by decide +kernel
theorem unflushed1_2 : ∀ t : Fin cfg1.N, ¬isLast1 (grid1.coords t) → (cfg1.win 2).flush t = false := by decide +kernel
/-- At the last step it is stored into. -/
theorem busy1_2 : ∀ t : Fin cfg1.N, isLast1 (grid1.coords t) → cfg1.idle 2 (grid1.coords t) = false := by decide +kernel

/-! ## The memrefs the body is called with -/

/-- A fixed view of the output block's shape through which the output buffer's contents are named (any view of the
    shape reads the same thing back from a covering list of stores). -/
abbrev VO1_2 : View sig .tc .vmem S1024x128 .f32 := (Memref.whole cc1_stg2_0 : Memref sig .tc .vmem S1024x128 .f32).view
/-- The current staging memref of each window at point `t`, and that it is a whole buffer. -/
abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x128 .f32 := win1_2.stage (cfg1.slots t 2)
abbrev hs1_2 (t : Fin cfg1.N) : (ms1_2 t).IsWhole := hstage1_2 ((cfg1.slots t 2).cast nbuf1_2)
/-- The accumulator: a whole scoped buffer that no window stages. -/
abbrev scM1_0 : Memref sig .tc .vmem S1024x128 .f32 := Memref.whole cc1_scratch0
/-- and the view through which its contents are named. -/
abbrev VS1_0 : View sig .tc .vmem S1024x128 .f32 := scM1_0.view

/-! ## The region invariant, opened -/

/-- The core's scoped buffers that this region never touches (the first region's staging buffers and accumulator), each
    at some contents. -/
def bystanders1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_scratch0), ((c : Thread nD τ).loc cc0_scratch0) ↦{fullShare} f))

/-- The invariant the launch hands the region is: the untouched scoped buffers, the accumulator owned at some contents,
    and the generator register at some state. -/
theorem PhiA1_eq (c : Dev nD) :
    (Pipeline.ΦA spec1 c : sProp 𝕄)
      = iprop(iprop(bystanders1 (F := F) c ∗ (∃ d, owns (c : Thread nD τ) scM1_0 fullShare d)) ∗ (∃ r, prngReg c r)) := by
  unfold Pipeline.ΦA bystanders1; rw [scopedRest1_eq]; simp only [scM1_0, owns_whole]
  refine BI.equiv_iff.mp ⟨?_, ?_⟩
  · show (_ : sProp 𝕄) ⊢ _
    iintro ⟨⟨R0, R1, R2, R3, R4, R5, R6, R7, R8, R9, R10, HS⟩, Hg⟩
    isplitr [Hg]
    swap; · iexact Hg
    isplitr [HS]
    swap; · iexact HS
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    iexact R10
  · show (_ : sProp 𝕄) ⊢ _
    iintro ⟨⟨⟨R0, R1, R2, R3, R4, R5, R6, R7, R8, R9, R10⟩, HS⟩, Hg⟩
    isplitr [Hg]
    swap; · iexact Hg
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    iexact HS

end Cert.KernelIdeal.Hand

end
-- ==== Proof.HandKernelIdeal.R1RunA.lean ====
import proofs.«117335_j42545946034709_1_alg».proof.Proof.HandKernelIdeal.R1Shared

-- covering a 1024-extent rectangle is checked by a structural recursion over its coordinates
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the symbolic run produces a large term; closing the definition walks all of it
set_option maxHeartbeats 1000000 in
/-- THE BODY AT A FIRST STEP (`k = 0`). Given whole memrefs — the two input blocks at contents `x0`, `x1`, the output
    buffer at contents `xi2` that must come back untouched, the accumulator at anything — the body runs to a
    continuation that gets the inputs and the output buffer back unchanged and the accumulator with a list of stores
    `LS0` applied (newest first). The stores the output buffer receives (none) and `LS0` are found by running the body
    symbolically; they are the data of this definition, the triple is its proof component. -/
noncomputable def kernelRun1_A (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : isFirst1 i) (hc1 : ¬isLast1 i)
    (x0 : Vec F S1024x1024 .f32) (x1 : Vec F S1024x128 .f32) :
    Σ' (L2 : List (View.Piece (Elt F) S1024x128 .f32)), { LS0 : List (View.Piece (Elt F) S1024x128 .f32) //
      ∀ (xi2 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__igft_kernel i arg2 harg2 arg3 harg3 arg4 harg4 arg5 harg5) K } := by
  refine ⟨[], ?_, fun xi2 E K => ?run⟩
  case run =>
    simp only [cc1__igft_kernel_eq_skeleton]; unfold cc1__igft_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.HandKernelIdeal.R1RunB.lean ====
import proofs.«117335_j42545946034709_1_alg».proof.Proof.HandKernelIdeal.R1RunA

-- covering a 1024-extent rectangle is checked by a structural recursion over its coordinates
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the symbolic run produces a large term; closing the definition walks all of it
set_option maxHeartbeats 1000000 in
/-- THE BODY AT A MIDDLE STEP (`0 < k < 7`). As at a first step, except that the accumulator comes in at the contents
    `xs0` the step before left, and the product is added to those. -/
noncomputable def kernelRun1_B (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬isFirst1 i) (hc1 : ¬isLast1 i)
    (x0 : Vec F S1024x1024 .f32) (x1 : Vec F S1024x128 .f32) (xs0 : Vec F S1024x128 .f32) :
    Σ' (L2 : List (View.Piece (Elt F) S1024x128 .f32)), { LS0 : List (View.Piece (Elt F) S1024x128 .f32) //
      ∀ (xi2 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__igft_kernel i arg2 harg2 arg3 harg3 arg4 harg4 arg5 harg5) K } := by
  refine ⟨[], ?_, fun xi2 E K => ?run⟩
  case run =>
    simp only [cc1__igft_kernel_eq_skeleton]; unfold cc1__igft_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.HandKernelIdeal.R1RunC.lean ====
import proofs.«117335_j42545946034709_1_alg».proof.Proof.HandKernelIdeal.R1RunB

-- covering a 1024-extent rectangle is checked by a structural recursion over its coordinates
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the symbolic run produces a large term; closing the definition walks all of it
set_option maxHeartbeats 1000000 in
/-- THE BODY AT A LAST STEP (`k = 7`). The accumulator comes in at `xs0`; the output buffer comes in at anything (the body
    loads it and ignores what it read) and goes out with the list of stores `L2` applied, the accumulator with `LS0`. -/
noncomputable def kernelRun1_C (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬isFirst1 i) (hc1 : isLast1 i)
    (x0 : Vec F S1024x1024 .f32) (x1 : Vec F S1024x128 .f32) (xs0 : Vec F S1024x128 .f32) :
    Σ' (L2 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__igft_kernel i arg2 harg2 arg3 harg3 arg4 harg4 arg5 harg5) K } := by
  refine ⟨?_, ?_, fun E K => ?run⟩
  case run =>
    simp only [cc1__igft_kernel_eq_skeleton]; unfold cc1__igft_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.HandKernelIdeal.R1Frame.lean ====
import proofs.«117335_j42545946034709_1_alg».proof.Proof.HandKernelIdeal.R1RunC
import Idealize.ShloMosaic.Lib.Pipeline.Value

-- covering a 1024-extent rectangle is checked by a structural recursion over its coordinates
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The accumulation of the second matmul region, point by point

From the three symbolic runs of the body (first / middle / last step of the contraction) this module names what the
accumulator and the output buffer hold after every grid point, packages that as the pipeline's proof data at arbitrary
entry contents `V`, and discharges the body obligation, the entry and the exit of the region invariant. -/

/-! ## What one step leaves, per kind of step -/

/-- A first step stores nothing into the output buffer: this reads an empty list of stores back over junk, a value that
    is never consulted (the window is idle and not written back there). -/
def out1_A_2 (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : isFirst1 i) (hc1 : ¬isLast1 i)
    (x0 : Vec F S1024x1024 .f32) (x1 : Vec F S1024x128 .f32) : Vec F S1024x128 .f32 :=
  VO1_2.read (Elt F) (VO1_2.writes (Elt F) VO1_2.junk (kernelRun1_A c i arg2 harg2 arg3 harg3 arg4 harg4 arg5 harg5 hc0 hc1 x0 x1).1)

/-- The stores a first step makes into the accumulator cover all of it. -/
theorem accCover1_A (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : isFirst1 i) (hc1 : ¬isLast1 i)
    (x0 : Vec F S1024x1024 .f32) (x1 : Vec F S1024x128 .f32) (y : S1024x128.Idx) :
    ∃ pc ∈ (kernelRun1_A c i arg2 harg2 arg3 harg3 arg4 harg4 arg5 harg5 hc0 hc1 x0 x1).2.1, y ∈ pc.1.set :=
  View.cover_of_tiledL (kernelRun1_A c i arg2 harg2 arg3 harg3 arg4 harg4 arg5 harg5 hc0 hc1 x0 x1).2.1 S1024x128.size (by sl_kernel_rfl) y

/-- The accumulator after a first step: its stores read back (over anything, since they cover). -/
def sout1_A_0 (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : isFirst1 i) (hc1 : ¬isLast1 i)
    (x0 : Vec F S1024x1024 .f32) (x1 : Vec F S1024x128 .f32) : Vec F S1024x128 .f32 :=
  VS1_0.read (Elt F) (VS1_0.writes (Elt F) VS1_0.junk (kernelRun1_A c i arg2 harg2 arg3 harg3 arg4 harg4 arg5 harg5 hc0 hc1 x0 x1).2.1)

/-- A middle step stores nothing into the output buffer either. -/
def out1_B_2 (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬isFirst1 i) (hc1 : ¬isLast1 i)
    (x0 : Vec F S1024x1024 .f32) (x1 : Vec F S1024x128 .f32) (xs0 : Vec F S1024x128 .f32) : Vec F S1024x128 .f32 :=
  VO1_2.read (Elt F) (VO1_2.writes (Elt F) VO1_2.junk (kernelRun1_B c i arg2 harg2 arg3 harg3 arg4 harg4 arg5 harg5 hc0 hc1 x0 x1 xs0).1)

/-- The store a middle step makes into the accumulator covers all of it. -/
theorem accCover1_B (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬isFirst1 i) (hc1 : ¬isLast1 i)
    (x0 : Vec F S1024x1024 .f32) (x1 : Vec F S1024x128 .f32) (xs0 : Vec F S1024x128 .f32) (y : S1024x128.Idx) :
    ∃ pc ∈ (kernelRun1_B c i arg2 harg2 arg3 harg3 arg4 harg4 arg5 harg5 hc0 hc1 x0 x1 xs0).2.1, y ∈ pc.1.set :=
  View.cover_of_tiledL (kernelRun1_B c i arg2 harg2 arg3 harg3 arg4 harg4 arg5 harg5 hc0 hc1 x0 x1 xs0).2.1 S1024x128.size (by sl_kernel_rfl) y

/-- The accumulator after a middle step. -/
def sout1_B_0 (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬isFirst1 i) (hc1 : ¬isLast1 i)
    (x0 : Vec F S1024x1024 .f32) (x1 : Vec F S1024x128 .f32) (xs0 : Vec F S1024x128 .f32) : Vec F S1024x128 .f32 :=
  VS1_0.read (Elt F) (VS1_0.writes (Elt F) VS1_0.junk (kernelRun1_B c i arg2 harg2 arg3 harg3 arg4 harg4 arg5 harg5 hc0 hc1 x0 x1 xs0).2.1)

/-- The store a last step makes into the output buffer covers all of it. -/
theorem outCover1_C (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬isFirst1 i) (hc1 : isLast1 i)
    (x0 : Vec F S1024x1024 .f32) (x1 : Vec F S1024x128 .f32) (xs0 : Vec F S1024x128 .f32) (y : S1024x128.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S1024x128.size (by sl_kernel_rfl) y

/-- The output buffer after a last step. -/
def out1_C_2 (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬isFirst1 i) (hc1 : isLast1 i)
    (x0 : Vec F S1024x1024 .f32) (x1 : Vec F S1024x128 .f32) (xs0 : Vec F S1024x128 .f32) : Vec F S1024x128 .f32 :=
  VO1_2.read (Elt F) (VO1_2.writes (Elt F) VO1_2.junk (kernelRun1_C c i arg2 harg2 arg3 harg3 arg4 harg4 arg5 harg5 hc0 hc1 x0 x1 xs0).1)

/-- The store a last step makes into the accumulator covers all of it. -/
theorem accCover1_C (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬isFirst1 i) (hc1 : isLast1 i)
    (x0 : Vec F S1024x1024 .f32) (x1 : Vec F S1024x128 .f32) (xs0 : Vec F S1024x128 .f32) (y : S1024x128.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S1024x128.size (by sl_kernel_rfl) y

/-- The accumulator after a last step. -/
def sout1_C_0 (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬isFirst1 i) (hc1 : isLast1 i)
    (x0 : Vec F S1024x1024 .f32) (x1 : Vec F S1024x128 .f32) (xs0 : Vec F S1024x128 .f32) : Vec F S1024x128 .f32 :=
  VS1_0.read (Elt F) (VS1_0.writes (Elt F) VS1_0.junk (kernelRun1_C c i arg2 harg2 arg3 harg3 arg4 harg4 arg5 harg5 hc0 hc1 x0 x1 xs0).2.1)

/-! ## The found stores, read as the body's arithmetic

Each run found one or two whole-buffer stores at offset `(0, 0)`; reading them back gives the payload of the newest one,
with every load of an input (or of the accumulator) replaced by the contents that buffer was handed over at. -/

/-- The offset `(0, 0)` is the zero offset. -/
theorem origin2 : (![0, 0] : Fin 2 → ℕ) = fun _ => 0 := by funext a; fin_cases a <;> rfl

/-- After a first step the accumulator is the product added to zeros. -/
theorem sout1_A_0_eq (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : isFirst1 i) (hc1 : ¬isLast1 i)
    (x0 : Vec F S1024x1024 .f32) (x1 : Vec F S1024x128 .f32) :
    sout1_A_0 c i arg2 harg2 arg3 harg3 arg4 harg4 arg5 harg5 hc0 hc1 x0 x1 = k1_pay2 x0 x1 k1_pay1 := by
  unfold sout1_A_0
  rw [View.read_writes_eq_canon _ _ _ (accCover1_A c i arg2 harg2 arg3 harg3 arg4 harg4 arg5 harg5 hc0 hc1 x0 x1)]
  unfold kernelRun1_A; dsimp only; sl_unfold_words
  rw [View.canon_cons_unit_zero origin2, View.readCov_unit_zero (S := S1024x128) _ origin2]
  simp only [View.readAt_eq_ld, harg2.read_unread, harg3.read_unread, View.ld_unit_zero (S := S1024x1024) origin2, View.ld_unit_zero (S := S1024x128) origin2]

/-- After a middle step the accumulator is the product added to what it held. -/
theorem sout1_B_0_eq (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬isFirst1 i) (hc1 : ¬isLast1 i)
    (x0 : Vec F S1024x1024 .f32) (x1 : Vec F S1024x128 .f32) (xs0 : Vec F S1024x128 .f32) :
    sout1_B_0 c i arg2 harg2 arg3 harg3 arg4 harg4 arg5 harg5 hc0 hc1 x0 x1 xs0 = k1_pay2 x0 x1 xs0 := by
  unfold sout1_B_0
  rw [View.read_writes_eq_canon _ _ _ (accCover1_B c i arg2 harg2 arg3 harg3 arg4 harg4 arg5 harg5 hc0 hc1 x0 x1 xs0)]
  unfold kernelRun1_B; dsimp only; sl_unfold_words
  rw [View.canon_unit_zero origin2]
  simp only [View.readAt_eq_ld, harg2.read_unread, harg3.read_unread, harg5.read_unread, View.ld_unit_zero (S := S1024x1024) origin2, View.ld_unit_zero (S := S1024x128) origin2]

/-- After a last step likewise. -/
theorem sout1_C_0_eq (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬isFirst1 i) (hc1 : isLast1 i)
    (x0 : Vec F S1024x1024 .f32) (x1 : Vec F S1024x128 .f32) (xs0 : Vec F S1024x128 .f32) :
    sout1_C_0 c i arg2 harg2 arg3 harg3 arg4 harg4 arg5 harg5 hc0 hc1 x0 x1 xs0 = k1_pay2 x0 x1 xs0 := by
  unfold sout1_C_0
  rw [View.read_writes_eq_canon _ _ _ (accCover1_C c i arg2 harg2 arg3 harg3 arg4 harg4 arg5 harg5 hc0 hc1 x0 x1 xs0)]
  unfold kernelRun1_C; dsimp only; sl_unfold_words
  rw [View.canon_unit_zero origin2]
  simp only [View.readAt_eq_ld, harg2.read_unread, harg3.read_unread, harg5.read_unread, View.ld_unit_zero (S := S1024x1024) origin2, View.ld_unit_zero (S := S1024x128) origin2]

/-- and the output buffer receives a copy of the accumulator as the step leaves it. -/
theorem out1_C_2_eq (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬isFirst1 i) (hc1 : isLast1 i)
    (x0 : Vec F S1024x1024 .f32) (x1 : Vec F S1024x128 .f32) (xs0 : Vec F S1024x128 .f32) :
    out1_C_2 c i arg2 harg2 arg3 harg3 arg4 harg4 arg5 harg5 hc0 hc1 x0 x1 xs0 = k1_pay2 x0 x1 xs0 := by
  unfold out1_C_2
  rw [View.read_writes_eq_canon _ _ _ (outCover1_C c i arg2 harg2 arg3 harg3 arg4 harg4 arg5 harg5 hc0 hc1 x0 x1 xs0)]
  unfold kernelRun1_C; dsimp only; sl_unfold_words
  rw [View.canon_unit_zero origin2, View.readCov_unit_zero (S := S1024x128) _ origin2]
  simp only [View.readAt_eq_ld, harg2.read_unread, harg3.read_unread, harg5.read_unread, View.ld_unit_zero (S := S1024x1024) origin2, View.ld_unit_zero (S := S1024x128) origin2]

/-! ## The kind of step from the point's number -/

theorem notLast_of_first (t : Fin cfg1.N) (h0 : t.val % 8 = 0) : ¬isLast1 (grid1.coords t) :=
  fun h => by have := (isLast1_iff t).mp h; omega
theorem notFirst_of (t : Fin cfg1.N) (h0 : ¬t.val % 8 = 0) : ¬isFirst1 (grid1.coords t) :=
  fun h => h0 ((isFirst1_iff t).mp h)
theorem notLast_of (t : Fin cfg1.N) (h1 : ¬t.val % 8 = 7) : ¬isLast1 (grid1.coords t) :=
  fun h => h1 ((isLast1_iff t).mp h)

section Entry
variable (V : (c : Dev nD) → (b : Ref sig .tc) → Buf (Elt F) ((c : Thread nD τ).loc b))

/-! ## The accumulation -/

/-- ONE STEP at point `t`: the pair (output buffer, accumulator) after the body, from the point's two input blocks and
    what the accumulator held before (`prev`, which a first step overwrites without reading). -/
def stepAt1 (c : Dev nD) (t : Fin cfg1.N) (prev : Vec F S1024x128 .f32) : Vec F S1024x128 .f32 × Vec F S1024x128 .f32 :=
  if h0 : t.val % 8 = 0 then
    (out1_A_2 c (grid1.coords t) (ms1_0 t) (hs1_0 t) (ms1_1 t) (hs1_1 t) (ms1_2 t) (hs1_2 t) scM1_0 (Memref.isWhole_whole _) ((isFirst1_iff t).mpr h0) (notLast_of_first t h0) (iblk1 V c 0 t) (iblk1 V c 1 t),
     sout1_A_0 c (grid1.coords t) (ms1_0 t) (hs1_0 t) (ms1_1 t) (hs1_1 t) (ms1_2 t) (hs1_2 t) scM1_0 (Memref.isWhole_whole _) ((isFirst1_iff t).mpr h0) (notLast_of_first t h0) (iblk1 V c 0 t) (iblk1 V c 1 t))
  else if h1 : t.val % 8 = 7 then
    (out1_C_2 c (grid1.coords t) (ms1_0 t) (hs1_0 t) (ms1_1 t) (hs1_1 t) (ms1_2 t) (hs1_2 t) scM1_0 (Memref.isWhole_whole _) (notFirst_of t h0) ((isLast1_iff t).mpr h1) (iblk1 V c 0 t) (iblk1 V c 1 t) prev,
     sout1_C_0 c (grid1.coords t) (ms1_0 t) (hs1_0 t) (ms1_1 t) (hs1_1 t) (ms1_2 t) (hs1_2 t) scM1_0 (Memref.isWhole_whole _) (notFirst_of t h0) ((isLast1_iff t).mpr h1) (iblk1 V c 0 t) (iblk1 V c 1 t) prev)
  else
    (out1_B_2 c (grid1.coords t) (ms1_0 t) (hs1_0 t) (ms1_1 t) (hs1_1 t) (ms1_2 t) (hs1_2 t) scM1_0 (Memref.isWhole_whole _) (notFirst_of t h0) (notLast_of t h1) (iblk1 V c 0 t) (iblk1 V c 1 t) prev,
     sout1_B_0 c (grid1.coords t) (ms1_0 t) (hs1_0 t) (ms1_1 t) (hs1_1 t) (ms1_2 t) (hs1_2 t) scM1_0 (Memref.isWhole_whole _) (notFirst_of t h0) (notLast_of t h1) (iblk1 V c 0 t) (iblk1 V c 1 t) prev)

theorem stepAt1_first (c : Dev nD) (t : Fin cfg1.N) (h0 : t.val % 8 = 0) (prev : Vec F S1024x128 .f32) :
    stepAt1 V c t prev =
      (out1_A_2 c (grid1.coords t) (ms1_0 t) (hs1_0 t) (ms1_1 t) (hs1_1 t) (ms1_2 t) (hs1_2 t) scM1_0 (Memref.isWhole_whole _) ((isFirst1_iff t).mpr h0) (notLast_of_first t h0) (iblk1 V c 0 t) (iblk1 V c 1 t),
       sout1_A_0 c (grid1.coords t) (ms1_0 t) (hs1_0 t) (ms1_1 t) (hs1_1 t) (ms1_2 t) (hs1_2 t) scM1_0 (Memref.isWhole_whole _) ((isFirst1_iff t).mpr h0) (notLast_of_first t h0) (iblk1 V c 0 t) (iblk1 V c 1 t)) := by
  unfold stepAt1; exact dif_pos h0

theorem stepAt1_last (c : Dev nD) (t : Fin cfg1.N) (h0 : ¬t.val % 8 = 0) (h1 : t.val % 8 = 7) (prev : Vec F S1024x128 .f32) :
    stepAt1 V c t prev =
      (out1_C_2 c (grid1.coords t) (ms1_0 t) (hs1_0 t) (ms1_1 t) (hs1_1 t) (ms1_2 t) (hs1_2 t) scM1_0 (Memref.isWhole_whole _) (notFirst_of t h0) ((isLast1_iff t).mpr h1) (iblk1 V c 0 t) (iblk1 V c 1 t) prev,
       sout1_C_0 c (grid1.coords t) (ms1_0 t) (hs1_0 t) (ms1_1 t) (hs1_1 t) (ms1_2 t) (hs1_2 t) scM1_0 (Memref.isWhole_whole _) (notFirst_of t h0) ((isLast1_iff t).mpr h1) (iblk1 V c 0 t) (iblk1 V c 1 t) prev) := by
  unfold stepAt1; exact (dif_neg h0).trans (dif_pos h1)

theorem stepAt1_mid (c : Dev nD) (t : Fin cfg1.N) (h0 : ¬t.val % 8 = 0) (h1 : ¬t.val % 8 = 7) (prev : Vec F S1024x128 .f32) :
    stepAt1 V c t prev =
      (out1_B_2 c (grid1.coords t) (ms1_0 t) (hs1_0 t) (ms1_1 t) (hs1_1 t) (ms1_2 t) (hs1_2 t) scM1_0 (Memref.isWhole_whole _) (notFirst_of t h0) (notLast_of t h1) (iblk1 V c 0 t) (iblk1 V c 1 t) prev,
       sout1_B_0 c (grid1.coords t) (ms1_0 t) (hs1_0 t) (ms1_1 t) (hs1_1 t) (ms1_2 t) (hs1_2 t) scM1_0 (Memref.isWhole_whole _) (notFirst_of t h0) (notLast_of t h1) (iblk1 V c 0 t) (iblk1 V c 1 t) prev) := by
  unfold stepAt1; exact (dif_neg h0).trans (dif_neg h1)

/-- THE ACCUMULATION: (output buffer, accumulator) after the body at position `n` of the grid, by recursion on `n` — one
    step from what the position before left in the accumulator (from zeros at position 0, where the value is not read). -/
def outsAt1 (c : Dev nD) : (n : ℕ) → n < cfg1.N → Vec F S1024x128 .f32 × Vec F S1024x128 .f32
  | 0, hn => stepAt1 V c ⟨0, hn⟩ (k1_pay1 (F := F))
  | n + 1, hn => stepAt1 V c ⟨n + 1, hn⟩ (outsAt1 c n (Nat.lt_of_succ_lt hn)).2

theorem outsAt1_zero (c : Dev nD) (t : Fin cfg1.N) (hz : t.val = 0) :
    outsAt1 V c t.val t.isLt = stepAt1 V c t (k1_pay1 (F := F)) := by
  obtain ⟨n, hn⟩ := t
  cases n with
  | zero => rfl
  | succ n => exact absurd hz (Nat.succ_ne_zero n)

theorem outsAt1_pos (c : Dev nD) (t : Fin cfg1.N) (hz : t.val ≠ 0) :
    outsAt1 V c t.val t.isLt
      = stepAt1 V c t (outsAt1 V c (t.val - 1) (Nat.lt_of_le_of_lt (Nat.sub_le _ _) t.isLt)).2 := by
  obtain ⟨n, hn⟩ := t
  cases n with
  | zero => exact absurd rfl hz
  | succ n => rfl

/-! ## The region invariant along the grid -/

/-- Before position `n`: at `n = 0` what the launch hands over; afterwards the same with the accumulator pinned to what
    position `n - 1` left in it. -/
def PhiS1 (c : Dev nD) : (n : ℕ) → n ≤ cfg1.N → sProp 𝕄
  | 0, _ => Pipeline.ΦA spec1 c
  | n + 1, hn => iprop(iprop(bystanders1 (F := F) c ∗ owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(bystanders1 (F := F) c ∗ owns (c : Thread nD τ) scM1_0 fullShare ((outsAt1 V c n hn).2)) ∗ (∃ r, prngReg c r)) := rfl

theorem PhiS1_pos (c : Dev nD) (n : ℕ) (h : n ≤ cfg1.N) (hz : n ≠ 0) :
    PhiS1 V c n h = iprop(iprop(bystanders1 (F := F) c ∗ owns (c : Thread nD τ) scM1_0 fullShare ((outsAt1 V c (n - 1) (by omega)).2)) ∗ (∃ r, prngReg c r)) := by
  cases n with
  | zero => exact absurd rfl hz
  | succ n => rfl

/-! ## The proof data -/

/-- The pipeline's proof data on core `c`: the arrays as found on entry; after the body each input buffer still at its
    block and the output buffer at the accumulation's first component; the invariant `PhiS1`; full shares, nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

/-- Before the body each input's current buffer holds the addressed block. -/
theorem before1_0 (c : Dev nD) (t : Fin cfg1.N) (d) : (dat1 V c).before 0 t d = iblk1 V c 0 t :=
  held1_0 V (dat1 V c) (A_eq1 V c 0) (after1_0 V c) t d
theorem before1_1 (c : Dev nD) (t : Fin cfg1.N) (d) : (dat1 V c).before 1 t d = iblk1 V c 1 t :=
  held1_1 V (dat1 V c) (A_eq1 V c 1) (after1_1 V c) t d

/-! ## The body obligation -/

/-- What the body is called with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it must return. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The inputs' buffers hold their blocks; `t % 8` says which of the three runs applies; the
    invariant lends the run the accumulator (at what the point before left, or at anything when that is not read) and gets
    it back at this point's value because the run's stores cover it; the untouched scoped buffers, the generator register
    and the core's debt pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [busy1_0 t], after1_0]
  rw [show (dat1 V c).leavesExact 1 t = owns (c : Thread nD τ) (ms1_1 t) fullShare ((dat1 V c).after 1 t) from by
    unfold Dat.leavesExact; rw [busy1_1 t], after1_1]
  have hN : t.val < 64 := lt_of_lt_of_eq t.isLt (show cfg1.N = 64 from N_1)
  by_cases h0 : t.val % 8 = 0
  · rw [Dat.leavesExact_idle (dat1 V c) 2 t (quiet1_2 t (notLast_of_first t h0)) (unflushed1_2 t (notLast_of_first t h0))]
    by_cases hz : t.val = 0
    · rw [outsAt1_zero V c t hz, stepAt1_first V c t h0]
      unfold sout1_A_0; (try dsimp only)
      rw [PhiS1_castSucc V c t, PhiS1_zero V c _ _ hz, PhiA1_eq]
      iintro ⟨⟨⟨HR, HS0⟩, Hg⟩, Ho, ⟨%d0, H0⟩, ⟨%d1, H1⟩, ⟨%d2, H2⟩⟩
      iapply ((kernelRun1_A c (grid1.coords t) _ _ _ _ _ _ _ _ ((isFirst1_iff t).mpr h0) (notLast_of_first t h0) (iblk1 V c 0 t) (iblk1 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HR HS0 Hg]
      · isplitl [HR HS0]
        · isplitl [HR]; · iexact HR
          unfold owns; iexists _; isplitr
          swap; · iexact HS0
          ipureintro; exact View.read_writes_of_cover _ _ _ _ _ (accCover1_A c _ _ _ _ _ _ _ _ _ _ _ _ _)
        iexact Hg
      isplitl [Ho]; · iexact Ho
      isplitl [H0]; · iexact H0
      isplitl [H1]; · iexact H1
      iexists _; iexact H2
    · rw [outsAt1_pos V c t hz, stepAt1_first V c t h0]
      unfold sout1_A_0; (try dsimp only)
      rw [PhiS1_castSucc V c t, PhiS1_pos V c _ _ hz]
      iintro ⟨⟨⟨HR, HS0⟩, Hg⟩, Ho, ⟨%d0, H0⟩, ⟨%d1, H1⟩, ⟨%d2, H2⟩⟩
      iapply ((kernelRun1_A c (grid1.coords t) _ _ _ _ _ _ _ _ ((isFirst1_iff t).mpr h0) (notLast_of_first t h0) (iblk1 V c 0 t) (iblk1 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HR HS0 Hg]
      · isplitl [HR HS0]
        · isplitl [HR]; · iexact HR
          unfold owns; iexists _; isplitr
          swap; · iexact HS0
          ipureintro; exact View.read_writes_of_cover _ _ _ _ _ (accCover1_A c _ _ _ _ _ _ _ _ _ _ _ _ _)
        iexact Hg
      isplitl [Ho]; · iexact Ho
      isplitl [H0]; · iexact H0
      isplitl [H1]; · iexact H1
      iexists _; iexact H2
  · have hz : t.val ≠ 0 := fun hz => h0 (by rw [hz])
    rw [outsAt1_pos V c t hz]
    by_cases h1 : t.val % 8 = 7
    · rw [show (dat1 V c).leavesExact 2 t = owns (c : Thread nD τ) (ms1_2 t) fullShare ((dat1 V c).after 2 t) from by
        unfold Dat.leavesExact; rw [busy1_2 t ((isLast1_iff t).mpr h1)], after1_2, outsAt1_pos V c t hz]
      rw [stepAt1_last V c t h0 h1]
      unfold out1_C_2 sout1_C_0; (try dsimp only)
      rw [PhiS1_castSucc V c t, PhiS1_pos V c _ _ hz]
      iintro ⟨⟨⟨HR, HS0⟩, Hg⟩, Ho, ⟨%d0, H0⟩, ⟨%d1, H1⟩, ⟨%d2, H2⟩⟩
      iapply ((kernelRun1_C c (grid1.coords t) _ _ _ _ _ _ _ _ (notFirst_of t h0) ((isLast1_iff t).mpr h1) (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HR HS0 Hg]
      · isplitl [HR HS0]
        · isplitl [HR]; · iexact HR
          unfold owns; iexists _; isplitr
          swap; · iexact HS0
          ipureintro; exact View.read_writes_of_cover _ _ _ _ _ (accCover1_C c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (outCover1_C c _ _ _ _ _ _ _ _ _ _ _ _ _ _)
    · rw [Dat.leavesExact_idle (dat1 V c) 2 t (quiet1_2 t (notLast_of t h1)) (unflushed1_2 t (notLast_of t h1))]
      rw [stepAt1_mid V c t h0 h1]
      unfold sout1_B_0; (try dsimp only)
      rw [PhiS1_castSucc V c t, PhiS1_pos V c _ _ hz]
      iintro ⟨⟨⟨HR, HS0⟩, Hg⟩, Ho, ⟨%d0, H0⟩, ⟨%d1, H1⟩, ⟨%d2, H2⟩⟩
      iapply ((kernelRun1_B c (grid1.coords t) _ _ _ _ _ _ _ _ (notFirst_of t h0) (notLast_of t h1) (iblk1 V c 0 t) (iblk1 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HR HS0 Hg]
      · isplitl [HR HS0]
        · isplitl [HR]; · iexact HR
          unfold owns; iexists _; isplitr
          swap; · iexact HS0
          ipureintro; exact View.read_writes_of_cover _ _ _ _ _ (accCover1_B c _ _ _ _ _ _ _ _ _ _ _ _ _ _)
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands over is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives back what the launch handed over: the accumulator's value is forgotten. -/
theorem release1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HR, HS0⟩, Hg⟩
  isplitl [HR HS0]
  · isplitl [HR]; · iexact HR
    iexists _; iexact HS0
  iexact Hg

/-- In particular after the last point. -/
theorem hout1 (c : Dev nD) : (dat1 V c).Φ (Fin.last cfg1.N) ⊢ Pipeline.ΦA spec1 c :=
  release1 V c _ (by rw [Fin.val_last]; have : cfg1.N = 64 := N_1; omega)

/-! ## The accumulation in closed form -/

set_option maxHeartbeats 4000000 in
/-- At a first step of the contraction the accumulator restarts: zeros plus this step's product. -/
theorem scratch1_first (c : Dev nD) (t : Fin cfg1.N) (h : t.val % 8 = 0) : (outsAt1 V c t.val t.isLt).2 = k1_pay2 (iblk1 V c 0 t) (iblk1 V c 1 t) k1_pay1 := by
  have h0 : t.val % 8 = 0 := h
  have piece := sout1_A_0_eq c (grid1.coords t) (ms1_0 t) (hs1_0 t) (ms1_1 t) (hs1_1 t) (ms1_2 t) (hs1_2 t) scM1_0 (Memref.isWhole_whole _) ((isFirst1_iff t).mpr h0) (notLast_of_first t h0) (iblk1 V c 0 t) (iblk1 V c 1 t)
  by_cases hz : t.val = 0
  · exact (congrArg Prod.snd (outsAt1_zero V c t hz)).trans ((congrArg Prod.snd (stepAt1_first V c t h0 _)).trans piece)
  · exact (congrArg Prod.snd (outsAt1_pos V c t hz)).trans ((congrArg Prod.snd (stepAt1_first V c t h0 _)).trans piece)

set_option maxHeartbeats 4000000 in
/-- At every other step it grows by this step's product. -/
theorem scratch1_step (c : Dev nD) (t : Fin cfg1.N) (h : t.val % 8 ≠ 0) : (outsAt1 V c t.val t.isLt).2 = k1_pay2 (iblk1 V c 0 t) (iblk1 V c 1 t) (outsAt1 V c (t.val - 1) (Nat.lt_of_le_of_lt (Nat.sub_le _ _) t.isLt)).2 := by
  have h0 : ¬t.val % 8 = 0 := h
  have hz : t.val ≠ 0 := fun hz => h0 (by rw [hz])
  by_cases h1 : t.val % 8 = 7
  · exact (congrArg Prod.snd (outsAt1_pos V c t hz)).trans ((congrArg Prod.snd (stepAt1_last V c t h0 h1 _)).trans
      (sout1_C_0_eq c (grid1.coords t) (ms1_0 t) (hs1_0 t) (ms1_1 t) (hs1_1 t) (ms1_2 t) (hs1_2 t) scM1_0 (Memref.isWhole_whole _) (notFirst_of t h0) ((isLast1_iff t).mpr h1) (iblk1 V c 0 t) (iblk1 V c 1 t) (outsAt1 V c (t.val - 1) (Nat.lt_of_le_of_lt (Nat.sub_le _ _) t.isLt)).2))
  · exact (congrArg Prod.snd (outsAt1_pos V c t hz)).trans ((congrArg Prod.snd (stepAt1_mid V c t h0 h1 _)).trans
      (sout1_B_0_eq c (grid1.coords t) (ms1_0 t) (hs1_0 t) (ms1_1 t) (hs1_1 t) (ms1_2 t) (hs1_2 t) scM1_0 (Memref.isWhole_whole _) (notFirst_of t h0) (notLast_of t h1) (iblk1 V c 0 t) (iblk1 V c 1 t) (outsAt1 V c (t.val - 1) (Nat.lt_of_le_of_lt (Nat.sub_le _ _) t.isLt)).2))

set_option maxHeartbeats 4000000 in
/-- At a last step the output block is the finished accumulator. -/
theorem out1_last (c : Dev nD) (t : Fin cfg1.N) (h : t.val % 8 = 7) : (outsAt1 V c t.val t.isLt).1 = (outsAt1 V c t.val t.isLt).2 := by
  have h1 : t.val % 8 = 7 := h
  have h0 : ¬t.val % 8 = 0 := by omega
  have hz : t.val ≠ 0 := fun hz => h0 (by rw [hz])
  have e := (outsAt1_pos V c t hz).trans (stepAt1_last V c t h0 h1 _)
  exact (congrArg Prod.fst e).trans ((out1_C_2_eq c (grid1.coords t) (ms1_0 t) (hs1_0 t) (ms1_1 t) (hs1_1 t) (ms1_2 t) (hs1_2 t) scM1_0 (Memref.isWhole_whole _) (notFirst_of t h0) ((isLast1_iff t).mpr h1) (iblk1 V c 0 t) (iblk1 V c 1 t) (outsAt1 V c (t.val - 1) (Nat.lt_of_le_of_lt (Nat.sub_le _ _) t.isLt)).2).trans
    ((sout1_C_0_eq c (grid1.coords t) (ms1_0 t) (hs1_0 t) (ms1_1 t) (hs1_1 t) (ms1_2 t) (hs1_2 t) scM1_0 (Memref.isWhole_whole _) (notFirst_of t h0) ((isLast1_iff t).mpr h1) (iblk1 V c 0 t) (iblk1 V c 1 t) (outsAt1 V c (t.val - 1) (Nat.lt_of_le_of_lt (Nat.sub_le _ _) t.isLt)).2).symm.trans (congrArg Prod.snd e).symm))

end Entry

end Cert.KernelIdeal.Hand

end
-- ==== Proof.HandKernelIdeal.Glue.lean ====
/-
  The kernel program's whole run, region by region, at any float instance.
  Its @main is: three host operations (the two feature matrices joined side by side, the two bias vectors seen as
  rows), the forward-transform region, the inverse-transform region, then five stretches of host operations.
  Between two items every unscoped buffer of a core is held at a named valuation: the launch contents, then each
  host stretch applied, then each region's result array replaced by what the region's write-backs leave
  (the array after the last grid point). Each region enters with the arrays it stages split out of that
  valuation and leaves with them put back; its carried accumulator lives in the region's own invariant and is
  forgotten at the exit. The run's conclusion names every unscoped buffer at the end; the frame (arguments
  unchanged) and the result's value are both read off it.
-/
import proofs.«117335_j42545946034709_1_alg».proof.Proof.Gen.KernelIdeal.Regions
import proofs.«117335_j42545946034709_1_alg».proof.Proof.HandKernelIdeal.R0Frame
import proofs.«117335_j42545946034709_1_alg».proof.Proof.HandKernelIdeal.R1Frame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the regions' boundaries -/

/-- What the forward-transform region finds: the launch contents after the three host operations before it. -/
abbrev entry0 : (c : Dev nD) → (b : Ref sig .tc) → Buf (Elt F) ((c : Thread nD τ).loc b) := fun c b => V1 m c b

/-- What the forward-transform region leaves: its arrays after its last grid point, everything else as it was. -/
def left0 (c : Dev nD) : Valuation τ sig (Elt F) :=
  Pipeline.withArrays spec0 c (V1 m c) fun w => (dat0 (entry0 m) c).arrAt w cfg0.N

/-- The regions' results so far: only the forward transform's is known. -/
def outsA : Outs (F := F) := fun _ r c => left0 m c r

/-- What the inverse-transform region finds (no host operation stands between the two regions). -/
abbrev entry1 : (c : Dev nD) → (b : Ref sig .tc) → Buf (Elt F) ((c : Thread nD τ).loc b) := fun c b => V2 m (outsA m) c b

/-- What the inverse-transform region leaves. -/
def left1 (c : Dev nD) : Valuation τ sig (Elt F) :=
  Pipeline.withArrays spec1 c (V2 m (outsA m) c) fun w => (dat1 (entry1 m) c).arrAt w cfg1.N

/-- Both regions' results: item 2 leaves the fused spectrum in its result array, item 3 the inverse transform. -/
def outs : Outs (F := F) := fun J r c => match J with
  | 2 => left0 m c r
  | _ => left1 m c r

theorem outs_two (r : Ref sig .tc) (c : Dev nD) : outs m 2 r c = left0 m c r := rfl
theorem outs_three (r : Ref sig .tc) (c : Dev nD) : outs m 3 r c = left1 m c r := rfl

/-- With both results named, the valuation after the first region is the one the second region was stated at. -/
theorem V2_outs (c : Dev nD) : V2 m (outs m) c = V2 m (outsA m) c := rfl

/-- The forward transform's result array after the region. -/
theorem res0_eq (c : Dev nD) : outs m 2 main_v3 c = (dat0 (entry0 m) c).arrAt 6 cfg0.N := by
  show Pipeline.withArrays spec0 c (V1 m c) (fun w => (dat0 (entry0 m) c).arrAt w cfg0.N) (Proc.devRef .tc (Pipeline.arrRef spec0 6)) = _
  exact Pipeline.withArrays_arr spec0 launch0.win.arr_inj c _ _ 6

/-- The inverse transform's result array after the region. -/
theorem res1_eq (c : Dev nD) : outs m 3 main_v4 c = (dat1 (entry1 m) c).arrAt 2 cfg1.N := by
  show Pipeline.withArrays spec1 c (V2 m (outsA m) c) (fun w => (dat1 (entry1 m) c).arrAt w cfg1.N) (Proc.devRef .tc (Pipeline.arrRef spec1 2)) = _
  exact Pipeline.withArrays_arr spec1 launch1.win.arr_inj c _ _ 2

/-! ## What each region's exit valuation holds at the region's arrays, and off them -/

/-- Forward transform: after the region each staged array holds what the write-backs leave — an input array its
    entry contents, the result array the region's result. -/
theorem exit0_arr (c : Dev nD) (w : Fin cfg0.W) :
    (dat0 (entry0 m) c).arrAt w cfg0.N = V2 m (outs m) c (Pipeline.arrRef spec0 w) := by
  have hin : ∀ w' : Fin cfg0.W, w' ≠ 6 → (dat0 (entry0 m) c).arrAt w' cfg0.N = V1 m c (Pipeline.arrRef spec0 w') := fun w' _ => by
    fin_cases w' <;> first | (exact absurd rfl ‹_›) | exact ((dat0 (entry0 m) c).arrAt_in _ rfl _).trans (A_eq0 (entry0 m) c _)
  by_cases h6 : w = 6
  · subst h6
    exact (res0_eq m c).symm.trans (by
      show outs m 2 main_v3 c = Function.update (V1 m c) main_v3 (outs m 2 main_v3 c) main_v3
      rw [Function.update_self])
  · rw [hin w h6]
    fin_cases w <;> first | (exact absurd rfl h6) | exact (V2_of m (outs m) c _ (by decide)).symm

/-- Off the forward transform's arrays nothing changed. -/
theorem exit0_rest (c : Dev nD) : ∀ b, b ∉ Finset.univ.image (Pipeline.arrRef spec0) → V2 m (outs m) c b = V1 m c b := fun b hb =>
  V2_of m (outs m) c b (by
    intro hmem
    rw [List.mem_singleton] at hmem
    exact hb (Finset.mem_image.mpr ⟨6, Finset.mem_univ _, hmem.symm⟩))

/-- Inverse transform: the same at its three arrays. -/
theorem exit1_arr (c : Dev nD) (w : Fin cfg1.W) :
    (dat1 (entry1 m) c).arrAt w cfg1.N = V3 m (outs m) c (Pipeline.arrRef spec1 w) := by
  have hin : ∀ w' : Fin cfg1.W, w' ≠ 2 → (dat1 (entry1 m) c).arrAt w' cfg1.N = V2 m (outs m) c (Pipeline.arrRef spec1 w') := fun w' _ => by
    fin_cases w' <;> first | (exact absurd rfl ‹_›) | exact ((dat1 (entry1 m) c).arrAt_in _ rfl _).trans (A_eq1 (entry1 m) c _)
  by_cases h2 : w = 2
  · subst h2
    exact (res1_eq m c).symm.trans (by
      show outs m 3 main_v4 c = Function.update (V2 m (outs m) c) main_v4 (outs m 3 main_v4 c) main_v4
      rw [Function.update_self])
  · rw [hin w h2]
    fin_cases w <;> first | (exact absurd rfl h2) | exact (V3_of m (outs m) c _ (by decide)).symm

theorem exit1_rest (c : Dev nD) : ∀ b, b ∉ Finset.univ.image (Pipeline.arrRef spec1) → V3 m (outs m) c b = V2 m (outs m) c b := fun b hb =>
  V3_of m (outs m) c b (by
    intro hmem
    rw [List.mem_singleton] at hmem
    exact hb (Finset.mem_image.mpr ⟨2, Finset.mem_univ _, hmem.symm⟩))

/-! ## The proof data family and what rides beside the buffers -/

/-- No pallas_call has a prefetched table. -/
abbrev adm' : (p : Fin 2) → (pcfgs (F := F) p).Adm := fun p => (cfgs p).toPCfg_adm

/-- Each region's proof data at its own entry contents. -/
def pdats : (p : Fin 2) → (c : Dev nD) → Dat τ (Elt F) Unit ℕ (UR sig nD τ) ℕ (Pipeline.pin (pcfgs (F := F)) adm' p) c
  | ⟨0, _⟩ => fun c => dat0 (entry0 m) c
  | ⟨1, _⟩ => fun c => dat1 (entry1 m) c

abbrev 𝒱n : Variants := Variants.none
/-- No core owes another anything: no level is assigned. -/
abbrev Ln : GSem nD τ sig → Finset Unit := fun _ => ∅
abbrev lvn : GSem nD τ sig → Unit → ℕ := fun _ _ => 0

/-- Beside the buffers, through every item: the core's generator register at some state and the core owing nothing. -/
abbrev Rest (c : Dev nD) : sProp 𝕄 := iprop((∃ r, prngReg c r) ∗ ∃ W, owes (c : Thread nD τ) (0 : CellTallies nD τ sig Unit) W)

abbrev Erest : Fin 3 → Dev nD → sProp 𝕄 := fun _ c => Rest (F := F) c

/-! ## The regions as segments -/

set_option backward.isDefEq.respectTransparency.types false in
/-- The forward-transform region between the valuations before and after it. -/
def reg0 : RegionSeg (pcfgs (F := F)) adm' (pdats m) () defs₀ 𝒱n Ln lvn 0 where
  win := launch0.win.to₀
  block_pos := launch0.block_pos
  stage_whole := launch0.stage_whole
  K := PEmpty
  osem k := k.elim
  ho := Pipeline.OwnSemFacts.none _
  hbody c := (body_obligation0 (entry0 m) c).loose
  hwaits := Pipeline.hwaits_of_owed_zero _ _ _ _ Ln lvn 0 fun _ _ => rfl
  pre c := iprop(StableHlo.held (c : Thread nD τ) (Pipeline.ucRefs τ sig) (V1 m c) ∗ Rest c)
  post c := iprop(StableHlo.held (c : Thread nD τ) (Pipeline.ucRefs τ sig) (V2 m (outs m) c) ∗ Rest c)
  X c := iprop(∃ r, prngReg c r)
  Y c := iprop(∃ r, prngReg c r)
  Z c := Pipeline.unscopedRest (Ix := Unit) (Name := ℕ) (U := UR sig nD τ) (Lvl := ℕ) spec0 c (entry0 m c)
  hentry c := by
    rw [Pipeline.ownSems0_none]
    have hsplit := Pipeline.arrays_of_unscopedBufs (p := 0) (pcfgs (F := F)) adm' (pdats m) launch0.win launch0.arr_whole c
      ((pdats m 0 c).share_full fun _ => rfl) (entry0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ Pipeline.ΦA spec0 c).trans (hin0 (entry0 m) c)
    unfold Pipeline.ΦA
    iintro ⟨Hp, -, Hr⟩
    isplitl [Hr]; · iexact Hr
    iexact Hp
  hout c := by
    rw [Pipeline.ownSems0_none]
    refine (hout0 (entry0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m) ((pdats m 0 c).share_full fun _ => rfl)
      (entry0 m c) (fun b => V2 m (outs m) c b) ((pdats m 0 c).arrAt · cfg0.N) (exit0_arr m c) (exit0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The inverse-transform region between the valuations before and after it. -/
def reg1 : RegionSeg (pcfgs (F := F)) adm' (pdats m) () defs₀ 𝒱n Ln lvn 1 where
  win := launch1.win.to₀
  block_pos := launch1.block_pos
  stage_whole := launch1.stage_whole
  K := PEmpty
  osem k := k.elim
  ho := Pipeline.OwnSemFacts.none _
  hbody c := (body_obligation1 (entry1 m) c).loose
  hwaits := Pipeline.hwaits_of_owed_zero _ _ _ _ Ln lvn 1 fun _ _ => rfl
  pre c := iprop(StableHlo.held (c : Thread nD τ) (Pipeline.ucRefs τ sig) (V2 m (outs m) c) ∗ Rest c)
  post c := iprop(StableHlo.held (c : Thread nD τ) (Pipeline.ucRefs τ sig) (V3 m (outs m) c) ∗ Rest c)
  X c := iprop(∃ r, prngReg c r)
  Y c := iprop(∃ r, prngReg c r)
  Z c := Pipeline.unscopedRest (Ix := Unit) (Name := ℕ) (U := UR sig nD τ) (Lvl := ℕ) spec1 c (entry1 m c)
  hentry c := by
    rw [Pipeline.ownSems0_none, V2_outs m c]
    have hsplit := Pipeline.arrays_of_unscopedBufs (p := 1) (pcfgs (F := F)) adm' (pdats m) launch1.win launch1.arr_whole c
      ((pdats m 1 c).share_full fun _ => rfl) (entry1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ Pipeline.ΦA spec1 c).trans (hin1 (entry1 m) c)
    unfold Pipeline.ΦA
    iintro ⟨Hp, -, Hr⟩
    isplitl [Hr]; · iexact Hr
    iexact Hp
  hout c := by
    rw [Pipeline.ownSems0_none]
    refine (hout1 (entry1 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m) ((pdats m 1 c).share_full fun _ => rfl)
      (entry1 m c) (fun b => V3 m (outs m) c b) ((pdats m 1 c).arrAt · cfg1.N) (exit1_arr m c) (exit1_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- From any memory with zero counters every weakly fair execution of @main terminates, nothing faulting, and in the
    final memory every unscoped buffer of every core holds the last valuation: the launch contents carried through the
    host stretches and the two regions' results. -/
theorem run_all : θ_run defs (onTc (τ := τ) (main (F := F))) ⟨m, fun _ => 0, ρ⟩ (fun r => ∀ c : Dev nD,
      ∀ b ∈ Pipeline.ucRefs τ sig, r.2.mem ((c : Thread nD τ).1, b) = V8 m (outs m) c b) := by
  refine Pipeline.θ_run_regions_kit_dev (pcfgs (F := F)) adm' (pdats m) () cellOf_inj emb₁ defs₀ 𝒱n Ln lvn m ρ main
    (segs m (outs m) 𝒱n Ln lvn (Erest (F := F)) () (pdats m) (reg0 m) (reg1 m))
    (fun c Q => by
      rewrite [main_chain c, Seg.run_eq_chain,
        show (segs m (outs m) 𝒱n Ln lvn (Erest (F := F)) () (pdats m) (reg0 m) (reg1 m) c).map Seg.prog = [
          StableHlo.seq hostOps0,
          Prog.lift (.customCall (Pipeline.entry 0) ()),
          Prog.lift (.customCall (Pipeline.entry 1) ()),
          StableHlo.seq hostOps2,
          StableHlo.seq hostOps2_1,
          StableHlo.seq hostOps2_2,
          StableHlo.seq hostOps2_3,
          StableHlo.seq hostOps2_4 ] from rfl]
      exact .rfl)
    (fun c => by simp only [segs, Seg.pipes_host, Seg.pipes_region, Seg.pipes_nil]; decide) (O₀ := 0) (hL := fun _ _ => rfl)
    (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rest c))
    (Tₙ := fun c => StableHlo.held (c : Thread nD τ) (Pipeline.ucRefs τ sig) (V8 m (outs m) c))
    (hch := fun c => ⟨.rfl, .rfl, .rfl, .rfl, .rfl, .rfl, .rfl, .rfl, sep_mono .rfl (by iintro ⟨-, H⟩; iexact H)⟩)
    (hinit := ?_) (QY := fun c s => ∀ b ∈ Pipeline.ucRefs τ sig, s.mem ((c : Thread nD τ).1, b) = V8 m (outs m) c b)
    (hfin := fun c s' => ?_) (hQ := fun _ h => h)
  · refine Pipeline.initEach Ln lvn fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · unfold StableHlo.held
    iintro ⟨Hh, HSI⟩
    imodintro
    iapply (pointsTo_read_all (Pipeline.ucRefs τ sig) (fun b => (((c : Thread nD τ)).1, b)) (V8 m (outs m) c) s')
    isplitl [Hh] <;> iassumption

end Cert.KernelIdeal.Hand

end
-- ==== Proof.HostPre.lean ====
/-
  What the forward-transform region finds in the three buffers the host writes before it:
  the two 8192 x 128 feature matrices joined side by side into one 8192 x 256 matrix (column j < 128 is the main
  feature j, column 128 + j the guide feature j), and each of the two bias vectors seen as a 1 x 128 row.
  Every argument array is found as launched.
-/
import proofs.«117335_j42545946034709_1_alg».proof.Proof.Gen.KernelIdeal.Regions
import Idealize.ShloMosaic.Lib.Pipeline.Value
import Idealize.ShloMosaic.Lib.ValueIdx
import Idealize.ShloMosaic.Lib.StableHlo.Run

noncomputable section

namespace Cert.KernelIdeal.HostPre

open Cert.KernelIdeal Cert.KernelIdeal.Gen
open Idealize.ShloMosaic Idealize.ShloMosaic.TcCoe Idealize.SL.Sem Idealize.ShloMosaic.StableHlo Idealize.ShloMosaic.ValueIdx

variable {F : FTy → Type} [FloatOps F]
variable (m : (ℓ : Loc nD τ sig) → Buf (Elt F) ℓ)

/-- The joined feature matrix as the host operation's term of the two argument arrays. -/
theorem joined_eq (c : Dev nD) :
    (V1 m c main_v0 : S8192x256.Idx → Elt F .f32)
      = concatenate S8192x256 1 [⟨S8192x128, m ((c.tc : Thread nD τ).loc main_arg0)⟩, ⟨S8192x128, m ((c.tc : Thread nD τ).loc main_arg1)⟩]
          concatenates_S8192x128_S8192x128_S8192x256_d1 := by
  dsimp only [V1, V0, hostOps0]; after_results

/-- The first bias as a row. -/
theorem row1_eq (c : Dev nD) :
    (V1 m c main_v1 : S1x128.Idx → Elt F .f32) = shapeCast S1x128 (m ((c.tc : Thread nD τ).loc main_arg5)) shapeCasts_S128_S1x128 := by
  dsimp only [V1, V0, hostOps0]; after_results; rfl

/-- The second bias as a row. -/
theorem row2_eq (c : Dev nD) :
    (V1 m c main_v2 : S1x128.Idx → Elt F .f32) = shapeCast S1x128 (m ((c.tc : Thread nD τ).loc main_arg7)) shapeCasts_S128_S1x128 := by
  dsimp only [V1, V0, hostOps0]; after_results; rfl

/-- A left column of the joined matrix is the main feature matrix's column. -/
theorem joined_left (c : Dev nD) (r : Fin 8192) (j : Fin 256) (h : j.val < 128) :
    V1 m c main_v0 (ix2 r j) = m ((c.tc : Thread nD τ).loc main_arg0) (ix2 r (⟨j.val, h⟩ : Fin 128)) := by
  rw [joined_eq]
  exact concatenate_pair_apply_left (t := S8192x256) (s₁ := S8192x128) (s₂ := S8192x128) (1 : Fin 2) _ _
    concatenates_S8192x128_S8192x128_S8192x256_d1 (ix2 r j) rfl (ix2 r (⟨j.val, h⟩ : Fin 128) : S8192x128.Idx)
    (fun b => match b with | ⟨0, _⟩ => rfl | ⟨1, _⟩ => rfl)

/-- A right column of the joined matrix is the guide feature matrix's column. -/
theorem joined_right (c : Dev nD) (r : Fin 8192) (j : Fin 256) (h : ¬ j.val < 128) :
    V1 m c main_v0 (ix2 r j) = m ((c.tc : Thread nD τ).loc main_arg1) (ix2 r (⟨j.val - 128, by have := j.isLt; omega⟩ : Fin 128)) := by
  rw [joined_eq]
  exact concatenate_pair_apply_right (t := S8192x256) (s₁ := S8192x128) (s₂ := S8192x128) (1 : Fin 2) _ _
    concatenates_S8192x128_S8192x128_S8192x256_d1 (ix2 r j) rfl rfl
    (ix2 r (⟨j.val - 128, by have := j.isLt; omega⟩ : Fin 128) : S8192x128.Idx)
    (fun b hb => match b, hb with | ⟨0, _⟩, _ => rfl | ⟨1, _⟩, hb => absurd rfl hb)
    (by show (j.val - 128) + 128 = j.val; omega)

/-- Entry j of a bias row is entry j of the bias vector. -/
theorem row1_apply (c : Dev nD) (j : Fin 128) :
    V1 m c main_v1 (ix2 (0 : Fin 1) j) = m ((c.tc : Thread nD τ).loc main_arg5) (ix1 j) := by
  rw [row1_eq]
  exact shapeCast_apply _ shapeCasts_S128_S1x128 (ix2 (0 : Fin 1) j) (ix1 j) (by simp [Shape.rowMajor_val_two, Shape.rowMajor_val_one])

theorem row2_apply (c : Dev nD) (j : Fin 128) :
    V1 m c main_v2 (ix2 (0 : Fin 1) j) = m ((c.tc : Thread nD τ).loc main_arg7) (ix1 j) := by
  rw [row2_eq]
  exact shapeCast_apply _ shapeCasts_S128_S1x128 (ix2 (0 : Fin 1) j) (ix1 j) (by simp [Shape.rowMajor_val_two, Shape.rowMajor_val_one])

/-- The argument arrays the forward transform stages are found as launched. -/
theorem arg3_eq (c : Dev nD) : V1 m c main_arg3 = m ((c.tc : Thread nD τ).loc main_arg3) := V1_of m c main_arg3 (by decide)
theorem arg4_eq (c : Dev nD) : V1 m c main_arg4 = m ((c.tc : Thread nD τ).loc main_arg4) := V1_of m c main_arg4 (by decide)
theorem arg6_eq (c : Dev nD) : V1 m c main_arg6 = m ((c.tc : Thread nD τ).loc main_arg6) := V1_of m c main_arg6 (by decide)

end Cert.KernelIdeal.HostPre

end
-- ==== Proof.Spec.lean ====
/-
  The mathematics both programs compute on the frequency path, stated once over plain index functions into the
  extended reals. With U the 8192 x 8192 basis, X the 8192 x 256 matrix whose first 128 columns are the main
  features and whose last 128 columns are the guide features:
    * the forward transform        C = Uᵀ X                                  (gft),
    * the gate                     G = logistic (relu (C W₁ + b₁) W₂ + b₂)   (hidden, gate),
    * the fused spectrum           M = C[:, :128] + G ∘ C[:, 128:]           (fused),
    * the inverse transform        H = U M                                   (igft).
  Sums are finite sums in the extended reals; no finiteness of the entries is assumed anywhere.
-/
import Idealize.ShloMosaic.PureOps.Ideal
import Idealize.ShloMosaic.Lib.ValueIdx

noncomputable section

namespace Cert.Spec

open Idealize.ShloMosaic

/-- Two 128-column matrices side by side: column j < 128 from the first, column 128 + j from the second. -/
def xcat (a b : Fin 8192 → Fin 128 → EReal) (r : Fin 8192) (j : Fin 256) : EReal :=
  if h : j.val < 128 then a r ⟨j.val, h⟩ else b r ⟨j.val - 128, by have := j.isLt; omega⟩

/-- Column j of the left half of a 256-column row. -/
def lo (j : Fin 128) : Fin 256 := ⟨j.val, by have := j.isLt; omega⟩
/-- Column j of the right half of a 256-column row. -/
def hi (j : Fin 128) : Fin 256 := ⟨128 + j.val, by have := j.isLt; omega⟩

/-- The forward transform Uᵀ X: entry (i, j) sums U r i · X r j over the rows r. -/
def gft (u : Fin 8192 → Fin 8192 → EReal) (x : Fin 8192 → Fin 256 → EReal) (i : Fin 8192) (j : Fin 256) : EReal :=
  ∑ r : Fin 8192, u r i * x r j

/-- The hidden layer relu (C W₁ + b₁). -/
def hidden (cf : Fin 8192 → Fin 256 → EReal) (w1 : Fin 256 → Fin 128 → EReal) (b1 : Fin 128 → EReal)
    (i : Fin 8192) (j : Fin 128) : EReal :=
  max ((∑ k : Fin 256, cf i k * w1 k j) + b1 j) 0

/-- The gate logistic (hidden W₂ + b₂). -/
def gate (cf : Fin 8192 → Fin 256 → EReal) (w1 : Fin 256 → Fin 128 → EReal) (b1 : Fin 128 → EReal)
    (w2 : Fin 128 → Fin 128 → EReal) (b2 : Fin 128 → EReal) (i : Fin 8192) (j : Fin 128) : EReal :=
  Ideal.logistic ((∑ k : Fin 128, hidden cf w1 b1 i k * w2 k j) + b2 j)

/-- The fused spectrum: the main half plus the gate times the guide half. -/
def fused (cf : Fin 8192 → Fin 256 → EReal) (w1 : Fin 256 → Fin 128 → EReal) (b1 : Fin 128 → EReal)
    (w2 : Fin 128 → Fin 128 → EReal) (b2 : Fin 128 → EReal) (i : Fin 8192) (j : Fin 128) : EReal :=
  cf i (lo j) + gate cf w1 b1 w2 b2 i j * cf i (hi j)

/-- The inverse transform U M: entry (i, j) sums U i r · M r j over r. -/
def igft (u : Fin 8192 → Fin 8192 → EReal) (mm : Fin 8192 → Fin 128 → EReal) (i : Fin 8192) (j : Fin 128) : EReal :=
  ∑ r : Fin 8192, u i r * mm r j

/-- The whole frequency path. -/
def hfreq (u : Fin 8192 → Fin 8192 → EReal) (xm xg : Fin 8192 → Fin 128 → EReal)
    (w1 : Fin 256 → Fin 128 → EReal) (b1 : Fin 128 → EReal) (w2 : Fin 128 → Fin 128 → EReal) (b2 : Fin 128 → EReal) :
    Fin 8192 → Fin 128 → EReal :=
  igft u (fused (gft u (xcat xm xg)) w1 b1 w2 b2)

end Cert.Spec

end
-- ==== Proof.LibSumBlocks.lean ====
/-
  Regrouping a finite sum into consecutive blocks.

  A sum over the N = a * b indices 0, …, N - 1 is the sum, over the a blocks, of the sum over the b offsets inside a
  block: index i * b + j is offset j of block i.  Only commutativity and associativity of the addition are used, so the
  statement holds in any additive commutative monoid (the extended reals included).
-/
import Mathlib.Algebra.BigOperators.Fin
import Mathlib.Logic.Equiv.Fin.Basic

open scoped BigOperators

namespace Cert.SumBlocks

/-- Index `i * b + j` of block `i`, offset `j`, is below `a * b`. -/
theorem block_index_lt {a b : ℕ} (i : Fin a) (j : Fin b) : i.val * b + j.val < a * b := by
  have hi : i.val + 1 ≤ a := i.isLt
  have hj := j.isLt
  have h1 : (i.val + 1) * b ≤ a * b := Nat.mul_le_mul_right b hi
  rw [Nat.succ_mul] at h1
  omega

/-- A sum over `Fin N`, `N = a * b`, regrouped as `a` consecutive blocks of `b` terms. -/
theorem sum_blocks {M : Type*} [AddCommMonoid M] (a b N : ℕ) (hN : N = a * b) (f : Fin N → M) :
    ∑ n : Fin N, f n = ∑ i : Fin a, ∑ j : Fin b, f ⟨i.val * b + j.val, hN ▸ block_index_lt i j⟩ := by
  subst hN
  rw [← Fintype.sum_prod_type', ← (finProdFinEquiv (m := a) (n := b)).sum_comp]
  refine Finset.sum_congr rfl fun p _ => congrArg f (Fin.ext ?_)
  show p.2.val + b * p.1.val = p.1.val * b + p.2.val
  rw [Nat.mul_comm, Nat.add_comm]

end Cert.SumBlocks
-- ==== Proof.SpecLaws.lean ====
/-
  Block arithmetic on the extended reals for the accumulators of the two transforms, and the two halves of the
  side-by-side feature matrix.

  A sum over 8192 rows is the sum over eight blocks of 1024 rows; an accumulator that starts at zero plus the first
  block's contribution and adds one block's contribution per step holds, after the eighth step, the sum of all eight.
  Only commutativity and associativity of the addition are used.
-/
import proofs.«117335_j42545946034709_1_alg».proof.Proof.Spec
import proofs.«117335_j42545946034709_1_alg».proof.Proof.LibSumBlocks

noncomputable section

open scoped BigOperators

namespace Cert.Spec

/-- A sum over 8192 rows as eight consecutive blocks of 1024 rows. -/
theorem sum_8_blocks (f : Fin 8192 → EReal) :
    ∑ r : Fin 8192, f r
      = ∑ k : Fin 8, ∑ s : Fin 1024, f ⟨k.val * 1024 + s.val, by have := k.isLt; have := s.isLt; omega⟩ := by
  exact Cert.SumBlocks.sum_blocks 8 1024 8192 (by norm_num) f

/-- An accumulator started at zero plus the first term, adding one term per step, holds the sum of the eight terms
    after the eighth step. -/
theorem acc_total (g : ℕ → EReal) (acc : ℕ → EReal) (h0 : acc 0 = 0 + g 0)
    (hs : ∀ k, k < 7 → acc (k + 1) = acc k + g (k + 1)) : acc 7 = ∑ k : Fin 8, g k.val := by
  have h1 : acc 1 = acc 0 + g 1 := hs 0 (by norm_num)
  have h2 : acc 2 = acc 1 + g 2 := hs 1 (by norm_num)
  have h3 : acc 3 = acc 2 + g 3 := hs 2 (by norm_num)
  have h4 : acc 4 = acc 3 + g 4 := hs 3 (by norm_num)
  have h5 : acc 5 = acc 4 + g 5 := hs 4 (by norm_num)
  have h6 : acc 6 = acc 5 + g 6 := hs 5 (by norm_num)
  have h7 : acc 7 = acc 6 + g 7 := hs 6 (by norm_num)
  rw [Fin.sum_univ_eight]
  show acc 7 = g 0 + g 1 + g 2 + g 3 + g 4 + g 5 + g 6 + g 7
  rw [h7, h6, h5, h4, h3, h2, h1, h0, zero_add]

/-- A column of the left half of the side-by-side matrix comes from the first matrix. -/
theorem xcat_lo (a b : Fin 8192 → Fin 128 → EReal) (r : Fin 8192) (j : Fin 128) : xcat a b r (lo j) = a r j := by
  have h : (lo j).val < 128 := j.isLt
  unfold xcat
  rw [dif_pos h]
  rfl

/-- A column of the right half of the side-by-side matrix comes from the second matrix. -/
theorem xcat_hi (a b : Fin 8192 → Fin 128 → EReal) (r : Fin 8192) (j : Fin 128) : xcat a b r (hi j) = b r j := by
  have h : ¬ (hi j).val < 128 := by
    show ¬ (128 + j.val < 128)
    omega
  unfold xcat
  rw [dif_neg h]
  refine congrArg (b r) (Fin.ext ?_)
  show 128 + j.val - 128 = j.val
  omega

/-- A column below 128 of the side-by-side matrix. -/
theorem xcat_of_lt (a b : Fin 8192 → Fin 128 → EReal) (r : Fin 8192) (j : Fin 256) (h : j.val < 128) :
    xcat a b r j = a r ⟨j.val, h⟩ := by
  unfold xcat
  rw [dif_pos h]

/-- A column from 128 on of the side-by-side matrix. -/
theorem xcat_of_not_lt (a b : Fin 8192 → Fin 128 → EReal) (r : Fin 8192) (j : Fin 256) (h : ¬ j.val < 128) :
    xcat a b r j = b r ⟨j.val - 128, by have := j.isLt; omega⟩ := by
  unfold xcat
  rw [dif_neg h]

/-- The forward transform of the side-by-side matrix, on a left column, is the transform of the first matrix. -/
theorem gft_xcat_lo (u : Fin 8192 → Fin 8192 → EReal) (a b : Fin 8192 → Fin 128 → EReal) (i : Fin 8192) (j : Fin 128) :
    gft u (xcat a b) i (lo j) = ∑ r : Fin 8192, u r i * a r j := by
  unfold gft
  exact Finset.sum_congr rfl fun r _ => by rw [xcat_lo]

/-- The forward transform of the side-by-side matrix, on a right column, is the transform of the second matrix. -/
theorem gft_xcat_hi (u : Fin 8192 → Fin 8192 → EReal) (a b : Fin 8192 → Fin 128 → EReal) (i : Fin 8192) (j : Fin 128) :
    gft u (xcat a b) i (hi j) = ∑ r : Fin 8192, u r i * b r j := by
  unfold gft
  exact Finset.sum_congr rfl fun r _ => by rw [xcat_hi]

end Cert.Spec

end
-- ==== Proof.LibPlainMatmul.lean ====
/-
  A plain matrix product read at an entry.

  For the dimension numbers of an ordinary product — an [a, n] array times an [n, b] array, contracting the second
  axis of the left with the first axis of the right, no batch axis — the product accumulated onto the zero array is, on
  the extended reals, at (p, q) the sum over k of left (p, k) · right (k, q).  The extents are variables, so the
  reading does not change with a kernel's tiling.
-/
import Idealize.ShloMosaic.Lib.ValueIdx
import Idealize.ShloMosaic.PureOps.Ideal.Laws

noncomputable section

open scoped BigOperators

namespace Cert.PlainMatmul

open Idealize.ShloMosaic Idealize.ShloMosaic.ValueIdx

/-- The dimension numbers of an ordinary [a, n] × [n, b] product, over any witness of their well-formedness. -/
abbrev dims {a n b : ℕ}
    (wf : DotDims.WF ⟨2, ![a, n]⟩ ⟨2, ![n, b]⟩ ⟨2, ![a, b]⟩ [1] [0] [0] [1] [] []) :
    DotDims ⟨2, ![a, n]⟩ ⟨2, ![n, b]⟩ ⟨2, ![a, b]⟩ :=
  ⟨[1], [0], [0], [1], [], [], wf⟩

/-- An ordinary product onto the zero array: at (p, q) the sum over k of left (p, k) · right (k, q). -/
theorem zero_acc_apply {a n b : ℕ} {φ₁ φ₂ : FTy}
    (wf : DotDims.WF ⟨2, ![a, n]⟩ ⟨2, ![n, b]⟩ ⟨2, ![a, b]⟩ [1] [0] [0] [1] [] [])
    (prec : Option ContractPrecision) (L : FVec Ideal ⟨2, ![a, n]⟩ φ₁) (R : FVec Ideal ⟨2, ![n, b]⟩ φ₂)
    (p : Fin a) (q : Fin b) :
    FloatOps.matmul (dims wf) prec L R (constant ⟨2, ![a, b]⟩ .f32 0x00000000#32) (ix2 p q)
      = ∑ k : Fin n, L (ix2 p k) * R (ix2 k q) := by
  rw [Ideal.matmul_constant_zero_apply, ← Equiv.sum_comp (contrEquiv1 (dims wf) n rfl rfl).symm]
  refine Finset.sum_congr rfl fun k _ => ?_
  have hk := contrEquiv1_symm_val (dims wf) n rfl rfl k
  have el : (dims wf).lhsIdx (ix2 p q) ((contrEquiv1 (dims wf) n rfl rfl).symm k) = ix2 p k :=
    funext fun ax => Fin.ext (by
      match ax with
      | ⟨0, _⟩ => rfl
      | ⟨1, _⟩ => exact ((dims wf).lhsIdx_val_of_single rfl _ _).trans hk)
  have er : (dims wf).rhsIdx (ix2 p q) ((contrEquiv1 (dims wf) n rfl rfl).symm k) = ix2 k q :=
    funext fun ax => Fin.ext (by
      match ax with
      | ⟨0, _⟩ => exact ((dims wf).rhsIdx_val_of_single rfl _ _).trans hk
      | ⟨1, _⟩ => rfl)
  rw [el, er]

end Cert.PlainMatmul

end
-- ==== Proof.LibMatmulFirstAxes.lean ====
/-
  A matrix product that contracts the first axis of both operands, read at an entry.

  For the dimension numbers that contract the first axis of the left operand with the first axis of the right — an
  [n, a] array, transposed, times an [n, b] array, no batch axis — the product accumulated onto the zero array is, on
  the extended reals, at (p, q) the sum over k of left (k, p) · right (k, q).  The extents are variables, so the
  reading does not change with a kernel's tiling.
-/
import Idealize.ShloMosaic.Lib.ValueIdx
import Idealize.ShloMosaic.PureOps.Ideal.Laws

noncomputable section

open scoped BigOperators

namespace Cert.MatmulFirstAxes

open Idealize.ShloMosaic Idealize.ShloMosaic.ValueIdx

/-- The dimension numbers of a product contracting both first axes — an [n, a] array, transposed, times an [n, b]
    array —, over any witness of their well-formedness. -/
abbrev dims {n a b : ℕ}
    (wf : DotDims.WF ⟨2, ![n, a]⟩ ⟨2, ![n, b]⟩ ⟨2, ![a, b]⟩ [0] [0] [1] [1] [] []) :
    DotDims ⟨2, ![n, a]⟩ ⟨2, ![n, b]⟩ ⟨2, ![a, b]⟩ :=
  ⟨[0], [0], [1], [1], [], [], wf⟩

/-- A product contracting both first axes, onto the zero array: at (p, q) the sum over k of left (k, p) · right (k, q). -/
theorem zero_acc_apply {n a b : ℕ} {φ₁ φ₂ : FTy}
    (wf : DotDims.WF ⟨2, ![n, a]⟩ ⟨2, ![n, b]⟩ ⟨2, ![a, b]⟩ [0] [0] [1] [1] [] [])
    (prec : Option ContractPrecision) (L : FVec Ideal ⟨2, ![n, a]⟩ φ₁) (R : FVec Ideal ⟨2, ![n, b]⟩ φ₂)
    (p : Fin a) (q : Fin b) :
    FloatOps.matmul (dims wf) prec L R (constant ⟨2, ![a, b]⟩ .f32 0x00000000#32) (ix2 p q)
      = ∑ k : Fin n, L (ix2 k p) * R (ix2 k q) := by
  rw [Ideal.matmul_constant_zero_apply, ← Equiv.sum_comp (contrEquiv1 (dims wf) n rfl rfl).symm]
  refine Finset.sum_congr rfl fun k _ => ?_
  have hk := contrEquiv1_symm_val (dims wf) n rfl rfl k
  have el : (dims wf).lhsIdx (ix2 p q) ((contrEquiv1 (dims wf) n rfl rfl).symm k) = ix2 k p :=
    funext fun ax => Fin.ext (by
      match ax with
      | ⟨0, _⟩ => exact ((dims wf).lhsIdx_val_of_single rfl _ _).trans hk
      | ⟨1, _⟩ => rfl)
  have er : (dims wf).rhsIdx (ix2 p q) ((contrEquiv1 (dims wf) n rfl rfl).symm k) = ix2 k q :=
    funext fun ax => Fin.ext (by
      match ax with
      | ⟨0, _⟩ => exact ((dims wf).rhsIdx_val_of_single rfl _ _).trans hk
      | ⟨1, _⟩ => rfl)
  rw [el, er]

end Cert.MatmulFirstAxes

end
-- ==== Proof.Pay.lean ====
/-
  The payloads of the two kernel bodies, read at an entry, on the extended reals.

  Each grid point of the first kernel adds to a 1024 x 256 accumulator the product of the transposed basis block with
  the feature block; at the last point of a row of the grid the accumulator is turned into the fused spectrum block:
  its left half plus the gate (a two-layer perceptron with a logistic output, applied to the whole 256-column row) times
  its right half.  Each grid point of the second kernel adds to a 1024 x 128 accumulator the product of a basis block
  with a block of the fused spectrum.  Changes of float format are the identity on the extended reals, so each product
  is the plain finite sum.
-/
import proofs.«117335_j42545946034709_1_alg».proof.Proof.Gen.KernelIdeal.Skeleton
import proofs.«117335_j42545946034709_1_alg».proof.Proof.Spec
import proofs.«117335_j42545946034709_1_alg».proof.Proof.LibPlainMatmul
import proofs.«117335_j42545946034709_1_alg».proof.Proof.LibMatmulFirstAxes
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-- The first kernel's accumulator starts at zero. -/
theorem pay1_0 (r : Fin 1024) (j : Fin 256) : k0_pay1 (F := Ideal) (ix2 r j) = 0 := by
  unfold k0_pay1
  rw [shapeCast_self]
  exact Ideal.ofBits_zero_f32

/-- One step of the first kernel's accumulator: the old value plus the transposed basis block times the feature block. -/
theorem pay2_0 (v3 : Vec Ideal S1024x1024 .f32) (v5 v8 : Vec Ideal S1024x256 .f32) (r : Fin 1024) (j : Fin 256) :
    k0_pay2 v3 v5 v8 (ix2 r j) = v8 (ix2 r j) + ∑ s : Fin 1024, v3 (ix2 s r) * v5 (ix2 s j) := by
  unfold k0_pay2
  rw [shapeCast_self, shapeCast_self, addf_apply]
  refine congrArg (v8 (ix2 r j) + ·) ?_
  exact Cert.MatmulFirstAxes.zero_acc_apply (n := 1024) (a := 1024) (b := 256) _ none _ _ r j

/-- The logistic of a vector, read at an index. -/
theorem logistic_apply {s : Shape} {φ : FTy} (a : FVec Ideal s φ) (i : s.Idx) : logistic a i = Ideal.logistic (a i) := rfl

/-- A [1, 128] row, cast to its own shape and repeated over 1024 rows, read at (r, k). -/
theorem row_apply (v : Vec Ideal S1x128 .f32) (r : Fin 1024) (k : Fin 128) :
    broadcastTo S1024x128 (shapeCast S1x128 v shapeCasts_S1x128_S1x128) broadcasts_S1x128_S1024x128 (ix2 r k)
      = v (ix2 0 k) := by
  rw [shapeCast_self]
  exact broadcastTo_1b_ab_apply v _ r k

/-- The first kernel's result block from the finished accumulator: left half plus gate times right half. -/
theorem pay3_0 (v17 : Vec Ideal S1024x256 .f32) (v21 : Vec Ideal S256x128 .f32) (v24 : Vec Ideal S1x128 .f32)
    (v31 : Vec Ideal S128x128 .f32) (v34 : Vec Ideal S1x128 .f32) (r : Fin 1024) (j : Fin 128) :
    k0_pay3 v17 v21 v24 v31 v34 (ix2 r j)
      = v17 (ix2 r (Cert.Spec.lo j))
        + Ideal.logistic ((∑ k : Fin 128, max ((∑ k' : Fin 256, v17 (ix2 r k') * v21 (ix2 k' k)) + v24 (ix2 0 k)) 0
              * v31 (ix2 k j)) + v34 (ix2 0 j))
          * v17 (ix2 r (Cert.Spec.hi j)) := by
  unfold k0_pay3
  rw [addf_apply, mulf_apply, logistic_apply, addf_apply, row_apply,
    slice2_axis1_apply 0 v17 slices_S1024x256_o0_0_S1024x128 r j (Cert.Spec.lo j) (Nat.zero_add _).symm,
    slice2_axis1_apply 128 v17 slices_S1024x256_o0_128_S1024x128 r j (Cert.Spec.hi j) rfl]
  refine congrArg (fun x => v17 (ix2 r (Cert.Spec.lo j)) + Ideal.logistic (x + v34 (ix2 0 j)) * v17 (ix2 r (Cert.Spec.hi j))) ?_
  refine (Cert.PlainMatmul.zero_acc_apply (a := 1024) (n := 128) (b := 128) _ none _ _ r j).trans ?_
  refine Finset.sum_congr rfl fun k _ => ?_
  rw [truncf_apply, truncf_apply, maximumf_apply, addf_apply, broadcast_apply, row_apply]
  have e1 : matmul (F := Ideal) dot_S1024x256_S256x128_S1024x128_1_0_0_1_n_n none (truncf .bf16 v17 bitsLt_bf16_f32)
      (truncf .bf16 v21 bitsLt_bf16_f32) (constant S1024x128 .f32 0x00000000#32) (ix2 r k)
        = ∑ k' : Fin 256, v17 (ix2 r k') * v21 (ix2 k' k) :=
    Cert.PlainMatmul.zero_acc_apply (a := 1024) (n := 256) (b := 128) _ none _ _ r k
  rw [e1]
  show max _ (Ideal.ofBits .f32 0x00000000#32) * _ = _
  rw [Ideal.ofBits_zero_f32]

/-- The second kernel's accumulator starts at zero. -/
theorem pay1_1 (r : Fin 1024) (j : Fin 128) : k1_pay1 (F := Ideal) (ix2 r j) = 0 := by
  unfold k1_pay1
  rw [shapeCast_self]
  exact Ideal.ofBits_zero_f32

/-- One step of the second kernel's accumulator: the old value plus the basis block times the spectrum block. -/
theorem pay2_1 (v3 : Vec Ideal S1024x1024 .f32) (v5 v8 : Vec Ideal S1024x128 .f32) (r : Fin 1024) (j : Fin 128) :
    k1_pay2 v3 v5 v8 (ix2 r j) = v8 (ix2 r j) + ∑ s : Fin 1024, v3 (ix2 r s) * v5 (ix2 s j) := by
  unfold k1_pay2
  rw [shapeCast_self, shapeCast_self, addf_apply]
  refine congrArg (v8 (ix2 r j) + ·) ?_
  exact Cert.PlainMatmul.zero_acc_apply (a := 1024) (n := 1024) (b := 128) _ none _ _ r j

end Cert.KernelIdeal.Pay

end
-- ==== Proof.Val0.lean ====
/- The value of the first pipelined region at the ideal reals. For each of the eight column blocks of the basis the
   region walks the eight row blocks, adding one 1024-term partial product of Uᵀ X per step into an accumulator; after
   the eighth step the accumulator holds the whole 8192-term sum, and the gating epilogue of that row block of Uᵀ X is
   written to the matching row block of the result. Entry by entry this is the fused spectrum of the forward transform.
   Only 0 + x = x and the regrouping of a finite sum into consecutive blocks are used. -/
import proofs.«117335_j42545946034709_1_alg».proof.Proof.HandKernelIdeal.R0Frame
import proofs.«117335_j42545946034709_1_alg».proof.Proof.Spec
import proofs.«117335_j42545946034709_1_alg».proof.Proof.SpecLaws
import proofs.«117335_j42545946034709_1_alg».proof.Proof.Pay

set_option maxRecDepth 16384

noncomputable section

open scoped BigOperators

namespace Cert.KernelIdeal.Val0

open Cert.KernelIdeal Cert.KernelIdeal.Gen Idealize.ShloMosaic ValueIdx
open Idealize.ShloMosaic.TcCoe Idealize.SL.Sem
open Idealize.ShloMosaic.Pipeline (Dat)
open Cert.KernelIdeal.Hand

variable (V : (c : Dev nD) → (b : Ref sig .tc) → Buf (Elt Ideal) ((c : Thread nD τ).loc b)) (c : Dev nD)

/-! ## The grid and the index maps -/

theorem pt_lt (t : Fin cfg0.N) : t.val < 64 := lt_of_lt_of_eq t.isLt (show cfg0.N = 64 from N_0)
theorem pt_bound {m k : ℕ} (hm : m < 8) (hk : k < 8) : m * 8 + k < cfg0.N := by
  rw [show cfg0.N = 64 from N_0]; omega

/-- Point t = 8·m + k: the basis window sits at block (k, m), the feature window at block (k, 0), the four weight
    windows at block (0, 0), the result window at block (m, 0). -/
theorem idx_u : ∀ t : Fin cfg0.N, win0_0.index t (0 : Fin 2) = t.val % 8 ∧ win0_0.index t (1 : Fin 2) = t.val / 8 :=
  (by decide +kernel : ∀ t : Fin grid0.N, win0_0.index t (0 : Fin 2) = t.val % 8 ∧ win0_0.index t (1 : Fin 2) = t.val / 8)
theorem idx_x : ∀ t : Fin cfg0.N, win0_1.index t (0 : Fin 2) = t.val % 8 ∧ win0_1.index t (1 : Fin 2) = 0 :=
  (by decide +kernel : ∀ t : Fin grid0.N, win0_1.index t (0 : Fin 2) = t.val % 8 ∧ win0_1.index t (1 : Fin 2) = 0)
theorem idx_w1 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx_b1 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx_w2 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem idx_b2 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem idx_o : ∀ t : Fin cfg0.N, win0_6.index t (0 : Fin 2) = t.val / 8 ∧ win0_6.index t (1 : Fin 2) = 0 :=
  (by decide +kernel : ∀ t : Fin grid0.N, win0_6.index t (0 : Fin 2) = t.val / 8 ∧ win0_6.index t (1 : Fin 2) = 0)

/-! ## The arrays as plain matrices -/

abbrev Umat : Fin 8192 → Fin 8192 → EReal := fun r i => V c main_arg3 (ix2 r i)
abbrev Xmat : Fin 8192 → Fin 256 → EReal := fun r j => V c main_v0 (ix2 r j)

/-- The result the region is to leave: the fused spectrum of the forward transform. -/
abbrev Sfun : Fin 8192 → Fin 128 → EReal :=
  Cert.Spec.fused (Cert.Spec.gft (fun r i => V c main_arg3 (ix2 r i)) (fun r j => V c main_v0 (ix2 r j)))
    (fun k j => V c main_arg4 (ix2 k j)) (fun j => V c main_v1 (ix2 (0 : Fin 1) j)) (fun k j => V c main_arg6 (ix2 k j)) (fun j => V c main_v2 (ix2 (0 : Fin 1) j))

/-! ## The windows' blocks, entry by entry -/

/-- At point 8·m + k the basis block holds rows k·1024.. and columns m·1024.. of the basis. -/
theorem blk_u (t : Fin cfg0.N) (k m : ℕ) (hk : t.val % 8 = k) (hm : t.val / 8 = m) (s r : Fin 1024)
    (h1 : k * 1024 + s.val < 8192) (h2 : m * 1024 + r.val < 8192) :
    (iblk0 V c 0 t : Vec Ideal S1024x1024 .f32) (ix2 s r) = Umat V c ⟨k * 1024 + s.val, h1⟩ ⟨m * 1024 + r.val, h2⟩ := by
  subst hk hm
  obtain ⟨e0, e1⟩ := idx_u t
  unfold iblk0
  rw [View.read_apply]
  show V c main_arg3 _ = V c main_arg3 _
  congr 1
  funext a; apply Fin.ext
  match a with
  | ⟨0, _⟩ => show win0_0.index t (0 : Fin 2) * 1024 + 1 * s.val = t.val % 8 * 1024 + s.val; rw [e0]; omega
  | ⟨1, _⟩ => show win0_0.index t (1 : Fin 2) * 1024 + 1 * r.val = t.val / 8 * 1024 + r.val; rw [e1]; omega

/-- and the feature block rows k·1024.. of the concatenated features. -/
theorem blk_x (t : Fin cfg0.N) (k : ℕ) (hk : t.val % 8 = k) (s : Fin 1024) (j : Fin 256) (h1 : k * 1024 + s.val < 8192) :
    (iblk0 V c 1 t : Vec Ideal S1024x256 .f32) (ix2 s j) = Xmat V c ⟨k * 1024 + s.val, h1⟩ j := by
  subst hk
  obtain ⟨e0, e1⟩ := idx_x t
  unfold iblk0
  rw [View.read_apply]
  show V c main_v0 _ = V c main_v0 _
  congr 1
  funext a; apply Fin.ext
  match a with
  | ⟨0, _⟩ => show win0_1.index t (0 : Fin 2) * 1024 + 1 * s.val = t.val % 8 * 1024 + s.val; rw [e0]; omega
  | ⟨1, _⟩ => show win0_1.index t (1 : Fin 2) * 256 + 1 * j.val = j.val; rw [e1]; omega

theorem blk_w1 (t : Fin cfg0.N) (a : Fin 256) (b : Fin 128) :
    (iblk0 V c 2 t : Vec Ideal S256x128 .f32) (ix2 a b) = V c main_arg4 (ix2 a b) := by
  obtain ⟨e0, e1⟩ := idx_w1 t
  unfold iblk0
  rw [View.read_apply]
  show V c main_arg4 _ = V c main_arg4 _
  congr 1
  funext d; apply Fin.ext
  match d with
  | ⟨0, _⟩ => show win0_2.index t (0 : Fin 2) * 256 + 1 * a.val = a.val; rw [e0]; omega
  | ⟨1, _⟩ => show win0_2.index t (1 : Fin 2) * 128 + 1 * b.val = b.val; rw [e1]; omega

theorem blk_b1 (t : Fin cfg0.N) (a : Fin 1) (b : Fin 128) :
    (iblk0 V c 3 t : Vec Ideal S1x128 .f32) (ix2 a b) = V c main_v1 (ix2 a b) := by
  obtain ⟨e0, e1⟩ := idx_b1 t
  unfold iblk0
  rw [View.read_apply]
  show V c main_v1 _ = V c main_v1 _
  congr 1
  funext d; apply Fin.ext
  match d with
  | ⟨0, _⟩ => show win0_3.index t (0 : Fin 2) * 1 + 1 * a.val = a.val; rw [e0]; omega
  | ⟨1, _⟩ => show win0_3.index t (1 : Fin 2) * 128 + 1 * b.val = b.val; rw [e1]; omega

theorem blk_w2 (t : Fin cfg0.N) (a : Fin 128) (b : Fin 128) :
    (iblk0 V c 4 t : Vec Ideal S128x128 .f32) (ix2 a b) = V c main_arg6 (ix2 a b) := by
  obtain ⟨e0, e1⟩ := idx_w2 t
  unfold iblk0
  rw [View.read_apply]
  show V c main_arg6 _ = V c main_arg6 _
  congr 1
  funext d; apply Fin.ext
  match d with
  | ⟨0, _⟩ => show win0_4.index t (0 : Fin 2) * 128 + 1 * a.val = a.val; rw [e0]; omega
  | ⟨1, _⟩ => show win0_4.index t (1 : Fin 2) * 128 + 1 * b.val = b.val; rw [e1]; omega

theorem blk_b2 (t : Fin cfg0.N) (a : Fin 1) (b : Fin 128) :
    (iblk0 V c 5 t : Vec Ideal S1x128 .f32) (ix2 a b) = V c main_v2 (ix2 a b) := by
  obtain ⟨e0, e1⟩ := idx_b2 t
  unfold iblk0
  rw [View.read_apply]
  show V c main_v2 _ = V c main_v2 _
  congr 1
  funext d; apply Fin.ext
  match d with
  | ⟨0, _⟩ => show win0_5.index t (0 : Fin 2) * 1 + 1 * a.val = a.val; rw [e0]; omega
  | ⟨1, _⟩ => show win0_5.index t (1 : Fin 2) * 128 + 1 * b.val = b.val; rw [e1]; omega

/-! ## The accumulator, step by step -/

theorem outsAt0_idx (n n' : ℕ) (e : n = n') (h : n < cfg0.N) (h' : n' < cfg0.N) : outsAt0 V c n h = outsAt0 V c n' h' := by
  subst e; rfl

/-- The 1024-term partial product of row block k at entry (m·1024 + r, j) of Uᵀ X. -/
def part (m : ℕ) (hm : m < 8) (r : Fin 1024) (j : Fin 256) (k : ℕ) : EReal :=
  if hk : k < 8 then ∑ s : Fin 1024, Umat V c ⟨k * 1024 + s.val, by have := s.isLt; omega⟩ ⟨m * 1024 + r.val, by have := r.isLt; omega⟩
      * Xmat V c ⟨k * 1024 + s.val, by have := s.isLt; omega⟩ j
  else 0

/-- Entry (r, j) of the accumulator after point 8·m + k. -/
def accv (m : ℕ) (hm : m < 8) (r : Fin 1024) (j : Fin 256) (k : ℕ) : EReal :=
  if hk : k < 8 then (outsAt0 V c (m * 8 + k) (pt_bound hm hk)).2 (ix2 r j) else 0

theorem part_of_lt (m : ℕ) (hm : m < 8) (r : Fin 1024) (j : Fin 256) (k : ℕ) (hk : k < 8) :
    part V c m hm r j k = ∑ s : Fin 1024, Umat V c ⟨k * 1024 + s.val, by have := s.isLt; omega⟩ ⟨m * 1024 + r.val, by have := r.isLt; omega⟩
      * Xmat V c ⟨k * 1024 + s.val, by have := s.isLt; omega⟩ j := dif_pos hk
theorem accv_of_lt (m : ℕ) (hm : m < 8) (r : Fin 1024) (j : Fin 256) (k : ℕ) (hk : k < 8) :
    accv V c m hm r j k = (outsAt0 V c (m * 8 + k) (pt_bound hm hk)).2 (ix2 r j) := dif_pos hk

/-- The first step of a column block: zero plus the first partial product. -/
theorem acc_first (m : ℕ) (hm : m < 8) (r : Fin 1024) (j : Fin 256) :
    accv V c m hm r j 0 = 0 + part V c m hm r j 0 := by
  rw [accv_of_lt V c m hm r j 0 (by norm_num), part_of_lt V c m hm r j 0 (by norm_num)]
  have h0 : (⟨m * 8 + 0, pt_bound hm (by norm_num)⟩ : Fin cfg0.N).val % 8 = 0 := by show (m * 8 + 0) % 8 = 0; omega
  refine (congrFun (scratch0_first V c ⟨m * 8 + 0, pt_bound hm (by norm_num)⟩ h0) (ix2 r j)).trans ?_
  refine (Pay.pay2_0 (iblk0 V c 0 ⟨m * 8 + 0, pt_bound hm (by norm_num)⟩) (iblk0 V c 1 ⟨m * 8 + 0, pt_bound hm (by norm_num)⟩) (k0_pay1 (F := Ideal)) r j).trans ?_
  refine congrArg₂ (· + ·) (Pay.pay1_0 r j) (Finset.sum_congr rfl fun s _ => ?_)
  exact congrArg₂ (· * ·)
    (blk_u V c ⟨m * 8 + 0, pt_bound hm (by norm_num)⟩ 0 m h0 (by show (m * 8 + 0) / 8 = m; omega) s r _ _)
    (blk_x V c ⟨m * 8 + 0, pt_bound hm (by norm_num)⟩ 0 h0 s j _)

/-- Every later step adds the next partial product to what the step before left. -/
theorem acc_step (m : ℕ) (hm : m < 8) (r : Fin 1024) (j : Fin 256) (k : ℕ) (hk : k < 7) :
    accv V c m hm r j (k + 1) = accv V c m hm r j k + part V c m hm r j (k + 1) := by
  have hk1 : k + 1 < 8 := by omega
  have hk0 : k < 8 := by omega
  rw [accv_of_lt V c m hm r j (k + 1) hk1, accv_of_lt V c m hm r j k hk0, part_of_lt V c m hm r j (k + 1) hk1]
  have hmod : (⟨m * 8 + (k + 1), pt_bound hm hk1⟩ : Fin cfg0.N).val % 8 = k + 1 := by show (m * 8 + (k + 1)) % 8 = k + 1; omega
  have hne : (⟨m * 8 + (k + 1), pt_bound hm hk1⟩ : Fin cfg0.N).val % 8 ≠ 0 := by rw [hmod]; omega
  refine (congrFun (scratch0_step V c ⟨m * 8 + (k + 1), pt_bound hm hk1⟩ hne) (ix2 r j)).trans ?_
  refine (Pay.pay2_0 (iblk0 V c 0 ⟨m * 8 + (k + 1), pt_bound hm hk1⟩) (iblk0 V c 1 ⟨m * 8 + (k + 1), pt_bound hm hk1⟩)
    (outsAt0 V c ((⟨m * 8 + (k + 1), pt_bound hm hk1⟩ : Fin cfg0.N).val - 1) (Nat.lt_of_le_of_lt (Nat.sub_le _ _) (pt_bound hm hk1))).2 r j).trans ?_
  refine congrArg₂ (· + ·) ?_ (Finset.sum_congr rfl fun s _ => ?_)
  · exact congrFun (congrArg Prod.snd (outsAt0_idx V c _ _ (by show m * 8 + (k + 1) - 1 = m * 8 + k; omega) _ _)) (ix2 r j)
  · exact congrArg₂ (· * ·)
      (blk_u V c ⟨m * 8 + (k + 1), pt_bound hm hk1⟩ (k + 1) m hmod (by show (m * 8 + (k + 1)) / 8 = m; omega) s r _ _)
      (blk_x V c ⟨m * 8 + (k + 1), pt_bound hm hk1⟩ (k + 1) hmod s j _)

/-- After the eighth step the accumulator holds the whole 8192-term sum: the forward transform's entry. -/
theorem acc_full (m : ℕ) (hm : m < 8) (r : Fin 1024) (j : Fin 256) :
    (outsAt0 V c (m * 8 + 7) (pt_bound hm (by norm_num))).2 (ix2 r j)
      = Cert.Spec.gft (Umat V c) (Xmat V c) ⟨m * 1024 + r.val, by have := r.isLt; omega⟩ j := by
  have h := Cert.Spec.acc_total (part V c m hm r j) (accv V c m hm r j) (acc_first V c m hm r j) (acc_step V c m hm r j)
  rw [accv_of_lt V c m hm r j 7 (by norm_num)] at h
  refine h.trans ?_
  unfold Cert.Spec.gft
  rw [Cert.Spec.sum_8_blocks]
  exact Finset.sum_congr rfl fun k _ => part_of_lt V c m hm r j k.val k.isLt

/-! ## The output block at the last step of a column block -/

/-- At point 8·m + 7 the output block holds, entry by entry, the fused spectrum's rows m·1024.. . -/
theorem out_entry (m : ℕ) (hm : m < 8) (r : Fin 1024) (j : Fin 128) :
    (outsAt0 V c (m * 8 + 7) (pt_bound hm (by norm_num))).1 (ix2 r j)
      = Sfun V c ⟨m * 1024 + r.val, by have := r.isLt; omega⟩ j := by
  have h7 : (⟨m * 8 + 7, pt_bound hm (by norm_num)⟩ : Fin cfg0.N).val % 8 = 7 := by show (m * 8 + 7) % 8 = 7; omega
  refine (congrFun (out0_last V c ⟨m * 8 + 7, pt_bound hm (by norm_num)⟩ h7) (ix2 r j)).trans ?_
  refine (Pay.pay3_0 (outsAt0 V c (m * 8 + 7) (pt_bound hm (by norm_num))).2
    (iblk0 V c 2 ⟨m * 8 + 7, pt_bound hm (by norm_num)⟩) (iblk0 V c 3 ⟨m * 8 + 7, pt_bound hm (by norm_num)⟩)
    (iblk0 V c 4 ⟨m * 8 + 7, pt_bound hm (by norm_num)⟩) (iblk0 V c 5 ⟨m * 8 + 7, pt_bound hm (by norm_num)⟩) r j).trans ?_
  unfold Sfun Cert.Spec.fused Cert.Spec.gate Cert.Spec.hidden
  refine congrArg₂ (· + ·) (acc_full V c m hm r (Cert.Spec.lo j)) (congrArg₂ (· * ·) (congrArg Ideal.logistic ?_) (acc_full V c m hm r (Cert.Spec.hi j)))
  refine congrArg₂ (· + ·) (Finset.sum_congr rfl fun k _ => ?_) (blk_b2 V c _ 0 j)
  refine congrArg₂ (· * ·) (congrArg (max · 0) ?_) (blk_w2 V c _ k j)
  refine congrArg₂ (· + ·) (Finset.sum_congr rfl fun k' _ => ?_) (blk_b1 V c _ 0 k)
  exact congrArg₂ (· * ·) (acc_full V c m hm r k') (blk_w1 V c _ k' k)

/-! ## From the blocks to the array -/

/-- The result as contents of the result array. -/
abbrev Gfun : (⟨2, ![8192, 128]⟩ : Shape).Idx → EReal := fun i => Sfun V c ⟨(i 0).val, idx2_lt0 i⟩ ⟨(i 1).val, idx2_lt1 i⟩

/-- What a point with k = 7 writes back is its block of the result. -/
theorem flushed_eq (t : Fin cfg0.N) (hf : (cfg0.win 6).flush t = true) :
    (dat0 V c).flushed 6 t = ((cfg0.win 6).blk t).view.read (Elt Ideal) (Gfun V c) := by
  have h7 : t.val % 8 = 7 := (flush0_6 t).mp hf
  have hm : t.val / 8 < 8 := by have := pt_lt t; omega
  have ht : t.val = t.val / 8 * 8 + 7 := by omega
  obtain ⟨e0, e1⟩ := idx_o t
  show (cfg0.win 6).cut (grid0.coords t) ((dat0 V c).after 6 t) = _
  rw [after0_6]
  show ((outsAt0 V c t.val t.isLt).1 : Vec Ideal S1024x128 .f32) = _
  funext y
  rw [View.read_apply]
  show (outsAt0 V c t.val t.isLt).1 y = Gfun V c (((cfg0.win 6).blk t).view.emb y)
  obtain ⟨r, j, rfl⟩ : ∃ (r : Fin 1024) (j : Fin 128), y = ix2 r j := ⟨y 0, y 1, eq_ix2 y⟩
  refine ((congrFun (congrArg Prod.fst (outsAt0_idx V c t.val (t.val / 8 * 8 + 7) ht t.isLt (pt_bound hm (by norm_num)))) (ix2 r j)).trans
    (out_entry V c (t.val / 8) hm r j)).trans ?_
  refine congrArg₂ (Sfun V c) (Fin.ext ?_) (Fin.ext ?_)
  · show t.val / 8 * 1024 + r.val = win0_6.index t (0 : Fin 2) * 1024 + 1 * r.val; rw [e0]; omega
  · show j.val = win0_6.index t (1 : Fin 2) * 128 + 1 * j.val; rw [e1]; omega

/-- An index of the result array lies in point t's block iff each coordinate lies in the block's range. -/
theorem mem_blk_o (t : Fin cfg0.N) (i : S8192x128.Idx) :
    i ∈ ((cfg0.win 6).blk t).view.set ↔ ∀ a : Fin 2, win0_6.index t a * S1024x128.size a ≤ (i a).val ∧ (i a).val < win0_6.index t a * S1024x128.size a + S1024x128.size a := by
  show i ∈ ((View.whole main_v3).slice (win0_6.rect t)).set ↔ _
  rw [View.set_slice_whole, Rect.mem_set_unit]
  exact Iff.rfl

/-- Every row of the result lies in the block some point with k = 7 writes back: row p in that of point (p / 1024)·8 + 7. -/
theorem covered (i : S8192x128.Idx) : ∃ t : Fin cfg0.N, (cfg0.win 6).flush t = true ∧ i ∈ ((cfg0.win 6).blk t).view.set := by
  have hi0 : (i 0).val < 8192 := (i 0).isLt
  have hi1 : (i 1).val < 128 := (i 1).isLt
  have hm : (i 0).val / 1024 < 8 := by omega
  refine ⟨⟨(i 0).val / 1024 * 8 + 7, pt_bound hm (by norm_num)⟩, (flush0_6 _).mpr (by show ((i 0).val / 1024 * 8 + 7) % 8 = 7; omega), ?_⟩
  obtain ⟨e0, e1⟩ := idx_o ⟨(i 0).val / 1024 * 8 + 7, pt_bound hm (by norm_num)⟩
  have e0' : win0_6.index ⟨(i 0).val / 1024 * 8 + 7, pt_bound hm (by norm_num)⟩ (0 : Fin 2) = (i 0).val / 1024 := by
    rw [e0]; show ((i 0).val / 1024 * 8 + 7) / 8 = (i 0).val / 1024; omega
  rw [mem_blk_o]
  intro a
  match a with
  | ⟨0, _⟩ =>
    show win0_6.index _ (0 : Fin 2) * 1024 ≤ (i 0).val ∧ (i 0).val < win0_6.index _ (0 : Fin 2) * 1024 + 1024
    rw [e0']; omega
  | ⟨1, _⟩ =>
    show win0_6.index _ (1 : Fin 2) * 128 ≤ (i 1).val ∧ (i 1).val < win0_6.index _ (1 : Fin 2) * 128 + 128
    rw [e1]; omega

/-- The result array after the region. -/
theorem final0 (V : (c : Dev nD) → (b : Ref sig .tc) → Buf (Elt Ideal) ((c : Thread nD τ).loc b)) (c : Dev nD) (p : Fin 8192) (q : Fin 128) :
    (Cert.KernelIdeal.Hand.dat0 (F := Ideal) V c).arrAt 6 cfg0.N (ix2 p q)
      = Cert.Spec.fused (Cert.Spec.gft (fun r i => V c main_arg3 (ix2 r i)) (fun r j => V c main_v0 (ix2 r j)))
          (fun k j => V c main_arg4 (ix2 k j)) (fun j => V c main_v1 (ix2 (0 : Fin 1) j)) (fun k j => V c main_arg6 (ix2 k j)) (fun j => V c main_v2 (ix2 (0 : Fin 1) j)) p q :=
  congrFun ((dat0 V c).arrAt_eq_of_cover 6 (Gfun V c) (flushed_eq V c) (covered)) (ix2 p q)

end Cert.KernelIdeal.Val0

end
-- ==== Proof.Val1.lean ====
/-
  The value of the second matmul region on the extended reals.

  The region computes H = U · M block by block: for each of the eight row blocks of H it walks the eight column blocks
  of U (and the matching row blocks of M), adding one 1024-term partial product per step into an accumulator, and copies
  the accumulator to H's row block after the eighth step.  Here the accumulation is read entry by entry: after step k
  the accumulator holds the sum over the first k + 1 blocks; after the eighth step that is the whole 8192-term sum; the
  row blocks written back tile H.  Only 0 + x = x and the regrouping of a finite sum into consecutive blocks are used.
-/
import proofs.«117335_j42545946034709_1_alg».proof.Proof.HandKernelIdeal.R1Frame
import proofs.«117335_j42545946034709_1_alg».proof.Proof.Spec
import proofs.«117335_j42545946034709_1_alg».proof.Proof.SpecLaws
import proofs.«117335_j42545946034709_1_alg».proof.Proof.Pay

set_option maxRecDepth 16384

noncomputable section

open scoped BigOperators

namespace Cert.KernelIdeal.Val1

open Cert.KernelIdeal Cert.KernelIdeal.Gen Idealize.ShloMosaic ValueIdx
open Idealize.ShloMosaic.TcCoe Idealize.SL.Sem
open Idealize.ShloMosaic.Pipeline (Dat)
open Cert.KernelIdeal.Hand

variable (V : (c : Dev nD) → (b : Ref sig .tc) → Buf (Elt Ideal) ((c : Thread nD τ).loc b))

/-! ## Entries of the two operands, indexed by plain naturals -/

/-- Entry (a, b) of the basis as the region finds it (zero outside the array, where it is never read). -/
def uEnt (c : Dev nD) (a b : ℕ) : EReal :=
  if h : a < 8192 ∧ b < 8192 then V c main_arg3 (ix2 (⟨a, h.1⟩ : Fin 8192) (⟨b, h.2⟩ : Fin 8192)) else 0

/-- Entry (a, j) of the first region's result as this region finds it. -/
def mEnt (c : Dev nD) (a : ℕ) (j : Fin 128) : EReal :=
  if h : a < 8192 then V c main_v3 (ix2 (⟨a, h⟩ : Fin 8192) j) else 0

/-- The contribution of column block `k` of the basis to entry (a, j) of the product. -/
def part (c : Dev nD) (a : ℕ) (j : Fin 128) (k : ℕ) : EReal :=
  ∑ s : Fin 1024, uEnt V c a (k * 1024 + s.val) * mEnt V c (k * 1024 + s.val) j

/-! ## Where the windows sit -/

/-- The block indices of the three windows at point `t = 8 m + k`: the basis window is at block (m, k), the window on the
    first region's result at block (k, 0), the output window at block (m, 0). -/
theorem where1 : ∀ t : Fin cfg1.N,
    win1_0.index t (0 : Fin 2) = t.val / 8 ∧ win1_0.index t (1 : Fin 2) = t.val % 8
    ∧ win1_1.index t (0 : Fin 2) = t.val % 8 ∧ win1_1.index t (1 : Fin 2) = 0
    ∧ win1_2.index t (0 : Fin 2) = t.val / 8 ∧ win1_2.index t (1 : Fin 2) = 0 :=
  (by decide +kernel : ∀ t : Fin grid1.N, _)

set_option maxHeartbeats 2000000 in
/-- The basis block at point `t`, entry by entry. -/
theorem blkU_apply (c : Dev nD) (t : Fin cfg1.N) (r s : Fin 1024) :
    iblk1 V c 0 t (ix2 r s) = uEnt V c (t.val / 8 * 1024 + r.val) (t.val % 8 * 1024 + s.val) := by
  obtain ⟨e0, e1, -, -, -, -⟩ := where1 t
  have hN : t.val < 64 := lt_of_lt_of_eq t.isLt (show cfg1.N = 64 from N_1)
  have ha : t.val / 8 * 1024 + r.val < 8192 := by have := r.isLt; omega
  have hb : t.val % 8 * 1024 + s.val < 8192 := by have := s.isLt; omega
  unfold uEnt; rw [dif_pos ⟨ha, hb⟩]
  unfold iblk1; rw [View.read_apply]
  show V c main_arg3 _ = V c main_arg3 _
  congr 1
  funext a; apply Fin.ext
  match a with
  | ⟨0, _⟩ => show win1_0.index t (0 : Fin 2) * 1024 + 1 * r.val = t.val / 8 * 1024 + r.val; rw [e0]; omega
  | ⟨1, _⟩ => show win1_0.index t (1 : Fin 2) * 1024 + 1 * s.val = t.val % 8 * 1024 + s.val; rw [e1]; omega

set_option maxHeartbeats 2000000 in
/-- The block of the first region's result at point `t`, entry by entry. -/
theorem blkM_apply (c : Dev nD) (t : Fin cfg1.N) (s : Fin 1024) (j : Fin 128) :
    iblk1 V c 1 t (ix2 s j) = mEnt V c (t.val % 8 * 1024 + s.val) j := by
  obtain ⟨-, -, e2, e3, -, -⟩ := where1 t
  have hN : t.val < 64 := lt_of_lt_of_eq t.isLt (show cfg1.N = 64 from N_1)
  have ha : t.val % 8 * 1024 + s.val < 8192 := by have := s.isLt; omega
  unfold mEnt; rw [dif_pos ha]
  unfold iblk1; rw [View.read_apply]
  show V c main_v3 _ = V c main_v3 _
  congr 1
  funext a; apply Fin.ext
  match a with
  | ⟨0, _⟩ => show win1_1.index t (0 : Fin 2) * 1024 + 1 * s.val = t.val % 8 * 1024 + s.val; rw [e2]; omega
  | ⟨1, _⟩ => show win1_1.index t (1 : Fin 2) * 128 + 1 * j.val = j.val; rw [e3]; omega

/-! ## The accumulator, entry by entry -/

/-- Entry (r, j) of the accumulator after position `n` of the grid. -/
def accAt (c : Dev nD) (n : ℕ) (r : Fin 1024) (j : Fin 128) : EReal :=
  if h : n < cfg1.N then (outsAt1 V c n h).2 (ix2 r j) else 0

set_option maxHeartbeats 4000000 in
/-- At the first step of a contraction the accumulator is zero plus the first block's contribution. -/
theorem accAt_first (c : Dev nD) (n : ℕ) (hn : n < cfg1.N) (h0 : n % 8 = 0) (r : Fin 1024) (j : Fin 128) :
    accAt V c n r j = 0 + part V c (n / 8 * 1024 + r.val) j (n % 8) := by
  unfold accAt; rw [dif_pos hn]
  have e := congrFun (scratch1_first V c ⟨n, hn⟩ h0) (ix2 r j)
  refine e.trans ((Pay.pay2_1 (iblk1 V c 0 ⟨n, hn⟩) (iblk1 V c 1 ⟨n, hn⟩) (k1_pay1 (F := Ideal)) r j).trans ?_)
  refine congrArg₂ (· + ·) (Pay.pay1_1 r j) (Finset.sum_congr rfl fun s _ => ?_)
  exact congrArg₂ (· * ·) (blkU_apply V c ⟨n, hn⟩ r s) (blkM_apply V c ⟨n, hn⟩ s j)

set_option maxHeartbeats 4000000 in
/-- At every later step it grows by that step's block's contribution. -/
theorem accAt_step (c : Dev nD) (n : ℕ) (hn : n < cfg1.N) (h0 : n % 8 ≠ 0) (r : Fin 1024) (j : Fin 128) :
    accAt V c n r j = accAt V c (n - 1) r j + part V c (n / 8 * 1024 + r.val) j (n % 8) := by
  have hp : n - 1 < cfg1.N := Nat.lt_of_le_of_lt (Nat.sub_le _ _) hn
  unfold accAt; rw [dif_pos hn, dif_pos hp]
  have e := congrFun (scratch1_step V c ⟨n, hn⟩ h0) (ix2 r j)
  refine e.trans ((Pay.pay2_1 (iblk1 V c 0 ⟨n, hn⟩) (iblk1 V c 1 ⟨n, hn⟩) (outsAt1 V c (n - 1) hp).2 r j).trans ?_)
  refine congrArg₂ (· + ·) rfl (Finset.sum_congr rfl fun s _ => ?_)
  exact congrArg₂ (· * ·) (blkU_apply V c ⟨n, hn⟩ r s) (blkM_apply V c ⟨n, hn⟩ s j)

/-- After the eighth step of the contraction for row block `mm` the accumulator holds all eight contributions. -/
theorem acc_full (c : Dev nD) (mm : Fin 8) (r : Fin 1024) (j : Fin 128) :
    accAt V c (mm.val * 8 + 7) r j = ∑ k : Fin 8, part V c (mm.val * 1024 + r.val) j k.val := by
  have hN : cfg1.N = 64 := N_1
  have hm : mm.val < 8 := mm.isLt
  refine Cert.Spec.acc_total (fun k => part V c (mm.val * 1024 + r.val) j k) (fun k => accAt V c (mm.val * 8 + k) r j) ?_ ?_
  · have h := accAt_first V c (mm.val * 8 + 0) (hN ▸ (by omega : mm.val * 8 + 0 < 64)) (by omega) r j
    rw [show (mm.val * 8 + 0) / 8 = mm.val from by omega, show (mm.val * 8 + 0) % 8 = 0 from by omega] at h
    exact h
  · intro k hk
    have h := accAt_step V c (mm.val * 8 + (k + 1)) (hN ▸ (by omega : mm.val * 8 + (k + 1) < 64)) (by omega) r j
    rw [show (mm.val * 8 + (k + 1)) / 8 = mm.val from by omega, show (mm.val * 8 + (k + 1)) % 8 = k + 1 from by omega,
      show mm.val * 8 + (k + 1) - 1 = mm.val * 8 + k from by omega] at h
    exact h

/-! ## The output block of a last step is a row block of the product -/

set_option maxHeartbeats 2000000 in
theorem out_entry (c : Dev nD) (t : Fin cfg1.N) (h7 : t.val % 8 = 7) (r : Fin 1024) (j : Fin 128)
    (hp : t.val / 8 * 1024 + r.val < 8192) :
    (outsAt1 V c t.val t.isLt).1 (ix2 r j)
      = Cert.Spec.igft (fun a b => V c main_arg3 (ix2 a b)) (fun a b => V c main_v3 (ix2 a b)) ⟨t.val / 8 * 1024 + r.val, hp⟩ j := by
  have hN : t.val < 64 := lt_of_lt_of_eq t.isLt (show cfg1.N = 64 from N_1)
  have e1 : (outsAt1 V c t.val t.isLt).1 (ix2 r j) = accAt V c t.val r j := by
    unfold accAt; rw [dif_pos t.isLt]
    exact congrFun (out1_last V c t h7) (ix2 r j)
  have e2 : accAt V c t.val r j = accAt V c ((⟨t.val / 8, by omega⟩ : Fin 8).val * 8 + 7) r j :=
    congrArg (fun n => accAt V c n r j) (show t.val = t.val / 8 * 8 + 7 from by omega)
  refine e1.trans (e2.trans ((acc_full V c ⟨t.val / 8, by omega⟩ r j).trans ?_))
  unfold Cert.Spec.igft
  rw [Cert.Spec.sum_8_blocks]
  refine Finset.sum_congr rfl fun k _ => ?_
  unfold part
  refine Finset.sum_congr rfl fun s _ => ?_
  have hk : k.val * 1024 + s.val < 8192 := by have := k.isLt; have := s.isLt; omega
  unfold uEnt mEnt
  rw [dif_pos ⟨hp, hk⟩, dif_pos hk]

/-! ## From the row blocks to the array -/

/-- The product, as contents of the region's result array. -/
def Gfn (c : Dev nD) : Buf (Elt Ideal) ((c : Thread nD τ).loc main_v4) :=
  fun i => Cert.Spec.igft (fun a b => V c main_arg3 (ix2 a b)) (fun a b => V c main_v3 (ix2 a b)) (i 0) (i 1)

set_option maxHeartbeats 2000000 in
/-- What a last step writes back is its row block of the product. -/
theorem flushed_eq (c : Dev nD) (t : Fin cfg1.N) (hf : (cfg1.win 2).flush t = true) :
    (dat1 V c).flushed 2 t = ((cfg1.win 2).blk t).view.read (Elt Ideal) (Gfn V c) := by
  have h7 : t.val % 8 = 7 := (flush1_2 t).mp hf
  have hN : t.val < 64 := lt_of_lt_of_eq t.isLt (show cfg1.N = 64 from N_1)
  obtain ⟨-, -, -, -, e4, e5⟩ := where1 t
  show (cfg1.win 2).cut (grid1.coords t) ((dat1 V c).after 2 t) = _
  rw [after1_2]
  funext y
  have hy0 : (y 0).val < 1024 := (y 0).isLt
  have hy1 : (y 1).val < 128 := (y 1).isLt
  have hp : t.val / 8 * 1024 + (y 0).val < 8192 := by omega
  have hy : (outsAt1 V c t.val t.isLt).1 y = (outsAt1 V c t.val t.isLt).1 (ix2 (⟨(y 0).val, hy0⟩ : Fin 1024) (⟨(y 1).val, hy1⟩ : Fin 128)) :=
    congrArg _ (funext fun a => match a with | ⟨0, _⟩ => rfl | ⟨1, _⟩ => rfl)
  refine hy.trans ((out_entry V c t h7 ⟨(y 0).val, hy0⟩ ⟨(y 1).val, hy1⟩ hp).trans ?_)
  rw [View.read_apply]
  unfold Gfn
  refine congrArg₂ (Cert.Spec.igft (fun a b => V c main_arg3 (ix2 a b)) (fun a b => V c main_v3 (ix2 a b))) (Fin.ext ?_) (Fin.ext ?_)
  · show t.val / 8 * 1024 + (y 0).val = win1_2.index t (0 : Fin 2) * 1024 + 1 * (y 0).val
    rw [e4]; omega
  · show (y 1).val = win1_2.index t (1 : Fin 2) * 128 + 1 * (y 1).val
    rw [e5]; omega

/-- An index of the result array lies in point `t`'s output block iff each coordinate lies in the block's range. -/
theorem mem_blk (t : Fin cfg1.N) (i : S8192x128.Idx) :
    i ∈ ((cfg1.win 2).blk t).view.set ↔ ∀ a : Fin 2, win1_2.index t a * S1024x128.size a ≤ (i a).val ∧ (i a).val < win1_2.index t a * S1024x128.size a + S1024x128.size a := by
  show i ∈ ((View.whole main_v4).slice (win1_2.rect t)).set ↔ _
  rw [View.set_slice_whole, Rect.mem_set_unit]
  exact Iff.rfl

/-- Every entry of the result array is written back by the last step of its row block's contraction. -/
theorem covered (i : S8192x128.Idx) :
    ∃ t : Fin cfg1.N, (cfg1.win 2).flush t = true ∧ i ∈ ((cfg1.win 2).blk t).view.set := by
  have hi0 : (i 0).val < 8192 := (i 0).isLt
  have hi1 : (i 1).val < 128 := (i 1).isLt
  have hN : cfg1.N = 64 := N_1
  have hlt : (i 0).val / 1024 * 8 + 7 < cfg1.N := hN ▸ (by omega : (i 0).val / 1024 * 8 + 7 < 64)
  refine ⟨⟨(i 0).val / 1024 * 8 + 7, hlt⟩, (flush1_2 _).mpr (by show ((i 0).val / 1024 * 8 + 7) % 8 = 7; omega), ?_⟩
  obtain ⟨-, -, -, -, e4, e5⟩ := where1 ⟨(i 0).val / 1024 * 8 + 7, hlt⟩
  have e4' : win1_2.index ⟨(i 0).val / 1024 * 8 + 7, hlt⟩ (0 : Fin 2) = ((i 0).val / 1024 * 8 + 7) / 8 := e4
  rw [mem_blk]
  intro a
  match a with
  | ⟨0, _⟩ =>
    show win1_2.index ⟨(i 0).val / 1024 * 8 + 7, hlt⟩ (0 : Fin 2) * 1024 ≤ (i 0).val ∧ (i 0).val < win1_2.index ⟨(i 0).val / 1024 * 8 + 7, hlt⟩ (0 : Fin 2) * 1024 + 1024
    rw [e4']; omega
  | ⟨1, _⟩ =>
    show win1_2.index ⟨(i 0).val / 1024 * 8 + 7, hlt⟩ (1 : Fin 2) * 128 ≤ (i 1).val ∧ (i 1).val < win1_2.index ⟨(i 0).val / 1024 * 8 + 7, hlt⟩ (1 : Fin 2) * 128 + 128
    rw [e5]; omega

/-- THE REGION'S RESULT ARRAY after the run is the product of the basis with the first region's result. -/
theorem final_array (c : Dev nD) : (dat1 V c).arrAt 2 cfg1.N = Gfn V c :=
  (dat1 V c).arrAt_eq_of_cover 2 (Gfn V c) (fun t hf => flushed_eq V c t hf) (fun i => covered i)

theorem final1 (V : (c : Dev nD) → (b : Ref sig .tc) → Buf (Elt Ideal) ((c : Thread nD τ).loc b)) (c : Dev nD) (p : Fin 8192) (q : Fin 128) :
    (Cert.KernelIdeal.Hand.dat1 (F := Ideal) V c).arrAt 2 cfg1.N (ix2 p q)
      = Cert.Spec.igft (fun i r => V c main_arg3 (ix2 i r)) (fun r j => V c main_v3 (ix2 r j)) p q := by
  exact (congrFun (final_array V c) (ix2 p q)).trans rfl

end Cert.KernelIdeal.Val1

end
-- ==== Proof.KernelFreq.lean ====
/-
  The kernel program's frequency path as a function of the launch contents.
  The forward-transform region leaves, in its result array, the fused spectrum of the joined feature matrix;
  the inverse-transform region, which reads that array and the basis, leaves the basis times it. Read at an entry
  (p, q) the second result is therefore the specification's whole frequency path of the seven argument arrays.
-/
import proofs.«117335_j42545946034709_1_alg».proof.Proof.HandKernelIdeal.Glue
import proofs.«117335_j42545946034709_1_alg».proof.Proof.HostPre
import proofs.«117335_j42545946034709_1_alg».proof.Proof.Val0
import proofs.«117335_j42545946034709_1_alg».proof.Proof.Val1
import proofs.«117335_j42545946034709_1_alg».proof.Proof.Spec
import proofs.«117335_j42545946034709_1_alg».proof.Proof.SpecLaws

noncomputable section

namespace Cert.KernelIdeal.Freq

open Cert.KernelIdeal Cert.KernelIdeal.Gen Cert.KernelIdeal.Hand
open Idealize.ShloMosaic Idealize.ShloMosaic.TcCoe Idealize.SL.Sem Idealize.ShloMosaic.ValueIdx

variable (m : (ℓ : Loc nD τ sig) → Buf (Elt Ideal) ℓ)

/-- The joined feature matrix the first region finds is the two argument matrices side by side. -/
theorem joined_fun (c : Dev nD) :
    (fun (r : Fin 8192) (j : Fin 256) => V1 m c main_v0 (ix2 r j))
      = Cert.Spec.xcat (fun r j => m ((c.tc : Thread nD τ).loc main_arg0) (ix2 r j)) (fun r j => m ((c.tc : Thread nD τ).loc main_arg1) (ix2 r j)) := by
  funext r j
  unfold Cert.Spec.xcat
  by_cases h : j.val < 128
  · rw [dif_pos h]; exact HostPre.joined_left m c r j h
  · rw [dif_neg h]; exact HostPre.joined_right m c r j h

/-- The first region's result array is the fused spectrum of the joined features. -/
theorem fused_result (c : Dev nD) (p : Fin 8192) (q : Fin 128) :
    outs m 2 main_v3 c (ix2 p q)
      = Cert.Spec.fused (Cert.Spec.gft (fun r i => m ((c.tc : Thread nD τ).loc main_arg3) (ix2 r i))
            (Cert.Spec.xcat (fun r j => m ((c.tc : Thread nD τ).loc main_arg0) (ix2 r j)) (fun r j => m ((c.tc : Thread nD τ).loc main_arg1) (ix2 r j))))
          (fun k j => m ((c.tc : Thread nD τ).loc main_arg4) (ix2 k j)) (fun j => m ((c.tc : Thread nD τ).loc main_arg5) (ix1 j))
          (fun k j => m ((c.tc : Thread nD τ).loc main_arg6) (ix2 k j)) (fun j => m ((c.tc : Thread nD τ).loc main_arg7) (ix1 j)) p q := by
  rw [res0_eq, Cert.KernelIdeal.Val0.final0 (entry0 m) c p q]
  show Cert.Spec.fused (Cert.Spec.gft (fun r i => V1 m c main_arg3 (ix2 r i)) (fun r j => V1 m c main_v0 (ix2 r j)))
      (fun k j => V1 m c main_arg4 (ix2 k j)) (fun j => V1 m c main_v1 (ix2 (0 : Fin 1) j))
      (fun k j => V1 m c main_arg6 (ix2 k j)) (fun j => V1 m c main_v2 (ix2 (0 : Fin 1) j)) p q = _
  rw [joined_fun, HostPre.arg3_eq, HostPre.arg4_eq, HostPre.arg6_eq]
  rw [show (fun j : Fin 128 => V1 m c main_v1 (ix2 (0 : Fin 1) j)) = (fun j => m ((c.tc : Thread nD τ).loc main_arg5) (ix1 j)) from funext (HostPre.row1_apply m c),
    show (fun j : Fin 128 => V1 m c main_v2 (ix2 (0 : Fin 1) j)) = (fun j => m ((c.tc : Thread nD τ).loc main_arg7) (ix1 j)) from funext (HostPre.row2_apply m c)]

/-- The second region finds the basis as launched and the first region's result. -/
theorem entry1_basis (c : Dev nD) : entry1 m c main_arg3 = m ((c.tc : Thread nD τ).loc main_arg3) :=
  (V2_of m (outsA m) c main_arg3 (by decide)).trans (V1_of m c main_arg3 (by decide))

theorem entry1_fused (c : Dev nD) : entry1 m c main_v3 = outs m 2 main_v3 c := by
  show Function.update (V1 m c) main_v3 (outsA m 2 main_v3 c) main_v3 = _
  rw [Function.update_self]; rfl

/-- The second region's result array is the specification's frequency path of the argument arrays. -/
theorem hfreq_result (c : Dev nD) (p : Fin 8192) (q : Fin 128) :
    outs m 3 main_v4 c (ix2 p q)
      = Cert.Spec.hfreq (fun i r => m ((c.tc : Thread nD τ).loc main_arg3) (ix2 i r))
          (fun r j => m ((c.tc : Thread nD τ).loc main_arg0) (ix2 r j)) (fun r j => m ((c.tc : Thread nD τ).loc main_arg1) (ix2 r j))
          (fun k j => m ((c.tc : Thread nD τ).loc main_arg4) (ix2 k j)) (fun j => m ((c.tc : Thread nD τ).loc main_arg5) (ix1 j))
          (fun k j => m ((c.tc : Thread nD τ).loc main_arg6) (ix2 k j)) (fun j => m ((c.tc : Thread nD τ).loc main_arg7) (ix1 j)) p q := by
  rw [res1_eq, Cert.KernelIdeal.Val1.final1 (entry1 m) c p q, entry1_basis, entry1_fused]
  unfold Cert.Spec.hfreq
  refine congrArg (fun mm => Cert.Spec.igft _ mm p q) ?_
  funext r j
  exact fused_result m c r j

end Cert.KernelIdeal.Freq

end
-- ==== Proof.TailDefs.lean ====
/-
  The host tail shared by the two programs: its composed term.

  After its frequency path the reference program runs the spatial path and the fusion: the slices of the edge index,
  two graph-convolution branches (self-loop iota, concatenate, degree by scatter-add, rsqrt under a positivity select,
  gathers, a feature scatter-add), tanh, exp, the node attention weight (a sigmoid written as negate / exp / add /
  divide), a concatenate, a matrix product and two adds. The kernel program runs the same operations, in the same
  order, after its two kernel regions. `refFreq` is the reference's frequency path as a function of the seven
  argument arrays it reads; `tailR` is the tail's composed term, over the reference program's shapes and dimension
  records, as a function of the eleven argument arrays the tail reads and of the frequency-path result `fr`.
-/
import proofs.«117335_j42545946034709_1_alg».proof.Proof.Gen.ReferenceIdeal
import Idealize.ShloMosaic.Lib.StableHlo.Run

noncomputable section

namespace Cert.Tail

open Idealize.ShloMosaic Idealize.ShloMosaic.TcCoe Idealize.SL.Sem Idealize.ShloMosaic.StableHlo
open Cert.ReferenceIdeal Cert.ReferenceIdeal.Gen

variable {F : FTy → Type} [FloatOps F]

/-- A two-operand `concatenate` may be rewritten in either operand: the side condition speaks of the operands' shapes
    only. (Stated as a congruence because the side condition's type mentions the operand list.) -/
theorem concat2_congr {α : Type} {t : Shape} {ax : Fin t.rank} {s1 s2 : Shape} {a a' : s1.Idx → α} {b b' : s2.Idx → α}
    (h : Shape.Concatenates [s1, s2] t ax) (ha : a = a') (hb : b = b') :
    concatenate t ax [⟨s1, a⟩, ⟨s2, b⟩] h = concatenate t ax [⟨s1, a'⟩, ⟨s2, b'⟩] h := by subst ha hb; rfl

/-- The reference's frequency path as a function of the seven argument arrays it reads:
    `U · (xf + gate ⊙ xg)` with `xf = Uᵀ·x0`, `xg = Uᵀ·x1` and `gate` the sigmoid of the two-layer perceptron of
    `[xf | xg]`. -/
def refFreq (x0 : (⟨S8192x128, .f32⟩ : BufTy).Contents (Elt F)) (x1 : (⟨S8192x128, .f32⟩ : BufTy).Contents (Elt F)) (x3 : (⟨S8192x8192, .f32⟩ : BufTy).Contents (Elt F)) (x4 : (⟨S256x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) : (⟨S8192x128, .f32⟩ : BufTy).Contents (Elt F) :=
  (Host.dotGeneral dot_S8192x8192_S8192x128_S8192x128_1_0_0_1_n_n none x3 (addf (Host.dotGeneral dot_S8192x8192_S8192x128_S8192x128_1_0_0_1_n_n none (transpose S8192x8192 [1, 0] x3 transposes_S8192x8192_S8192x8192_1_0) x0) (mulf (Host.divf (broadcastInDim S8192x128 ![] bcast_S_S8192x128 (constant S_ .f32 0x3F800000#32)) (addf (broadcastInDim S8192x128 ![] bcast_S_S8192x128 (constant S_ .f32 0x3F800000#32)) (Host.exp (Host.negf (addf (Host.dotGeneral dot_S8192x128_S128x128_S8192x128_1_0_0_1_n_n none (maximumf (addf (Host.dotGeneral dot_S8192x256_S256x128_S8192x128_1_0_0_1_n_n none (concatenate S8192x256 1 [⟨S8192x128, (Host.dotGeneral dot_S8192x8192_S8192x128_S8192x128_1_0_0_1_n_n none (transpose S8192x8192 [1, 0] x3 transposes_S8192x8192_S8192x8192_1_0) x0)⟩, ⟨S8192x128, (Host.dotGeneral dot_S8192x8192_S8192x128_S8192x128_1_0_0_1_n_n none (transpose S8192x8192 [1, 0] x3 transposes_S8192x8192_S8192x8192_1_0) x1)⟩] concatenates_S8192x128_S8192x128_S8192x256_d1) x4) (broadcastInDim S8192x128 ![0, 1] bcast_S1x128_S8192x128_0_1 (broadcastInDim S1x128 ![1] bcast_S128_S1x128_1 x5))) (broadcastInDim S8192x128 ![] bcast_S_S8192x128 (constant S_ .f32 0x00000000#32))) x6) (broadcastInDim S8192x128 ![0, 1] bcast_S1x128_S8192x128_0_1 (broadcastInDim S1x128 ![1] bcast_S128_S1x128_1 x7))))))) (Host.dotGeneral dot_S8192x8192_S8192x128_S8192x128_1_0_0_1_n_n none (transpose S8192x8192 [1, 0] x3 transposes_S8192x8192_S8192x8192_1_0) x1))))

set_option maxRecDepth 8192 in
/-- The tail's composed term over the reference program's shapes and records. -/
def tailR (x0 : (⟨S8192x128, .f32⟩ : BufTy).Contents (Elt F)) (x1 : (⟨S8192x128, .f32⟩ : BufTy).Contents (Elt F)) (x2 : (⟨S2x262144, .i32⟩ : BufTy).Contents (Elt F)) (x8 : (⟨S128x128, .f32⟩ : BufTy).Contents (Elt F)) (x9 : (⟨S128, .f32⟩ : BufTy).Contents (Elt F)) (x10 : (⟨S128x128, .f32⟩ : BufTy).Contents (Elt F)) (x11 : (⟨S128, .f32⟩ : BufTy).Contents (Elt F)) (x12 : (⟨S128x1, .f32⟩ : BufTy).Contents (Elt F)) (x13 : (⟨S1, .f32⟩ : BufTy).Contents (Elt F)) (x14 : (⟨S256x128, .f32⟩ : BufTy).Contents (Elt F)) (x15 : (⟨S128, .f32⟩ : BufTy).Contents (Elt F)) (fr : (⟨S8192x128, .f32⟩ : BufTy).Contents (Elt F)) : (⟨S8192x128, .f32⟩ : BufTy).Contents (Elt F) :=
  addf (addf (Host.dotGeneral dot_S8192x256_S256x128_S8192x128_1_0_0_1_n_n none (concatenate S8192x256 1 [⟨S8192x128, (addf (addf (mulf x0 (Host.exp (Host.tanh (addf (Host.scatterAdd scatter_S8192x128_S270336x1_S270336x128_1_0_0_1 (broadcastInDim S8192x128 ![] bcast_S_S8192x128 (constant S_ .f32 0x00000000#32)) (broadcastInDim S270336x1 ![0] bcast_S270336_S270336x1_0 (concatenate S270336 0 [⟨S262144, (shapeCast _ (extractStridedSlice S1x262144 ![1, 0] x2 slices_S2x262144_S1x262144_1_0) shapeCasts_S1x262144_S262144)⟩, ⟨S8192, (iotaInDim S8192 32 0)⟩] concatenates_S262144_S8192_S270336_d0)) (mulf (Host.gather gather_S8192x128_S270336x1_S270336x128_1_0_n_n_0_1_1128 (Host.dotGeneral dot_S8192x128_S128x128_S8192x128_1_0_0_1_n_n none x1 x8) (broadcastInDim S270336x1 ![0] bcast_S270336_S270336x1_0 (select (cmpi .slt (concatenate S270336 0 [⟨S262144, (shapeCast _ (extractStridedSlice S1x262144 ![0, 0] x2 slices_S2x262144_S1x262144_0_0) shapeCasts_S1x262144_S262144)⟩, ⟨S8192, (iotaInDim S8192 32 0)⟩] concatenates_S262144_S8192_S270336_d0) (broadcastInDim S270336 ![] bcast_S_S270336 (constantI S_ 32 0#32))) (addi (concatenate S270336 0 [⟨S262144, (shapeCast _ (extractStridedSlice S1x262144 ![0, 0] x2 slices_S2x262144_S1x262144_0_0) shapeCasts_S1x262144_S262144)⟩, ⟨S8192, (iotaInDim S8192 32 0)⟩] concatenates_S262144_S8192_S270336_d0) (broadcastInDim S270336 ![] bcast_S_S270336 (constantI S_ 32 8192#32))) (concatenate S270336 0 [⟨S262144, (shapeCast _ (extractStridedSlice S1x262144 ![0, 0] x2 slices_S2x262144_S1x262144_0_0) shapeCasts_S1x262144_S262144)⟩, ⟨S8192, (iotaInDim S8192 32 0)⟩] concatenates_S262144_S8192_S270336_d0)))) (broadcastInDim S270336x128 ![0, 1] bcast_S270336x1_S270336x128_0_1 (broadcastInDim S270336x1 ![0] bcast_S270336_S270336x1_0 (mulf (Host.gather gather_S8192_S270336x1_S270336_n_0_n_n_0_1_1 (select (cmpf (F := F) .ogt (Host.scatterAdd scatter_S8192_S270336x1_S270336_n_0_0_1 (broadcastInDim S8192 ![] bcast_S_S8192 (constant S_ .f32 0x00000000#32)) (broadcastInDim S270336x1 ![0] bcast_S270336_S270336x1_0 (concatenate S270336 0 [⟨S262144, (shapeCast _ (extractStridedSlice S1x262144 ![1, 0] x2 slices_S2x262144_S1x262144_1_0) shapeCasts_S1x262144_S262144)⟩, ⟨S8192, (iotaInDim S8192 32 0)⟩] concatenates_S262144_S8192_S270336_d0)) (broadcastInDim S270336 ![] bcast_S_S270336 (constant S_ .f32 0x3F800000#32))) (broadcastInDim S8192 ![] bcast_S_S8192 (constant S_ .f32 0x00000000#32))) (Host.rsqrt (Host.scatterAdd scatter_S8192_S270336x1_S270336_n_0_0_1 (broadcastInDim S8192 ![] bcast_S_S8192 (constant S_ .f32 0x00000000#32)) (broadcastInDim S270336x1 ![0] bcast_S270336_S270336x1_0 (concatenate S270336 0 [⟨S262144, (shapeCast _ (extractStridedSlice S1x262144 ![1, 0] x2 slices_S2x262144_S1x262144_1_0) shapeCasts_S1x262144_S262144)⟩, ⟨S8192, (iotaInDim S8192 32 0)⟩] concatenates_S262144_S8192_S270336_d0)) (broadcastInDim S270336 ![] bcast_S_S270336 (constant S_ .f32 0x3F800000#32)))) (broadcastInDim S8192 ![] bcast_S_S8192 (id (constant S_ .f32 0x00000000#32)))) (broadcastInDim S270336x1 ![0] bcast_S270336_S270336x1_0 (select (cmpi .slt (concatenate S270336 0 [⟨S262144, (shapeCast _ (extractStridedSlice S1x262144 ![0, 0] x2 slices_S2x262144_S1x262144_0_0) shapeCasts_S1x262144_S262144)⟩, ⟨S8192, (iotaInDim S8192 32 0)⟩] concatenates_S262144_S8192_S270336_d0) (broadcastInDim S270336 ![] bcast_S_S270336 (constantI S_ 32 0#32))) (addi (concatenate S270336 0 [⟨S262144, (shapeCast _ (extractStridedSlice S1x262144 ![0, 0] x2 slices_S2x262144_S1x262144_0_0) shapeCasts_S1x262144_S262144)⟩, ⟨S8192, (iotaInDim S8192 32 0)⟩] concatenates_S262144_S8192_S270336_d0) (broadcastInDim S270336 ![] bcast_S_S270336 (constantI S_ 32 8192#32))) (concatenate S270336 0 [⟨S262144, (shapeCast _ (extractStridedSlice S1x262144 ![0, 0] x2 slices_S2x262144_S1x262144_0_0) shapeCasts_S1x262144_S262144)⟩, ⟨S8192, (iotaInDim S8192 32 0)⟩] concatenates_S262144_S8192_S270336_d0)))) (Host.gather gather_S8192_S270336x1_S270336_n_0_n_n_0_1_1 (select (cmpf (F := F) .ogt (Host.scatterAdd scatter_S8192_S270336x1_S270336_n_0_0_1 (broadcastInDim S8192 ![] bcast_S_S8192 (constant S_ .f32 0x00000000#32)) (broadcastInDim S270336x1 ![0] bcast_S270336_S270336x1_0 (concatenate S270336 0 [⟨S262144, (shapeCast _ (extractStridedSlice S1x262144 ![1, 0] x2 slices_S2x262144_S1x262144_1_0) shapeCasts_S1x262144_S262144)⟩, ⟨S8192, (iotaInDim S8192 32 0)⟩] concatenates_S262144_S8192_S270336_d0)) (broadcastInDim S270336 ![] bcast_S_S270336 (constant S_ .f32 0x3F800000#32))) (broadcastInDim S8192 ![] bcast_S_S8192 (constant S_ .f32 0x00000000#32))) (Host.rsqrt (Host.scatterAdd scatter_S8192_S270336x1_S270336_n_0_0_1 (broadcastInDim S8192 ![] bcast_S_S8192 (constant S_ .f32 0x00000000#32)) (broadcastInDim S270336x1 ![0] bcast_S270336_S270336x1_0 (concatenate S270336 0 [⟨S262144, (shapeCast _ (extractStridedSlice S1x262144 ![1, 0] x2 slices_S2x262144_S1x262144_1_0) shapeCasts_S1x262144_S262144)⟩, ⟨S8192, (iotaInDim S8192 32 0)⟩] concatenates_S262144_S8192_S270336_d0)) (broadcastInDim S270336 ![] bcast_S_S270336 (constant S_ .f32 0x3F800000#32)))) (broadcastInDim S8192 ![] bcast_S_S8192 (id (constant S_ .f32 0x00000000#32)))) (broadcastInDim S270336x1 ![0] bcast_S270336_S270336x1_0 (select (cmpi .slt (concatenate S270336 0 [⟨S262144, (shapeCast _ (extractStridedSlice S1x262144 ![1, 0] x2 slices_S2x262144_S1x262144_1_0) shapeCasts_S1x262144_S262144)⟩, ⟨S8192, (iotaInDim S8192 32 0)⟩] concatenates_S262144_S8192_S270336_d0) (broadcastInDim S270336 ![] bcast_S_S270336 (constantI S_ 32 0#32))) (addi (concatenate S270336 0 [⟨S262144, (shapeCast _ (extractStridedSlice S1x262144 ![1, 0] x2 slices_S2x262144_S1x262144_1_0) shapeCasts_S1x262144_S262144)⟩, ⟨S8192, (iotaInDim S8192 32 0)⟩] concatenates_S262144_S8192_S270336_d0) (broadcastInDim S270336 ![] bcast_S_S270336 (constantI S_ 32 8192#32))) (concatenate S270336 0 [⟨S262144, (shapeCast _ (extractStridedSlice S1x262144 ![1, 0] x2 slices_S2x262144_S1x262144_1_0) shapeCasts_S1x262144_S262144)⟩, ⟨S8192, (iotaInDim S8192 32 0)⟩] concatenates_S262144_S8192_S270336_d0))))))))) (broadcastInDim S8192x128 ![0, 1] bcast_S1x128_S8192x128_0_1 (broadcastInDim S1x128 ![1] bcast_S128_S1x128_1 x9)))))) (addf (Host.scatterAdd scatter_S8192x128_S270336x1_S270336x128_1_0_0_1 (broadcastInDim S8192x128 ![] bcast_S_S8192x128 (constant S_ .f32 0x00000000#32)) (broadcastInDim S270336x1 ![0] bcast_S270336_S270336x1_0 (concatenate S270336 0 [⟨S262144, (shapeCast _ (extractStridedSlice S1x262144 ![1, 0] x2 slices_S2x262144_S1x262144_1_0) shapeCasts_S1x262144_S262144)⟩, ⟨S8192, (iotaInDim S8192 32 0)⟩] concatenates_S262144_S8192_S270336_d0)) (mulf (Host.gather gather_S8192x128_S270336x1_S270336x128_1_0_n_n_0_1_1128 (Host.dotGeneral dot_S8192x128_S128x128_S8192x128_1_0_0_1_n_n none x1 x10) (broadcastInDim S270336x1 ![0] bcast_S270336_S270336x1_0 (select (cmpi .slt (concatenate S270336 0 [⟨S262144, (shapeCast _ (extractStridedSlice S1x262144 ![0, 0] x2 slices_S2x262144_S1x262144_0_0) shapeCasts_S1x262144_S262144)⟩, ⟨S8192, (iotaInDim S8192 32 0)⟩] concatenates_S262144_S8192_S270336_d0) (broadcastInDim S270336 ![] bcast_S_S270336 (constantI S_ 32 0#32))) (addi (concatenate S270336 0 [⟨S262144, (shapeCast _ (extractStridedSlice S1x262144 ![0, 0] x2 slices_S2x262144_S1x262144_0_0) shapeCasts_S1x262144_S262144)⟩, ⟨S8192, (iotaInDim S8192 32 0)⟩] concatenates_S262144_S8192_S270336_d0) (broadcastInDim S270336 ![] bcast_S_S270336 (constantI S_ 32 8192#32))) (concatenate S270336 0 [⟨S262144, (shapeCast _ (extractStridedSlice S1x262144 ![0, 0] x2 slices_S2x262144_S1x262144_0_0) shapeCasts_S1x262144_S262144)⟩, ⟨S8192, (iotaInDim S8192 32 0)⟩] concatenates_S262144_S8192_S270336_d0)))) (broadcastInDim S270336x128 ![0, 1] bcast_S270336x1_S270336x128_0_1 (broadcastInDim S270336x1 ![0] bcast_S270336_S270336x1_0 (mulf (Host.gather gather_S8192_S270336x1_S270336_n_0_n_n_0_1_1 (select (cmpf (F := F) .ogt (Host.scatterAdd scatter_S8192_S270336x1_S270336_n_0_0_1 (broadcastInDim S8192 ![] bcast_S_S8192 (constant S_ .f32 0x00000000#32)) (broadcastInDim S270336x1 ![0] bcast_S270336_S270336x1_0 (concatenate S270336 0 [⟨S262144, (shapeCast _ (extractStridedSlice S1x262144 ![1, 0] x2 slices_S2x262144_S1x262144_1_0) shapeCasts_S1x262144_S262144)⟩, ⟨S8192, (iotaInDim S8192 32 0)⟩] concatenates_S262144_S8192_S270336_d0)) (broadcastInDim S270336 ![] bcast_S_S270336 (constant S_ .f32 0x3F800000#32))) (broadcastInDim S8192 ![] bcast_S_S8192 (constant S_ .f32 0x00000000#32))) (Host.rsqrt (Host.scatterAdd scatter_S8192_S270336x1_S270336_n_0_0_1 (broadcastInDim S8192 ![] bcast_S_S8192 (constant S_ .f32 0x00000000#32)) (broadcastInDim S270336x1 ![0] bcast_S270336_S270336x1_0 (concatenate S270336 0 [⟨S262144, (shapeCast _ (extractStridedSlice S1x262144 ![1, 0] x2 slices_S2x262144_S1x262144_1_0) shapeCasts_S1x262144_S262144)⟩, ⟨S8192, (iotaInDim S8192 32 0)⟩] concatenates_S262144_S8192_S270336_d0)) (broadcastInDim S270336 ![] bcast_S_S270336 (constant S_ .f32 0x3F800000#32)))) (broadcastInDim S8192 ![] bcast_S_S8192 (id (constant S_ .f32 0x00000000#32)))) (broadcastInDim S270336x1 ![0] bcast_S270336_S270336x1_0 (select (cmpi .slt (concatenate S270336 0 [⟨S262144, (shapeCast _ (extractStridedSlice S1x262144 ![0, 0] x2 slices_S2x262144_S1x262144_0_0) shapeCasts_S1x262144_S262144)⟩, ⟨S8192, (iotaInDim S8192 32 0)⟩] concatenates_S262144_S8192_S270336_d0) (broadcastInDim S270336 ![] bcast_S_S270336 (constantI S_ 32 0#32))) (addi (concatenate S270336 0 [⟨S262144, (shapeCast _ (extractStridedSlice S1x262144 ![0, 0] x2 slices_S2x262144_S1x262144_0_0) shapeCasts_S1x262144_S262144)⟩, ⟨S8192, (iotaInDim S8192 32 0)⟩] concatenates_S262144_S8192_S270336_d0) (broadcastInDim S270336 ![] bcast_S_S270336 (constantI S_ 32 8192#32))) (concatenate S270336 0 [⟨S262144, (shapeCast _ (extractStridedSlice S1x262144 ![0, 0] x2 slices_S2x262144_S1x262144_0_0) shapeCasts_S1x262144_S262144)⟩, ⟨S8192, (iotaInDim S8192 32 0)⟩] concatenates_S262144_S8192_S270336_d0)))) (Host.gather gather_S8192_S270336x1_S270336_n_0_n_n_0_1_1 (select (cmpf (F := F) .ogt (Host.scatterAdd scatter_S8192_S270336x1_S270336_n_0_0_1 (broadcastInDim S8192 ![] bcast_S_S8192 (constant S_ .f32 0x00000000#32)) (broadcastInDim S270336x1 ![0] bcast_S270336_S270336x1_0 (concatenate S270336 0 [⟨S262144, (shapeCast _ (extractStridedSlice S1x262144 ![1, 0] x2 slices_S2x262144_S1x262144_1_0) shapeCasts_S1x262144_S262144)⟩, ⟨S8192, (iotaInDim S8192 32 0)⟩] concatenates_S262144_S8192_S270336_d0)) (broadcastInDim S270336 ![] bcast_S_S270336 (constant S_ .f32 0x3F800000#32))) (broadcastInDim S8192 ![] bcast_S_S8192 (constant S_ .f32 0x00000000#32))) (Host.rsqrt (Host.scatterAdd scatter_S8192_S270336x1_S270336_n_0_0_1 (broadcastInDim S8192 ![] bcast_S_S8192 (constant S_ .f32 0x00000000#32)) (broadcastInDim S270336x1 ![0] bcast_S270336_S270336x1_0 (concatenate S270336 0 [⟨S262144, (shapeCast _ (extractStridedSlice S1x262144 ![1, 0] x2 slices_S2x262144_S1x262144_1_0) shapeCasts_S1x262144_S262144)⟩, ⟨S8192, (iotaInDim S8192 32 0)⟩] concatenates_S262144_S8192_S270336_d0)) (broadcastInDim S270336 ![] bcast_S_S270336 (constant S_ .f32 0x3F800000#32)))) (broadcastInDim S8192 ![] bcast_S_S8192 (id (constant S_ .f32 0x00000000#32)))) (broadcastInDim S270336x1 ![0] bcast_S270336_S270336x1_0 (select (cmpi .slt (concatenate S270336 0 [⟨S262144, (shapeCast _ (extractStridedSlice S1x262144 ![1, 0] x2 slices_S2x262144_S1x262144_1_0) shapeCasts_S1x262144_S262144)⟩, ⟨S8192, (iotaInDim S8192 32 0)⟩] concatenates_S262144_S8192_S270336_d0) (broadcastInDim S270336 ![] bcast_S_S270336 (constantI S_ 32 0#32))) (addi (concatenate S270336 0 [⟨S262144, (shapeCast _ (extractStridedSlice S1x262144 ![1, 0] x2 slices_S2x262144_S1x262144_1_0) shapeCasts_S1x262144_S262144)⟩, ⟨S8192, (iotaInDim S8192 32 0)⟩] concatenates_S262144_S8192_S270336_d0) (broadcastInDim S270336 ![] bcast_S_S270336 (constantI S_ 32 8192#32))) (concatenate S270336 0 [⟨S262144, (shapeCast _ (extractStridedSlice S1x262144 ![1, 0] x2 slices_S2x262144_S1x262144_1_0) shapeCasts_S1x262144_S262144)⟩, ⟨S8192, (iotaInDim S8192 32 0)⟩] concatenates_S262144_S8192_S270336_d0))))))))) (broadcastInDim S8192x128 ![0, 1] bcast_S1x128_S8192x128_0_1 (broadcastInDim S1x128 ![1] bcast_S128_S1x128_1 x11)))) (mulf fr (broadcastInDim S8192x128 ![0, 1] bcast_S8192x1_S8192x128_0_1 (Host.divf (broadcastInDim S8192x1 ![] bcast_S_S8192x1 (constant S_ .f32 0x3F800000#32)) (addf (broadcastInDim S8192x1 ![] bcast_S_S8192x1 (constant S_ .f32 0x3F800000#32)) (Host.exp (Host.negf (addf (Host.dotGeneral dot_S8192x128_S128x1_S8192x1_1_0_0_1_n_n none (subf (addf (mulf x0 (Host.exp (Host.tanh (addf (Host.scatterAdd scatter_S8192x128_S270336x1_S270336x128_1_0_0_1 (broadcastInDim S8192x128 ![] bcast_S_S8192x128 (constant S_ .f32 0x00000000#32)) (broadcastInDim S270336x1 ![0] bcast_S270336_S270336x1_0 (concatenate S270336 0 [⟨S262144, (shapeCast _ (extractStridedSlice S1x262144 ![1, 0] x2 slices_S2x262144_S1x262144_1_0) shapeCasts_S1x262144_S262144)⟩, ⟨S8192, (iotaInDim S8192 32 0)⟩] concatenates_S262144_S8192_S270336_d0)) (mulf (Host.gather gather_S8192x128_S270336x1_S270336x128_1_0_n_n_0_1_1128 (Host.dotGeneral dot_S8192x128_S128x128_S8192x128_1_0_0_1_n_n none x1 x8) (broadcastInDim S270336x1 ![0] bcast_S270336_S270336x1_0 (select (cmpi .slt (concatenate S270336 0 [⟨S262144, (shapeCast _ (extractStridedSlice S1x262144 ![0, 0] x2 slices_S2x262144_S1x262144_0_0) shapeCasts_S1x262144_S262144)⟩, ⟨S8192, (iotaInDim S8192 32 0)⟩] concatenates_S262144_S8192_S270336_d0) (broadcastInDim S270336 ![] bcast_S_S270336 (constantI S_ 32 0#32))) (addi (concatenate S270336 0 [⟨S262144, (shapeCast _ (extractStridedSlice S1x262144 ![0, 0] x2 slices_S2x262144_S1x262144_0_0) shapeCasts_S1x262144_S262144)⟩, ⟨S8192, (iotaInDim S8192 32 0)⟩] concatenates_S262144_S8192_S270336_d0) (broadcastInDim S270336 ![] bcast_S_S270336 (constantI S_ 32 8192#32))) (concatenate S270336 0 [⟨S262144, (shapeCast _ (extractStridedSlice S1x262144 ![0, 0] x2 slices_S2x262144_S1x262144_0_0) shapeCasts_S1x262144_S262144)⟩, ⟨S8192, (iotaInDim S8192 32 0)⟩] concatenates_S262144_S8192_S270336_d0)))) (broadcastInDim S270336x128 ![0, 1] bcast_S270336x1_S270336x128_0_1 (broadcastInDim S270336x1 ![0] bcast_S270336_S270336x1_0 (mulf (Host.gather gather_S8192_S270336x1_S270336_n_0_n_n_0_1_1 (select (cmpf (F := F) .ogt (Host.scatterAdd scatter_S8192_S270336x1_S270336_n_0_0_1 (broadcastInDim S8192 ![] bcast_S_S8192 (constant S_ .f32 0x00000000#32)) (broadcastInDim S270336x1 ![0] bcast_S270336_S270336x1_0 (concatenate S270336 0 [⟨S262144, (shapeCast _ (extractStridedSlice S1x262144 ![1, 0] x2 slices_S2x262144_S1x262144_1_0) shapeCasts_S1x262144_S262144)⟩, ⟨S8192, (iotaInDim S8192 32 0)⟩] concatenates_S262144_S8192_S270336_d0)) (broadcastInDim S270336 ![] bcast_S_S270336 (constant S_ .f32 0x3F800000#32))) (broadcastInDim S8192 ![] bcast_S_S8192 (constant S_ .f32 0x00000000#32))) (Host.rsqrt (Host.scatterAdd scatter_S8192_S270336x1_S270336_n_0_0_1 (broadcastInDim S8192 ![] bcast_S_S8192 (constant S_ .f32 0x00000000#32)) (broadcastInDim S270336x1 ![0] bcast_S270336_S270336x1_0 (concatenate S270336 0 [⟨S262144, (shapeCast _ (extractStridedSlice S1x262144 ![1, 0] x2 slices_S2x262144_S1x262144_1_0) shapeCasts_S1x262144_S262144)⟩, ⟨S8192, (iotaInDim S8192 32 0)⟩] concatenates_S262144_S8192_S270336_d0)) (broadcastInDim S270336 ![] bcast_S_S270336 (constant S_ .f32 0x3F800000#32)))) (broadcastInDim S8192 ![] bcast_S_S8192 (id (constant S_ .f32 0x00000000#32)))) (broadcastInDim S270336x1 ![0] bcast_S270336_S270336x1_0 (select (cmpi .slt (concatenate S270336 0 [⟨S262144, (shapeCast _ (extractStridedSlice S1x262144 ![0, 0] x2 slices_S2x262144_S1x262144_0_0) shapeCasts_S1x262144_S262144)⟩, ⟨S8192, (iotaInDim S8192 32 0)⟩] concatenates_S262144_S8192_S270336_d0) (broadcastInDim S270336 ![] bcast_S_S270336 (constantI S_ 32 0#32))) (addi (concatenate S270336 0 [⟨S262144, (shapeCast _ (extractStridedSlice S1x262144 ![0, 0] x2 slices_S2x262144_S1x262144_0_0) shapeCasts_S1x262144_S262144)⟩, ⟨S8192, (iotaInDim S8192 32 0)⟩] concatenates_S262144_S8192_S270336_d0) (broadcastInDim S270336 ![] bcast_S_S270336 (constantI S_ 32 8192#32))) (concatenate S270336 0 [⟨S262144, (shapeCast _ (extractStridedSlice S1x262144 ![0, 0] x2 slices_S2x262144_S1x262144_0_0) shapeCasts_S1x262144_S262144)⟩, ⟨S8192, (iotaInDim S8192 32 0)⟩] concatenates_S262144_S8192_S270336_d0)))) (Host.gather gather_S8192_S270336x1_S270336_n_0_n_n_0_1_1 (select (cmpf (F := F) .ogt (Host.scatterAdd scatter_S8192_S270336x1_S270336_n_0_0_1 (broadcastInDim S8192 ![] bcast_S_S8192 (constant S_ .f32 0x00000000#32)) (broadcastInDim S270336x1 ![0] bcast_S270336_S270336x1_0 (concatenate S270336 0 [⟨S262144, (shapeCast _ (extractStridedSlice S1x262144 ![1, 0] x2 slices_S2x262144_S1x262144_1_0) shapeCasts_S1x262144_S262144)⟩, ⟨S8192, (iotaInDim S8192 32 0)⟩] concatenates_S262144_S8192_S270336_d0)) (broadcastInDim S270336 ![] bcast_S_S270336 (constant S_ .f32 0x3F800000#32))) (broadcastInDim S8192 ![] bcast_S_S8192 (constant S_ .f32 0x00000000#32))) (Host.rsqrt (Host.scatterAdd scatter_S8192_S270336x1_S270336_n_0_0_1 (broadcastInDim S8192 ![] bcast_S_S8192 (constant S_ .f32 0x00000000#32)) (broadcastInDim S270336x1 ![0] bcast_S270336_S270336x1_0 (concatenate S270336 0 [⟨S262144, (shapeCast _ (extractStridedSlice S1x262144 ![1, 0] x2 slices_S2x262144_S1x262144_1_0) shapeCasts_S1x262144_S262144)⟩, ⟨S8192, (iotaInDim S8192 32 0)⟩] concatenates_S262144_S8192_S270336_d0)) (broadcastInDim S270336 ![] bcast_S_S270336 (constant S_ .f32 0x3F800000#32)))) (broadcastInDim S8192 ![] bcast_S_S8192 (id (constant S_ .f32 0x00000000#32)))) (broadcastInDim S270336x1 ![0] bcast_S270336_S270336x1_0 (select (cmpi .slt (concatenate S270336 0 [⟨S262144, (shapeCast _ (extractStridedSlice S1x262144 ![1, 0] x2 slices_S2x262144_S1x262144_1_0) shapeCasts_S1x262144_S262144)⟩, ⟨S8192, (iotaInDim S8192 32 0)⟩] concatenates_S262144_S8192_S270336_d0) (broadcastInDim S270336 ![] bcast_S_S270336 (constantI S_ 32 0#32))) (addi (concatenate S270336 0 [⟨S262144, (shapeCast _ (extractStridedSlice S1x262144 ![1, 0] x2 slices_S2x262144_S1x262144_1_0) shapeCasts_S1x262144_S262144)⟩, ⟨S8192, (iotaInDim S8192 32 0)⟩] concatenates_S262144_S8192_S270336_d0) (broadcastInDim S270336 ![] bcast_S_S270336 (constantI S_ 32 8192#32))) (concatenate S270336 0 [⟨S262144, (shapeCast _ (extractStridedSlice S1x262144 ![1, 0] x2 slices_S2x262144_S1x262144_1_0) shapeCasts_S1x262144_S262144)⟩, ⟨S8192, (iotaInDim S8192 32 0)⟩] concatenates_S262144_S8192_S270336_d0))))))))) (broadcastInDim S8192x128 ![0, 1] bcast_S1x128_S8192x128_0_1 (broadcastInDim S1x128 ![1] bcast_S128_S1x128_1 x9)))))) (addf (Host.scatterAdd scatter_S8192x128_S270336x1_S270336x128_1_0_0_1 (broadcastInDim S8192x128 ![] bcast_S_S8192x128 (constant S_ .f32 0x00000000#32)) (broadcastInDim S270336x1 ![0] bcast_S270336_S270336x1_0 (concatenate S270336 0 [⟨S262144, (shapeCast _ (extractStridedSlice S1x262144 ![1, 0] x2 slices_S2x262144_S1x262144_1_0) shapeCasts_S1x262144_S262144)⟩, ⟨S8192, (iotaInDim S8192 32 0)⟩] concatenates_S262144_S8192_S270336_d0)) (mulf (Host.gather gather_S8192x128_S270336x1_S270336x128_1_0_n_n_0_1_1128 (Host.dotGeneral dot_S8192x128_S128x128_S8192x128_1_0_0_1_n_n none x1 x10) (broadcastInDim S270336x1 ![0] bcast_S270336_S270336x1_0 (select (cmpi .slt (concatenate S270336 0 [⟨S262144, (shapeCast _ (extractStridedSlice S1x262144 ![0, 0] x2 slices_S2x262144_S1x262144_0_0) shapeCasts_S1x262144_S262144)⟩, ⟨S8192, (iotaInDim S8192 32 0)⟩] concatenates_S262144_S8192_S270336_d0) (broadcastInDim S270336 ![] bcast_S_S270336 (constantI S_ 32 0#32))) (addi (concatenate S270336 0 [⟨S262144, (shapeCast _ (extractStridedSlice S1x262144 ![0, 0] x2 slices_S2x262144_S1x262144_0_0) shapeCasts_S1x262144_S262144)⟩, ⟨S8192, (iotaInDim S8192 32 0)⟩] concatenates_S262144_S8192_S270336_d0) (broadcastInDim S270336 ![] bcast_S_S270336 (constantI S_ 32 8192#32))) (concatenate S270336 0 [⟨S262144, (shapeCast _ (extractStridedSlice S1x262144 ![0, 0] x2 slices_S2x262144_S1x262144_0_0) shapeCasts_S1x262144_S262144)⟩, ⟨S8192, (iotaInDim S8192 32 0)⟩] concatenates_S262144_S8192_S270336_d0)))) (broadcastInDim S270336x128 ![0, 1] bcast_S270336x1_S270336x128_0_1 (broadcastInDim S270336x1 ![0] bcast_S270336_S270336x1_0 (mulf (Host.gather gather_S8192_S270336x1_S270336_n_0_n_n_0_1_1 (select (cmpf (F := F) .ogt (Host.scatterAdd scatter_S8192_S270336x1_S270336_n_0_0_1 (broadcastInDim S8192 ![] bcast_S_S8192 (constant S_ .f32 0x00000000#32)) (broadcastInDim S270336x1 ![0] bcast_S270336_S270336x1_0 (concatenate S270336 0 [⟨S262144, (shapeCast _ (extractStridedSlice S1x262144 ![1, 0] x2 slices_S2x262144_S1x262144_1_0) shapeCasts_S1x262144_S262144)⟩, ⟨S8192, (iotaInDim S8192 32 0)⟩] concatenates_S262144_S8192_S270336_d0)) (broadcastInDim S270336 ![] bcast_S_S270336 (constant S_ .f32 0x3F800000#32))) (broadcastInDim S8192 ![] bcast_S_S8192 (constant S_ .f32 0x00000000#32))) (Host.rsqrt (Host.scatterAdd scatter_S8192_S270336x1_S270336_n_0_0_1 (broadcastInDim S8192 ![] bcast_S_S8192 (constant S_ .f32 0x00000000#32)) (broadcastInDim S270336x1 ![0] bcast_S270336_S270336x1_0 (concatenate S270336 0 [⟨S262144, (shapeCast _ (extractStridedSlice S1x262144 ![1, 0] x2 slices_S2x262144_S1x262144_1_0) shapeCasts_S1x262144_S262144)⟩, ⟨S8192, (iotaInDim S8192 32 0)⟩] concatenates_S262144_S8192_S270336_d0)) (broadcastInDim S270336 ![] bcast_S_S270336 (constant S_ .f32 0x3F800000#32)))) (broadcastInDim S8192 ![] bcast_S_S8192 (id (constant S_ .f32 0x00000000#32)))) (broadcastInDim S270336x1 ![0] bcast_S270336_S270336x1_0 (select (cmpi .slt (concatenate S270336 0 [⟨S262144, (shapeCast _ (extractStridedSlice S1x262144 ![0, 0] x2 slices_S2x262144_S1x262144_0_0) shapeCasts_S1x262144_S262144)⟩, ⟨S8192, (iotaInDim S8192 32 0)⟩] concatenates_S262144_S8192_S270336_d0) (broadcastInDim S270336 ![] bcast_S_S270336 (constantI S_ 32 0#32))) (addi (concatenate S270336 0 [⟨S262144, (shapeCast _ (extractStridedSlice S1x262144 ![0, 0] x2 slices_S2x262144_S1x262144_0_0) shapeCasts_S1x262144_S262144)⟩, ⟨S8192, (iotaInDim S8192 32 0)⟩] concatenates_S262144_S8192_S270336_d0) (broadcastInDim S270336 ![] bcast_S_S270336 (constantI S_ 32 8192#32))) (concatenate S270336 0 [⟨S262144, (shapeCast _ (extractStridedSlice S1x262144 ![0, 0] x2 slices_S2x262144_S1x262144_0_0) shapeCasts_S1x262144_S262144)⟩, ⟨S8192, (iotaInDim S8192 32 0)⟩] concatenates_S262144_S8192_S270336_d0)))) (Host.gather gather_S8192_S270336x1_S270336_n_0_n_n_0_1_1 (select (cmpf (F := F) .ogt (Host.scatterAdd scatter_S8192_S270336x1_S270336_n_0_0_1 (broadcastInDim S8192 ![] bcast_S_S8192 (constant S_ .f32 0x00000000#32)) (broadcastInDim S270336x1 ![0] bcast_S270336_S270336x1_0 (concatenate S270336 0 [⟨S262144, (shapeCast _ (extractStridedSlice S1x262144 ![1, 0] x2 slices_S2x262144_S1x262144_1_0) shapeCasts_S1x262144_S262144)⟩, ⟨S8192, (iotaInDim S8192 32 0)⟩] concatenates_S262144_S8192_S270336_d0)) (broadcastInDim S270336 ![] bcast_S_S270336 (constant S_ .f32 0x3F800000#32))) (broadcastInDim S8192 ![] bcast_S_S8192 (constant S_ .f32 0x00000000#32))) (Host.rsqrt (Host.scatterAdd scatter_S8192_S270336x1_S270336_n_0_0_1 (broadcastInDim S8192 ![] bcast_S_S8192 (constant S_ .f32 0x00000000#32)) (broadcastInDim S270336x1 ![0] bcast_S270336_S270336x1_0 (concatenate S270336 0 [⟨S262144, (shapeCast _ (extractStridedSlice S1x262144 ![1, 0] x2 slices_S2x262144_S1x262144_1_0) shapeCasts_S1x262144_S262144)⟩, ⟨S8192, (iotaInDim S8192 32 0)⟩] concatenates_S262144_S8192_S270336_d0)) (broadcastInDim S270336 ![] bcast_S_S270336 (constant S_ .f32 0x3F800000#32)))) (broadcastInDim S8192 ![] bcast_S_S8192 (id (constant S_ .f32 0x00000000#32)))) (broadcastInDim S270336x1 ![0] bcast_S270336_S270336x1_0 (select (cmpi .slt (concatenate S270336 0 [⟨S262144, (shapeCast _ (extractStridedSlice S1x262144 ![1, 0] x2 slices_S2x262144_S1x262144_1_0) shapeCasts_S1x262144_S262144)⟩, ⟨S8192, (iotaInDim S8192 32 0)⟩] concatenates_S262144_S8192_S270336_d0) (broadcastInDim S270336 ![] bcast_S_S270336 (constantI S_ 32 0#32))) (addi (concatenate S270336 0 [⟨S262144, (shapeCast _ (extractStridedSlice S1x262144 ![1, 0] x2 slices_S2x262144_S1x262144_1_0) shapeCasts_S1x262144_S262144)⟩, ⟨S8192, (iotaInDim S8192 32 0)⟩] concatenates_S262144_S8192_S270336_d0) (broadcastInDim S270336 ![] bcast_S_S270336 (constantI S_ 32 8192#32))) (concatenate S270336 0 [⟨S262144, (shapeCast _ (extractStridedSlice S1x262144 ![1, 0] x2 slices_S2x262144_S1x262144_1_0) shapeCasts_S1x262144_S262144)⟩, ⟨S8192, (iotaInDim S8192 32 0)⟩] concatenates_S262144_S8192_S270336_d0))))))))) (broadcastInDim S8192x128 ![0, 1] bcast_S1x128_S8192x128_0_1 (broadcastInDim S1x128 ![1] bcast_S128_S1x128_1 x11)))) fr) x12) (broadcastInDim S8192x1 ![0, 1] bcast_S1x1_S8192x1_0_1 (broadcastInDim S1x1 ![1] bcast_S1_S1x1_1 x13))))))))))⟩, ⟨S8192x128, fr⟩] concatenates_S8192x128_S8192x128_S8192x256_d1) x14) (broadcastInDim S8192x128 ![0, 1] bcast_S1x128_S8192x128_0_1 (broadcastInDim S1x128 ![1] bcast_S128_S1x128_1 x15))) x0

/-- The reference's result as the tail of its arguments and of its own frequency path: the common right-hand side of
    the reference's run and of the kernel program's result. -/
abbrev refResult (m' : (ℓ : Loc nD τ sig) → Buf (Elt F) ℓ) (c : Dev nD) : Buf (Elt F) ((c.tc : Thread nD τ).loc main_v136) :=
  tailR (m' ((c.tc : Thread nD τ).loc main_arg0)) (m' ((c.tc : Thread nD τ).loc main_arg1)) (m' ((c.tc : Thread nD τ).loc main_arg2)) (m' ((c.tc : Thread nD τ).loc main_arg8)) (m' ((c.tc : Thread nD τ).loc main_arg9)) (m' ((c.tc : Thread nD τ).loc main_arg10)) (m' ((c.tc : Thread nD τ).loc main_arg11)) (m' ((c.tc : Thread nD τ).loc main_arg12)) (m' ((c.tc : Thread nD τ).loc main_arg13)) (m' ((c.tc : Thread nD τ).loc main_arg14)) (m' ((c.tc : Thread nD τ).loc main_arg15))
    (refFreq (m' ((c.tc : Thread nD τ).loc main_arg0)) (m' ((c.tc : Thread nD τ).loc main_arg1)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)))

end Cert.Tail

end
-- ==== Proof.LibPlainDot.lean ====
/-
  A plain host matrix product read at an entry.

  For the dimension numbers of an ordinary product — an [a, n] array times an [n, b] array, contracting the second
  axis of the left with the first axis of the right, no batch axis — the host's `dot_general` is, on the extended
  reals, at (p, q) the sum over k of left (p, k) · right (k, q).  The extents are variables.
-/
import Idealize.ShloMosaic.Lib.ValueIdx
import Idealize.ShloMosaic.PureOps.Ideal.Laws

noncomputable section

open scoped BigOperators

namespace Cert.PlainDot

open Idealize.ShloMosaic Idealize.ShloMosaic.ValueIdx

/-- The dimension numbers of an ordinary [a, n] × [n, b] product, over any witness of their well-formedness. -/
abbrev dims {a n b : ℕ}
    (wf : DotDims.WF ⟨2, ![a, n]⟩ ⟨2, ![n, b]⟩ ⟨2, ![a, b]⟩ [1] [0] [0] [1] [] []) :
    DotDims ⟨2, ![a, n]⟩ ⟨2, ![n, b]⟩ ⟨2, ![a, b]⟩ :=
  ⟨[1], [0], [0], [1], [], [], wf⟩

/-- The host's ordinary product: at (p, q) the sum over k of left (p, k) · right (k, q). -/
theorem host_apply {a n b : ℕ} {φ₁ φ₂ : FTy}
    (wf : DotDims.WF ⟨2, ![a, n]⟩ ⟨2, ![n, b]⟩ ⟨2, ![a, b]⟩ [1] [0] [0] [1] [] [])
    (prec : Option ContractPrecision) (L : FVec Ideal ⟨2, ![a, n]⟩ φ₁) (R : FVec Ideal ⟨2, ![n, b]⟩ φ₂)
    (p : Fin a) (q : Fin b) :
    Host.dotGeneral (dims wf) prec L R (ix2 p q) = ∑ k : Fin n, L (ix2 p k) * R (ix2 k q) := by
  show FloatOps.dotGeneral (dims wf) prec .single L R (ix2 p q) = _
  rw [Ideal.dotGeneral_apply, ← Equiv.sum_comp (contrEquiv1 (dims wf) n rfl rfl).symm]
  refine Finset.sum_congr rfl fun k _ => ?_
  have hk := contrEquiv1_symm_val (dims wf) n rfl rfl k
  have el : (dims wf).lhsIdx (ix2 p q) ((contrEquiv1 (dims wf) n rfl rfl).symm k) = ix2 p k :=
    funext fun ax => Fin.ext (by
      match ax with
      | ⟨0, _⟩ => rfl
      | ⟨1, _⟩ => exact ((dims wf).lhsIdx_val_of_single rfl _ _).trans hk)
  have er : (dims wf).rhsIdx (ix2 p q) ((contrEquiv1 (dims wf) n rfl rfl).symm k) = ix2 k q :=
    funext fun ax => Fin.ext (by
      match ax with
      | ⟨0, _⟩ => exact ((dims wf).rhsIdx_val_of_single rfl _ _).trans hk
      | ⟨1, _⟩ => rfl)
  rw [el, er]

end Cert.PlainDot

end
-- ==== Proof.LibHostForms.lean ====
/-
  Host-side readings at an entry (p, q), on the extended reals and for variable extents.

  A bias kept as a row: the host's broadcast of a vector [b] to a row [1, b] along axis 1 reads at (0, q) the entry q,
  and its broadcast of a row [1, b] to [a, b] reads at (p, q) the row's entry (0, q).  And the host's ordinary matrix
  product — an [a, n] array times an [n, b] array, contracting the second axis of the left with the first of the right,
  no batch axis — is at (p, q) the sum over k of left (p, k) · right (k, q).
-/
import Idealize.ShloMosaic.Lib.Pipeline.Value
import Idealize.ShloMosaic.Lib.ValueIdx
import Idealize.ShloMosaic.PureOps.Ideal.Laws
import proofs.«117335_j42545946034709_1_alg».proof.Proof.LibPlainMatmul

noncomputable section

open scoped BigOperators

namespace Cert.HostForms

open Idealize.ShloMosaic Idealize.ShloMosaic.ValueIdx

variable {α : Type}

/-- The host's broadcast of a vector [b] to a row [1, b] along axis 1 reads, at (z, q), its entry `q`. -/
theorem host_row_apply {b : ℕ} (v : (⟨1, ![b]⟩ : Shape).Idx → α)
    (h : (⟨1, ![b]⟩ : Shape).BroadcastsInDim ⟨2, ![1, b]⟩ ![1]) (z : Fin 1) (q : Fin b) :
    broadcastInDim ⟨2, ![1, b]⟩ ![1] h v (ix2 z q) = v (ix1 q) := by
  refine broadcastInDim_apply _ h v (ix2 z q) (ix1 q) fun ax => ?_
  match ax with
  | ⟨0, _⟩ =>
    show q.val = if b = 1 then 0 else q.val
    split
    · have := q.isLt; omega
    · rfl

/-- The host's broadcast of a row [1, b] to [a, b] reads, at (p, q), the row's entry of column `q`. -/
theorem host_row_repeat_apply {a b : ℕ} (u : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h u (ix2 p q) = u (ix2 (0 : Fin 1) q) := by
  refine broadcastInDim_apply _ h u (ix2 p q) (ix2 (0 : Fin 1) q) fun ax => ?_
  match ax with
  | ⟨0, _⟩ =>
    show 0 = if (1 : ℕ) = 1 then 0 else p.val
    rw [if_pos rfl]
  | ⟨1, _⟩ =>
    show q.val = if b = 1 then 0 else q.val
    split
    · have := q.isLt; omega
    · rfl

/-- The host's ordinary product: at (p, q) the sum over k of left (p, k) · right (k, q). -/
theorem host_product_apply {a n b : ℕ} {φ₁ φ₂ : FTy}
    (wf : DotDims.WF ⟨2, ![a, n]⟩ ⟨2, ![n, b]⟩ ⟨2, ![a, b]⟩ [1] [0] [0] [1] [] [])
    (prec : Option ContractPrecision) (L : FVec Ideal ⟨2, ![a, n]⟩ φ₁) (R : FVec Ideal ⟨2, ![n, b]⟩ φ₂)
    (p : Fin a) (q : Fin b) :
    Host.dotGeneral (F := Ideal) (Cert.PlainMatmul.dims wf) prec L R (ix2 p q)
      = ∑ k : Fin n, L (ix2 p k) * R (ix2 k q) := by
  simp only [Host.dotGeneral]
  rw [Ideal.dotGeneral_apply, ← Equiv.sum_comp (contrEquiv1 (Cert.PlainMatmul.dims wf) n rfl rfl).symm]
  refine Finset.sum_congr rfl fun k _ => ?_
  have hk := contrEquiv1_symm_val (Cert.PlainMatmul.dims wf) n rfl rfl k
  have el : (Cert.PlainMatmul.dims wf).lhsIdx (ix2 p q) ((contrEquiv1 (Cert.PlainMatmul.dims wf) n rfl rfl).symm k) = ix2 p k :=
    funext fun ax => Fin.ext (by
      match ax with
      | ⟨0, _⟩ => rfl
      | ⟨1, _⟩ => exact ((Cert.PlainMatmul.dims wf).lhsIdx_val_of_single rfl _ _).trans hk)
  have er : (Cert.PlainMatmul.dims wf).rhsIdx (ix2 p q) ((contrEquiv1 (Cert.PlainMatmul.dims wf) n rfl rfl).symm k) = ix2 k q :=
    funext fun ax => Fin.ext (by
      match ax with
      | ⟨0, _⟩ => exact ((Cert.PlainMatmul.dims wf).rhsIdx_val_of_single rfl _ _).trans hk
      | ⟨1, _⟩ => rfl)
  rw [el, er]

end Cert.HostForms

end
-- ==== Proof.RefFreq.lean ====
/-
  The reference program's frequency path, read at an entry, on the extended reals.

  The reference computes xf = Uᵀ x0 and xg = Uᵀ x1 (each a host matrix product with the transposed basis), joins them
  side by side, applies the two-layer perceptron (a product with W₁ plus the bias b₁, the maximum with zero, a product
  with W₂ plus the bias b₂), turns it into a gate by negate, exponential, one plus, one over, and returns
  U (xf + gate ∘ xg).  At an entry (p, q) this is the shared specification's frequency path of the seven arrays'
  entries: every product is the plain finite sum, a bias is read at its column, the joined matrix at a column below 128
  is xf and from 128 on is xg, and one over one plus the exponential of the negation is the logistic function.
-/
import proofs.«117335_j42545946034709_1_alg».proof.Proof.TailDefs
import proofs.«117335_j42545946034709_1_alg».proof.Proof.Spec
import proofs.«117335_j42545946034709_1_alg».proof.Proof.SpecLaws
import proofs.«117335_j42545946034709_1_alg».proof.Proof.LibPlainDot
import proofs.«117335_j42545946034709_1_alg».proof.Proof.LibHostForms
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.RefFreq

open Cert.ReferenceIdeal Cert.ReferenceIdeal.Gen Idealize.ShloMosaic Idealize.ShloMosaic.ValueIdx

/-- The float literal 1.0 is the extended real one. -/
theorem one_f32 : Ideal.ofBits .f32 0x3F800000#32 = (1 : EReal) := IdealRules.sign_bit.ideal_onePat .f32

/-- A scalar literal repeated over the 8192 x 128 array reads the literal's value everywhere. -/
theorem splat_apply (b : BitVec 32) (i : S8192x128.Idx) :
    broadcastInDim S8192x128 ![] bcast_S_S8192x128 (constant (F := Ideal) S_ .f32 b) i = Ideal.ofBits .f32 b :=
  broadcastInDim_apply _ bcast_S_S8192x128 (constant (F := Ideal) S_ .f32 b) i ix0 (fun a => a.elim0)

/-- A bias vector, seen as a row and repeated over the 8192 rows, reads its entry of the column. -/
theorem bias_apply (x : FVec Ideal S128 .f32) (r : Fin 8192) (k : Fin 128) :
    broadcastInDim S8192x128 ![0, 1] bcast_S1x128_S8192x128_0_1 (broadcastInDim S1x128 ![1] bcast_S128_S1x128_1 x) (ix2 r k)
      = x (ix1 k) :=
  (Cert.HostForms.host_row_repeat_apply (a := 8192) (b := 128) _ bcast_S1x128_S8192x128_0_1 r k).trans
    (Cert.HostForms.host_row_apply (b := 128) x bcast_S128_S1x128_1 0 k)

/-- The forward transform of a 128-column matrix: the transposed basis times it, at (r, q). -/
theorem fwd_apply (x3 : FVec Ideal S8192x8192 .f32) (x : FVec Ideal S8192x128 .f32) (r : Fin 8192) (q : Fin 128) :
    Host.dotGeneral (F := Ideal) dot_S8192x8192_S8192x128_S8192x128_1_0_0_1_n_n none
        (transpose S8192x8192 [1, 0] x3 transposes_S8192x8192_S8192x8192_1_0) x (ix2 r q)
      = ∑ r' : Fin 8192, x3 (ix2 r' r) * x (ix2 r' q) := by
  refine (Cert.PlainDot.host_apply (a := 8192) (n := 8192) (b := 128) _ none _ _ r q).trans ?_
  exact Finset.sum_congr rfl fun r' _ => by rw [transpose_ix2_apply]

/-- A column below 128 of two matrices joined side by side is the first matrix's column. -/
theorem joined_left (a b : FVec Ideal S8192x128 .f32) (r : Fin 8192) (k : Fin 256) (h : k.val < 128) :
    concatenate S8192x256 1 [⟨S8192x128, a⟩, ⟨S8192x128, b⟩] concatenates_S8192x128_S8192x128_S8192x256_d1 (ix2 r k)
      = a (ix2 r (⟨k.val, h⟩ : Fin 128)) :=
  concatenate_pair_apply_left (t := S8192x256) (s₁ := S8192x128) (s₂ := S8192x128) (1 : Fin 2) _ _
    concatenates_S8192x128_S8192x128_S8192x256_d1 (ix2 r k) rfl (ix2 r (⟨k.val, h⟩ : Fin 128) : S8192x128.Idx)
    (fun c => match c with | ⟨0, _⟩ => rfl | ⟨1, _⟩ => rfl)

/-- A column from 128 on of two matrices joined side by side is the second matrix's column, 128 less. -/
theorem joined_right (a b : FVec Ideal S8192x128 .f32) (r : Fin 8192) (k : Fin 256) (h : ¬ k.val < 128) :
    concatenate S8192x256 1 [⟨S8192x128, a⟩, ⟨S8192x128, b⟩] concatenates_S8192x128_S8192x128_S8192x256_d1 (ix2 r k)
      = b (ix2 r (⟨k.val - 128, by have := k.isLt; omega⟩ : Fin 128)) :=
  concatenate_pair_apply_right (t := S8192x256) (s₁ := S8192x128) (s₂ := S8192x128) (1 : Fin 2) _ _
    concatenates_S8192x128_S8192x128_S8192x256_d1 (ix2 r k) rfl rfl
    (ix2 r (⟨k.val - 128, by have := k.isLt; omega⟩ : Fin 128) : S8192x128.Idx)
    (fun c hc => match c, hc with | ⟨0, _⟩, _ => rfl | ⟨1, _⟩, hc => absurd rfl hc)
    (by show (k.val - 128) + 128 = k.val; omega)

/-- The two forward transforms joined side by side are the forward transform of the joined feature matrix. -/
theorem joined_fwd_apply (x3 : FVec Ideal S8192x8192 .f32) (x0 x1 : FVec Ideal S8192x128 .f32) (r : Fin 8192) (k : Fin 256) :
    concatenate S8192x256 1
        [⟨S8192x128, Host.dotGeneral (F := Ideal) dot_S8192x8192_S8192x128_S8192x128_1_0_0_1_n_n none
            (transpose S8192x8192 [1, 0] x3 transposes_S8192x8192_S8192x8192_1_0) x0⟩,
         ⟨S8192x128, Host.dotGeneral (F := Ideal) dot_S8192x8192_S8192x128_S8192x128_1_0_0_1_n_n none
            (transpose S8192x8192 [1, 0] x3 transposes_S8192x8192_S8192x8192_1_0) x1⟩]
        concatenates_S8192x128_S8192x128_S8192x256_d1 (ix2 r k)
      = Cert.Spec.gft (fun i r => x3 (ix2 i r))
          (Cert.Spec.xcat (fun r j => x0 (ix2 r j)) (fun r j => x1 (ix2 r j))) r k := by
  unfold Cert.Spec.gft Cert.Spec.xcat
  by_cases h : k.val < 128
  · rw [joined_left _ _ r k h, fwd_apply]
    exact Finset.sum_congr rfl fun r' _ => by rw [dif_pos h]
  · rw [joined_right _ _ r k h, fwd_apply]
    exact Finset.sum_congr rfl fun r' _ => by rw [dif_neg h]

/-- A layer of the perceptron before its nonlinearity: a product plus the bias of the column. -/
theorem layer_apply {n : ℕ} (wf : DotDims.WF ⟨2, ![8192, n]⟩ ⟨2, ![n, 128]⟩ ⟨2, ![8192, 128]⟩ [1] [0] [0] [1] [] [])
    (X : FVec Ideal ⟨2, ![8192, n]⟩ .f32) (W : FVec Ideal ⟨2, ![n, 128]⟩ .f32) (bv : FVec Ideal S128 .f32)
    (r : Fin 8192) (k : Fin 128) :
    addf (Host.dotGeneral (F := Ideal) (Cert.PlainDot.dims wf) none X W)
        (broadcastInDim S8192x128 ![0, 1] bcast_S1x128_S8192x128_0_1 (broadcastInDim S1x128 ![1] bcast_S128_S1x128_1 bv)) (ix2 r k)
      = (∑ k' : Fin n, X (ix2 r k') * W (ix2 k' k)) + bv (ix1 k) := by
  rw [addf_apply, bias_apply]
  exact congrArg (· + bv (ix1 k)) (Cert.PlainDot.host_apply wf none X W r k)

/-- The gate and the fusion at an entry, over any arrays: one over one plus the exponential of the negation is the
    logistic function. -/
theorem fuse_apply (XF XG D O₁ O₂ : FVec Ideal S8192x128 .f32) (i : S8192x128.Idx) (h₁ : O₁ i = 1) (h₂ : O₂ i = 1) :
    addf XF (mulf (Host.divf O₁ (addf O₂ (Host.exp (Host.negf D)))) XG) i = XF i + Ideal.logistic (D i) * XG i := by
  show XF i + Ideal.div (O₁ i) (O₂ i + Ideal.exp (-(D i))) * XG i = _
  rw [h₁, h₂]
  rfl

/-- The reference's frequency path at an entry is the specification's. -/
theorem refFreq_apply (x0 x1 : (⟨S8192x128, .f32⟩ : BufTy).Contents (Elt Ideal))
    (x3 : (⟨S8192x8192, .f32⟩ : BufTy).Contents (Elt Ideal)) (x4 : (⟨S256x128, .f32⟩ : BufTy).Contents (Elt Ideal))
    (x5 : (⟨S128, .f32⟩ : BufTy).Contents (Elt Ideal)) (x6 : (⟨S128x128, .f32⟩ : BufTy).Contents (Elt Ideal))
    (x7 : (⟨S128, .f32⟩ : BufTy).Contents (Elt Ideal)) (p : Fin 8192) (q : Fin 128) :
    Cert.Tail.refFreq (F := Ideal) x0 x1 x3 x4 x5 x6 x7 (ix2 p q)
      = Cert.Spec.hfreq (fun i r => x3 (ix2 i r)) (fun r j => x0 (ix2 r j)) (fun r j => x1 (ix2 r j))
          (fun k j => x4 (ix2 k j)) (fun j => x5 (ix1 j)) (fun k j => x6 (ix2 k j)) (fun j => x7 (ix1 j)) p q := by
  unfold Cert.Tail.refFreq
  refine (Cert.PlainDot.host_apply (a := 8192) (n := 8192) (b := 128) _ none _ _ p q).trans ?_
  unfold Cert.Spec.hfreq Cert.Spec.igft
  refine Finset.sum_congr rfl fun r _ => ?_
  refine congrArg (x3 (ix2 p r) * ·) ?_
  refine (fuse_apply _ _ _ _ _ (ix2 r q) ((splat_apply _ _).trans one_f32) ((splat_apply _ _).trans one_f32)).trans ?_
  unfold Cert.Spec.fused Cert.Spec.gate
  rw [fwd_apply, fwd_apply, Cert.Spec.gft_xcat_lo, Cert.Spec.gft_xcat_hi]
  refine congrArg (fun z => _ + Ideal.logistic z * _) ?_
  -- the second layer plus its bias
  refine (layer_apply (n := 128) _ _ x6 x7 r q).trans ?_
  refine congrArg (· + x7 (ix1 q)) (Finset.sum_congr rfl fun k _ => congrArg (· * x6 (ix2 k q)) ?_)
  -- the hidden layer
  unfold Cert.Spec.hidden
  rw [maximumf_apply, splat_apply, Ideal.ofBits_zero_f32]
  refine congrArg (fun z => max z 0) ?_
  refine (layer_apply (n := 256) _ _ x4 x5 r k).trans ?_
  refine congrArg (· + x5 (ix1 k)) (Finset.sum_congr rfl fun k' _ => congrArg (· * x4 (ix2 k' k)) ?_)
  exact joined_fwd_apply x3 x0 x1 r k'

end Cert.RefFreq

end
-- ==== Proof.Tail.lean ====
/-
  The kernel program's host tail.

  `tailK` is the tail's composed term (see the definitions' module) over the kernel program's own copies of the
  shapes and dimension records; it is the reference's `tailR` by unfolding (same literals, side conditions by proof
  irrelevance). `after_eq` reads the kernel program's five host stretches after its regions into `tailK` from any
  valuation; `result_eq` instantiates it at the valuation the regions leave: the argument arrays are those of the
  launch, and the second region's result array is assumed to hold the reference's frequency path.
-/
import proofs.«117335_j42545946034709_1_alg».proof.Proof.TailDefs
import proofs.«117335_j42545946034709_1_alg».proof.Proof.Gen.KernelIdeal.Regions

noncomputable section

namespace Cert.Tail

open Idealize.ShloMosaic Idealize.ShloMosaic.TcCoe Idealize.SL.Sem Idealize.ShloMosaic.StableHlo

variable {F : FTy → Type} [FloatOps F]

section Kernel

open Cert.KernelIdeal Cert.KernelIdeal.Gen

set_option maxRecDepth 8192 in
/-- The tail's composed term over the kernel program's shapes and records. -/
def tailK (x0 : (⟨S8192x128, .f32⟩ : BufTy).Contents (Elt F)) (x1 : (⟨S8192x128, .f32⟩ : BufTy).Contents (Elt F)) (x2 : (⟨S2x262144, .i32⟩ : BufTy).Contents (Elt F)) (x8 : (⟨S128x128, .f32⟩ : BufTy).Contents (Elt F)) (x9 : (⟨S128, .f32⟩ : BufTy).Contents (Elt F)) (x10 : (⟨S128x128, .f32⟩ : BufTy).Contents (Elt F)) (x11 : (⟨S128, .f32⟩ : BufTy).Contents (Elt F)) (x12 : (⟨S128x1, .f32⟩ : BufTy).Contents (Elt F)) (x13 : (⟨S1, .f32⟩ : BufTy).Contents (Elt F)) (x14 : (⟨S256x128, .f32⟩ : BufTy).Contents (Elt F)) (x15 : (⟨S128, .f32⟩ : BufTy).Contents (Elt F)) (fr : (⟨S8192x128, .f32⟩ : BufTy).Contents (Elt F)) : (⟨S8192x128, .f32⟩ : BufTy).Contents (Elt F) :=
  addf (addf (Host.dotGeneral dot_S8192x256_S256x128_S8192x128_1_0_0_1_n_n none (concatenate S8192x256 1 [⟨S8192x128, (addf (addf (mulf x0 (Host.exp (Host.tanh (addf (Host.scatterAdd scatter_S8192x128_S270336x1_S270336x128_1_0_0_1 (broadcastInDim S8192x128 ![] bcast_S_S8192x128 (constant S_ .f32 0x00000000#32)) (broadcastInDim S270336x1 ![0] bcast_S270336_S270336x1_0 (concatenate S270336 0 [⟨S262144, (shapeCast _ (extractStridedSlice S1x262144 ![1, 0] x2 slices_S2x262144_S1x262144_1_0) shapeCasts_S1x262144_S262144)⟩, ⟨S8192, (iotaInDim S8192 32 0)⟩] concatenates_S262144_S8192_S270336_d0)) (mulf (Host.gather gather_S8192x128_S270336x1_S270336x128_1_0_n_n_0_1_1128 (Host.dotGeneral dot_S8192x128_S128x128_S8192x128_1_0_0_1_n_n none x1 x8) (broadcastInDim S270336x1 ![0] bcast_S270336_S270336x1_0 (select (cmpi .slt (concatenate S270336 0 [⟨S262144, (shapeCast _ (extractStridedSlice S1x262144 ![0, 0] x2 slices_S2x262144_S1x262144_0_0) shapeCasts_S1x262144_S262144)⟩, ⟨S8192, (iotaInDim S8192 32 0)⟩] concatenates_S262144_S8192_S270336_d0) (broadcastInDim S270336 ![] bcast_S_S270336 (constantI S_ 32 0#32))) (addi (concatenate S270336 0 [⟨S262144, (shapeCast _ (extractStridedSlice S1x262144 ![0, 0] x2 slices_S2x262144_S1x262144_0_0) shapeCasts_S1x262144_S262144)⟩, ⟨S8192, (iotaInDim S8192 32 0)⟩] concatenates_S262144_S8192_S270336_d0) (broadcastInDim S270336 ![] bcast_S_S270336 (constantI S_ 32 8192#32))) (concatenate S270336 0 [⟨S262144, (shapeCast _ (extractStridedSlice S1x262144 ![0, 0] x2 slices_S2x262144_S1x262144_0_0) shapeCasts_S1x262144_S262144)⟩, ⟨S8192, (iotaInDim S8192 32 0)⟩] concatenates_S262144_S8192_S270336_d0)))) (broadcastInDim S270336x128 ![0, 1] bcast_S270336x1_S270336x128_0_1 (broadcastInDim S270336x1 ![0] bcast_S270336_S270336x1_0 (mulf (Host.gather gather_S8192_S270336x1_S270336_n_0_n_n_0_1_1 (select (cmpf (F := F) .ogt (Host.scatterAdd scatter_S8192_S270336x1_S270336_n_0_0_1 (broadcastInDim S8192 ![] bcast_S_S8192 (constant S_ .f32 0x00000000#32)) (broadcastInDim S270336x1 ![0] bcast_S270336_S270336x1_0 (concatenate S270336 0 [⟨S262144, (shapeCast _ (extractStridedSlice S1x262144 ![1, 0] x2 slices_S2x262144_S1x262144_1_0) shapeCasts_S1x262144_S262144)⟩, ⟨S8192, (iotaInDim S8192 32 0)⟩] concatenates_S262144_S8192_S270336_d0)) (broadcastInDim S270336 ![] bcast_S_S270336 (constant S_ .f32 0x3F800000#32))) (broadcastInDim S8192 ![] bcast_S_S8192 (constant S_ .f32 0x00000000#32))) (Host.rsqrt (Host.scatterAdd scatter_S8192_S270336x1_S270336_n_0_0_1 (broadcastInDim S8192 ![] bcast_S_S8192 (constant S_ .f32 0x00000000#32)) (broadcastInDim S270336x1 ![0] bcast_S270336_S270336x1_0 (concatenate S270336 0 [⟨S262144, (shapeCast _ (extractStridedSlice S1x262144 ![1, 0] x2 slices_S2x262144_S1x262144_1_0) shapeCasts_S1x262144_S262144)⟩, ⟨S8192, (iotaInDim S8192 32 0)⟩] concatenates_S262144_S8192_S270336_d0)) (broadcastInDim S270336 ![] bcast_S_S270336 (constant S_ .f32 0x3F800000#32)))) (broadcastInDim S8192 ![] bcast_S_S8192 (id (constant S_ .f32 0x00000000#32)))) (broadcastInDim S270336x1 ![0] bcast_S270336_S270336x1_0 (select (cmpi .slt (concatenate S270336 0 [⟨S262144, (shapeCast _ (extractStridedSlice S1x262144 ![0, 0] x2 slices_S2x262144_S1x262144_0_0) shapeCasts_S1x262144_S262144)⟩, ⟨S8192, (iotaInDim S8192 32 0)⟩] concatenates_S262144_S8192_S270336_d0) (broadcastInDim S270336 ![] bcast_S_S270336 (constantI S_ 32 0#32))) (addi (concatenate S270336 0 [⟨S262144, (shapeCast _ (extractStridedSlice S1x262144 ![0, 0] x2 slices_S2x262144_S1x262144_0_0) shapeCasts_S1x262144_S262144)⟩, ⟨S8192, (iotaInDim S8192 32 0)⟩] concatenates_S262144_S8192_S270336_d0) (broadcastInDim S270336 ![] bcast_S_S270336 (constantI S_ 32 8192#32))) (concatenate S270336 0 [⟨S262144, (shapeCast _ (extractStridedSlice S1x262144 ![0, 0] x2 slices_S2x262144_S1x262144_0_0) shapeCasts_S1x262144_S262144)⟩, ⟨S8192, (iotaInDim S8192 32 0)⟩] concatenates_S262144_S8192_S270336_d0)))) (Host.gather gather_S8192_S270336x1_S270336_n_0_n_n_0_1_1 (select (cmpf (F := F) .ogt (Host.scatterAdd scatter_S8192_S270336x1_S270336_n_0_0_1 (broadcastInDim S8192 ![] bcast_S_S8192 (constant S_ .f32 0x00000000#32)) (broadcastInDim S270336x1 ![0] bcast_S270336_S270336x1_0 (concatenate S270336 0 [⟨S262144, (shapeCast _ (extractStridedSlice S1x262144 ![1, 0] x2 slices_S2x262144_S1x262144_1_0) shapeCasts_S1x262144_S262144)⟩, ⟨S8192, (iotaInDim S8192 32 0)⟩] concatenates_S262144_S8192_S270336_d0)) (broadcastInDim S270336 ![] bcast_S_S270336 (constant S_ .f32 0x3F800000#32))) (broadcastInDim S8192 ![] bcast_S_S8192 (constant S_ .f32 0x00000000#32))) (Host.rsqrt (Host.scatterAdd scatter_S8192_S270336x1_S270336_n_0_0_1 (broadcastInDim S8192 ![] bcast_S_S8192 (constant S_ .f32 0x00000000#32)) (broadcastInDim S270336x1 ![0] bcast_S270336_S270336x1_0 (concatenate S270336 0 [⟨S262144, (shapeCast _ (extractStridedSlice S1x262144 ![1, 0] x2 slices_S2x262144_S1x262144_1_0) shapeCasts_S1x262144_S262144)⟩, ⟨S8192, (iotaInDim S8192 32 0)⟩] concatenates_S262144_S8192_S270336_d0)) (broadcastInDim S270336 ![] bcast_S_S270336 (constant S_ .f32 0x3F800000#32)))) (broadcastInDim S8192 ![] bcast_S_S8192 (id (constant S_ .f32 0x00000000#32)))) (broadcastInDim S270336x1 ![0] bcast_S270336_S270336x1_0 (select (cmpi .slt (concatenate S270336 0 [⟨S262144, (shapeCast _ (extractStridedSlice S1x262144 ![1, 0] x2 slices_S2x262144_S1x262144_1_0) shapeCasts_S1x262144_S262144)⟩, ⟨S8192, (iotaInDim S8192 32 0)⟩] concatenates_S262144_S8192_S270336_d0) (broadcastInDim S270336 ![] bcast_S_S270336 (constantI S_ 32 0#32))) (addi (concatenate S270336 0 [⟨S262144, (shapeCast _ (extractStridedSlice S1x262144 ![1, 0] x2 slices_S2x262144_S1x262144_1_0) shapeCasts_S1x262144_S262144)⟩, ⟨S8192, (iotaInDim S8192 32 0)⟩] concatenates_S262144_S8192_S270336_d0) (broadcastInDim S270336 ![] bcast_S_S270336 (constantI S_ 32 8192#32))) (concatenate S270336 0 [⟨S262144, (shapeCast _ (extractStridedSlice S1x262144 ![1, 0] x2 slices_S2x262144_S1x262144_1_0) shapeCasts_S1x262144_S262144)⟩, ⟨S8192, (iotaInDim S8192 32 0)⟩] concatenates_S262144_S8192_S270336_d0))))))))) (broadcastInDim S8192x128 ![0, 1] bcast_S1x128_S8192x128_0_1 (broadcastInDim S1x128 ![1] bcast_S128_S1x128_1 x9)))))) (addf (Host.scatterAdd scatter_S8192x128_S270336x1_S270336x128_1_0_0_1 (broadcastInDim S8192x128 ![] bcast_S_S8192x128 (constant S_ .f32 0x00000000#32)) (broadcastInDim S270336x1 ![0] bcast_S270336_S270336x1_0 (concatenate S270336 0 [⟨S262144, (shapeCast _ (extractStridedSlice S1x262144 ![1, 0] x2 slices_S2x262144_S1x262144_1_0) shapeCasts_S1x262144_S262144)⟩, ⟨S8192, (iotaInDim S8192 32 0)⟩] concatenates_S262144_S8192_S270336_d0)) (mulf (Host.gather gather_S8192x128_S270336x1_S270336x128_1_0_n_n_0_1_1128 (Host.dotGeneral dot_S8192x128_S128x128_S8192x128_1_0_0_1_n_n none x1 x10) (broadcastInDim S270336x1 ![0] bcast_S270336_S270336x1_0 (select (cmpi .slt (concatenate S270336 0 [⟨S262144, (shapeCast _ (extractStridedSlice S1x262144 ![0, 0] x2 slices_S2x262144_S1x262144_0_0) shapeCasts_S1x262144_S262144)⟩, ⟨S8192, (iotaInDim S8192 32 0)⟩] concatenates_S262144_S8192_S270336_d0) (broadcastInDim S270336 ![] bcast_S_S270336 (constantI S_ 32 0#32))) (addi (concatenate S270336 0 [⟨S262144, (shapeCast _ (extractStridedSlice S1x262144 ![0, 0] x2 slices_S2x262144_S1x262144_0_0) shapeCasts_S1x262144_S262144)⟩, ⟨S8192, (iotaInDim S8192 32 0)⟩] concatenates_S262144_S8192_S270336_d0) (broadcastInDim S270336 ![] bcast_S_S270336 (constantI S_ 32 8192#32))) (concatenate S270336 0 [⟨S262144, (shapeCast _ (extractStridedSlice S1x262144 ![0, 0] x2 slices_S2x262144_S1x262144_0_0) shapeCasts_S1x262144_S262144)⟩, ⟨S8192, (iotaInDim S8192 32 0)⟩] concatenates_S262144_S8192_S270336_d0)))) (broadcastInDim S270336x128 ![0, 1] bcast_S270336x1_S270336x128_0_1 (broadcastInDim S270336x1 ![0] bcast_S270336_S270336x1_0 (mulf (Host.gather gather_S8192_S270336x1_S270336_n_0_n_n_0_1_1 (select (cmpf (F := F) .ogt (Host.scatterAdd scatter_S8192_S270336x1_S270336_n_0_0_1 (broadcastInDim S8192 ![] bcast_S_S8192 (constant S_ .f32 0x00000000#32)) (broadcastInDim S270336x1 ![0] bcast_S270336_S270336x1_0 (concatenate S270336 0 [⟨S262144, (shapeCast _ (extractStridedSlice S1x262144 ![1, 0] x2 slices_S2x262144_S1x262144_1_0) shapeCasts_S1x262144_S262144)⟩, ⟨S8192, (iotaInDim S8192 32 0)⟩] concatenates_S262144_S8192_S270336_d0)) (broadcastInDim S270336 ![] bcast_S_S270336 (constant S_ .f32 0x3F800000#32))) (broadcastInDim S8192 ![] bcast_S_S8192 (constant S_ .f32 0x00000000#32))) (Host.rsqrt (Host.scatterAdd scatter_S8192_S270336x1_S270336_n_0_0_1 (broadcastInDim S8192 ![] bcast_S_S8192 (constant S_ .f32 0x00000000#32)) (broadcastInDim S270336x1 ![0] bcast_S270336_S270336x1_0 (concatenate S270336 0 [⟨S262144, (shapeCast _ (extractStridedSlice S1x262144 ![1, 0] x2 slices_S2x262144_S1x262144_1_0) shapeCasts_S1x262144_S262144)⟩, ⟨S8192, (iotaInDim S8192 32 0)⟩] concatenates_S262144_S8192_S270336_d0)) (broadcastInDim S270336 ![] bcast_S_S270336 (constant S_ .f32 0x3F800000#32)))) (broadcastInDim S8192 ![] bcast_S_S8192 (id (constant S_ .f32 0x00000000#32)))) (broadcastInDim S270336x1 ![0] bcast_S270336_S270336x1_0 (select (cmpi .slt (concatenate S270336 0 [⟨S262144, (shapeCast _ (extractStridedSlice S1x262144 ![0, 0] x2 slices_S2x262144_S1x262144_0_0) shapeCasts_S1x262144_S262144)⟩, ⟨S8192, (iotaInDim S8192 32 0)⟩] concatenates_S262144_S8192_S270336_d0) (broadcastInDim S270336 ![] bcast_S_S270336 (constantI S_ 32 0#32))) (addi (concatenate S270336 0 [⟨S262144, (shapeCast _ (extractStridedSlice S1x262144 ![0, 0] x2 slices_S2x262144_S1x262144_0_0) shapeCasts_S1x262144_S262144)⟩, ⟨S8192, (iotaInDim S8192 32 0)⟩] concatenates_S262144_S8192_S270336_d0) (broadcastInDim S270336 ![] bcast_S_S270336 (constantI S_ 32 8192#32))) (concatenate S270336 0 [⟨S262144, (shapeCast _ (extractStridedSlice S1x262144 ![0, 0] x2 slices_S2x262144_S1x262144_0_0) shapeCasts_S1x262144_S262144)⟩, ⟨S8192, (iotaInDim S8192 32 0)⟩] concatenates_S262144_S8192_S270336_d0)))) (Host.gather gather_S8192_S270336x1_S270336_n_0_n_n_0_1_1 (select (cmpf (F := F) .ogt (Host.scatterAdd scatter_S8192_S270336x1_S270336_n_0_0_1 (broadcastInDim S8192 ![] bcast_S_S8192 (constant S_ .f32 0x00000000#32)) (broadcastInDim S270336x1 ![0] bcast_S270336_S270336x1_0 (concatenate S270336 0 [⟨S262144, (shapeCast _ (extractStridedSlice S1x262144 ![1, 0] x2 slices_S2x262144_S1x262144_1_0) shapeCasts_S1x262144_S262144)⟩, ⟨S8192, (iotaInDim S8192 32 0)⟩] concatenates_S262144_S8192_S270336_d0)) (broadcastInDim S270336 ![] bcast_S_S270336 (constant S_ .f32 0x3F800000#32))) (broadcastInDim S8192 ![] bcast_S_S8192 (constant S_ .f32 0x00000000#32))) (Host.rsqrt (Host.scatterAdd scatter_S8192_S270336x1_S270336_n_0_0_1 (broadcastInDim S8192 ![] bcast_S_S8192 (constant S_ .f32 0x00000000#32)) (broadcastInDim S270336x1 ![0] bcast_S270336_S270336x1_0 (concatenate S270336 0 [⟨S262144, (shapeCast _ (extractStridedSlice S1x262144 ![1, 0] x2 slices_S2x262144_S1x262144_1_0) shapeCasts_S1x262144_S262144)⟩, ⟨S8192, (iotaInDim S8192 32 0)⟩] concatenates_S262144_S8192_S270336_d0)) (broadcastInDim S270336 ![] bcast_S_S270336 (constant S_ .f32 0x3F800000#32)))) (broadcastInDim S8192 ![] bcast_S_S8192 (id (constant S_ .f32 0x00000000#32)))) (broadcastInDim S270336x1 ![0] bcast_S270336_S270336x1_0 (select (cmpi .slt (concatenate S270336 0 [⟨S262144, (shapeCast _ (extractStridedSlice S1x262144 ![1, 0] x2 slices_S2x262144_S1x262144_1_0) shapeCasts_S1x262144_S262144)⟩, ⟨S8192, (iotaInDim S8192 32 0)⟩] concatenates_S262144_S8192_S270336_d0) (broadcastInDim S270336 ![] bcast_S_S270336 (constantI S_ 32 0#32))) (addi (concatenate S270336 0 [⟨S262144, (shapeCast _ (extractStridedSlice S1x262144 ![1, 0] x2 slices_S2x262144_S1x262144_1_0) shapeCasts_S1x262144_S262144)⟩, ⟨S8192, (iotaInDim S8192 32 0)⟩] concatenates_S262144_S8192_S270336_d0) (broadcastInDim S270336 ![] bcast_S_S270336 (constantI S_ 32 8192#32))) (concatenate S270336 0 [⟨S262144, (shapeCast _ (extractStridedSlice S1x262144 ![1, 0] x2 slices_S2x262144_S1x262144_1_0) shapeCasts_S1x262144_S262144)⟩, ⟨S8192, (iotaInDim S8192 32 0)⟩] concatenates_S262144_S8192_S270336_d0))))))))) (broadcastInDim S8192x128 ![0, 1] bcast_S1x128_S8192x128_0_1 (broadcastInDim S1x128 ![1] bcast_S128_S1x128_1 x11)))) (mulf fr (broadcastInDim S8192x128 ![0, 1] bcast_S8192x1_S8192x128_0_1 (Host.divf (broadcastInDim S8192x1 ![] bcast_S_S8192x1 (constant S_ .f32 0x3F800000#32)) (addf (broadcastInDim S8192x1 ![] bcast_S_S8192x1 (constant S_ .f32 0x3F800000#32)) (Host.exp (Host.negf (addf (Host.dotGeneral dot_S8192x128_S128x1_S8192x1_1_0_0_1_n_n none (subf (addf (mulf x0 (Host.exp (Host.tanh (addf (Host.scatterAdd scatter_S8192x128_S270336x1_S270336x128_1_0_0_1 (broadcastInDim S8192x128 ![] bcast_S_S8192x128 (constant S_ .f32 0x00000000#32)) (broadcastInDim S270336x1 ![0] bcast_S270336_S270336x1_0 (concatenate S270336 0 [⟨S262144, (shapeCast _ (extractStridedSlice S1x262144 ![1, 0] x2 slices_S2x262144_S1x262144_1_0) shapeCasts_S1x262144_S262144)⟩, ⟨S8192, (iotaInDim S8192 32 0)⟩] concatenates_S262144_S8192_S270336_d0)) (mulf (Host.gather gather_S8192x128_S270336x1_S270336x128_1_0_n_n_0_1_1128 (Host.dotGeneral dot_S8192x128_S128x128_S8192x128_1_0_0_1_n_n none x1 x8) (broadcastInDim S270336x1 ![0] bcast_S270336_S270336x1_0 (select (cmpi .slt (concatenate S270336 0 [⟨S262144, (shapeCast _ (extractStridedSlice S1x262144 ![0, 0] x2 slices_S2x262144_S1x262144_0_0) shapeCasts_S1x262144_S262144)⟩, ⟨S8192, (iotaInDim S8192 32 0)⟩] concatenates_S262144_S8192_S270336_d0) (broadcastInDim S270336 ![] bcast_S_S270336 (constantI S_ 32 0#32))) (addi (concatenate S270336 0 [⟨S262144, (shapeCast _ (extractStridedSlice S1x262144 ![0, 0] x2 slices_S2x262144_S1x262144_0_0) shapeCasts_S1x262144_S262144)⟩, ⟨S8192, (iotaInDim S8192 32 0)⟩] concatenates_S262144_S8192_S270336_d0) (broadcastInDim S270336 ![] bcast_S_S270336 (constantI S_ 32 8192#32))) (concatenate S270336 0 [⟨S262144, (shapeCast _ (extractStridedSlice S1x262144 ![0, 0] x2 slices_S2x262144_S1x262144_0_0) shapeCasts_S1x262144_S262144)⟩, ⟨S8192, (iotaInDim S8192 32 0)⟩] concatenates_S262144_S8192_S270336_d0)))) (broadcastInDim S270336x128 ![0, 1] bcast_S270336x1_S270336x128_0_1 (broadcastInDim S270336x1 ![0] bcast_S270336_S270336x1_0 (mulf (Host.gather gather_S8192_S270336x1_S270336_n_0_n_n_0_1_1 (select (cmpf (F := F) .ogt (Host.scatterAdd scatter_S8192_S270336x1_S270336_n_0_0_1 (broadcastInDim S8192 ![] bcast_S_S8192 (constant S_ .f32 0x00000000#32)) (broadcastInDim S270336x1 ![0] bcast_S270336_S270336x1_0 (concatenate S270336 0 [⟨S262144, (shapeCast _ (extractStridedSlice S1x262144 ![1, 0] x2 slices_S2x262144_S1x262144_1_0) shapeCasts_S1x262144_S262144)⟩, ⟨S8192, (iotaInDim S8192 32 0)⟩] concatenates_S262144_S8192_S270336_d0)) (broadcastInDim S270336 ![] bcast_S_S270336 (constant S_ .f32 0x3F800000#32))) (broadcastInDim S8192 ![] bcast_S_S8192 (constant S_ .f32 0x00000000#32))) (Host.rsqrt (Host.scatterAdd scatter_S8192_S270336x1_S270336_n_0_0_1 (broadcastInDim S8192 ![] bcast_S_S8192 (constant S_ .f32 0x00000000#32)) (broadcastInDim S270336x1 ![0] bcast_S270336_S270336x1_0 (concatenate S270336 0 [⟨S262144, (shapeCast _ (extractStridedSlice S1x262144 ![1, 0] x2 slices_S2x262144_S1x262144_1_0) shapeCasts_S1x262144_S262144)⟩, ⟨S8192, (iotaInDim S8192 32 0)⟩] concatenates_S262144_S8192_S270336_d0)) (broadcastInDim S270336 ![] bcast_S_S270336 (constant S_ .f32 0x3F800000#32)))) (broadcastInDim S8192 ![] bcast_S_S8192 (id (constant S_ .f32 0x00000000#32)))) (broadcastInDim S270336x1 ![0] bcast_S270336_S270336x1_0 (select (cmpi .slt (concatenate S270336 0 [⟨S262144, (shapeCast _ (extractStridedSlice S1x262144 ![0, 0] x2 slices_S2x262144_S1x262144_0_0) shapeCasts_S1x262144_S262144)⟩, ⟨S8192, (iotaInDim S8192 32 0)⟩] concatenates_S262144_S8192_S270336_d0) (broadcastInDim S270336 ![] bcast_S_S270336 (constantI S_ 32 0#32))) (addi (concatenate S270336 0 [⟨S262144, (shapeCast _ (extractStridedSlice S1x262144 ![0, 0] x2 slices_S2x262144_S1x262144_0_0) shapeCasts_S1x262144_S262144)⟩, ⟨S8192, (iotaInDim S8192 32 0)⟩] concatenates_S262144_S8192_S270336_d0) (broadcastInDim S270336 ![] bcast_S_S270336 (constantI S_ 32 8192#32))) (concatenate S270336 0 [⟨S262144, (shapeCast _ (extractStridedSlice S1x262144 ![0, 0] x2 slices_S2x262144_S1x262144_0_0) shapeCasts_S1x262144_S262144)⟩, ⟨S8192, (iotaInDim S8192 32 0)⟩] concatenates_S262144_S8192_S270336_d0)))) (Host.gather gather_S8192_S270336x1_S270336_n_0_n_n_0_1_1 (select (cmpf (F := F) .ogt (Host.scatterAdd scatter_S8192_S270336x1_S270336_n_0_0_1 (broadcastInDim S8192 ![] bcast_S_S8192 (constant S_ .f32 0x00000000#32)) (broadcastInDim S270336x1 ![0] bcast_S270336_S270336x1_0 (concatenate S270336 0 [⟨S262144, (shapeCast _ (extractStridedSlice S1x262144 ![1, 0] x2 slices_S2x262144_S1x262144_1_0) shapeCasts_S1x262144_S262144)⟩, ⟨S8192, (iotaInDim S8192 32 0)⟩] concatenates_S262144_S8192_S270336_d0)) (broadcastInDim S270336 ![] bcast_S_S270336 (constant S_ .f32 0x3F800000#32))) (broadcastInDim S8192 ![] bcast_S_S8192 (constant S_ .f32 0x00000000#32))) (Host.rsqrt (Host.scatterAdd scatter_S8192_S270336x1_S270336_n_0_0_1 (broadcastInDim S8192 ![] bcast_S_S8192 (constant S_ .f32 0x00000000#32)) (broadcastInDim S270336x1 ![0] bcast_S270336_S270336x1_0 (concatenate S270336 0 [⟨S262144, (shapeCast _ (extractStridedSlice S1x262144 ![1, 0] x2 slices_S2x262144_S1x262144_1_0) shapeCasts_S1x262144_S262144)⟩, ⟨S8192, (iotaInDim S8192 32 0)⟩] concatenates_S262144_S8192_S270336_d0)) (broadcastInDim S270336 ![] bcast_S_S270336 (constant S_ .f32 0x3F800000#32)))) (broadcastInDim S8192 ![] bcast_S_S8192 (id (constant S_ .f32 0x00000000#32)))) (broadcastInDim S270336x1 ![0] bcast_S270336_S270336x1_0 (select (cmpi .slt (concatenate S270336 0 [⟨S262144, (shapeCast _ (extractStridedSlice S1x262144 ![1, 0] x2 slices_S2x262144_S1x262144_1_0) shapeCasts_S1x262144_S262144)⟩, ⟨S8192, (iotaInDim S8192 32 0)⟩] concatenates_S262144_S8192_S270336_d0) (broadcastInDim S270336 ![] bcast_S_S270336 (constantI S_ 32 0#32))) (addi (concatenate S270336 0 [⟨S262144, (shapeCast _ (extractStridedSlice S1x262144 ![1, 0] x2 slices_S2x262144_S1x262144_1_0) shapeCasts_S1x262144_S262144)⟩, ⟨S8192, (iotaInDim S8192 32 0)⟩] concatenates_S262144_S8192_S270336_d0) (broadcastInDim S270336 ![] bcast_S_S270336 (constantI S_ 32 8192#32))) (concatenate S270336 0 [⟨S262144, (shapeCast _ (extractStridedSlice S1x262144 ![1, 0] x2 slices_S2x262144_S1x262144_1_0) shapeCasts_S1x262144_S262144)⟩, ⟨S8192, (iotaInDim S8192 32 0)⟩] concatenates_S262144_S8192_S270336_d0))))))))) (broadcastInDim S8192x128 ![0, 1] bcast_S1x128_S8192x128_0_1 (broadcastInDim S1x128 ![1] bcast_S128_S1x128_1 x9)))))) (addf (Host.scatterAdd scatter_S8192x128_S270336x1_S270336x128_1_0_0_1 (broadcastInDim S8192x128 ![] bcast_S_S8192x128 (constant S_ .f32 0x00000000#32)) (broadcastInDim S270336x1 ![0] bcast_S270336_S270336x1_0 (concatenate S270336 0 [⟨S262144, (shapeCast _ (extractStridedSlice S1x262144 ![1, 0] x2 slices_S2x262144_S1x262144_1_0) shapeCasts_S1x262144_S262144)⟩, ⟨S8192, (iotaInDim S8192 32 0)⟩] concatenates_S262144_S8192_S270336_d0)) (mulf (Host.gather gather_S8192x128_S270336x1_S270336x128_1_0_n_n_0_1_1128 (Host.dotGeneral dot_S8192x128_S128x128_S8192x128_1_0_0_1_n_n none x1 x10) (broadcastInDim S270336x1 ![0] bcast_S270336_S270336x1_0 (select (cmpi .slt (concatenate S270336 0 [⟨S262144, (shapeCast _ (extractStridedSlice S1x262144 ![0, 0] x2 slices_S2x262144_S1x262144_0_0) shapeCasts_S1x262144_S262144)⟩, ⟨S8192, (iotaInDim S8192 32 0)⟩] concatenates_S262144_S8192_S270336_d0) (broadcastInDim S270336 ![] bcast_S_S270336 (constantI S_ 32 0#32))) (addi (concatenate S270336 0 [⟨S262144, (shapeCast _ (extractStridedSlice S1x262144 ![0, 0] x2 slices_S2x262144_S1x262144_0_0) shapeCasts_S1x262144_S262144)⟩, ⟨S8192, (iotaInDim S8192 32 0)⟩] concatenates_S262144_S8192_S270336_d0) (broadcastInDim S270336 ![] bcast_S_S270336 (constantI S_ 32 8192#32))) (concatenate S270336 0 [⟨S262144, (shapeCast _ (extractStridedSlice S1x262144 ![0, 0] x2 slices_S2x262144_S1x262144_0_0) shapeCasts_S1x262144_S262144)⟩, ⟨S8192, (iotaInDim S8192 32 0)⟩] concatenates_S262144_S8192_S270336_d0)))) (broadcastInDim S270336x128 ![0, 1] bcast_S270336x1_S270336x128_0_1 (broadcastInDim S270336x1 ![0] bcast_S270336_S270336x1_0 (mulf (Host.gather gather_S8192_S270336x1_S270336_n_0_n_n_0_1_1 (select (cmpf (F := F) .ogt (Host.scatterAdd scatter_S8192_S270336x1_S270336_n_0_0_1 (broadcastInDim S8192 ![] bcast_S_S8192 (constant S_ .f32 0x00000000#32)) (broadcastInDim S270336x1 ![0] bcast_S270336_S270336x1_0 (concatenate S270336 0 [⟨S262144, (shapeCast _ (extractStridedSlice S1x262144 ![1, 0] x2 slices_S2x262144_S1x262144_1_0) shapeCasts_S1x262144_S262144)⟩, ⟨S8192, (iotaInDim S8192 32 0)⟩] concatenates_S262144_S8192_S270336_d0)) (broadcastInDim S270336 ![] bcast_S_S270336 (constant S_ .f32 0x3F800000#32))) (broadcastInDim S8192 ![] bcast_S_S8192 (constant S_ .f32 0x00000000#32))) (Host.rsqrt (Host.scatterAdd scatter_S8192_S270336x1_S270336_n_0_0_1 (broadcastInDim S8192 ![] bcast_S_S8192 (constant S_ .f32 0x00000000#32)) (broadcastInDim S270336x1 ![0] bcast_S270336_S270336x1_0 (concatenate S270336 0 [⟨S262144, (shapeCast _ (extractStridedSlice S1x262144 ![1, 0] x2 slices_S2x262144_S1x262144_1_0) shapeCasts_S1x262144_S262144)⟩, ⟨S8192, (iotaInDim S8192 32 0)⟩] concatenates_S262144_S8192_S270336_d0)) (broadcastInDim S270336 ![] bcast_S_S270336 (constant S_ .f32 0x3F800000#32)))) (broadcastInDim S8192 ![] bcast_S_S8192 (id (constant S_ .f32 0x00000000#32)))) (broadcastInDim S270336x1 ![0] bcast_S270336_S270336x1_0 (select (cmpi .slt (concatenate S270336 0 [⟨S262144, (shapeCast _ (extractStridedSlice S1x262144 ![0, 0] x2 slices_S2x262144_S1x262144_0_0) shapeCasts_S1x262144_S262144)⟩, ⟨S8192, (iotaInDim S8192 32 0)⟩] concatenates_S262144_S8192_S270336_d0) (broadcastInDim S270336 ![] bcast_S_S270336 (constantI S_ 32 0#32))) (addi (concatenate S270336 0 [⟨S262144, (shapeCast _ (extractStridedSlice S1x262144 ![0, 0] x2 slices_S2x262144_S1x262144_0_0) shapeCasts_S1x262144_S262144)⟩, ⟨S8192, (iotaInDim S8192 32 0)⟩] concatenates_S262144_S8192_S270336_d0) (broadcastInDim S270336 ![] bcast_S_S270336 (constantI S_ 32 8192#32))) (concatenate S270336 0 [⟨S262144, (shapeCast _ (extractStridedSlice S1x262144 ![0, 0] x2 slices_S2x262144_S1x262144_0_0) shapeCasts_S1x262144_S262144)⟩, ⟨S8192, (iotaInDim S8192 32 0)⟩] concatenates_S262144_S8192_S270336_d0)))) (Host.gather gather_S8192_S270336x1_S270336_n_0_n_n_0_1_1 (select (cmpf (F := F) .ogt (Host.scatterAdd scatter_S8192_S270336x1_S270336_n_0_0_1 (broadcastInDim S8192 ![] bcast_S_S8192 (constant S_ .f32 0x00000000#32)) (broadcastInDim S270336x1 ![0] bcast_S270336_S270336x1_0 (concatenate S270336 0 [⟨S262144, (shapeCast _ (extractStridedSlice S1x262144 ![1, 0] x2 slices_S2x262144_S1x262144_1_0) shapeCasts_S1x262144_S262144)⟩, ⟨S8192, (iotaInDim S8192 32 0)⟩] concatenates_S262144_S8192_S270336_d0)) (broadcastInDim S270336 ![] bcast_S_S270336 (constant S_ .f32 0x3F800000#32))) (broadcastInDim S8192 ![] bcast_S_S8192 (constant S_ .f32 0x00000000#32))) (Host.rsqrt (Host.scatterAdd scatter_S8192_S270336x1_S270336_n_0_0_1 (broadcastInDim S8192 ![] bcast_S_S8192 (constant S_ .f32 0x00000000#32)) (broadcastInDim S270336x1 ![0] bcast_S270336_S270336x1_0 (concatenate S270336 0 [⟨S262144, (shapeCast _ (extractStridedSlice S1x262144 ![1, 0] x2 slices_S2x262144_S1x262144_1_0) shapeCasts_S1x262144_S262144)⟩, ⟨S8192, (iotaInDim S8192 32 0)⟩] concatenates_S262144_S8192_S270336_d0)) (broadcastInDim S270336 ![] bcast_S_S270336 (constant S_ .f32 0x3F800000#32)))) (broadcastInDim S8192 ![] bcast_S_S8192 (id (constant S_ .f32 0x00000000#32)))) (broadcastInDim S270336x1 ![0] bcast_S270336_S270336x1_0 (select (cmpi .slt (concatenate S270336 0 [⟨S262144, (shapeCast _ (extractStridedSlice S1x262144 ![1, 0] x2 slices_S2x262144_S1x262144_1_0) shapeCasts_S1x262144_S262144)⟩, ⟨S8192, (iotaInDim S8192 32 0)⟩] concatenates_S262144_S8192_S270336_d0) (broadcastInDim S270336 ![] bcast_S_S270336 (constantI S_ 32 0#32))) (addi (concatenate S270336 0 [⟨S262144, (shapeCast _ (extractStridedSlice S1x262144 ![1, 0] x2 slices_S2x262144_S1x262144_1_0) shapeCasts_S1x262144_S262144)⟩, ⟨S8192, (iotaInDim S8192 32 0)⟩] concatenates_S262144_S8192_S270336_d0) (broadcastInDim S270336 ![] bcast_S_S270336 (constantI S_ 32 8192#32))) (concatenate S270336 0 [⟨S262144, (shapeCast _ (extractStridedSlice S1x262144 ![1, 0] x2 slices_S2x262144_S1x262144_1_0) shapeCasts_S1x262144_S262144)⟩, ⟨S8192, (iotaInDim S8192 32 0)⟩] concatenates_S262144_S8192_S270336_d0))))))))) (broadcastInDim S8192x128 ![0, 1] bcast_S1x128_S8192x128_0_1 (broadcastInDim S1x128 ![1] bcast_S128_S1x128_1 x11)))) fr) x12) (broadcastInDim S8192x1 ![0, 1] bcast_S1x1_S8192x1_0_1 (broadcastInDim S1x1 ![1] bcast_S1_S1x1_1 x13))))))))))⟩, ⟨S8192x128, fr⟩] concatenates_S8192x128_S8192x128_S8192x256_d1) x14) (broadcastInDim S8192x128 ![0, 1] bcast_S1x128_S8192x128_0_1 (broadcastInDim S1x128 ![1] bcast_S128_S1x128_1 x15))) x0

attribute [local congr] concat2_congr in
set_option maxRecDepth 8192 in
set_option maxHeartbeats 40000000 in
/-- The five host stretches after the regions, run from any valuation `W`, leave in `main_v118` the tail's term of
    `W`'s argument arrays and of what `W` holds in `main_v4`. -/
theorem after_eq (W : Valuation τ sig (Elt F)) :
    StableHlo.after hostOps2_4 (StableHlo.after hostOps2_3 (StableHlo.after hostOps2_2 (StableHlo.after hostOps2_1 (StableHlo.after hostOps2 W)))) (Proc.devRef .tc main_v118)
      = tailK (W (Proc.devRef .tc main_arg0)) (W (Proc.devRef .tc main_arg1)) (W (Proc.devRef .tc main_arg2)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_v4)) := by
  after_results_simp
  rfl

end Kernel

set_option maxRecDepth 8192 in
set_option maxHeartbeats 4000000 in
/-- The two programs' copies of the tail are the same function. -/
theorem tailK_eq_tailR (x0 : (⟨Cert.KernelIdeal.S8192x128, .f32⟩ : BufTy).Contents (Elt F)) (x1 : (⟨Cert.KernelIdeal.S8192x128, .f32⟩ : BufTy).Contents (Elt F)) (x2 : (⟨Cert.KernelIdeal.S2x262144, .i32⟩ : BufTy).Contents (Elt F)) (x8 : (⟨Cert.KernelIdeal.S128x128, .f32⟩ : BufTy).Contents (Elt F)) (x9 : (⟨Cert.KernelIdeal.S128, .f32⟩ : BufTy).Contents (Elt F)) (x10 : (⟨Cert.KernelIdeal.S128x128, .f32⟩ : BufTy).Contents (Elt F)) (x11 : (⟨Cert.KernelIdeal.S128, .f32⟩ : BufTy).Contents (Elt F)) (x12 : (⟨Cert.KernelIdeal.S128x1, .f32⟩ : BufTy).Contents (Elt F)) (x13 : (⟨Cert.KernelIdeal.S1, .f32⟩ : BufTy).Contents (Elt F)) (x14 : (⟨Cert.KernelIdeal.S256x128, .f32⟩ : BufTy).Contents (Elt F)) (x15 : (⟨Cert.KernelIdeal.S128, .f32⟩ : BufTy).Contents (Elt F)) (fr : (⟨Cert.KernelIdeal.S8192x128, .f32⟩ : BufTy).Contents (Elt F)) :
    tailK x0 x1 x2 x8 x9 x10 x11 x12 x13 x14 x15 fr = tailR x0 x1 x2 x8 x9 x10 x11 x12 x13 x14 x15 fr := rfl

/-- The kernel program's result is the tail of the reference's arguments and frequency path, given that the argument
    arrays agree and that the second region's result array holds the reference's frequency path. -/
theorem result_eq
    (m : (ℓ : Loc Cert.KernelIdeal.nD Cert.KernelIdeal.τ Cert.KernelIdeal.sig) → Buf (Elt F) ℓ) (outs : Cert.KernelIdeal.Gen.Outs (F := F))
    (m' : (ℓ : Loc Cert.ReferenceIdeal.nD Cert.ReferenceIdeal.τ Cert.ReferenceIdeal.sig) → Buf (Elt F) ℓ) (c : Dev Cert.KernelIdeal.nD)
    (hagree :
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (hfreq : (Cert.KernelIdeal.Gen.V3 m outs c (Proc.devRef .tc Cert.KernelIdeal.main_v4) : (⟨Cert.KernelIdeal.S8192x128, .f32⟩ : BufTy).Contents (Elt F))
      = refFreq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7))) :
    (Cert.KernelIdeal.Gen.V8 m outs c (Proc.devRef .tc Cert.KernelIdeal.main_v118) : (⟨Cert.KernelIdeal.S8192x128, .f32⟩ : BufTy).Contents (Elt F))
      = refResult m' c := by
  obtain ⟨h0, h1, h2, h3, h4, h5, h6, h7, h8, h9, h10, h11, h12, h13, h14, h15⟩ := hagree
  have e0 : (Cert.KernelIdeal.Gen.V3 m outs c (Proc.devRef .tc Cert.KernelIdeal.main_arg0) : (⟨Cert.KernelIdeal.S8192x128, .f32⟩ : BufTy).Contents (Elt F)) = m' ((c.tc : Thread Cert.ReferenceIdeal.nD Cert.ReferenceIdeal.τ).loc Cert.ReferenceIdeal.main_arg0) :=
    ((Cert.KernelIdeal.Gen.V3_of m outs c Cert.KernelIdeal.main_arg0 (by decide)).trans <| (Cert.KernelIdeal.Gen.V2_of m outs c Cert.KernelIdeal.main_arg0 (by decide)).trans <| (Cert.KernelIdeal.Gen.V1_of m c Cert.KernelIdeal.main_arg0 (by decide)).trans rfl).trans h0.symm
  have e1 : (Cert.KernelIdeal.Gen.V3 m outs c (Proc.devRef .tc Cert.KernelIdeal.main_arg1) : (⟨Cert.KernelIdeal.S8192x128, .f32⟩ : BufTy).Contents (Elt F)) = m' ((c.tc : Thread Cert.ReferenceIdeal.nD Cert.ReferenceIdeal.τ).loc Cert.ReferenceIdeal.main_arg1) :=
    ((Cert.KernelIdeal.Gen.V3_of m outs c Cert.KernelIdeal.main_arg1 (by decide)).trans <| (Cert.KernelIdeal.Gen.V2_of m outs c Cert.KernelIdeal.main_arg1 (by decide)).trans <| (Cert.KernelIdeal.Gen.V1_of m c Cert.KernelIdeal.main_arg1 (by decide)).trans rfl).trans h1.symm
  have e2 : (Cert.KernelIdeal.Gen.V3 m outs c (Proc.devRef .tc Cert.KernelIdeal.main_arg2) : (⟨Cert.KernelIdeal.S2x262144, .i32⟩ : BufTy).Contents (Elt F)) = m' ((c.tc : Thread Cert.ReferenceIdeal.nD Cert.ReferenceIdeal.τ).loc Cert.ReferenceIdeal.main_arg2) :=
    ((Cert.KernelIdeal.Gen.V3_of m outs c Cert.KernelIdeal.main_arg2 (by decide)).trans <| (Cert.KernelIdeal.Gen.V2_of m outs c Cert.KernelIdeal.main_arg2 (by decide)).trans <| (Cert.KernelIdeal.Gen.V1_of m c Cert.KernelIdeal.main_arg2 (by decide)).trans rfl).trans h2.symm
  have e8 : (Cert.KernelIdeal.Gen.V3 m outs c (Proc.devRef .tc Cert.KernelIdeal.main_arg8) : (⟨Cert.KernelIdeal.S128x128, .f32⟩ : BufTy).Contents (Elt F)) = m' ((c.tc : Thread Cert.ReferenceIdeal.nD Cert.ReferenceIdeal.τ).loc Cert.ReferenceIdeal.main_arg8) :=
    ((Cert.KernelIdeal.Gen.V3_of m outs c Cert.KernelIdeal.main_arg8 (by decide)).trans <| (Cert.KernelIdeal.Gen.V2_of m outs c Cert.KernelIdeal.main_arg8 (by decide)).trans <| (Cert.KernelIdeal.Gen.V1_of m c Cert.KernelIdeal.main_arg8 (by decide)).trans rfl).trans h8.symm
  have e9 : (Cert.KernelIdeal.Gen.V3 m outs c (Proc.devRef .tc Cert.KernelIdeal.main_arg9) : (⟨Cert.KernelIdeal.S128, .f32⟩ : BufTy).Contents (Elt F)) = m' ((c.tc : Thread Cert.ReferenceIdeal.nD Cert.ReferenceIdeal.τ).loc Cert.ReferenceIdeal.main_arg9) :=
    ((Cert.KernelIdeal.Gen.V3_of m outs c Cert.KernelIdeal.main_arg9 (by decide)).trans <| (Cert.KernelIdeal.Gen.V2_of m outs c Cert.KernelIdeal.main_arg9 (by decide)).trans <| (Cert.KernelIdeal.Gen.V1_of m c Cert.KernelIdeal.main_arg9 (by decide)).trans rfl).trans h9.symm
  have e10 : (Cert.KernelIdeal.Gen.V3 m outs c (Proc.devRef .tc Cert.KernelIdeal.main_arg10) : (⟨Cert.KernelIdeal.S128x128, .f32⟩ : BufTy).Contents (Elt F)) = m' ((c.tc : Thread Cert.ReferenceIdeal.nD Cert.ReferenceIdeal.τ).loc Cert.ReferenceIdeal.main_arg10) :=
    ((Cert.KernelIdeal.Gen.V3_of m outs c Cert.KernelIdeal.main_arg10 (by decide)).trans <| (Cert.KernelIdeal.Gen.V2_of m outs c Cert.KernelIdeal.main_arg10 (by decide)).trans <| (Cert.KernelIdeal.Gen.V1_of m c Cert.KernelIdeal.main_arg10 (by decide)).trans rfl).trans h10.symm
  have e11 : (Cert.KernelIdeal.Gen.V3 m outs c (Proc.devRef .tc Cert.KernelIdeal.main_arg11) : (⟨Cert.KernelIdeal.S128, .f32⟩ : BufTy).Contents (Elt F)) = m' ((c.tc : Thread Cert.ReferenceIdeal.nD Cert.ReferenceIdeal.τ).loc Cert.ReferenceIdeal.main_arg11) :=
    ((Cert.KernelIdeal.Gen.V3_of m outs c Cert.KernelIdeal.main_arg11 (by decide)).trans <| (Cert.KernelIdeal.Gen.V2_of m outs c Cert.KernelIdeal.main_arg11 (by decide)).trans <| (Cert.KernelIdeal.Gen.V1_of m c Cert.KernelIdeal.main_arg11 (by decide)).trans rfl).trans h11.symm
  have e12 : (Cert.KernelIdeal.Gen.V3 m outs c (Proc.devRef .tc Cert.KernelIdeal.main_arg12) : (⟨Cert.KernelIdeal.S128x1, .f32⟩ : BufTy).Contents (Elt F)) = m' ((c.tc : Thread Cert.ReferenceIdeal.nD Cert.ReferenceIdeal.τ).loc Cert.ReferenceIdeal.main_arg12) :=
    ((Cert.KernelIdeal.Gen.V3_of m outs c Cert.KernelIdeal.main_arg12 (by decide)).trans <| (Cert.KernelIdeal.Gen.V2_of m outs c Cert.KernelIdeal.main_arg12 (by decide)).trans <| (Cert.KernelIdeal.Gen.V1_of m c Cert.KernelIdeal.main_arg12 (by decide)).trans rfl).trans h12.symm
  have e13 : (Cert.KernelIdeal.Gen.V3 m outs c (Proc.devRef .tc Cert.KernelIdeal.main_arg13) : (⟨Cert.KernelIdeal.S1, .f32⟩ : BufTy).Contents (Elt F)) = m' ((c.tc : Thread Cert.ReferenceIdeal.nD Cert.ReferenceIdeal.τ).loc Cert.ReferenceIdeal.main_arg13) :=
    ((Cert.KernelIdeal.Gen.V3_of m outs c Cert.KernelIdeal.main_arg13 (by decide)).trans <| (Cert.KernelIdeal.Gen.V2_of m outs c Cert.KernelIdeal.main_arg13 (by decide)).trans <| (Cert.KernelIdeal.Gen.V1_of m c Cert.KernelIdeal.main_arg13 (by decide)).trans rfl).trans h13.symm
  have e14 : (Cert.KernelIdeal.Gen.V3 m outs c (Proc.devRef .tc Cert.KernelIdeal.main_arg14) : (⟨Cert.KernelIdeal.S256x128, .f32⟩ : BufTy).Contents (Elt F)) = m' ((c.tc : Thread Cert.ReferenceIdeal.nD Cert.ReferenceIdeal.τ).loc Cert.ReferenceIdeal.main_arg14) :=
    ((Cert.KernelIdeal.Gen.V3_of m outs c Cert.KernelIdeal.main_arg14 (by decide)).trans <| (Cert.KernelIdeal.Gen.V2_of m outs c Cert.KernelIdeal.main_arg14 (by decide)).trans <| (Cert.KernelIdeal.Gen.V1_of m c Cert.KernelIdeal.main_arg14 (by decide)).trans rfl).trans h14.symm
  have e15 : (Cert.KernelIdeal.Gen.V3 m outs c (Proc.devRef .tc Cert.KernelIdeal.main_arg15) : (⟨Cert.KernelIdeal.S128, .f32⟩ : BufTy).Contents (Elt F)) = m' ((c.tc : Thread Cert.ReferenceIdeal.nD Cert.ReferenceIdeal.τ).loc Cert.ReferenceIdeal.main_arg15) :=
    ((Cert.KernelIdeal.Gen.V3_of m outs c Cert.KernelIdeal.main_arg15 (by decide)).trans <| (Cert.KernelIdeal.Gen.V2_of m outs c Cert.KernelIdeal.main_arg15 (by decide)).trans <| (Cert.KernelIdeal.Gen.V1_of m c Cert.KernelIdeal.main_arg15 (by decide)).trans rfl).trans h15.symm
  refine (after_eq (Cert.KernelIdeal.Gen.V3 m outs c)).trans ?_
  rw [e0, e1, e2, e8, e9, e10, e11, e12, e13, e14, e15, hfreq, tailK_eq_tailR]

end Cert.Tail

end
-- ==== Proof.TailRefAfter.lean ====
/-
  The reference program's result buffer after its 169 host operations, from the launch contents: the tail's composed
  term of the arguments and of the frequency path (`refResult`). One pass over the operations' fold: each
  operation's result at its own reference is its function's value, at any other reference what was there; what is
  left is the composed term, by unfolding.
-/
import proofs.«117335_j42545946034709_1_alg».proof.Proof.TailDefs
import proofs.«117335_j42545946034709_1_alg».proof.Proof.RefRun

noncomputable section

namespace Cert.Tail

open Idealize.ShloMosaic Idealize.ShloMosaic.TcCoe Idealize.SL.Sem Idealize.ShloMosaic.StableHlo
open Cert.ReferenceIdeal Cert.ReferenceIdeal.Gen Cert.ReferenceIdeal.ValueP

variable {F : FTy → Type} [FloatOps F]

attribute [local congr] concat2_congr in
set_option maxRecDepth 8192 in
set_option maxHeartbeats 80000000 in
/-- What the reference's operations leave in `main_v136`. -/
theorem ref_after (m' : (ℓ : Loc nD τ sig) → Buf (Elt F) ℓ) (c : Dev nD) :
    StableHlo.after (ops (F := F)) (launchContents m' c) (Proc.devRef .tc main_v136) = refResult m' c := by
  after_results_simp
  rfl

end Cert.Tail

end
-- ==== Proof.TailRefRaw.lean ====
/-
  The reference program's run, raw: every weakly fair execution of its @main terminates with each buffer at the fold
  of its 169 operations over the launch contents; and no operation writes an argument array, so each argument ends
  as launched. `refW` lists the references the operations write (one each, in order).
-/
import proofs.«117335_j42545946034709_1_alg».proof.Proof.RefRun

noncomputable section

namespace Cert.Tail

open Idealize.ShloMosaic Idealize.ShloMosaic.TcCoe Idealize.SL.Sem Idealize.ShloMosaic.StableHlo
open Cert.ReferenceIdeal Cert.ReferenceIdeal.Gen Cert.ReferenceIdeal.ValueP

variable {F : FTy → Type} [FloatOps F]

/-- The references the reference's operations write, in order. -/
abbrev refW : List (Ref sig .tc) := [main_v0, main_v1, main_v2, main_v3, main_v4, main_v5, main_v6, main_v7, main_v8, main_call0_cst, main_call0_v0, main_v9, main_v10, main_v11, main_v12, main_v13, main_v14, main_v15, main_cst, main_v16, main_v17, main_cst_0, main_v18, main_v19, main_v20, main_v21, main_v22, main_v23, main_v24, main_v25, main_v26, main_v27, main_v28, main_v29, main_v30, main_cst_1, main_v31, main_cst_2, main_v32, main_v33, main_v34, main_cst_3, main_v35, main_v36, main_v37, main_cst_4, main_call1_v0, main_call1_v1, main_v38, main_c, main_v39, main_v40, main_c_5, main_v41, main_v42, main_v43, main_v44, main_v45, main_c_6, main_v46, main_v47, main_c_7, main_v48, main_v49, main_v50, main_v51, main_v52, main_v53, main_c_8, main_v54, main_v55, main_c_9, main_v56, main_v57, main_v58, main_v59, main_v60, main_v61, main_v62, main_v63, main_cst_10, main_v64, main_v65, main_v66, main_v67, main_v68, main_v69, main_v70, main_v71, main_v72, main_v73, main_v74, main_cst_11, main_v75, main_cst_12, main_v76, main_v77, main_v78, main_cst_13, main_v79, main_v80, main_v81, main_cst_14, main_call2_v0, main_call2_v1, main_v82, main_c_15, main_v83, main_v84, main_c_16, main_v85, main_v86, main_v87, main_v88, main_v89, main_c_17, main_v90, main_v91, main_c_18, main_v92, main_v93, main_v94, main_v95, main_v96, main_v97, main_c_19, main_v98, main_v99, main_c_20, main_v100, main_v101, main_v102, main_v103, main_v104, main_v105, main_v106, main_v107, main_cst_21, main_v108, main_v109, main_v110, main_v111, main_v112, main_v113, main_v114, main_v115, main_v116, main_v117, main_v118, main_v119, main_v120, main_v121, main_v122, main_v123, main_cst_22, main_v124, main_v125, main_cst_23, main_v126, main_v127, main_v128, main_v129, main_v130, main_v131, main_v132, main_v133, main_v134, main_v135, main_v136]

set_option maxRecDepth 8192 in
set_option maxHeartbeats 40000000 in
theorem ref_ops_writes : (ops : List (HloOp τ sig (Elt F))).Forall fun op => op.writes ⊆ (refW.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

/-- A reference no operation writes ends as launched. -/
theorem ref_after_of (m' : (ℓ : Loc nD τ sig) → Buf (Elt F) ℓ) (c : Dev nD) (r : Ref sig .tc) (h : r ∉ refW) :
    StableHlo.after (ops (F := F)) (launchContents m' c) (Proc.devRef .tc r) = m' ((c.tc : Thread nD τ).loc r) :=
  (StableHlo.after_of_writes_sub ops _ ref_ops_writes h).trans rfl

set_option maxRecDepth 8192 in
set_option maxHeartbeats 40000000 in
/-- The run, with every buffer at the operations' fold. -/
theorem ref_run_raw (m' : (ℓ : Loc nD τ sig) → Buf (Elt F) ℓ) (ρ' : Dev nD → PrngReg) :
    θ_run defs (onTc (τ := τ) (main (F := F))) ⟨m', fun _ => 0, ρ'⟩ fun r =>
      ∀ (d : Dev nD) (b : Ref sig .tc), r.2.mem ((d.tc : Thread nD τ).loc b) = StableHlo.after (ops (F := F)) (launchContents m' d) (Proc.devRef .tc b) :=
  run_seq scopedRefs_eq scopedSems_eq defs main (fun _ => ops) main_eq (fun _ => ops_sub) m' ρ'

end Cert.Tail

end
-- ==== Proof.TailRef.lean ====
/-
  The reference program's run: every weakly fair execution of its @main terminates with the result buffer at the
  tail's composed term of the arguments and of the frequency path (`refResult`), the sixteen arguments unchanged.
-/
import proofs.«117335_j42545946034709_1_alg».proof.Proof.TailRefAfter
import proofs.«117335_j42545946034709_1_alg».proof.Proof.TailRefRaw

noncomputable section

namespace Cert.Tail

open Idealize.ShloMosaic Idealize.ShloMosaic.TcCoe Idealize.SL.Sem Idealize.ShloMosaic.StableHlo
open Cert.ReferenceIdeal Cert.ReferenceIdeal.Gen Cert.ReferenceIdeal.ValueP

variable {F : FTy → Type} [FloatOps F]

theorem ref_run (m' : (ℓ : Loc nD τ sig) → Buf (Elt F) ℓ) (ρ' : Dev nD → PrngReg) :
    θ_run defs (onTc (τ := τ) (main (F := F))) ⟨m', fun _ => 0, ρ'⟩ fun r => ∀ c : Dev nD,
      r.2.mem ((c.tc : Thread nD τ).loc main_v136) = refResult m' c
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9)
      ∧ r.2.mem ((c.tc : Thread nD τ).loc main_arg10) = m' ((c.tc : Thread nD τ).loc main_arg10)
      ∧ r.2.mem ((c.tc : Thread nD τ).loc main_arg11) = m' ((c.tc : Thread nD τ).loc main_arg11)
      ∧ r.2.mem ((c.tc : Thread nD τ).loc main_arg12) = m' ((c.tc : Thread nD τ).loc main_arg12)
      ∧ r.2.mem ((c.tc : Thread nD τ).loc main_arg13) = m' ((c.tc : Thread nD τ).loc main_arg13)
      ∧ r.2.mem ((c.tc : Thread nD τ).loc main_arg14) = m' ((c.tc : Thread nD τ).loc main_arg14)
      ∧ r.2.mem ((c.tc : Thread nD τ).loc main_arg15) = m' ((c.tc : Thread nD τ).loc main_arg15) :=
  (θ_run defs _ _).mono (fun _ h c => ⟨(h c main_v136).trans (ref_after m' c),
      (h c main_arg0).trans (ref_after_of m' c main_arg0 (by decide)),
      (h c main_arg1).trans (ref_after_of m' c main_arg1 (by decide)),
      (h c main_arg2).trans (ref_after_of m' c main_arg2 (by decide)),
      (h c main_arg3).trans (ref_after_of m' c main_arg3 (by decide)),
      (h c main_arg4).trans (ref_after_of m' c main_arg4 (by decide)),
      (h c main_arg5).trans (ref_after_of m' c main_arg5 (by decide)),
      (h c main_arg6).trans (ref_after_of m' c main_arg6 (by decide)),
      (h c main_arg7).trans (ref_after_of m' c main_arg7 (by decide)),
      (h c main_arg8).trans (ref_after_of m' c main_arg8 (by decide)),
      (h c main_arg9).trans (ref_after_of m' c main_arg9 (by decide)),
      (h c main_arg10).trans (ref_after_of m' c main_arg10 (by decide)),
      (h c main_arg11).trans (ref_after_of m' c main_arg11 (by decide)),
      (h c main_arg12).trans (ref_after_of m' c main_arg12 (by decide)),
      (h c main_arg13).trans (ref_after_of m' c main_arg13 (by decide)),
      (h c main_arg14).trans (ref_after_of m' c main_arg14 (by decide)),
      (h c main_arg15).trans (ref_after_of m' c main_arg15 (by decide))⟩)
    (ref_run_raw m' ρ')

end Cert.Tail

end
-- ==== Proof.lean ====
/-
  The certificate's five claims.
  * The two kernel programs' frames (the word-level program and its idealization are the same text read at two float
    instances): @main is three host operations, two pipelined regions — a forward transform and an inverse
    transform, each a matrix product blocked over a grid axis with its running sum kept in a scratch buffer between
    grid points — and five stretches of host operations. The run names every unscoped buffer at the end; no item
    writes an argument array.
  * The reference's frame: its run with the result dropped.
  * The idealization rewrote nothing, so it is preserved trivially.
  * Equal results over the extended reals: both programs' frequency paths are the specification's
    U · (C[:, :128] + logistic (relu (C W₁ + b₁) W₂ + b₂) ∘ C[:, 128:]) with C = Uᵀ [x_main | x_guide]
    (the kernel's blocked running sums regroup a finite sum; a change of float format is the identity; the
    kernel's logistic is the reference's 1 / (1 + exp (−·))), and the host operations after it are the same in both
    programs, so equal inputs give equal results. No finiteness of the inputs is used.
-/
import proofs.«117335_j42545946034709_1_alg».proof.Defs
import proofs.«117335_j42545946034709_1_alg».proof.Proof.Gen.Pre_finite_inputs
import proofs.«117335_j42545946034709_1_alg».proof.Proof.HandKernel.Glue
import proofs.«117335_j42545946034709_1_alg».proof.Proof.HandKernelIdeal.Glue
import proofs.«117335_j42545946034709_1_alg».proof.Proof.KernelFreq
import proofs.«117335_j42545946034709_1_alg».proof.Proof.RefFreq
import proofs.«117335_j42545946034709_1_alg».proof.Proof.Tail
import proofs.«117335_j42545946034709_1_alg».proof.Proof.TailRef
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel program leaves its arguments as launched. -/
theorem frame_kernel : Cert.frame_Kernel := fun m g _ =>
  (θ_run Cert.Kernel.defs _ _).mono (fun r h c =>
    ⟨(h c _ (Cert.Kernel.Hand.mem_uc Cert.Kernel.main_arg0 (by decide))).trans (Cert.Kernel.Gen.V8_main_arg0 m _ c),
      (h c _ (Cert.Kernel.Hand.mem_uc Cert.Kernel.main_arg1 (by decide))).trans (Cert.Kernel.Gen.V8_main_arg1 m _ c),
      (h c _ (Cert.Kernel.Hand.mem_uc Cert.Kernel.main_arg2 (by decide))).trans (Cert.Kernel.Gen.V8_main_arg2 m _ c),
      (h c _ (Cert.Kernel.Hand.mem_uc Cert.Kernel.main_arg3 (by decide))).trans (Cert.Kernel.Gen.V8_main_arg3 m _ c),
      (h c _ (Cert.Kernel.Hand.mem_uc Cert.Kernel.main_arg4 (by decide))).trans (Cert.Kernel.Gen.V8_main_arg4 m _ c),
      (h c _ (Cert.Kernel.Hand.mem_uc Cert.Kernel.main_arg5 (by decide))).trans (Cert.Kernel.Gen.V8_main_arg5 m _ c),
      (h c _ (Cert.Kernel.Hand.mem_uc Cert.Kernel.main_arg6 (by decide))).trans (Cert.Kernel.Gen.V8_main_arg6 m _ c),
      (h c _ (Cert.Kernel.Hand.mem_uc Cert.Kernel.main_arg7 (by decide))).trans (Cert.Kernel.Gen.V8_main_arg7 m _ c),
      (h c _ (Cert.Kernel.Hand.mem_uc Cert.Kernel.main_arg8 (by decide))).trans (Cert.Kernel.Gen.V8_main_arg8 m _ c),
      (h c _ (Cert.Kernel.Hand.mem_uc Cert.Kernel.main_arg9 (by decide))).trans (Cert.Kernel.Gen.V8_main_arg9 m _ c),
      (h c _ (Cert.Kernel.Hand.mem_uc Cert.Kernel.main_arg10 (by decide))).trans (Cert.Kernel.Gen.V8_main_arg10 m _ c),
      (h c _ (Cert.Kernel.Hand.mem_uc Cert.Kernel.main_arg11 (by decide))).trans (Cert.Kernel.Gen.V8_main_arg11 m _ c),
      (h c _ (Cert.Kernel.Hand.mem_uc Cert.Kernel.main_arg12 (by decide))).trans (Cert.Kernel.Gen.V8_main_arg12 m _ c),
      (h c _ (Cert.Kernel.Hand.mem_uc Cert.Kernel.main_arg13 (by decide))).trans (Cert.Kernel.Gen.V8_main_arg13 m _ c),
      (h c _ (Cert.Kernel.Hand.mem_uc Cert.Kernel.main_arg14 (by decide))).trans (Cert.Kernel.Gen.V8_main_arg14 m _ c),
      (h c _ (Cert.Kernel.Hand.mem_uc Cert.Kernel.main_arg15 (by decide))).trans (Cert.Kernel.Gen.V8_main_arg15 m _ c)⟩)
    (Cert.Kernel.Hand.run_all (F := Bits) m g)

/-- The idealized kernel program leaves its arguments as launched. -/
theorem frame_kernelIdeal : Cert.frame_KernelIdeal := fun m g _ =>
  (θ_run Cert.KernelIdeal.defs _ _).mono (fun r h c =>
    ⟨(h c _ (Cert.KernelIdeal.Hand.mem_uc Cert.KernelIdeal.main_arg0 (by decide))).trans (Cert.KernelIdeal.Gen.V8_main_arg0 m _ c),
      (h c _ (Cert.KernelIdeal.Hand.mem_uc Cert.KernelIdeal.main_arg1 (by decide))).trans (Cert.KernelIdeal.Gen.V8_main_arg1 m _ c),
      (h c _ (Cert.KernelIdeal.Hand.mem_uc Cert.KernelIdeal.main_arg2 (by decide))).trans (Cert.KernelIdeal.Gen.V8_main_arg2 m _ c),
      (h c _ (Cert.KernelIdeal.Hand.mem_uc Cert.KernelIdeal.main_arg3 (by decide))).trans (Cert.KernelIdeal.Gen.V8_main_arg3 m _ c),
      (h c _ (Cert.KernelIdeal.Hand.mem_uc Cert.KernelIdeal.main_arg4 (by decide))).trans (Cert.KernelIdeal.Gen.V8_main_arg4 m _ c),
      (h c _ (Cert.KernelIdeal.Hand.mem_uc Cert.KernelIdeal.main_arg5 (by decide))).trans (Cert.KernelIdeal.Gen.V8_main_arg5 m _ c),
      (h c _ (Cert.KernelIdeal.Hand.mem_uc Cert.KernelIdeal.main_arg6 (by decide))).trans (Cert.KernelIdeal.Gen.V8_main_arg6 m _ c),
      (h c _ (Cert.KernelIdeal.Hand.mem_uc Cert.KernelIdeal.main_arg7 (by decide))).trans (Cert.KernelIdeal.Gen.V8_main_arg7 m _ c),
      (h c _ (Cert.KernelIdeal.Hand.mem_uc Cert.KernelIdeal.main_arg8 (by decide))).trans (Cert.KernelIdeal.Gen.V8_main_arg8 m _ c),
      (h c _ (Cert.KernelIdeal.Hand.mem_uc Cert.KernelIdeal.main_arg9 (by decide))).trans (Cert.KernelIdeal.Gen.V8_main_arg9 m _ c),
      (h c _ (Cert.KernelIdeal.Hand.mem_uc Cert.KernelIdeal.main_arg10 (by decide))).trans (Cert.KernelIdeal.Gen.V8_main_arg10 m _ c),
      (h c _ (Cert.KernelIdeal.Hand.mem_uc Cert.KernelIdeal.main_arg11 (by decide))).trans (Cert.KernelIdeal.Gen.V8_main_arg11 m _ c),
      (h c _ (Cert.KernelIdeal.Hand.mem_uc Cert.KernelIdeal.main_arg12 (by decide))).trans (Cert.KernelIdeal.Gen.V8_main_arg12 m _ c),
      (h c _ (Cert.KernelIdeal.Hand.mem_uc Cert.KernelIdeal.main_arg13 (by decide))).trans (Cert.KernelIdeal.Gen.V8_main_arg13 m _ c),
      (h c _ (Cert.KernelIdeal.Hand.mem_uc Cert.KernelIdeal.main_arg14 (by decide))).trans (Cert.KernelIdeal.Gen.V8_main_arg14 m _ c),
      (h c _ (Cert.KernelIdeal.Hand.mem_uc Cert.KernelIdeal.main_arg15 (by decide))).trans (Cert.KernelIdeal.Gen.V8_main_arg15 m _ c)⟩)
    (Cert.KernelIdeal.Hand.run_all (F := Ideal) m g)

/-- The reference leaves its arguments as launched: its run with the result dropped. -/
theorem frame_reference : Cert.frame_ReferenceIdeal := fun m g _ =>
  (θ_run Cert.ReferenceIdeal.defs _ _).mono (fun _ h c => (h c).2) (Cert.Tail.ref_run (F := Ideal) m g)

/-- The idealization rewrote no operation. -/
theorem preserves : Cert.preserves_Kernel_KernelIdeal := trivial

/-- The kernel program's second region leaves the reference's frequency-path term of the agreeing arguments:
    both are the specification's frequency path, entry by entry. -/
theorem freq_eq (m : (ℓ : Loc Cert.KernelIdeal.nD Cert.KernelIdeal.τ Cert.KernelIdeal.sig) → Buf (Elt Ideal) ℓ) (c : Dev Cert.KernelIdeal.nD)
    (x0 x1 : (⟨Cert.ReferenceIdeal.S8192x128, .f32⟩ : BufTy).Contents (Elt Ideal)) (x3 : (⟨Cert.ReferenceIdeal.S8192x8192, .f32⟩ : BufTy).Contents (Elt Ideal))
    (x4 : (⟨Cert.ReferenceIdeal.S256x128, .f32⟩ : BufTy).Contents (Elt Ideal)) (x5 : (⟨Cert.ReferenceIdeal.S128, .f32⟩ : BufTy).Contents (Elt Ideal))
    (x6 : (⟨Cert.ReferenceIdeal.S128x128, .f32⟩ : BufTy).Contents (Elt Ideal)) (x7 : (⟨Cert.ReferenceIdeal.S128, .f32⟩ : BufTy).Contents (Elt Ideal))
    (h0 : x0 = m ((c.tc : Thread Cert.KernelIdeal.nD Cert.KernelIdeal.τ).loc Cert.KernelIdeal.main_arg0))
    (h1 : x1 = m ((c.tc : Thread Cert.KernelIdeal.nD Cert.KernelIdeal.τ).loc Cert.KernelIdeal.main_arg1))
    (h3 : x3 = m ((c.tc : Thread Cert.KernelIdeal.nD Cert.KernelIdeal.τ).loc Cert.KernelIdeal.main_arg3))
    (h4 : x4 = m ((c.tc : Thread Cert.KernelIdeal.nD Cert.KernelIdeal.τ).loc Cert.KernelIdeal.main_arg4))
    (h5 : x5 = m ((c.tc : Thread Cert.KernelIdeal.nD Cert.KernelIdeal.τ).loc Cert.KernelIdeal.main_arg5))
    (h6 : x6 = m ((c.tc : Thread Cert.KernelIdeal.nD Cert.KernelIdeal.τ).loc Cert.KernelIdeal.main_arg6))
    (h7 : x7 = m ((c.tc : Thread Cert.KernelIdeal.nD Cert.KernelIdeal.τ).loc Cert.KernelIdeal.main_arg7)) :
    Cert.KernelIdeal.Gen.V3 m (Cert.KernelIdeal.Hand.outs m) c (Proc.devRef .tc Cert.KernelIdeal.main_v4)
      = Cert.Tail.refFreq (F := Ideal) x0 x1 x3 x4 x5 x6 x7 := by
  subst h0 h1 h3 h4 h5 h6 h7
  have hv : Cert.KernelIdeal.Gen.V3 m (Cert.KernelIdeal.Hand.outs m) c (Proc.devRef .tc Cert.KernelIdeal.main_v4)
      = Cert.KernelIdeal.Hand.outs m 3 Cert.KernelIdeal.main_v4 c := by
    show Function.update _ _ _ _ = _
    rw [Function.update_self]
  rw [hv]
  funext i
  obtain ⟨p, q, rfl⟩ : ∃ (p : Fin 8192) (q : Fin 128), i = ix2 p q := ⟨i 0, i 1, eq_ix2 i⟩
  exact (Cert.KernelIdeal.Freq.hfreq_result m c p q).trans (Cert.RefFreq.refFreq_apply _ _ _ _ _ _ _ p q).symm

/-- From memories agreeing on the arguments both idealized programs end with the same result. -/
theorem algebraic : Cert.algebraic_KernelIdeal_ReferenceIdeal := by
  intro m g m' g' _ hagree
  refine ⟨fun c => Cert.Tail.refResult (F := Ideal) m' c, ?_, ?_⟩
  · refine (θ_run Cert.KernelIdeal.defs _ _).mono (fun r h c => ⟨?_,
      (h c _ (Cert.KernelIdeal.Hand.mem_uc Cert.KernelIdeal.main_arg0 (by decide))).trans (Cert.KernelIdeal.Gen.V8_main_arg0 m _ c),
      (h c _ (Cert.KernelIdeal.Hand.mem_uc Cert.KernelIdeal.main_arg1 (by decide))).trans (Cert.KernelIdeal.Gen.V8_main_arg1 m _ c),
      (h c _ (Cert.KernelIdeal.Hand.mem_uc Cert.KernelIdeal.main_arg2 (by decide))).trans (Cert.KernelIdeal.Gen.V8_main_arg2 m _ c),
      (h c _ (Cert.KernelIdeal.Hand.mem_uc Cert.KernelIdeal.main_arg3 (by decide))).trans (Cert.KernelIdeal.Gen.V8_main_arg3 m _ c),
      (h c _ (Cert.KernelIdeal.Hand.mem_uc Cert.KernelIdeal.main_arg4 (by decide))).trans (Cert.KernelIdeal.Gen.V8_main_arg4 m _ c),
      (h c _ (Cert.KernelIdeal.Hand.mem_uc Cert.KernelIdeal.main_arg5 (by decide))).trans (Cert.KernelIdeal.Gen.V8_main_arg5 m _ c),
      (h c _ (Cert.KernelIdeal.Hand.mem_uc Cert.KernelIdeal.main_arg6 (by decide))).trans (Cert.KernelIdeal.Gen.V8_main_arg6 m _ c),
      (h c _ (Cert.KernelIdeal.Hand.mem_uc Cert.KernelIdeal.main_arg7 (by decide))).trans (Cert.KernelIdeal.Gen.V8_main_arg7 m _ c),
      (h c _ (Cert.KernelIdeal.Hand.mem_uc Cert.KernelIdeal.main_arg8 (by decide))).trans (Cert.KernelIdeal.Gen.V8_main_arg8 m _ c),
      (h c _ (Cert.KernelIdeal.Hand.mem_uc Cert.KernelIdeal.main_arg9 (by decide))).trans (Cert.KernelIdeal.Gen.V8_main_arg9 m _ c),
      (h c _ (Cert.KernelIdeal.Hand.mem_uc Cert.KernelIdeal.main_arg10 (by decide))).trans (Cert.KernelIdeal.Gen.V8_main_arg10 m _ c),
      (h c _ (Cert.KernelIdeal.Hand.mem_uc Cert.KernelIdeal.main_arg11 (by decide))).trans (Cert.KernelIdeal.Gen.V8_main_arg11 m _ c),
      (h c _ (Cert.KernelIdeal.Hand.mem_uc Cert.KernelIdeal.main_arg12 (by decide))).trans (Cert.KernelIdeal.Gen.V8_main_arg12 m _ c),
      (h c _ (Cert.KernelIdeal.Hand.mem_uc Cert.KernelIdeal.main_arg13 (by decide))).trans (Cert.KernelIdeal.Gen.V8_main_arg13 m _ c),
      (h c _ (Cert.KernelIdeal.Hand.mem_uc Cert.KernelIdeal.main_arg14 (by decide))).trans (Cert.KernelIdeal.Gen.V8_main_arg14 m _ c),
      (h c _ (Cert.KernelIdeal.Hand.mem_uc Cert.KernelIdeal.main_arg15 (by decide))).trans (Cert.KernelIdeal.Gen.V8_main_arg15 m _ c)⟩)
      (Cert.KernelIdeal.Hand.run_all (F := Ideal) m g)
    refine (h c _ (Cert.KernelIdeal.Hand.mem_uc Cert.KernelIdeal.main_v118 (by decide))).trans ?_
    exact Cert.Tail.result_eq m (Cert.KernelIdeal.Hand.outs m) m' c (hagree c)
      (freq_eq m c _ _ _ _ _ _ _ (hagree c).1 (hagree c).2.1 (hagree c).2.2.2.1 (hagree c).2.2.2.2.1 (hagree c).2.2.2.2.2.1
        (hagree c).2.2.2.2.2.2.1 (hagree c).2.2.2.2.2.2.2.1)
  · exact Cert.Tail.ref_run (F := Ideal) m' g'

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
